-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v170)) (v1 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v170) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_v242) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x64 : Shape := ⟨2, ![10000, 64]⟩
abbrev S50000x32 : Shape := ⟨2, ![50000, 32]⟩
abbrev S64x512 : Shape := ⟨2, ![64, 512]⟩
abbrev S512 : Shape := ⟨1, ![512]⟩
abbrev S32x512 : Shape := ⟨2, ![32, 512]⟩
abbrev S4x2x512x512 : Shape := ⟨4, ![4, 2, 512, 512]⟩
abbrev S4x2x512 : Shape := ⟨3, ![4, 2, 512]⟩
abbrev S300000 : Shape := ⟨1, ![300000]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S32x512 : S_.BroadcastsInDim S32x512 (![] : Fin 0 → Fin S32x512.rank)
  reducesTo_S32x512_S_d0_1 : S32x512.ReducesTo [0, 1] S_
  bcast_S_S4x2x512x512 : S_.BroadcastsInDim S4x2x512x512 (![] : Fin 0 → Fin S4x2x512x512.rank)
  reducesTo_S4x2x512x512_S_d0_1_2_3 : S4x2x512x512.ReducesTo [0, 1, 2, 3] S_
  bcast_S_S4x2x512 : S_.BroadcastsInDim S4x2x512 (![] : Fin 0 → Fin S4x2x512.rank)
  reducesTo_S4x2x512_S_d0_1_2 : S4x2x512.ReducesTo [0, 1, 2] S_

variable [Facts]

def fn_part2 {F : FTy → Type} [FloatOps F] (main_arg7 : FVec F S4x2x512 .f32) (main_arg8 : FVec F S4x2x512x512 .f32) (main_v33 : IVec S_ 1) : IVec S_ 1 :=
  let main_v34 : FVec F S4x2x512 .f32 := Host.absf main_arg7
  let main_cst_12 : FVec F S_ .f32 := constant S_ .f32 0x7F800000#32
  let main_v35 : FVec F S4x2x512 .f32 := broadcastInDim S4x2x512 ![] bcast_S_S4x2x512 main_cst_12
  let main_v36 : IVec S4x2x512 1 := cmpf .olt main_v34 main_v35
  let main_c_13 : IVec S_ 1 := constantI S_ 1 1#1
  let main_v37 : IVec S_ 1 := (fun x v => Host.reduce IntOp.andi x v reducesTo_S4x2x512_S_d0_1_2 h_S_) main_v36 main_c_13
  let main_v38 : IVec S_ 1 := andi main_v33 main_v37
  let main_v39 : FVec F S4x2x512x512 .f32 := Host.absf main_arg8
  let main_cst_14 : FVec F S_ .f32 := constant S_ .f32 0x7F800000#32
  let main_v40 : FVec F S4x2x512x512 .f32 := broadcastInDim S4x2x512x512 ![] bcast_S_S4x2x512x512 main_cst_14
  let main_v41 : IVec S4x2x512x512 1 := cmpf .olt main_v39 main_v40
  let main_c_15 : IVec S_ 1 := constantI S_ 1 1#1
  let main_v42 : IVec S_ 1 := (fun x v => Host.reduce IntOp.andi x v reducesTo_S4x2x512x512_S_d0_1_2_3 h_S_) main_v41 main_c_15
  let main_v43 : IVec S_ 1 := andi main_v38 main_v42
  main_v43

def fn_part1 {F : FTy → Type} [FloatOps F] (main_arg4 : FVec F S32x512 .f32) (main_arg5 : FVec F S512 .f32) (main_arg6 : FVec F S4x2x512x512 .f32) (main_arg7 : FVec F S4x2x512 .f32) (main_arg8 : FVec F S4x2x512x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S4x2x512x512 .f32 := Host.absf main_arg6
  let main_cst_10 : FVec F S_ .f32 := constant S_ .f32 0x7F800000#32
  let main_v30 : FVec F S4x2x512x512 .f32 := broadcastInDim S4x2x512x512 ![] bcast_S_S4x2x512x512 main_cst_10
  let main_v31 : IVec S4x2x512x512 1 := cmpf .olt main_v29 main_v30
  let main_c_11 : IVec S_ 1 := constantI S_ 1 1#1
  let main_v32 : IVec S_ 1 := (fun x v => Host.reduce IntOp.andi x v reducesTo_S4x2x512x512_S_d0_1_2_3 h_S_) main_v31 main_c_11
  let main_v33 : IVec S_ 1 := andi main_v28 main_v32
  fn_part2 (F := F) main_arg7 main_arg8 main_v33

def fn {F : FTy → Type} [FloatOps F] (main_arg0 : FVec F S10000x64 .f32) (main_arg1 : FVec F S50000x32 .f32) (main_arg2 : FVec F S64x512 .f32) (main_arg3 : FVec F S512 .f32) (main_arg4 : FVec F S32x512 .f32) (main_arg5 : FVec F S512 .f32) (main_arg6 : FVec F S4x2x512x512 .f32) (main_arg7 : FVec F S4x2x512 .f32) (main_arg8 : FVec F S4x2x512x512 .f32) (main_arg9 : IVec S300000 32) (main_arg10 : IVec S300000 32) (main_arg11 : IVec S300000 32) (main_arg12 : IVec S300000 32) : IVec S_ 1 :=
  let main_v0 : FVec F S10000x64 .f32 := Host.absf main_arg0
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S10000x64 : Shape := ⟨2, ![10000, 64]⟩
abbrev S50000x32 : Shape := ⟨2, ![50000, 32]⟩
abbrev S64x512 : Shape := ⟨2, ![64, 512]⟩
abbrev S512 : Shape := ⟨1, ![512]⟩
abbrev S32x512 : Shape := ⟨2, ![32, 512]⟩
abbrev S4x2x512x512 : Shape := ⟨4, ![4, 2, 512, 512]⟩
abbrev S4x2x512 : Shape := ⟨3, ![4, 2, 512]⟩
abbrev S300000 : Shape := ⟨1, ![300000]⟩
abbrev S1x512 : Shape := ⟨2, ![1, 512]⟩
abbrev S10000x512 : Shape := ⟨2, ![10000, 512]⟩
abbrev S1000x64 : Shape := ⟨2, ![1000, 64]⟩
abbrev S1000x512 : Shape := ⟨2, ![1000, 512]⟩
abbrev S50000x512 : Shape := ⟨2, ![50000, 512]⟩
abbrev S1000x32 : Shape := ⟨2, ![1000, 32]⟩
abbrev S_ : Shape := ⟨0, ![]⟩
abbrev S50000 : Shape := ⟨1, ![50000]⟩
abbrev S300000x1 : Shape := ⟨2, ![300000, 1]⟩
abbrev S10000 : Shape := ⟨1, ![10000]⟩
abbrev S300000x512 : Shape := ⟨2, ![300000, 512]⟩
abbrev S1x1x512x512 : Shape := ⟨4, ![1, 1, 512, 512]⟩
abbrev S512x512 : Shape := ⟨2, ![512, 512]⟩
abbrev S1x1x512 : Shape := ⟨3, ![1, 1, 512]⟩
abbrev S50000x1 : Shape := ⟨2, ![50000, 1]⟩
abbrev S1000x1 : Shape := ⟨2, ![1000, 1]⟩
abbrev S10000x1 : Shape := ⟨2, ![10000, 1]⟩

abbrev nBuf : Space → Nat
  | .hbm => 215
  | .vmem => 100
  | .smem => 0
  | _ => 0

abbrev hbmTy0_0 (i : Nat) : BufTy := match i % 128 with
  | 0 => ⟨S10000x64, .f32⟩
  | 1 => ⟨S50000x32, .f32⟩
  | 2 => ⟨S64x512, .f32⟩
  | 3 => ⟨S512, .f32⟩
  | 4 => ⟨S32x512, .f32⟩
  | 5 => ⟨S512, .f32⟩
  | 6 => ⟨S4x2x512x512, .f32⟩
  | 7 => ⟨S4x2x512, .f32⟩
  | 8 => ⟨S4x2x512x512, .f32⟩
  | 9 => ⟨S300000, .i32⟩
  | 10 => ⟨S300000, .i32⟩
  | 11 => ⟨S300000, .i32⟩
  | 12 => ⟨S300000, .i32⟩
  | 13 => ⟨S1x512, .f32⟩
  | 14 => ⟨S10000x512, .f32⟩
  | 15 => ⟨S1x512, .f32⟩
  | 16 => ⟨S50000x512, .f32⟩
  | 17 => ⟨S_, .f32⟩
  | 18 => ⟨S300000, .f32⟩
  | 19 => ⟨S_, .f32⟩
  | 20 => ⟨S50000, .f32⟩
  | 21 => ⟨S300000x1, .i32⟩
  | 22 => ⟨S50000, .f32⟩
  | 23 => ⟨S_, .f32⟩
  | 24 => ⟨S10000, .f32⟩
  | 25 => ⟨S300000x1, .i32⟩
  | 26 => ⟨S10000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S_, .f32⟩
  | 34 => ⟨S10000, .f32⟩
  | 35 => ⟨S10000, .f32⟩
  | 36 => ⟨S_, .f32⟩
  | 37 => ⟨S10000, .f32⟩
  | 38 => ⟨S10000, .f32⟩
  | 39 => ⟨S_, .i32⟩
  | 40 => ⟨S300000, .i32⟩
  | 41 => ⟨S300000, .i1⟩
  | 42 => ⟨S_, .i32⟩
  | 43 => ⟨S300000, .i32⟩
  | 44 => ⟨S300000, .i32⟩
  | 45 => ⟨S300000, .i32⟩
  | 46 => ⟨S300000x1, .i32⟩
  | 47 => ⟨S300000x512, .f32⟩
  | 48 => ⟨S_, .f32⟩
  | 49 => ⟨S50000x512, .f32⟩
  | 50 => ⟨S300000x1, .i32⟩
  | 51 => ⟨S50000x512, .f32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x512, .f32⟩
  | 61 => ⟨S_, .f32⟩
  | 62 => ⟨S10000x512, .f32⟩
  | 63 => ⟨S300000x1, .i32⟩
  | 64 => ⟨S10000x512, .f32⟩
  | 65 => ⟨S1x1x512x512, .f32⟩
  | 66 => ⟨S512x512, .f32⟩
  | 67 => ⟨S1x1x512x512, .f32⟩
  | 68 => ⟨S512x512, .f32⟩
  | 69 => ⟨S1x1x512, .f32⟩
  | 70 => ⟨S512, .f32⟩
  | 71 => ⟨S1x512, .f32⟩
  | 72 => ⟨S50000x1, .f32⟩
  | 73 => ⟨S50000x512, .f32⟩
  | 74 => ⟨S1x1x512x512, .f32⟩
  | 75 => ⟨S512x512, .f32⟩
  | 76 => ⟨S1x1x512x512, .f32⟩
  | 77 => ⟨S512x512, .f32⟩
  | 78 => ⟨S1x1x512, .f32⟩
  | 79 => ⟨S512, .f32⟩
  | 80 => ⟨S1x512, .f32⟩
  | 81 => ⟨S10000x1, .f32⟩
  | 82 => ⟨S10000x512, .f32⟩
  | 83 => ⟨S_, .i32⟩
  | 84 => ⟨S300000, .i32⟩
  | 85 => ⟨S300000, .i1⟩
  | 86 => ⟨S_, .i32⟩
  | 87 => ⟨S300000, .i32⟩
  | 88 => ⟨S300000, .i32⟩
  | 89 => ⟨S300000, .i32⟩
  | 90 => ⟨S300000x1, .i32⟩
  | 91 => ⟨S300000x512, .f32⟩
  | 92 => ⟨S_, .f32⟩
  | 93 => ⟨S50000x512, .f32⟩
  | 94 => ⟨S300000x1, .i32⟩
  | 95 => ⟨S50000x512, .f32⟩
  | 96 => ⟨S_, .i32⟩
  | 97 => ⟨S300000, .i32⟩
  | 98 => ⟨S300000, .i1⟩
  | 99 => ⟨S_, .i32⟩
  | 100 => ⟨S300000, .i32⟩
  | 101 => ⟨S300000, .i32⟩
  | 102 => ⟨S300000, .i32⟩
  | 103 => ⟨S300000x1, .i32⟩
  | 104 => ⟨S300000x512, .f32⟩
  | 105 => ⟨S_, .f32⟩
  | 106 => ⟨S10000x512, .f32⟩
  | 107 => ⟨S300000x1, .i32⟩
  | 108 => ⟨S10000x512, .f32⟩
  | 109 => ⟨S1x1x512x512, .f32⟩
  | 110 => ⟨S512x512, .f32⟩
  | 111 => ⟨S1x1x512x512, .f32⟩
  | 112 => ⟨S512x512, .f32⟩
  | 113 => ⟨S1x1x512, .f32⟩
  | 114 => ⟨S512, .f32⟩
  | 115 => ⟨S1x512, .f32⟩
  | 116 => ⟨S50000x1, .f32⟩
  | 117 => ⟨S50000x512, .f32⟩
  | 118 => ⟨S1x1x512x512, .f32⟩
  | 119 => ⟨S512x512, .f32⟩
  | 120 => ⟨S1x1x512x512, .f32⟩
  | 121 => ⟨S512x512, .f32⟩
  | 122 => ⟨S1x1x512, .f32⟩
  | 123 => ⟨S512, .f32⟩
  | 124 => ⟨S1x512, .f32⟩
  | 125 => ⟨S10000x1, .f32⟩
  | 126 => ⟨S10000x512, .f32⟩
  | 127 => ⟨S_, .i32⟩
  | _ => ⟨S10000x64, .f32⟩

abbrev hbmTy0_1 (i : Nat) : BufTy := match i % 128 with
  | 0 => ⟨S300000, .i32⟩
  | 1 => ⟨S300000, .i1⟩
  | 2 => ⟨S_, .i32⟩
  | 3 => ⟨S300000, .i32⟩
  | 4 => ⟨S300000, .i32⟩
  | 5 => ⟨S300000, .i32⟩
  | 6 => ⟨S300000x1, .i32⟩
  | 7 => ⟨S300000x512, .f32⟩
  | 8 => ⟨S_, .f32⟩
  | 9 => ⟨S50000x512, .f32⟩
  | 10 => ⟨S300000x1, .i32⟩
  | 11 => ⟨S50000x512, .f32⟩
  | 12 => ⟨S_, .i32⟩
  | 13 => ⟨S300000, .i32⟩
  | 14 => ⟨S300000, .i1⟩
  | 15 => ⟨S_, .i32⟩
  | 16 => ⟨S300000, .i32⟩
  | 17 => ⟨S300000, .i32⟩
  | 18 => ⟨S300000, .i32⟩
  | 19 => ⟨S300000x1, .i32⟩
  | 20 => ⟨S300000x512, .f32⟩
  | 21 => ⟨S_, .f32⟩
  | 22 => ⟨S10000x512, .f32⟩
  | 23 => ⟨S300000x1, .i32⟩
  | 24 => ⟨S10000x512, .f32⟩
  | 25 => ⟨S1x1x512x512, .f32⟩
  | 26 => ⟨S512x512, .f32⟩
  | 27 => ⟨S1x1x512x512, .f32⟩
  | 28 => ⟨S512x512, .f32⟩
  | 29 => ⟨S1x1x512, .f32⟩
  | 30 => ⟨S512, .f32⟩
  | 31 => ⟨S1x512, .f32⟩
  | 32 => ⟨S50000x1, .f32⟩
  | 33 => ⟨S50000x512, .f32⟩
  | 34 => ⟨S1x1x512x512, .f32⟩
  | 35 => ⟨S512x512, .f32⟩
  | 36 => ⟨S1x1x512x512, .f32⟩
  | 37 => ⟨S512x512, .f32⟩
  | 38 => ⟨S1x1x512, .f32⟩
  | 39 => ⟨S512, .f32⟩
  | 40 => ⟨S1x512, .f32⟩
  | 41 => ⟨S10000x1, .f32⟩
  | 42 => ⟨S10000x512, .f32⟩
  | 43 => ⟨S_, .i32⟩
  | 44 => ⟨S300000, .i32⟩
  | 45 => ⟨S300000, .i1⟩
  | 46 => ⟨S_, .i32⟩
  | 47 => ⟨S300000, .i32⟩
  | 48 => ⟨S300000, .i32⟩
  | 49 => ⟨S300000, .i32⟩
  | 50 => ⟨S300000x1, .i32⟩
  | 51 => ⟨S300000x512, .f32⟩
  | 52 => ⟨S_, .f32⟩
  | 53 => ⟨S50000x512, .f32⟩
  | 54 => ⟨S300000x1, .i32⟩
  | 55 => ⟨S50000x512, .f32⟩
  | 56 => ⟨S_, .i32⟩
  | 57 => ⟨S300000, .i32⟩
  | 58 => ⟨S300000, .i1⟩
  | 59 => ⟨S_, .i32⟩
  | 60 => ⟨S300000, .i32⟩
  | 61 => ⟨S300000, .i32⟩
  | 62 => ⟨S300000, .i32⟩
  | 63 => ⟨S300000x1, .i32⟩
  | 64 => ⟨S300000x512, .f32⟩
  | 65 => ⟨S_, .f32⟩
  | 66 => ⟨S10000x512, .f32⟩
  | 67 => ⟨S300000x1, .i32⟩
  | 68 => ⟨S10000x512, .f32⟩
  | 69 => ⟨S1x1x512x512, .f32⟩
  | 70 => ⟨S512x512, .f32⟩
  | 71 => ⟨S1x1x512x512, .f32⟩
  | 72 => ⟨S512x512, .f32⟩
  | 73 => ⟨S1x1x512, .f32⟩
  | 74 => ⟨S512, .f32⟩
  | 75 => ⟨S1x512, .f32⟩
  | 76 => ⟨S50000x1, .f32⟩
  | 77 => ⟨S50000x512, .f32⟩
  | 78 => ⟨S1x1x512x512, .f32⟩
  | 79 => ⟨S512x512, .f32⟩
  | 80 => ⟨S1x1x512x512, .f32⟩
  | 81 => ⟨S512x512, .f32⟩
  | 82 => ⟨S1x1x512, .f32⟩
  | 83 => ⟨S512, .f32⟩
  | 84 => ⟨S1x512, .f32⟩
  | 85 => ⟨S10000x1, .f32⟩
  | 86 => ⟨S10000x512, .f32⟩
  | _ => ⟨S10000x64, .f32⟩

abbrev hbmTy (i : Nat) : BufTy := match i / 128 with
  | 0 => hbmTy0_0 i
  | 1 => hbmTy0_1 i
  | _ => ⟨S10000x64, .f32⟩

abbrev bufTy : (tb : Table) → Fin (tcTables nBuf tb) → BufTy
  | .hbm, ⟨i, _⟩ => hbmTy i
  | .local _ .vmem, ⟨0, _⟩ => ⟨S1000x64, .f32⟩
  | .local _ .vmem, ⟨1, _⟩ => ⟨S1000x64, .f32⟩
  | .local _ .vmem, ⟨2, _⟩ => ⟨S64x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x32, .f32⟩
  | .local _ .vmem, ⟨7, _⟩ => ⟨S1000x32, .f32⟩
  | .local _ .vmem, ⟨8, _⟩ => ⟨S32x512, .f32⟩
  | .local _ .vmem, ⟨9, _⟩ => ⟨S1x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S512x512, .f32⟩
  | .local _ .vmem, ⟨17, _⟩ => ⟨S512x512, .f32⟩
  | .local _ .vmem, ⟨18, _⟩ => ⟨S1x512, .f32⟩
  | .local _ .vmem, ⟨19, _⟩ => ⟨S1000x1, .f32⟩
  | .local _ .vmem, ⟨20, _⟩ => ⟨S1000x1, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S1000x512, .f32⟩
  | .local _ .vmem, ⟨25, _⟩ => ⟨S1000x512, .f32⟩
  | .local _ .vmem, ⟨26, _⟩ => ⟨S1000x512, .f32⟩
  | .local _ .vmem, ⟨27, _⟩ => ⟨S512x512, .f32⟩
  | .local _ .vmem, ⟨28, _⟩ => ⟨S512x512, .f32⟩
  | .local _ .vmem, ⟨29, _⟩ => ⟨S1x512, .f32⟩
  | .local _ .vmem, ⟨30, _⟩ => ⟨S1000x1, .f32⟩
  | .local _ .vmem, ⟨31, _⟩ => ⟨S1000x1, .f32⟩
  | .local _ .vmem, ⟨32, _⟩ => ⟨S1000x512, .f32⟩
  | .local _ .vmem, ⟨33, _⟩ => ⟨S1000x512, .f32⟩
  | .local _ .vmem, ⟨34, _⟩ => ⟨S1000x512, .f32⟩
  | .local _ .vmem, ⟨35, _⟩ => ⟨S1000x512, .f32⟩
  | .local _ .vmem, ⟨36, _⟩ => ⟨S1000x512, .f32⟩
  | .local _ .vmem, ⟨37, _⟩ => ⟨S1000x512, .f32⟩
  | .local _ .vmem, ⟨38, _⟩ => ⟨S512x512, .f32⟩
  | .local _ .vmem, ⟨39, _⟩ => ⟨S512x512, .f32⟩
  | .local _ .vmem, ⟨40, _⟩ => ⟨S1x512, .f32⟩
  | .local _ .vmem, ⟨41, _⟩ => ⟨S1000x1, .f32⟩
  | .local _ .vmem, ⟨42, _⟩ => ⟨S1000x1, .f32⟩
  | .local _ .vmem, ⟨43, _⟩ => ⟨S1000x512, .f32⟩
  | .local _ .vmem, ⟨44, _⟩ => ⟨S1000x512, .f32⟩
  | .local _ .vmem, ⟨45, _⟩ => ⟨S1000x512, .f32⟩
  | .local _ .vmem, ⟨46, _⟩ => ⟨S1000x512, .f32⟩
  | .local _ .vmem, ⟨47, _⟩ => ⟨S1000x512, .f32⟩
  | .local _ .vmem, ⟨48, _⟩ => ⟨S1000x512, .f32⟩
  | .local _ .vmem, ⟨49, _⟩ => ⟨S512x512, .f32⟩
  | .local _ .vmem, ⟨50, _⟩ => ⟨S512x512, .f32⟩
  | .local _ .vmem, ⟨51, _⟩ => ⟨S1x512, .f32⟩
  | .local _ .vmem, ⟨52, _⟩ => ⟨S1000x1, .f32⟩
  | .local _ .vmem, ⟨53, _⟩ => ⟨S1000x1, .f32⟩
  | .local _ .vmem, ⟨54, _⟩ => ⟨S1000x512, .f32⟩
  | .local _ .vmem, ⟨55, _⟩ => ⟨S1000x512, .f32⟩
  | .local _ .vmem, ⟨56, _⟩ => ⟨S1000x512, .f32⟩
  | .local _ .vmem, ⟨57, _⟩ => ⟨S1000x512, .f32⟩
  | .local _ .vmem, ⟨58, _⟩ => ⟨S1000x512, .f32⟩
  | .local _ .vmem, ⟨59, _⟩ => ⟨S1000x512, .f32⟩
  | .local _ .vmem, ⟨60, _⟩ => ⟨S512x512, .f32⟩
  | .local _ .vmem, ⟨61, _⟩ => ⟨S512x512, .f32⟩
  | .local _ .vmem, ⟨62, _⟩ => ⟨S1x512, .f32⟩
  | .local _ .vmem, ⟨63, _⟩ => ⟨S1000x1, .f32⟩
  | .local _ .vmem, ⟨64, _⟩ => ⟨S1000x1, .f32⟩
  | .local _ .vmem, ⟨65, _⟩ => ⟨S1000x512, .f32⟩
  | .local _ .vmem, ⟨66, _⟩ => ⟨S1000x512, .f32⟩
  | .local _ .vmem, ⟨67, _⟩ => ⟨S1000x512, .f32⟩
  | .local _ .vmem, ⟨68, _⟩ => ⟨S1000x512, .f32⟩
  | .local _ .vmem, ⟨69, _⟩ => ⟨S1000x512, .f32⟩
  | .local _ .vmem, ⟨70, _⟩ => ⟨S1000x512, .f32⟩
  | .local _ .vmem, ⟨71, _⟩ => ⟨S512x512, .f32⟩
  | .local _ .vmem, ⟨72, _⟩ => ⟨S512x512, .f32⟩
  | .local _ .vmem, ⟨73, _⟩ => ⟨S1x512, .f32⟩
  | .local _ .vmem, ⟨74, _⟩ => ⟨S1000x1, .f32⟩
  | .local _ .vmem, ⟨75, _⟩ => ⟨S1000x1, .f32⟩
  | .local _ .vmem, ⟨76, _⟩ => ⟨S1000x512, .f32⟩
  | .local _ .vmem, ⟨77, _⟩ => ⟨S1000x512, .f32⟩
  | .local _ .vmem, ⟨78, _⟩ => ⟨S1000x512, .f32⟩
  | .local _ .vmem, ⟨79, _⟩ => ⟨S1000x512, .f32⟩
  | .local _ .vmem, ⟨80, _⟩ => ⟨S1000x512, .f32⟩
  | .local _ .vmem, ⟨81, _⟩ => ⟨S1000x512, .f32⟩
  | .local _ .vmem, ⟨82, _⟩ => ⟨S512x512, .f32⟩
  | .local _ .vmem, ⟨83, _⟩ => ⟨S512x512, .f32⟩
  | .local _ .vmem, ⟨84, _⟩ => ⟨S1x512, .f32⟩
  | .local _ .vmem, ⟨85, _⟩ => ⟨S1000x1, .f32⟩
  | .local _ .vmem, ⟨86, _⟩ => ⟨S1000x1, .f32⟩
  | .local _ .vmem, ⟨87, _⟩ => ⟨S1000x512, .f32⟩
  | .local _ .vmem, ⟨88, _⟩ => ⟨S1000x512, .f32⟩
  | .local _ .vmem, ⟨89, _⟩ => ⟨S1000x512, .f32⟩
  | .local _ .vmem, ⟨90, _⟩ => ⟨S1000x512, .f32⟩
  | .local _ .vmem, ⟨91, _⟩ => ⟨S1000x512, .f32⟩
  | .local _ .vmem, ⟨92, _⟩ => ⟨S1000x512, .f32⟩
  | .local _ .vmem, ⟨93, _⟩ => ⟨S512x512, .f32⟩
  | .local _ .vmem, ⟨94, _⟩ => ⟨S512x512, .f32⟩
  | .local _ .vmem, ⟨95, _⟩ => ⟨S1x512, .f32⟩
  | .local _ .vmem, ⟨96, _⟩ => ⟨S1000x1, .f32⟩
  | .local _ .vmem, ⟨97, _⟩ => ⟨S1000x1, .f32⟩
  | .local _ .vmem, ⟨98, _⟩ => ⟨S1000x512, .f32⟩
  | .local _ .vmem, ⟨99, _⟩ => ⟨S1000x512, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_8 : Ref sig .tc := ⟨.hbm, 52, rfl⟩
abbrev main_v29 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_17 : Ref sig .tc := ⟨.hbm, 127, rfl⟩
abbrev main_v95 : Ref sig .tc := ⟨.hbm, 128, rfl⟩
abbrev main_v96 : Ref sig .tc := ⟨.hbm, 129, rfl⟩
abbrev main_c_18 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_19 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_20 : Ref sig .tc := ⟨.hbm, 140, rfl⟩
abbrev main_v105 : Ref sig .tc := ⟨.hbm, 141, rfl⟩
abbrev main_v106 : Ref sig .tc := ⟨.hbm, 142, rfl⟩
abbrev main_c_21 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_22 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_c_23 : Ref sig .tc := ⟨.hbm, 171, rfl⟩
abbrev main_v133 : Ref sig .tc := ⟨.hbm, 172, rfl⟩
abbrev main_v134 : Ref sig .tc := ⟨.hbm, 173, rfl⟩
abbrev main_c_24 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_25 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_c_26 : Ref sig .tc := ⟨.hbm, 184, rfl⟩
abbrev main_v143 : Ref sig .tc := ⟨.hbm, 185, rfl⟩
abbrev main_v144 : Ref sig .tc := ⟨.hbm, 186, rfl⟩
abbrev main_c_27 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_28 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg5_1 : Ref sig .tc := ⟨.vmem, 64, rfl⟩
abbrev cc6_stg6_0 : Ref sig .tc := ⟨.vmem, 65, rfl⟩
abbrev cc6_stg6_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg1_1 : Ref sig .tc := ⟨.vmem, 70, rfl⟩
abbrev cc7_stg2_0 : Ref sig .tc := ⟨.vmem, 71, rfl⟩
abbrev cc7_stg3_0 : Ref sig .tc := ⟨.vmem, 72, rfl⟩
abbrev cc7_stg4_0 : Ref sig .tc := ⟨.vmem, 73, rfl⟩
abbrev cc7_stg5_0 : Ref sig .tc := ⟨.vmem, 74, rfl⟩
abbrev cc7_stg5_1 : Ref sig .tc := ⟨.vmem, 75, rfl⟩
abbrev cc7_stg6_0 : Ref sig .tc := ⟨.vmem, 76, rfl⟩
abbrev cc7_stg6_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg1_1 : Ref sig .tc := ⟨.vmem, 81, rfl⟩
abbrev cc8_stg2_0 : Ref sig .tc := ⟨.vmem, 82, rfl⟩
abbrev cc8_stg3_0 : Ref sig .tc := ⟨.vmem, 83, rfl⟩
abbrev cc8_stg4_0 : Ref sig .tc := ⟨.vmem, 84, rfl⟩
abbrev cc8_stg5_0 : Ref sig .tc := ⟨.vmem, 85, rfl⟩
abbrev cc8_stg5_1 : Ref sig .tc := ⟨.vmem, 86, rfl⟩
abbrev cc8_stg6_0 : Ref sig .tc := ⟨.vmem, 87, rfl⟩
abbrev cc8_stg6_1 : Ref sig .tc := ⟨.vmem, 88, rfl⟩
abbrev cc9_stg0_0 : Ref sig .tc := ⟨.vmem, 89, rfl⟩
abbrev cc9_stg0_1 : Ref sig .tc := ⟨.vmem, 90, rfl⟩
abbrev cc9_stg1_0 : Ref sig .tc := ⟨.vmem, 91, rfl⟩
abbrev cc9_stg1_1 : Ref sig .tc := ⟨.vmem, 92, rfl⟩
abbrev cc9_stg2_0 : Ref sig .tc := ⟨.vmem, 93, rfl⟩
abbrev cc9_stg3_0 : Ref sig .tc := ⟨.vmem, 94, rfl⟩
abbrev cc9_stg4_0 : Ref sig .tc := ⟨.vmem, 95, rfl⟩
abbrev cc9_stg5_0 : Ref sig .tc := ⟨.vmem, 96, rfl⟩
abbrev cc9_stg5_1 : Ref sig .tc := ⟨.vmem, 97, rfl⟩
abbrev cc9_stg6_0 : Ref sig .tc := ⟨.vmem, 98, rfl⟩
abbrev cc9_stg6_1 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem5_1 : DmaSem sig := 64
abbrev cc6_sem6_0 : DmaSem sig := 65
abbrev cc6_sem6_1 : DmaSem sig := 66
abbrev cc7_sem0_0 : DmaSem sig := 67
abbrev cc7_sem0_1 : DmaSem sig := 68
abbrev cc7_sem1_0 : DmaSem sig := 69
abbrev cc7_sem1_1 : DmaSem sig := 70
abbrev cc7_sem2_0 : DmaSem sig := 71
abbrev cc7_sem3_0 : DmaSem sig := 72
abbrev cc7_sem4_0 : DmaSem sig := 73
abbrev cc7_sem5_0 : DmaSem sig := 74
abbrev cc7_sem5_1 : DmaSem sig := 75
abbrev cc7_sem6_0 : DmaSem sig := 76
abbrev cc7_sem6_1 : DmaSem sig := 77
abbrev cc8_sem0_0 : DmaSem sig := 78
abbrev cc8_sem0_1 : DmaSem sig := 79
abbrev cc8_sem1_0 : DmaSem sig := 80
abbrev cc8_sem1_1 : DmaSem sig := 81
abbrev cc8_sem2_0 : DmaSem sig := 82
abbrev cc8_sem3_0 : DmaSem sig := 83
abbrev cc8_sem4_0 : DmaSem sig := 84
abbrev cc8_sem5_0 : DmaSem sig := 85
abbrev cc8_sem5_1 : DmaSem sig := 86
abbrev cc8_sem6_0 : DmaSem sig := 87
abbrev cc8_sem6_1 : DmaSem sig := 88
abbrev cc9_sem0_0 : DmaSem sig := 89
abbrev cc9_sem0_1 : DmaSem sig := 90
abbrev cc9_sem1_0 : DmaSem sig := 91
abbrev cc9_sem1_1 : DmaSem sig := 92
abbrev cc9_sem2_0 : DmaSem sig := 93
abbrev cc9_sem3_0 : DmaSem sig := 94
abbrev cc9_sem4_0 : DmaSem sig := 95
abbrev cc9_sem5_0 : DmaSem sig := 96
abbrev cc9_sem5_1 : DmaSem sig := 97
abbrev cc9_sem6_0 : DmaSem sig := 98
abbrev cc9_sem6_1 : DmaSem sig := 99

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1000x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1000x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1000x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1000x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1000x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1000x512 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S512x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1000x1 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S1000x512 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1000x512 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S512x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x512 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x512 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S1000x1 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S1000x512 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

class Facts₀ : Prop where
  shapeCasts_S512_S1x512 : S512.ShapeCasts S1x512
  inb_S1000x64_S1000x64_0_0 : ∀ a, (![0, 0] : Fin 2 → Nat) a + S1000x64.size a ≤ S1000x64.size a
  h_S1000x64 : 0 < S1000x64.numel
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  inb_S1000x32_S1000x32_0_0 : ∀ a, (![0, 0] : Fin 2 → Nat) a + S1000x32.size a ≤ S1000x32.size a
  h_S1000x32 : 0 < S1000x32.numel
  inb_S32x512_S32x512_0_0 : ∀ a, (![0, 0] : Fin 2 → Nat) a + S32x512.size a ≤ S32x512.size a
  h_S32x512 : 0 < S32x512.numel
  bcast_S_S300000 : S_.BroadcastsInDim S300000 (![] : Fin 0 → Fin S300000.rank)
  bcast_S_S50000 : S_.BroadcastsInDim S50000 (![] : Fin 0 → Fin S50000.rank)
  bcast_S300000_S300000x1_0 : S300000.BroadcastsInDim S300000x1 (![0] : Fin 1 → Fin S300000x1.rank)
  bcast_S_S10000 : S_.BroadcastsInDim S10000 (![] : Fin 0 → Fin S10000.rank)
  bcast_S_S50000x512 : S_.BroadcastsInDim S50000x512 (![] : Fin 0 → Fin S50000x512.rank)
  bcast_S_S10000x512 : S_.BroadcastsInDim S10000x512 (![] : Fin 0 → Fin S10000x512.rank)
  slices_S4x2x512x512_S1x1x512x512_0_0_0_0 : S4x2x512x512.Slices ![0, 0, 0, 0] S1x1x512x512
  shapeCasts_S1x1x512x512_S512x512 : S1x1x512x512.ShapeCasts S512x512
  slices_S4x2x512_S1x1x512_0_0_0 : S4x2x512.Slices ![0, 0, 0] S1x1x512
  shapeCasts_S1x1x512_S512 : S1x1x512.ShapeCasts S512
  shapeCasts_S50000_S50000x1 : S50000.ShapeCasts S50000x1
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S4x2x512x512_S1x1x512x512_0_1_0_0 : S4x2x512x512.Slices ![0, 1, 0, 0] S1x1x512x512
  slices_S4x2x512_S1x1x512_0_1_0 : S4x2x512.Slices ![0, 1, 0] S1x1x512
  shapeCasts_S10000_S10000x1 : S10000.ShapeCasts S10000x1
  slices_S4x2x512x512_S1x1x512x512_1_0_0_0 : S4x2x512x512.Slices ![1, 0, 0, 0] S1x1x512x512
  slices_S4x2x512_S1x1x512_1_0_0 : S4x2x512.Slices ![1, 0, 0] S1x1x512
  slices_S4x2x512x512_S1x1x512x512_1_1_0_0 : S4x2x512x512.Slices ![1, 1, 0, 0] S1x1x512x512
  slices_S4x2x512_S1x1x512_1_1_0 : S4x2x512.Slices ![1, 1, 0] S1x1x512
  slices_S4x2x512x512_S1x1x512x512_2_0_0_0 : S4x2x512x512.Slices ![2, 0, 0, 0] S1x1x512x512
  slices_S4x2x512_S1x1x512_2_0_0 : S4x2x512.Slices ![2, 0, 0] S1x1x512
  slices_S4x2x512x512_S1x1x512x512_2_1_0_0 : S4x2x512x512.Slices ![2, 1, 0, 0] S1x1x512x512
  slices_S4x2x512_S1x1x512_2_1_0 : S4x2x512.Slices ![2, 1, 0] S1x1x512
  slices_S4x2x512x512_S1x1x512x512_3_0_0_0 : S4x2x512x512.Slices ![3, 0, 0, 0] S1x1x512x512
  slices_S4x2x512_S1x1x512_3_0_0 : S4x2x512.Slices ![3, 0, 0] S1x1x512
  slices_S4x2x512x512_S1x1x512x512_3_1_0_0 : S4x2x512x512.Slices ![3, 1, 0, 0] S1x1x512x512
  slices_S4x2x512_S1x1x512_3_1_0 : S4x2x512.Slices ![3, 1, 0] S1x1x512
  dot_S1000x64_S64x512_S1000x512_1_0_0_1_n_n_wf : DotDims.WF S1000x64 S64x512 S1000x512 [1] [0] [0] [1] [] []
  dot_S1000x32_S32x512_S1000x512_1_0_0_1_n_n_wf : DotDims.WF S1000x32 S32x512 S1000x512 [1] [0] [0] [1] [] []
  scatter_S50000_S300000x1_S300000_n_0_0_1_wf : ScatterDims.WF S50000 S300000x1 S300000 [] [0] [0] 1
  scatter_S10000_S300000x1_S300000_n_0_0_1_wf : ScatterDims.WF S10000 S300000x1 S300000 [] [0] [0] 1
  gather_S10000x512_S300000x1_S300000x512_1_0_n_n_0_1_1512_wf : GatherDims.WF S10000x512 S300000x1 S300000x512 [1] [0] [] [0] [] 1 ![1, 512]
  scatter_S50000x512_S300000x1_S300000x512_1_0_0_1_wf : ScatterDims.WF S50000x512 S300000x1 S300000x512 [1] [0] [0] 1
  gather_S50000x512_S300000x1_S300000x512_1_0_n_n_0_1_1512_wf : GatherDims.WF S50000x512 S300000x1 S300000x512 [1] [0] [] [0] [] 1 ![1, 512]
  scatter_S10000x512_S300000x1_S300000x512_1_0_0_1_wf : ScatterDims.WF S10000x512 S300000x1 S300000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S10000x64.size a
  hwx0_0 : ∀ i : grid0.Coords, EltTy.bits .f32 = 32 ∨ (Rect.block (s := S10000x64) S1000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S10000x512.size a
  hwx0_3 : ∀ i : grid0.Coords, EltTy.bits .f32 = 32 ∨ (Rect.block (s := S10000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x32.size a ≤ S50000x32.size a
  hwx1_0 : ∀ i : grid1.Coords, EltTy.bits .f32 = 32 ∨ (Rect.block (s := S50000x32) S1000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x512.size a ≤ S32x512.size a
  hwx1_1 : ∀ i : grid1.Coords, EltTy.bits .f32 = 32 ∨ (Rect.block (s := S32x512) S32x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S50000x512.size a
  hwx1_3 : ∀ i : grid1.Coords, EltTy.bits .f32 = 32 ∨ (Rect.block (s := S50000x512) S1000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S50000x512.size a
  hwx2_0 : ∀ i : grid2.Coords, EltTy.bits .f32 = 32 ∨ (Rect.block (s := S50000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S50000x512.size a
  hwx2_1 : ∀ i : grid2.Coords, EltTy.bits .f32 = 32 ∨ (Rect.block (s := S50000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x1.size a ≤ S50000x1.size a
  hwx2_5 : ∀ i : grid2.Coords, EltTy.bits .f32 = 32 ∨ (Rect.block (s := S50000x1) S1000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x512.size a ≤ S50000x512.size a
  hwx2_6 : ∀ i : grid2.Coords, EltTy.bits .f32 = 32 ∨ (Rect.block (s := S50000x512) S1000x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S10000x512.size a
  hwx3_0 : ∀ i : grid3.Coords, EltTy.bits .f32 = 32 ∨ (Rect.block (s := S10000x512) S1000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x512.size a ≤ S10000x512.size a
  hwx3_1 : ∀ i : grid3.Coords, EltTy.bits .f32 = 32 ∨ (Rect.block (s := S10000x512) S1000x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x1.size a ≤ S10000x1.size a
  hwx3_5 : ∀ i : grid3.Coords, EltTy.bits .f32 = 32 ∨ (Rect.block (s := S10000x1) S1000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x512.size a ≤ S10000x512.size a
  hwx3_6 : ∀ i : grid3.Coords, EltTy.bits .f32 = 32 ∨ (Rect.block (s := S10000x512) S1000x512.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S50000x512.size a
  hwx4_0 : ∀ i : grid4.Coords, EltTy.bits .f32 = 32 ∨ (Rect.block (s := S50000x512) S1000x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x512.size a ≤ S50000x512.size a
  hwx4_1 : ∀ i : grid4.Coords, EltTy.bits .f32 = 32 ∨ (Rect.block (s := S50000x512) S1000x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x512.size a ≤ S512x512.size a
  hwx4_2 : ∀ i : grid4.Coords, EltTy.bits .f32 = 32 ∨ (Rect.block (s := S512x512) S512x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S512x512.size a
  hwx4_3 : ∀ i : grid4.Coords, EltTy.bits .f32 = 32 ∨ (Rect.block (s := S512x512) S512x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x1.size a ≤ S50000x1.size a
  hwx4_5 : ∀ i : grid4.Coords, EltTy.bits .f32 = 32 ∨ (Rect.block (s := S50000x1) S1000x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x512.size a ≤ S50000x512.size a
  hwx4_6 : ∀ i : grid4.Coords, EltTy.bits .f32 = 32 ∨ (Rect.block (s := S50000x512) S1000x512.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x512.size a ≤ S10000x512.size a
  hwx5_0 : ∀ i : grid5.Coords, EltTy.bits .f32 = 32 ∨ (Rect.block (s := S10000x512) S1000x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x512.size a ≤ S10000x512.size a
  hwx5_1 : ∀ i : grid5.Coords, EltTy.bits .f32 = 32 ∨ (Rect.block (s := S10000x512) S1000x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x512.size a ≤ S512x512.size a
  hwx5_2 : ∀ i : grid5.Coords, EltTy.bits .f32 = 32 ∨ (Rect.block (s := S512x512) S512x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x512.size a ≤ S512x512.size a
  hwx5_3 : ∀ i : grid5.Coords, EltTy.bits .f32 = 32 ∨ (Rect.block (s := S512x512) S512x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x1.size a ≤ S10000x1.size a
  hwx5_5 : ∀ i : grid5.Coords, EltTy.bits .f32 = 32 ∨ (Rect.block (s := S10000x1) S1000x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x512.size a ≤ S10000x512.size a
  hwx5_6 : ∀ i : grid5.Coords, EltTy.bits .f32 = 32 ∨ (Rect.block (s := S10000x512) S1000x512.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x512.size a ≤ S50000x512.size a
  hwx6_0 : ∀ i : grid6.Coords, EltTy.bits .f32 = 32 ∨ (Rect.block (s := S50000x512) S1000x512.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x512.size a ≤ S50000x512.size a
  hwx6_1 : ∀ i : grid6.Coords, EltTy.bits .f32 = 32 ∨ (Rect.block (s := S50000x512) S1000x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x512.size a ≤ S512x512.size a
  hwx6_2 : ∀ i : grid6.Coords, EltTy.bits .f32 = 32 ∨ (Rect.block (s := S512x512) S512x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x512.size a ≤ S512x512.size a
  hwx6_3 : ∀ i : grid6.Coords, EltTy.bits .f32 = 32 ∨ (Rect.block (s := S512x512) S512x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1000x1.size a ≤ S50000x1.size a
  hwx6_5 : ∀ i : grid6.Coords, EltTy.bits .f32 = 32 ∨ (Rect.block (s := S50000x1) S1000x1.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1000x512.size a ≤ S50000x512.size a
  hwx6_6 : ∀ i : grid6.Coords, EltTy.bits .f32 = 32 ∨ (Rect.block (s := S50000x512) S1000x512.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x512.size a ≤ S10000x512.size a
  hwx7_0 : ∀ i : grid7.Coords, EltTy.bits .f32 = 32 ∨ (Rect.block (s := S10000x512) S1000x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x512.size a ≤ S10000x512.size a
  hwx7_1 : ∀ i : grid7.Coords, EltTy.bits .f32 = 32 ∨ (Rect.block (s := S10000x512) S1000x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x512.size a ≤ S512x512.size a
  hwx7_2 : ∀ i : grid7.Coords, EltTy.bits .f32 = 32 ∨ (Rect.block (s := S512x512) S512x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x512.size a ≤ S512x512.size a
  hwx7_3 : ∀ i : grid7.Coords, EltTy.bits .f32 = 32 ∨ (Rect.block (s := S512x512) S512x512.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x512.size a ≤ S1x512.size a
  hwx7_4 : ∀ i : grid7.Coords, EltTy.bits .f32 = 32 ∨ (Rect.block (s := S1x512) S1x512.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1000x1.size a ≤ S10000x1.size a
  hwx7_5 : ∀ i : grid7.Coords, EltTy.bits .f32 = 32 ∨ (Rect.block (s := S10000x1) S1000x1.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1000x512.size a ≤ S10000x512.size a
  hwx7_6 : ∀ i : grid7.Coords, EltTy.bits .f32 = 32 ∨ (Rect.block (s := S10000x512) S1000x512.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x512.size a ≤ S50000x512.size a
  hwx8_0 : ∀ i : grid8.Coords, EltTy.bits .f32 = 32 ∨ (Rect.block (s := S50000x512) S1000x512.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1000x512.size a ≤ S50000x512.size a
  hwx8_1 : ∀ i : grid8.Coords, EltTy.bits .f32 = 32 ∨ (Rect.block (s := S50000x512) S1000x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S512x512.size a ≤ S512x512.size a
  hwx8_2 : ∀ i : grid8.Coords, EltTy.bits .f32 = 32 ∨ (Rect.block (s := S512x512) S512x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S512x512.size a ≤ S512x512.size a
  hwx8_3 : ∀ i : grid8.Coords, EltTy.bits .f32 = 32 ∨ (Rect.block (s := S512x512) S512x512.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x512.size a ≤ S1x512.size a
  hwx8_4 : ∀ i : grid8.Coords, EltTy.bits .f32 = 32 ∨ (Rect.block (s := S1x512) S1x512.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1000x1.size a ≤ S50000x1.size a
  hwx8_5 : ∀ i : grid8.Coords, EltTy.bits .f32 = 32 ∨ (Rect.block (s := S50000x1) S1000x1.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1000x512.size a ≤ S50000x512.size a
  hwx8_6 : ∀ i : grid8.Coords, EltTy.bits .f32 = 32 ∨ (Rect.block (s := S50000x512) S1000x512.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x512.size a ≤ S10000x512.size a
  hwx9_0 : ∀ i : grid9.Coords, EltTy.bits .f32 = 32 ∨ (Rect.block (s := S10000x512) S1000x512.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1000x512.size a ≤ S10000x512.size a
  hwx9_1 : ∀ i : grid9.Coords, EltTy.bits .f32 = 32 ∨ (Rect.block (s := S10000x512) S1000x512.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S512x512.size a ≤ S512x512.size a
  hwx9_2 : ∀ i : grid9.Coords, EltTy.bits .f32 = 32 ∨ (Rect.block (s := S512x512) S512x512.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S512x512.size a ≤ S512x512.size a
  hwx9_3 : ∀ i : grid9.Coords, EltTy.bits .f32 = 32 ∨ (Rect.block (s := S512x512) S512x512.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x512.size a ≤ S1x512.size a
  hwx9_4 : ∀ i : grid9.Coords, EltTy.bits .f32 = 32 ∨ (Rect.block (s := S1x512) S1x512.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1000x1.size a ≤ S10000x1.size a
  hwx9_5 : ∀ i : grid9.Coords, EltTy.bits .f32 = 32 ∨ (Rect.block (s := S10000x1) S1000x1.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1000x512.size a ≤ S10000x512.size a
  hwx9_6 : ∀ i : grid9.Coords, EltTy.bits .f32 = 32 ∨ (Rect.block (s := S10000x512) S1000x512.size (cc9_transform_6 i) (hinb9_6 i)).WholeWords (EltTy.packing .f32)

variable [Facts₀]

def dot_S1000x64_S64x512_S1000x512_1_0_0_1_n_n : DotDims S1000x64 S64x512 S1000x512 where
  lhsContracting := [1]
  rhsContracting := [0]
  lhsNonContracting := [0]
  rhsNonContracting := [1]
  lhsBatch := []
  rhsBatch := []
  wf := dot_S1000x64_S64x512_S1000x512_1_0_0_1_n_n_wf
def dot_S1000x32_S32x512_S1000x512_1_0_0_1_n_n : DotDims S1000x32 S32x512 S1000x512 where
  lhsContracting := [1]
  rhsContracting := [0]
  lhsNonContracting := [0]
  rhsNonContracting := [1]
  lhsBatch := []
  rhsBatch := []
  wf := dot_S1000x32_S32x512_S1000x512_1_0_0_1_n_n_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def scatter_S10000_S300000x1_S300000_n_0_0_1 : ScatterDims S10000 S300000x1 S300000 where
  updateWindowDims := []
  insertedWindowDims := [0]
  scatterDimsToOperandDims := [0]
  indexVectorDim := 1
  wf := scatter_S10000_S300000x1_S300000_n_0_0_1_wf
def gather_S10000x512_S300000x1_S300000x512_1_0_n_n_0_1_1512 : GatherDims S10000x512 S300000x1 S300000x512 where
  offsetDims := [1]
  collapsedSliceDims := [0]
  operandBatchingDims := []
  startIndicesBatchingDims := []
  startIndexMap := [0]
  indexVectorDim := 1
  sliceSizes := ![1, 512]
  wf := gather_S10000x512_S300000x1_S300000x512_1_0_n_n_0_1_1512_wf
def scatter_S50000x512_S300000x1_S300000x512_1_0_0_1 : ScatterDims S50000x512 S300000x1 S300000x512 where
  updateWindowDims := [1]
  insertedWindowDims := [0]
  scatterDimsToOperandDims := [0]
  indexVectorDim := 1
  wf := scatter_S50000x512_S300000x1_S300000x512_1_0_0_1_wf
def gather_S50000x512_S300000x1_S300000x512_1_0_n_n_0_1_1512 : GatherDims S50000x512 S300000x1 S300000x512 where
  offsetDims := [1]
  collapsedSliceDims := [0]
  operandBatchingDims := []
  startIndicesBatchingDims := []
  startIndexMap := [0]
  indexVectorDim := 1
  sliceSizes := ![1, 512]
  wf := gather_S50000x512_S300000x1_S300000x512_1_0_n_n_0_1_1512_wf
def scatter_S10000x512_S300000x1_S300000x512_1_0_0_1 : ScatterDims S10000x512 S300000x1 S300000x512 where
  updateWindowDims := [1]
  insertedWindowDims := [0]
  scatterDimsToOperandDims := [0]
  indexVectorDim := 1
  wf := scatter_S10000x512_S300000x1_S300000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v47) S1000x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v38) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S1000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v56) S1000x512.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v66) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S1000x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S512x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S512x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S1000x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v85) S1000x512.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v76) S1000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S1000x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v87) S512x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S512x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93) S1000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v94) S1000x512.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v104) S1000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85) S1000x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v116) S512x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v118) S512x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v121) S1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v122) S1000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v123) S1000x512.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v114) S1000x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S1000x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v125) S512x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v127) S512x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v130) S1x512.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v131) S1000x1.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v132) S1000x512.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v142) S1000x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v123) S1000x512.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v154) S512x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v156) S512x512.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v159) S1x512.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v160) S1000x1.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v161) S1000x512.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v152) S1000x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v132) S1000x512.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v163) S512x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v165) S512x512.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v168) S1x512.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v169) S1000x1.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v170) S1000x512.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

class Facts : Prop extends Facts₀ where

variable [Facts]
-- ==== ReferenceIdeal.lean ====
abbrev S10000x64 : Shape := ⟨2, ![10000, 64]⟩
abbrev S50000x32 : Shape := ⟨2, ![50000, 32]⟩
abbrev S64x512 : Shape := ⟨2, ![64, 512]⟩
abbrev S512 : Shape := ⟨1, ![512]⟩
abbrev S32x512 : Shape := ⟨2, ![32, 512]⟩
abbrev S4x2x512x512 : Shape := ⟨4, ![4, 2, 512, 512]⟩
abbrev S4x2x512 : Shape := ⟨3, ![4, 2, 512]⟩
abbrev S300000 : Shape := ⟨1, ![300000]⟩
abbrev S10000x512 : Shape := ⟨2, ![10000, 512]⟩
abbrev S1x512 : Shape := ⟨2, ![1, 512]⟩
abbrev S50000x512 : Shape := ⟨2, ![50000, 512]⟩
abbrev S_ : Shape := ⟨0, ![]⟩
abbrev S300000x1 : Shape := ⟨2, ![300000, 1]⟩
abbrev S300000x512 : Shape := ⟨2, ![300000, 512]⟩
abbrev S50000x1 : Shape := ⟨2, ![50000, 1]⟩
abbrev S10000x1 : Shape := ⟨2, ![10000, 1]⟩
abbrev S1x1x512x512 : Shape := ⟨4, ![1, 1, 512, 512]⟩
abbrev S512x512 : Shape := ⟨2, ![512, 512]⟩
abbrev S1x1x512 : Shape := ⟨3, ![1, 1, 512]⟩

abbrev nBuf : Space → Nat
  | .hbm => 333
  | .vmem => 0
  | .smem => 0
  | _ => 0

abbrev hbmTy0_0 (i : Nat) : BufTy := match i % 128 with
  | 0 => ⟨S10000x64, .f32⟩
  | 1 => ⟨S50000x32, .f32⟩
  | 2 => ⟨S64x512, .f32⟩
  | 3 => ⟨S512, .f32⟩
  | 4 => ⟨S32x512, .f32⟩
  | 5 => ⟨S512, .f32⟩
  | 6 => ⟨S4x2x512x512, .f32⟩
  | 7 => ⟨S4x2x512, .f32⟩
  | 8 => ⟨S4x2x512x512, .f32⟩
  | 9 => ⟨S300000, .i32⟩
  | 10 => ⟨S300000, .i32⟩
  | 11 => ⟨S300000, .i32⟩
  | 12 => ⟨S300000, .i32⟩
  | 13 => ⟨S10000x512, .f32⟩
  | 14 => ⟨S1x512, .f32⟩
  | 15 => ⟨S10000x512, .f32⟩
  | 16 => ⟨S10000x512, .f32⟩
  | 17 => ⟨S50000x512, .f32⟩
  | 18 => ⟨S1x512, .f32⟩
  | 19 => ⟨S50000x512, .f32⟩
  | 20 => ⟨S50000x512, .f32⟩
  | 21 => ⟨S_, .i32⟩
  | 22 => ⟨S300000, .i32⟩
  | 23 => ⟨S300000, .i1⟩
  | 24 => ⟨S_, .i32⟩
  | 25 => ⟨S300000, .i32⟩
  | 26 => ⟨S300000, .i32⟩
  | 27 => ⟨S300000, .i32⟩
  | 28 => ⟨S300000x1, .i32⟩
  | 29 => ⟨S300000x512, .f32⟩
  | 30 => ⟨S_, .f32⟩
  | 31 => ⟨S50000x512, .f32⟩
  | 32 => ⟨S300000x1, .i32⟩
  | 33 => ⟨S50000x512, .f32⟩
  | 34 => ⟨S_, .f32⟩
  | 35 => ⟨S300000x1, .f32⟩
  | 36 => ⟨S_, .f32⟩
  | 37 => ⟨S50000x1, .f32⟩
  | 38 => ⟨S300000x1, .i32⟩
  | 39 => ⟨S50000x1, .f32⟩
  | 40 => ⟨S_, .f32⟩
  | 41 => ⟨S50000x1, .f32⟩
  | 42 => ⟨S50000x1, .f32⟩
  | 43 => ⟨S50000x512, .f32⟩
  | 44 => ⟨S50000x512, .f32⟩
  | 45 => ⟨S_, .i32⟩
  | 46 => ⟨S300000, .i32⟩
  | 47 => ⟨S300000, .i1⟩
  | 48 => ⟨S_, .i32⟩
  | 49 => ⟨S300000, .i32⟩
  | 50 => ⟨S300000, .i32⟩
  | 51 => ⟨S300000, .i32⟩
  | 52 => ⟨S300000x1, .i32⟩
  | 53 => ⟨S300000x512, .f32⟩
  | 54 => ⟨S_, .f32⟩
  | 55 => ⟨S10000x512, .f32⟩
  | 56 => ⟨S300000x1, .i32⟩
  | 57 => ⟨S10000x512, .f32⟩
  | 58 => ⟨S_, .f32⟩
  | 59 => ⟨S300000x1, .f32⟩
  | 60 => ⟨S_, .f32⟩
  | 61 => ⟨S10000x1, .f32⟩
  | 62 => ⟨S300000x1, .i32⟩
  | 63 => ⟨S10000x1, .f32⟩
  | 64 => ⟨S_, .f32⟩
  | 65 => ⟨S10000x1, .f32⟩
  | 66 => ⟨S10000x1, .f32⟩
  | 67 => ⟨S10000x512, .f32⟩
  | 68 => ⟨S10000x512, .f32⟩
  | 69 => ⟨S1x1x512x512, .f32⟩
  | 70 => ⟨S512x512, .f32⟩
  | 71 => ⟨S50000x512, .f32⟩
  | 72 => ⟨S1x1x512, .f32⟩
  | 73 => ⟨S512, .f32⟩
  | 74 => ⟨S1x512, .f32⟩
  | 75 => ⟨S50000x512, .f32⟩
  | 76 => ⟨S50000x512, .f32⟩
  | 77 => ⟨S1x1x512x512, .f32⟩
  | 78 => ⟨S512x512, .f32⟩
  | 79 => ⟨S50000x512, .f32⟩
  | 80 => ⟨S50000x512, .f32⟩
  | 81 => ⟨S_, .f32⟩
  | 82 => ⟨S50000x512, .f32⟩
  | 83 => ⟨S50000x512, .f32⟩
  | 84 => ⟨S1x1x512x512, .f32⟩
  | 85 => ⟨S512x512, .f32⟩
  | 86 => ⟨S10000x512, .f32⟩
  | 87 => ⟨S1x1x512, .f32⟩
  | 88 => ⟨S512, .f32⟩
  | 89 => ⟨S1x512, .f32⟩
  | 90 => ⟨S10000x512, .f32⟩
  | 91 => ⟨S10000x512, .f32⟩
  | 92 => ⟨S1x1x512x512, .f32⟩
  | 93 => ⟨S512x512, .f32⟩
  | 94 => ⟨S10000x512, .f32⟩
  | 95 => ⟨S10000x512, .f32⟩
  | 96 => ⟨S_, .f32⟩
  | 97 => ⟨S10000x512, .f32⟩
  | 98 => ⟨S10000x512, .f32⟩
  | 99 => ⟨S_, .i32⟩
  | 100 => ⟨S300000, .i32⟩
  | 101 => ⟨S300000, .i1⟩
  | 102 => ⟨S_, .i32⟩
  | 103 => ⟨S300000, .i32⟩
  | 104 => ⟨S300000, .i32⟩
  | 105 => ⟨S300000, .i32⟩
  | 106 => ⟨S300000x1, .i32⟩
  | 107 => ⟨S300000x512, .f32⟩
  | 108 => ⟨S_, .f32⟩
  | 109 => ⟨S50000x512, .f32⟩
  | 110 => ⟨S300000x1, .i32⟩
  | 111 => ⟨S50000x512, .f32⟩
  | 112 => ⟨S_, .f32⟩
  | 113 => ⟨S300000x1, .f32⟩
  | 114 => ⟨S_, .f32⟩
  | 115 => ⟨S50000x1, .f32⟩
  | 116 => ⟨S300000x1, .i32⟩
  | 117 => ⟨S50000x1, .f32⟩
  | 118 => ⟨S_, .f32⟩
  | 119 => ⟨S50000x1, .f32⟩
  | 120 => ⟨S50000x1, .f32⟩
  | 121 => ⟨S50000x512, .f32⟩
  | 122 => ⟨S50000x512, .f32⟩
  | 123 => ⟨S_, .i32⟩
  | 124 => ⟨S300000, .i32⟩
  | 125 => ⟨S300000, .i1⟩
  | 126 => ⟨S_, .i32⟩
  | 127 => ⟨S300000, .i32⟩
  | _ => ⟨S10000x64, .f32⟩

abbrev hbmTy0_1 (i : Nat) : BufTy := match i % 128 with
  | 0 => ⟨S300000, .i32⟩
  | 1 => ⟨S300000, .i32⟩
  | 2 => ⟨S300000x1, .i32⟩
  | 3 => ⟨S300000x512, .f32⟩
  | 4 => ⟨S_, .f32⟩
  | 5 => ⟨S10000x512, .f32⟩
  | 6 => ⟨S300000x1, .i32⟩
  | 7 => ⟨S10000x512, .f32⟩
  | 8 => ⟨S_, .f32⟩
  | 9 => ⟨S300000x1, .f32⟩
  | 10 => ⟨S_, .f32⟩
  | 11 => ⟨S10000x1, .f32⟩
  | 12 => ⟨S300000x1, .i32⟩
  | 13 => ⟨S10000x1, .f32⟩
  | 14 => ⟨S_, .f32⟩
  | 15 => ⟨S10000x1, .f32⟩
  | 16 => ⟨S10000x1, .f32⟩
  | 17 => ⟨S10000x512, .f32⟩
  | 18 => ⟨S10000x512, .f32⟩
  | 19 => ⟨S1x1x512x512, .f32⟩
  | 20 => ⟨S512x512, .f32⟩
  | 21 => ⟨S50000x512, .f32⟩
  | 22 => ⟨S1x1x512, .f32⟩
  | 23 => ⟨S512, .f32⟩
  | 24 => ⟨S1x512, .f32⟩
  | 25 => ⟨S50000x512, .f32⟩
  | 26 => ⟨S50000x512, .f32⟩
  | 27 => ⟨S1x1x512x512, .f32⟩
  | 28 => ⟨S512x512, .f32⟩
  | 29 => ⟨S50000x512, .f32⟩
  | 30 => ⟨S50000x512, .f32⟩
  | 31 => ⟨S_, .f32⟩
  | 32 => ⟨S50000x512, .f32⟩
  | 33 => ⟨S50000x512, .f32⟩
  | 34 => ⟨S1x1x512x512, .f32⟩
  | 35 => ⟨S512x512, .f32⟩
  | 36 => ⟨S10000x512, .f32⟩
  | 37 => ⟨S1x1x512, .f32⟩
  | 38 => ⟨S512, .f32⟩
  | 39 => ⟨S1x512, .f32⟩
  | 40 => ⟨S10000x512, .f32⟩
  | 41 => ⟨S10000x512, .f32⟩
  | 42 => ⟨S1x1x512x512, .f32⟩
  | 43 => ⟨S512x512, .f32⟩
  | 44 => ⟨S10000x512, .f32⟩
  | 45 => ⟨S10000x512, .f32⟩
  | 46 => ⟨S_, .f32⟩
  | 47 => ⟨S10000x512, .f32⟩
  | 48 => ⟨S10000x512, .f32⟩
  | 49 => ⟨S_, .i32⟩
  | 50 => ⟨S300000, .i32⟩
  | 51 => ⟨S300000, .i1⟩
  | 52 => ⟨S_, .i32⟩
  | 53 => ⟨S300000, .i32⟩
  | 54 => ⟨S300000, .i32⟩
  | 55 => ⟨S300000, .i32⟩
  | 56 => ⟨S300000x1, .i32⟩
  | 57 => ⟨S300000x512, .f32⟩
  | 58 => ⟨S_, .f32⟩
  | 59 => ⟨S50000x512, .f32⟩
  | 60 => ⟨S300000x1, .i32⟩
  | 61 => ⟨S50000x512, .f32⟩
  | 62 => ⟨S_, .f32⟩
  | 63 => ⟨S300000x1, .f32⟩
  | 64 => ⟨S_, .f32⟩
  | 65 => ⟨S50000x1, .f32⟩
  | 66 => ⟨S300000x1, .i32⟩
  | 67 => ⟨S50000x1, .f32⟩
  | 68 => ⟨S_, .f32⟩
  | 69 => ⟨S50000x1, .f32⟩
  | 70 => ⟨S50000x1, .f32⟩
  | 71 => ⟨S50000x512, .f32⟩
  | 72 => ⟨S50000x512, .f32⟩
  | 73 => ⟨S_, .i32⟩
  | 74 => ⟨S300000, .i32⟩
  | 75 => ⟨S300000, .i1⟩
  | 76 => ⟨S_, .i32⟩
  | 77 => ⟨S300000, .i32⟩
  | 78 => ⟨S300000, .i32⟩
  | 79 => ⟨S300000, .i32⟩
  | 80 => ⟨S300000x1, .i32⟩
  | 81 => ⟨S300000x512, .f32⟩
  | 82 => ⟨S_, .f32⟩
  | 83 => ⟨S10000x512, .f32⟩
  | 84 => ⟨S300000x1, .i32⟩
  | 85 => ⟨S10000x512, .f32⟩
  | 86 => ⟨S_, .f32⟩
  | 87 => ⟨S300000x1, .f32⟩
  | 88 => ⟨S_, .f32⟩
  | 89 => ⟨S10000x1, .f32⟩
  | 90 => ⟨S300000x1, .i32⟩
  | 91 => ⟨S10000x1, .f32⟩
  | 92 => ⟨S_, .f32⟩
  | 93 => ⟨S10000x1, .f32⟩
  | 94 => ⟨S10000x1, .f32⟩
  | 95 => ⟨S10000x512, .f32⟩
  | 96 => ⟨S10000x512, .f32⟩
  | 97 => ⟨S1x1x512x512, .f32⟩
  | 98 => ⟨S512x512, .f32⟩
  | 99 => ⟨S50000x512, .f32⟩
  | 100 => ⟨S1x1x512, .f32⟩
  | 101 => ⟨S512, .f32⟩
  | 102 => ⟨S1x512, .f32⟩
  | 103 => ⟨S50000x512, .f32⟩
  | 104 => ⟨S50000x512, .f32⟩
  | 105 => ⟨S1x1x512x512, .f32⟩
  | 106 => ⟨S512x512, .f32⟩
  | 107 => ⟨S50000x512, .f32⟩
  | 108 => ⟨S50000x512, .f32⟩
  | 109 => ⟨S_, .f32⟩
  | 110 => ⟨S50000x512, .f32⟩
  | 111 => ⟨S50000x512, .f32⟩
  | 112 => ⟨S1x1x512x512, .f32⟩
  | 113 => ⟨S512x512, .f32⟩
  | 114 => ⟨S10000x512, .f32⟩
  | 115 => ⟨S1x1x512, .f32⟩
  | 116 => ⟨S512, .f32⟩
  | 117 => ⟨S1x512, .f32⟩
  | 118 => ⟨S10000x512, .f32⟩
  | 119 => ⟨S10000x512, .f32⟩
  | 120 => ⟨S1x1x512x512, .f32⟩
  | 121 => ⟨S512x512, .f32⟩
  | 122 => ⟨S10000x512, .f32⟩
  | 123 => ⟨S10000x512, .f32⟩
  | 124 => ⟨S_, .f32⟩
  | 125 => ⟨S10000x512, .f32⟩
  | 126 => ⟨S10000x512, .f32⟩
  | 127 => ⟨S_, .i32⟩
  | _ => ⟨S10000x64, .f32⟩

abbrev hbmTy0_2 (i : Nat) : BufTy := match i % 128 with
  | 0 => ⟨S300000, .i32⟩
  | 1 => ⟨S300000, .i1⟩
  | 2 => ⟨S_, .i32⟩
  | 3 => ⟨S300000, .i32⟩
  | 4 => ⟨S300000, .i32⟩
  | 5 => ⟨S300000, .i32⟩
  | 6 => ⟨S300000x1, .i32⟩
  | 7 => ⟨S300000x512, .f32⟩
  | 8 => ⟨S_, .f32⟩
  | 9 => ⟨S50000x512, .f32⟩
  | 10 => ⟨S300000x1, .i32⟩
  | 11 => ⟨S50000x512, .f32⟩
  | 12 => ⟨S_, .f32⟩
  | 13 => ⟨S300000x1, .f32⟩
  | 14 => ⟨S_, .f32⟩
  | 15 => ⟨S50000x1, .f32⟩
  | 16 => ⟨S300000x1, .i32⟩
  | 17 => ⟨S50000x1, .f32⟩
  | 18 => ⟨S_, .f32⟩
  | 19 => ⟨S50000x1, .f32⟩
  | 20 => ⟨S50000x1, .f32⟩
  | 21 => ⟨S50000x512, .f32⟩
  | 22 => ⟨S50000x512, .f32⟩
  | 23 => ⟨S_, .i32⟩
  | 24 => ⟨S300000, .i32⟩
  | 25 => ⟨S300000, .i1⟩
  | 26 => ⟨S_, .i32⟩
  | 27 => ⟨S300000, .i32⟩
  | 28 => ⟨S300000, .i32⟩
  | 29 => ⟨S300000, .i32⟩
  | 30 => ⟨S300000x1, .i32⟩
  | 31 => ⟨S300000x512, .f32⟩
  | 32 => ⟨S_, .f32⟩
  | 33 => ⟨S10000x512, .f32⟩
  | 34 => ⟨S300000x1, .i32⟩
  | 35 => ⟨S10000x512, .f32⟩
  | 36 => ⟨S_, .f32⟩
  | 37 => ⟨S300000x1, .f32⟩
  | 38 => ⟨S_, .f32⟩
  | 39 => ⟨S10000x1, .f32⟩
  | 40 => ⟨S300000x1, .i32⟩
  | 41 => ⟨S10000x1, .f32⟩
  | 42 => ⟨S_, .f32⟩
  | 43 => ⟨S10000x1, .f32⟩
  | 44 => ⟨S10000x1, .f32⟩
  | 45 => ⟨S10000x512, .f32⟩
  | 46 => ⟨S10000x512, .f32⟩
  | 47 => ⟨S1x1x512x512, .f32⟩
  | 48 => ⟨S512x512, .f32⟩
  | 49 => ⟨S50000x512, .f32⟩
  | 50 => ⟨S1x1x512, .f32⟩
  | 51 => ⟨S512, .f32⟩
  | 52 => ⟨S1x512, .f32⟩
  | 53 => ⟨S50000x512, .f32⟩
  | 54 => ⟨S50000x512, .f32⟩
  | 55 => ⟨S1x1x512x512, .f32⟩
  | 56 => ⟨S512x512, .f32⟩
  | 57 => ⟨S50000x512, .f32⟩
  | 58 => ⟨S50000x512, .f32⟩
  | 59 => ⟨S_, .f32⟩
  | 60 => ⟨S50000x512, .f32⟩
  | 61 => ⟨S50000x512, .f32⟩
  | 62 => ⟨S1x1x512x512, .f32⟩
  | 63 => ⟨S512x512, .f32⟩
  | 64 => ⟨S10000x512, .f32⟩
  | 65 => ⟨S1x1x512, .f32⟩
  | 66 => ⟨S512, .f32⟩
  | 67 => ⟨S1x512, .f32⟩
  | 68 => ⟨S10000x512, .f32⟩
  | 69 => ⟨S10000x512, .f32⟩
  | 70 => ⟨S1x1x512x512, .f32⟩
  | 71 => ⟨S512x512, .f32⟩
  | 72 => ⟨S10000x512, .f32⟩
  | 73 => ⟨S10000x512, .f32⟩
  | 74 => ⟨S_, .f32⟩
  | 75 => ⟨S10000x512, .f32⟩
  | 76 => ⟨S10000x512, .f32⟩
  | _ => ⟨S10000x64, .f32⟩

abbrev hbmTy (i : Nat) : BufTy := match i / 128 with
  | 0 => hbmTy0_0 i
  | 1 => hbmTy0_1 i
  | 2 => hbmTy0_2 i
  | _ => ⟨S10000x64, .f32⟩

abbrev bufTy : (tb : Table) → Fin (tcTables nBuf tb) → BufTy
  | .hbm, ⟨i, _⟩ => hbmTy i
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call0_cst : Ref sig .tc := ⟨.hbm, 81, rfl⟩
abbrev main_call0_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call1_cst : Ref sig .tc := ⟨.hbm, 96, rfl⟩
abbrev main_call1_v0 : Ref sig .tc := ⟨.hbm, 97, rfl⟩
abbrev main_v69 : Ref sig .tc := ⟨.hbm, 98, rfl⟩
abbrev main_c_10 : Ref sig .tc := ⟨.hbm, 99, rfl⟩
abbrev main_v70 : Ref sig .tc := ⟨.hbm, 100, rfl⟩
abbrev main_v71 : Ref sig .tc := ⟨.hbm, 101, rfl⟩
abbrev main_c_11 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_12 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_13 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_16 : Ref sig .tc := ⟨.hbm, 123, rfl⟩
abbrev main_v88 : Ref sig .tc := ⟨.hbm, 124, rfl⟩
abbrev main_v89 : Ref sig .tc := ⟨.hbm, 125, rfl⟩
abbrev main_c_17 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_18 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_19 : Ref sig .tc := ⟨.hbm, 136, rfl⟩
abbrev main_v98 : Ref sig .tc := ⟨.hbm, 137, rfl⟩
abbrev main_cst_20 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_21 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_call2_cst : Ref sig .tc := ⟨.hbm, 159, rfl⟩
abbrev main_call2_v0 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_call3_cst : Ref sig .tc := ⟨.hbm, 174, rfl⟩
abbrev main_call3_v0 : Ref sig .tc := ⟨.hbm, 175, rfl⟩
abbrev main_v131 : Ref sig .tc := ⟨.hbm, 176, rfl⟩
abbrev main_c_22 : Ref sig .tc := ⟨.hbm, 177, rfl⟩
abbrev main_v132 : Ref sig .tc := ⟨.hbm, 178, rfl⟩
abbrev main_v133 : Ref sig .tc := ⟨.hbm, 179, rfl⟩
abbrev main_c_23 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_24 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_25 : Ref sig .tc := ⟨.hbm, 190, rfl⟩
abbrev main_v142 : Ref sig .tc := ⟨.hbm, 191, rfl⟩
abbrev main_cst_26 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_27 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_c_28 : Ref sig .tc := ⟨.hbm, 201, rfl⟩
abbrev main_v150 : Ref sig .tc := ⟨.hbm, 202, rfl⟩
abbrev main_v151 : Ref sig .tc := ⟨.hbm, 203, rfl⟩
abbrev main_c_29 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_cst_30 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_cst_31 : Ref sig .tc := ⟨.hbm, 214, rfl⟩
abbrev main_v160 : Ref sig .tc := ⟨.hbm, 215, rfl⟩
abbrev main_cst_32 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_33 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_call4_cst : Ref sig .tc := ⟨.hbm, 237, rfl⟩
abbrev main_call4_v0 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_call5_cst : Ref sig .tc := ⟨.hbm, 252, rfl⟩
abbrev main_call5_v0 : Ref sig .tc := ⟨.hbm, 253, rfl⟩
abbrev main_v193 : Ref sig .tc := ⟨.hbm, 254, rfl⟩
abbrev main_c_34 : Ref sig .tc := ⟨.hbm, 255, rfl⟩
abbrev main_v194 : Ref sig .tc := ⟨.hbm, 256, rfl⟩
abbrev main_v195 : Ref sig .tc := ⟨.hbm, 257, rfl⟩
abbrev main_c_35 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_36 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_cst_37 : Ref sig .tc := ⟨.hbm, 268, rfl⟩
abbrev main_v204 : Ref sig .tc := ⟨.hbm, 269, rfl⟩
abbrev main_cst_38 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_cst_39 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_c_40 : Ref sig .tc := ⟨.hbm, 279, rfl⟩
abbrev main_v212 : Ref sig .tc := ⟨.hbm, 280, rfl⟩
abbrev main_v213 : Ref sig .tc := ⟨.hbm, 281, rfl⟩
abbrev main_c_41 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_cst_42 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_cst_43 : Ref sig .tc := ⟨.hbm, 292, rfl⟩
abbrev main_v222 : Ref sig .tc := ⟨.hbm, 293, rfl⟩
abbrev main_cst_44 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_cst_45 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_call6_cst : Ref sig .tc := ⟨.hbm, 315, rfl⟩
abbrev main_call6_v0 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_call7_cst : Ref sig .tc := ⟨.hbm, 330, rfl⟩
abbrev main_call7_v0 : Ref sig .tc := ⟨.hbm, 331, rfl⟩
abbrev main_v255 : Ref sig .tc := ⟨.hbm, 332, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S1x512_S50000x512_0_1 : S1x512.BroadcastsInDim S50000x512 (![0, 1] : Fin 2 → Fin S50000x512.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S50000x512 : S_.BroadcastsInDim S50000x512 (![] : Fin 0 → Fin S50000x512.rank)
  bcast_S_S300000x1 : S_.BroadcastsInDim S300000x1 (![] : Fin 0 → Fin S300000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  bcast_S_S10000x512 : S_.BroadcastsInDim S10000x512 (![] : Fin 0 → Fin S10000x512.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  slices_S4x2x512x512_S1x1x512x512_0_0_0_0 : S4x2x512x512.Slices ![0, 0, 0, 0] S1x1x512x512
  shapeCasts_S1x1x512x512_S512x512 : S1x1x512x512.ShapeCasts S512x512
  slices_S4x2x512_S1x1x512_0_0_0 : S4x2x512.Slices ![0, 0, 0] S1x1x512
  shapeCasts_S1x1x512_S512 : S1x1x512.ShapeCasts S512
  slices_S4x2x512x512_S1x1x512x512_0_1_0_0 : S4x2x512x512.Slices ![0, 1, 0, 0] S1x1x512x512
  slices_S4x2x512_S1x1x512_0_1_0 : S4x2x512.Slices ![0, 1, 0] S1x1x512
  slices_S4x2x512x512_S1x1x512x512_1_0_0_0 : S4x2x512x512.Slices ![1, 0, 0, 0] S1x1x512x512
  slices_S4x2x512_S1x1x512_1_0_0 : S4x2x512.Slices ![1, 0, 0] S1x1x512
  slices_S4x2x512x512_S1x1x512x512_1_1_0_0 : S4x2x512x512.Slices ![1, 1, 0, 0] S1x1x512x512
  slices_S4x2x512_S1x1x512_1_1_0 : S4x2x512.Slices ![1, 1, 0] S1x1x512
  slices_S4x2x512x512_S1x1x512x512_2_0_0_0 : S4x2x512x512.Slices ![2, 0, 0, 0] S1x1x512x512
  slices_S4x2x512_S1x1x512_2_0_0 : S4x2x512.Slices ![2, 0, 0] S1x1x512
  slices_S4x2x512x512_S1x1x512x512_2_1_0_0 : S4x2x512x512.Slices ![2, 1, 0, 0] S1x1x512x512
  slices_S4x2x512_S1x1x512_2_1_0 : S4x2x512.Slices ![2, 1, 0] S1x1x512
  slices_S4x2x512x512_S1x1x512x512_3_0_0_0 : S4x2x512x512.Slices ![3, 0, 0, 0] S1x1x512x512
  slices_S4x2x512_S1x1x512_3_0_0 : S4x2x512.Slices ![3, 0, 0] S1x1x512
  slices_S4x2x512x512_S1x1x512x512_3_1_0_0 : S4x2x512x512.Slices ![3, 1, 0, 0] S1x1x512x512
  slices_S4x2x512_S1x1x512_3_1_0 : S4x2x512.Slices ![3, 1, 0] S1x1x512
  dot_S10000x64_S64x512_S10000x512_1_0_0_1_n_n_wf : DotDims.WF S10000x64 S64x512 S10000x512 [1] [0] [0] [1] [] []
  dot_S50000x32_S32x512_S50000x512_1_0_0_1_n_n_wf : DotDims.WF S50000x32 S32x512 S50000x512 [1] [0] [0] [1] [] []
  gather_S10000x512_S300000x1_S300000x512_1_0_n_n_0_1_1512_wf : GatherDims.WF S10000x512 S300000x1 S300000x512 [1] [0] [] [0] [] 1 ![1, 512]
  scatter_S50000x512_S300000x1_S300000x512_1_0_0_1_wf : ScatterDims.WF S50000x512 S300000x1 S300000x512 [1] [0] [0] 1
  scatter_S50000x1_S300000x1_S300000x1_1_0_0_1_wf : ScatterDims.WF S50000x1 S300000x1 S300000x1 [1] [0] [0] 1
  gather_S50000x512_S300000x1_S300000x512_1_0_n_n_0_1_1512_wf : GatherDims.WF S50000x512 S300000x1 S300000x512 [1] [0] [] [0] [] 1 ![1, 512]
  scatter_S10000x512_S300000x1_S300000x512_1_0_0_1_wf : ScatterDims.WF S10000x512 S300000x1 S300000x512 [1] [0] [0] 1
  scatter_S10000x1_S300000x1_S300000x1_1_0_0_1_wf : ScatterDims.WF S10000x1 S300000x1 S300000x1 [1] [0] [0] 1
  dot_S50000x512_S512x512_S50000x512_1_0_0_1_n_n_wf : DotDims.WF S50000x512 S512x512 S50000x512 [1] [0] [0] [1] [] []
  dot_S10000x512_S512x512_S10000x512_1_0_0_1_n_n_wf : DotDims.WF S10000x512 S512x512 S10000x512 [1] [0] [0] [1] [] []

variable [Facts₀]

def dot_S10000x64_S64x512_S10000x512_1_0_0_1_n_n : DotDims S10000x64 S64x512 S10000x512 where
  lhsContracting := [1]
  rhsContracting := [0]
  lhsNonContracting := [0]
  rhsNonContracting := [1]
  lhsBatch := []
  rhsBatch := []
  wf := dot_S10000x64_S64x512_S10000x512_1_0_0_1_n_n_wf
def dot_S50000x32_S32x512_S50000x512_1_0_0_1_n_n : DotDims S50000x32 S32x512 S50000x512 where
  lhsContracting := [1]
  rhsContracting := [0]
  lhsNonContracting := [0]
  rhsNonContracting := [1]
  lhsBatch := []
  rhsBatch := []
  wf := dot_S50000x32_S32x512_S50000x512_1_0_0_1_n_n_wf
def gather_S10000x512_S300000x1_S300000x512_1_0_n_n_0_1_1512 : GatherDims S10000x512 S300000x1 S300000x512 where
  offsetDims := [1]
  collapsedSliceDims := [0]
  operandBatchingDims := []
  startIndicesBatchingDims := []
  startIndexMap := [0]
  indexVectorDim := 1
  sliceSizes := ![1, 512]
  wf := gather_S10000x512_S300000x1_S300000x512_1_0_n_n_0_1_1512_wf
def scatter_S50000x512_S300000x1_S300000x512_1_0_0_1 : ScatterDims S50000x512 S300000x1 S300000x512 where
  updateWindowDims := [1]
  insertedWindowDims := [0]
  scatterDimsToOperandDims := [0]
  indexVectorDim := 1
  wf := scatter_S50000x512_S300000x1_S300000x512_1_0_0_1_wf
def scatter_S50000x1_S300000x1_S300000x1_1_0_0_1 : ScatterDims S50000x1 S300000x1 S300000x1 where
  updateWindowDims := [1]
  insertedWindowDims := [0]
  scatterDimsToOperandDims := [0]
  indexVectorDim := 1
  wf := scatter_S50000x1_S300000x1_S300000x1_1_0_0_1_wf
def gather_S50000x512_S300000x1_S300000x512_1_0_n_n_0_1_1512 : GatherDims S50000x512 S300000x1 S300000x512 where
  offsetDims := [1]
  collapsedSliceDims := [0]
  operandBatchingDims := []
  startIndicesBatchingDims := []
  startIndexMap := [0]
  indexVectorDim := 1
  sliceSizes := ![1, 512]
  wf := gather_S50000x512_S300000x1_S300000x512_1_0_n_n_0_1_1512_wf
def scatter_S10000x512_S300000x1_S300000x512_1_0_0_1 : ScatterDims S10000x512 S300000x1 S300000x512 where
  updateWindowDims := [1]
  insertedWindowDims := [0]
  scatterDimsToOperandDims := [0]
  indexVectorDim := 1
  wf := scatter_S10000x512_S300000x1_S300000x512_1_0_0_1_wf
def scatter_S10000x1_S300000x1_S300000x1_1_0_0_1 : ScatterDims S10000x1 S300000x1 S300000x1 where
  updateWindowDims := [1]
  insertedWindowDims := [0]
  scatterDimsToOperandDims := [0]
  indexVectorDim := 1
  wf := scatter_S10000x1_S300000x1_S300000x1_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.KerRun.lean ====
/-
  The kernel program's run with its two RESULTS in the post: every weakly fair execution of @main
  terminates without a fault, and in the final state each of the two result buffers (the servers'
  and the devices' last SAGE outputs) holds what the fold over the twenty segments (ten stretches
  of host operations, ten kernel regions) leaves there, the argument arrays being as launched.
  The launch over the segments is the library's several-regions theorem; the last thread state is
  read against the final memory at every unscoped buffer, of which the two results are instances.
-/
import proofs.«106831_j73237782332046_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with each result buffer at the fold's final contents and the arguments unchanged. -/
theorem run_values : θ_run defs (onTc (τ := τ) (main (F := F))) ⟨m, fun _ => 0, ρ⟩ (fun r => ∀ c : Dev nD,
      r.2.mem ((c.tc : Thread nD τ).loc main_v170) = W20 m ρ c (Proc.devRef .tc main_v170)
      ∧ r.2.mem ((c.tc : Thread nD τ).loc main_v161) = W20 m ρ c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v170 (by decide)),
       h c _ (mem_uc main_v161 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c)⟩)

end Cert.KernelIdeal.RunValues

end
-- ==== Proof.Spec.lean ====
/-
  The mathematics both programs compute, one entry at a time, on the extended reals.

  A linear layer's entry is a row times a column of the weights, plus the bias.  A SAGE update's
  entry combines the row `s` of neighbour SUMS (to be divided by the clamped in-degree `c ≥ 1`),
  the node's own row `h`, two weight matrices and a bias, and clamps at zero.  The two programs
  arrange it differently: one multiplies the sums by the reciprocal `1 / c` and adds the bias last;
  the other divides by `c` and adds the bias between the two products.  On the extended reals
  addition is commutative and associative everywhere, and for `c ≠ 0` the quotient `x / c` IS the
  product `x · c⁻¹`, with `1 / c = c⁻¹`; so the two arrangements agree for every `c ≥ 1`, finite
  or not, and for arbitrary (also infinite) `s`, `h`, weights and bias.
-/
import Idealize.ShloMosaic.PureOps.Ideal
import Idealize.ShloMosaic.Lib.ValueIdx

noncomputable section

namespace Cert.Spec

open Idealize.ShloMosaic

/-- One entry of a linear layer's row: the row times column `j` of `W`, plus the bias. -/
def linAt {K : Nat} (x : Fin K → EReal) (W : Fin K → Fin 512 → EReal) (b : Fin 512 → EReal) (j : Fin 512) : EReal :=
  (∑ k, x k * W k j) + b j

/-- One entry of a SAGE update in the order `relu (((s / c) · Wl[:, j] + b j) + h · Wr[:, j])`. -/
def sageRefAt (s h : Fin 512 → EReal) (c : EReal) (Wl Wr : Fin 512 → Fin 512 → EReal) (b : Fin 512 → EReal) (j : Fin 512) : EReal :=
  max (((∑ k, Ideal.div (s k) c * Wl k j) + b j) + ∑ k, h k * Wr k j) 0

/-- One entry of a SAGE update in the order `relu (((s · inv) · Wl[:, j] + h · Wr[:, j]) + b j)`. -/
def sageKerAt (s h : Fin 512 → EReal) (inv : EReal) (Wl Wr : Fin 512 → Fin 512 → EReal) (b : Fin 512 → EReal) (j : Fin 512) : EReal :=
  max (((∑ k, (s k * inv) * Wl k j) + ∑ k, h k * Wr k j) + b j) 0

/-- Off zero the quotient is the product with the inverse, and the reciprocal is the inverse. -/
theorem mul_recip (x c : EReal) (hc : c ≠ 0) : x * Ideal.div 1 c = Ideal.div x c := by
  unfold Ideal.div
  rw [if_neg hc, if_neg hc, one_mul]

/-- The two arrangements of a SAGE entry agree whenever the clamped count is at least one. -/
theorem sageKerAt_recip (s h : Fin 512 → EReal) (c : EReal) (hc : 1 ≤ c) (Wl Wr : Fin 512 → Fin 512 → EReal)
    (b : Fin 512 → EReal) (j : Fin 512) :
    sageKerAt s h (Ideal.div 1 c) Wl Wr b j = sageRefAt s h c Wl Wr b j := by
  have hc0 : c ≠ 0 := fun e => by rw [e] at hc; exact absurd hc (by norm_num)
  unfold sageKerAt sageRefAt
  simp only [mul_recip _ _ hc0]
  rw [add_right_comm]

/-- Equal rows, weights, bias and column give equal entries. -/
theorem linAt_congr {K : Nat} {x x' : Fin K → EReal} {W W' : Fin K → Fin 512 → EReal} {b b' : Fin 512 → EReal} {j j' : Fin 512}
    (hx : x = x') (hW : W = W') (hb : b = b') (hj : j = j') : linAt x W b j = linAt x' W' b' j' := by
  subst hx hW hb hj; rfl

/-- Equal rows, reciprocal, weights, bias and column give equal entries. -/
theorem sageKerAt_congr {s s' h h' : Fin 512 → EReal} {inv inv' : EReal} {Wl Wl' Wr Wr' : Fin 512 → Fin 512 → EReal}
    {b b' : Fin 512 → EReal} {j j' : Fin 512} (hs : s = s') (hh : h = h') (hinv : inv = inv') (hWl : Wl = Wl') (hWr : Wr = Wr')
    (hb : b = b') (hj : j = j') : sageKerAt s h inv Wl Wr b j = sageKerAt s' h' inv' Wl' Wr' b' j' := by
  subst hs hh hinv hWl hWr hb hj; rfl

end Cert.Spec

end
-- ==== Proof.KerPay.lean ====
/-
  The kernels' bodies at an index.  A projection body stores, at `(p, q)` of its 1000 × 512 block,
  `Σ_k x[p, k] · W[k, q] + b[0, q]`; a SAGE body stores
  `max (((Σ_k (s[p, k] · inv[p, 0]) · Wl[k, q]) + Σ_k h[p, k] · Wr[k, q]) + b[0, q]) 0`:
  the matrix unit's product into a zero accumulator is the plain sum over the contracted axis, a
  same-shape cast is the identity, the bias row and the reciprocal-count column are broadcast
  along the missing axis, and the float zero is the real zero.
-/
import proofs.«106831_j73237782332046_2_alg».proof.Proof.Gen.KernelIdeal.Skeleton
import proofs.«106831_j73237782332046_2_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The matrix unit's product into a zero accumulator, read at `(p, q)`: row `p` of the left operand times
    column `q` of the right. -/
theorem matmul64_at (l : FVec Ideal S1000x64 .f32) (r : FVec Ideal S64x512 .f32) (p : Fin 1000) (q : Fin 512) :
    matmul dot_S1000x64_S64x512_S1000x512_1_0_0_1_n_n none l r (constant S1000x512 .f32 0x00000000#32) (ix2 p q)
      = ∑ k : Fin 64, l (ix2 p k) * r (ix2 k q) := by
  refine (Ideal.matmul_constant_zero_apply dot_S1000x64_S64x512_S1000x512_1_0_0_1_n_n none l r (ix2 p q)).trans ?_
  rw [← Equiv.sum_comp (contrEquiv1 dot_S1000x64_S64x512_S1000x512_1_0_0_1_n_n 64 rfl rfl).symm]
  refine Finset.sum_congr rfl fun k _ => ?_
  have hk := contrEquiv1_symm_val dot_S1000x64_S64x512_S1000x512_1_0_0_1_n_n 64 rfl rfl k
  have el : dot_S1000x64_S64x512_S1000x512_1_0_0_1_n_n.lhsIdx (ix2 p q) ((contrEquiv1 dot_S1000x64_S64x512_S1000x512_1_0_0_1_n_n 64 rfl rfl).symm k) = ix2 p k :=
    funext fun a => Fin.ext (by
      match a with
      | ⟨0, _⟩ =>
        show (dot_S1000x64_S64x512_S1000x512_1_0_0_1_n_n.lhsIdx (ix2 p q) _ 0).val = p.val
        unfold DotDims.lhsIdx
        rw [dif_neg (show ¬(0 : Fin S1000x64.rank) ∈ dot_S1000x64_S64x512_S1000x512_1_0_0_1_n_n.lhsBatch by decide),
          dif_pos (show (0 : Fin S1000x64.rank) ∈ dot_S1000x64_S64x512_S1000x512_1_0_0_1_n_n.lhsNonContracting by decide)]
        rfl
      | ⟨1, _⟩ => exact (dot_S1000x64_S64x512_S1000x512_1_0_0_1_n_n.lhsIdx_val_of_single rfl (ix2 p q) _).trans hk)
  have er : dot_S1000x64_S64x512_S1000x512_1_0_0_1_n_n.rhsIdx (ix2 p q) ((contrEquiv1 dot_S1000x64_S64x512_S1000x512_1_0_0_1_n_n 64 rfl rfl).symm k) = ix2 k q :=
    funext fun a => Fin.ext (by
      match a with
      | ⟨0, _⟩ => exact (dot_S1000x64_S64x512_S1000x512_1_0_0_1_n_n.rhsIdx_val_of_single rfl (ix2 p q) _).trans hk
      | ⟨1, _⟩ =>
        show (dot_S1000x64_S64x512_S1000x512_1_0_0_1_n_n.rhsIdx (ix2 p q) _ 1).val = q.val
        unfold DotDims.rhsIdx
        rw [dif_neg (show ¬(1 : Fin S64x512.rank) ∈ dot_S1000x64_S64x512_S1000x512_1_0_0_1_n_n.rhsBatch by decide),
          dif_pos (show (1 : Fin S64x512.rank) ∈ dot_S1000x64_S64x512_S1000x512_1_0_0_1_n_n.rhsNonContracting by decide)]
        rfl)
  rw [el, er]

/-- The matrix unit's product into a zero accumulator, read at `(p, q)`: row `p` of the left operand times
    column `q` of the right. -/
theorem matmul32_at (l : FVec Ideal S1000x32 .f32) (r : FVec Ideal S32x512 .f32) (p : Fin 1000) (q : Fin 512) :
    matmul dot_S1000x32_S32x512_S1000x512_1_0_0_1_n_n none l r (constant S1000x512 .f32 0x00000000#32) (ix2 p q)
      = ∑ k : Fin 32, l (ix2 p k) * r (ix2 k q) := by
  refine (Ideal.matmul_constant_zero_apply dot_S1000x32_S32x512_S1000x512_1_0_0_1_n_n none l r (ix2 p q)).trans ?_
  rw [← Equiv.sum_comp (contrEquiv1 dot_S1000x32_S32x512_S1000x512_1_0_0_1_n_n 32 rfl rfl).symm]
  refine Finset.sum_congr rfl fun k _ => ?_
  have hk := contrEquiv1_symm_val dot_S1000x32_S32x512_S1000x512_1_0_0_1_n_n 32 rfl rfl k
  have el : dot_S1000x32_S32x512_S1000x512_1_0_0_1_n_n.lhsIdx (ix2 p q) ((contrEquiv1 dot_S1000x32_S32x512_S1000x512_1_0_0_1_n_n 32 rfl rfl).symm k) = ix2 p k :=
    funext fun a => Fin.ext (by
      match a with
      | ⟨0, _⟩ =>
        show (dot_S1000x32_S32x512_S1000x512_1_0_0_1_n_n.lhsIdx (ix2 p q) _ 0).val = p.val
        unfold DotDims.lhsIdx
        rw [dif_neg (show ¬(0 : Fin S1000x32.rank) ∈ dot_S1000x32_S32x512_S1000x512_1_0_0_1_n_n.lhsBatch by decide),
          dif_pos (show (0 : Fin S1000x32.rank) ∈ dot_S1000x32_S32x512_S1000x512_1_0_0_1_n_n.lhsNonContracting by decide)]
        rfl
      | ⟨1, _⟩ => exact (dot_S1000x32_S32x512_S1000x512_1_0_0_1_n_n.lhsIdx_val_of_single rfl (ix2 p q) _).trans hk)
  have er : dot_S1000x32_S32x512_S1000x512_1_0_0_1_n_n.rhsIdx (ix2 p q) ((contrEquiv1 dot_S1000x32_S32x512_S1000x512_1_0_0_1_n_n 32 rfl rfl).symm k) = ix2 k q :=
    funext fun a => Fin.ext (by
      match a with
      | ⟨0, _⟩ => exact (dot_S1000x32_S32x512_S1000x512_1_0_0_1_n_n.rhsIdx_val_of_single rfl (ix2 p q) _).trans hk
      | ⟨1, _⟩ =>
        show (dot_S1000x32_S32x512_S1000x512_1_0_0_1_n_n.rhsIdx (ix2 p q) _ 1).val = q.val
        unfold DotDims.rhsIdx
        rw [dif_neg (show ¬(1 : Fin S32x512.rank) ∈ dot_S1000x32_S32x512_S1000x512_1_0_0_1_n_n.rhsBatch by decide),
          dif_pos (show (1 : Fin S32x512.rank) ∈ dot_S1000x32_S32x512_S1000x512_1_0_0_1_n_n.rhsNonContracting by decide)]
        rfl)
  rw [el, er]

/-- The matrix unit's product into a zero accumulator, read at `(p, q)`: row `p` of the left operand times
    column `q` of the right. -/
theorem matmul512_at (l : FVec Ideal S1000x512 .f32) (r : FVec Ideal S512x512 .f32) (p : Fin 1000) (q : Fin 512) :
    matmul dot_S1000x512_S512x512_S1000x512_1_0_0_1_n_n none l r (constant S1000x512 .f32 0x00000000#32) (ix2 p q)
      = ∑ k : Fin 512, l (ix2 p k) * r (ix2 k q) := by
  refine (Ideal.matmul_constant_zero_apply dot_S1000x512_S512x512_S1000x512_1_0_0_1_n_n none l r (ix2 p q)).trans ?_
  rw [← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p q) ((contrEquiv1 dot_S1000x512_S512x512_S1000x512_1_0_0_1_n_n 512 rfl rfl).symm k) = ix2 p k :=
    funext fun a => Fin.ext (by
      match a with
      | ⟨0, _⟩ =>
        show (dot_S1000x512_S512x512_S1000x512_1_0_0_1_n_n.lhsIdx (ix2 p q) _ 0).val = p.val
        unfold DotDims.lhsIdx
        rw [dif_neg (show ¬(0 : Fin S1000x512.rank) ∈ dot_S1000x512_S512x512_S1000x512_1_0_0_1_n_n.lhsBatch by decide),
          dif_pos (show (0 : Fin S1000x512.rank) ∈ dot_S1000x512_S512x512_S1000x512_1_0_0_1_n_n.lhsNonContracting by decide)]
        rfl
      | ⟨1, _⟩ => exact (dot_S1000x512_S512x512_S1000x512_1_0_0_1_n_n.lhsIdx_val_of_single rfl (ix2 p q) _).trans hk)
  have er : dot_S1000x512_S512x512_S1000x512_1_0_0_1_n_n.rhsIdx (ix2 p q) ((contrEquiv1 dot_S1000x512_S512x512_S1000x512_1_0_0_1_n_n 512 rfl rfl).symm k) = ix2 k q :=
    funext fun a => Fin.ext (by
      match a with
      | ⟨0, _⟩ => exact (dot_S1000x512_S512x512_S1000x512_1_0_0_1_n_n.rhsIdx_val_of_single rfl (ix2 p q) _).trans hk
      | ⟨1, _⟩ =>
        show (dot_S1000x512_S512x512_S1000x512_1_0_0_1_n_n.rhsIdx (ix2 p q) _ 1).val = q.val
        unfold DotDims.rhsIdx
        rw [dif_neg (show ¬(1 : Fin S512x512.rank) ∈ dot_S1000x512_S512x512_S1000x512_1_0_0_1_n_n.rhsBatch by decide),
          dif_pos (show (1 : Fin S512x512.rank) ∈ dot_S1000x512_S512x512_S1000x512_1_0_0_1_n_n.rhsNonContracting by decide)]
        rfl)
  rw [el, er]

/-- A row vector broadcast down the rows, read at `(p, q)`, is its entry `q`. -/
theorem bias_row_at (b : Vec Ideal S1x512 .f32) (p : Fin 1000) (q : Fin 512) :
    broadcastTo S1000x512 b broadcasts_S1x512_S1000x512 (ix2 p q) = b (ix2 0 q) :=
  broadcastTo_apply b broadcasts_S1x512_S1000x512 (ix2 p q) (ix2 0 q) (fun a => by
    match a with
    | ⟨0, _⟩ => rfl
    | ⟨1, _⟩ => rfl)

/-- A column vector broadcast along the columns, read at `(p, q)`, is its entry `p`. -/
theorem count_col_at (v : Vec Ideal S1000x1 .f32) (p : Fin 1000) (q : Fin 512) :
    broadcastTo S1000x512 v broadcasts_S1000x1_S1000x512 (ix2 p q) = v (ix2 p 0) :=
  broadcastTo_apply v broadcasts_S1000x1_S1000x512 (ix2 p q) (ix2 p 0) (fun a => by
    match a with
    | ⟨0, _⟩ => rfl
    | ⟨1, _⟩ => rfl)

/-- The projection body at `(p, q)`: row `p` of the input block times column `q` of the weights, plus the bias row's
    entry `q`. -/
theorem lin64_at (v0 : Vec Ideal S1000x64 .f32) (v1 : Vec Ideal S64x512 .f32) (v3 : Vec Ideal S1x512 .f32) (p : Fin 1000) (q : Fin 512) :
    k0_pay1 (F := Ideal) v0 v1 v3 (ix2 p q)
      = Cert.Spec.linAt (fun k : Fin 64 => v0 (ix2 p k)) (fun k j => v1 (ix2 k j)) (fun j => v3 (ix2 0 j)) q := by
  unfold k0_pay1 Cert.Spec.linAt
  dsimp only
  rw [addf_apply, matmul64_at, shapeCast_self, bias_row_at]

/-- The projection body at `(p, q)`: row `p` of the input block times column `q` of the weights, plus the bias row's
    entry `q`. -/
theorem lin32_at (v0 : Vec Ideal S1000x32 .f32) (v1 : Vec Ideal S32x512 .f32) (v3 : Vec Ideal S1x512 .f32) (p : Fin 1000) (q : Fin 512) :
    k1_pay1 (F := Ideal) v0 v1 v3 (ix2 p q)
      = Cert.Spec.linAt (fun k : Fin 32 => v0 (ix2 p k)) (fun k j => v1 (ix2 k j)) (fun j => v3 (ix2 0 j)) q := by
  unfold k1_pay1 Cert.Spec.linAt
  dsimp only
  rw [addf_apply, matmul32_at, shapeCast_self, bias_row_at]

/-- The SAGE body's arithmetic as one function of its six loaded blocks (the eight SAGE kernels share it). -/
def sageBody (v0 : Vec Ideal S1000x512 .f32) (v2 : Vec Ideal S1000x1 .f32) (v6 : Vec Ideal S512x512 .f32)
    (v9 : Vec Ideal S1000x512 .f32) (v11 : Vec Ideal S512x512 .f32) (v15 : Vec Ideal S1x512 .f32) : FVec Ideal S1000x512 .f32 :=
  k2_pay1 (F := Ideal) v0 v2 v6 v9 v11 v15

/-- The SAGE body at `(p, q)`. -/
theorem sage_body_at (v0 : Vec Ideal S1000x512 .f32) (v2 : Vec Ideal S1000x1 .f32) (v6 : Vec Ideal S512x512 .f32)
    (v9 : Vec Ideal S1000x512 .f32) (v11 : Vec Ideal S512x512 .f32) (v15 : Vec Ideal S1x512 .f32) (p : Fin 1000) (q : Fin 512) :
    k2_pay1 (F := Ideal) v0 v2 v6 v9 v11 v15 (ix2 p q)
      = Cert.Spec.sageKerAt (fun k => v0 (ix2 p k)) (fun k => v9 (ix2 p k)) (v2 (ix2 p 0))
          (fun k j => v6 (ix2 k j)) (fun k j => v11 (ix2 k j)) (fun j => v15 (ix2 0 j)) q := by
  unfold k2_pay1 Cert.Spec.sageKerAt
  dsimp only
  rw [maximumf_apply, broadcast_apply, addf_apply, addf_apply, matmul512_at, matmul512_at, shapeCast_self, shapeCast_self,
    shapeCast_self, shapeCast_self, shapeCast_self, shapeCast_self, bias_row_at]
  have hz : (Scalar.ofBits .f32 0x00000000#32 : Ideal .f32) = 0 := Ideal.ofBits_zero_f32
  rw [hz]
  congr 3
  refine Finset.sum_congr rfl fun k _ => ?_
  rw [mulf_apply, count_col_at]

/-- Kernel 3's body is the same arithmetic. -/
theorem pay3_eq : @k3_pay1 Ideal _ = @k2_pay1 Ideal _ := rfl
/-- Kernel 4's body is the same arithmetic. -/
theorem pay4_eq : @k4_pay1 Ideal _ = @k2_pay1 Ideal _ := rfl
/-- Kernel 5's body is the same arithmetic. -/
theorem pay5_eq : @k5_pay1 Ideal _ = @k2_pay1 Ideal _ := rfl
/-- Kernel 6's body is the same arithmetic. -/
theorem pay6_eq : @k6_pay1 Ideal _ = @k2_pay1 Ideal _ := rfl
/-- Kernel 7's body is the same arithmetic. -/
theorem pay7_eq : @k7_pay1 Ideal _ = @k2_pay1 Ideal _ := rfl
/-- Kernel 8's body is the same arithmetic. -/
theorem pay8_eq : @k8_pay1 Ideal _ = @k2_pay1 Ideal _ := rfl
/-- Kernel 9's body is the same arithmetic. -/
theorem pay9_eq : @k9_pay1 Ideal _ = @k2_pay1 Ideal _ := rfl

/-- The SAGE body at any index of its block. -/
theorem sage_body (v0 : Vec Ideal S1000x512 .f32) (v2 : Vec Ideal S1000x1 .f32) (v6 : Vec Ideal S512x512 .f32)
    (v9 : Vec Ideal S1000x512 .f32) (v11 : Vec Ideal S512x512 .f32) (v15 : Vec Ideal S1x512 .f32) (y : S1000x512.Idx) :
    k2_pay1 (F := Ideal) v0 v2 v6 v9 v11 v15 y
      = Cert.Spec.sageKerAt (fun k => v0 (ix2 (y 0) k)) (fun k => v9 (ix2 (y 0) k)) (v2 (ix2 (y 0) 0))
          (fun k j => v6 (ix2 k j)) (fun k j => v11 (ix2 k j)) (fun j => v15 (ix2 0 j)) (y 1) := by
  obtain ⟨p, q, rfl⟩ : ∃ (p : Fin 1000) (q : Fin 512), y = ix2 p q := ⟨y 0, y 1, eq_ix2 y⟩
  exact sage_body_at v0 v2 v6 v9 v11 v15 p q

/-- The servers' projection body at any index of its block. -/
theorem lin64_body (v0 : Vec Ideal S1000x64 .f32) (v1 : Vec Ideal S64x512 .f32) (v3 : Vec Ideal S1x512 .f32) (y : S1000x512.Idx) :
    k0_pay1 (F := Ideal) v0 v1 v3 y
      = Cert.Spec.linAt (fun k : Fin 64 => v0 (ix2 (y 0) k)) (fun k j => v1 (ix2 k j)) (fun j => v3 (ix2 0 j)) (y 1) := by
  obtain ⟨p, q, rfl⟩ : ∃ (p : Fin 1000) (q : Fin 512), y = ix2 p q := ⟨y 0, y 1, eq_ix2 y⟩
  exact lin64_at v0 v1 v3 p q

/-- The devices' projection body at any index of its block. -/
theorem lin32_body (v0 : Vec Ideal S1000x32 .f32) (v1 : Vec Ideal S32x512 .f32) (v3 : Vec Ideal S1x512 .f32) (y : S1000x512.Idx) :
    k1_pay1 (F := Ideal) v0 v1 v3 y
      = Cert.Spec.linAt (fun k : Fin 32 => v0 (ix2 (y 0) k)) (fun k j => v1 (ix2 k j)) (fun j => v3 (ix2 0 j)) (y 1) := by
  obtain ⟨p, q, rfl⟩ : ∃ (p : Fin 1000) (q : Fin 512), y = ix2 p q := ⟨y 0, y 1, eq_ix2 y⟩
  exact lin32_at v0 v1 v3 p q

end Cert.KernelIdeal.Pay

end
-- ==== Proof.KerArr.lean ====
/-
  What each kernel region leaves in its output array, as ONE function of the arrays its windows
  stage, index by index.  The grid walks the rows in blocks of 1000; the weights, the bias row
  are staged whole at every point; the output's block `t` is rows `1000 t … 1000 t + 999`.
  So entry `(i, j)` of a projection's output is `Σ_k x[i, k] · W[k, j] + b[0, j]`, and of a SAGE
  update's output `max (((Σ_k (s[i, k] · inv[i, 0]) · Wl[k, j]) + Σ_k h[i, k] · Wr[k, j]) + b[0, j]) 0`.
-/
import proofs.«106831_j73237782332046_2_alg».proof.KernelIdeal
import proofs.«106831_j73237782332046_2_alg».proof.Proof.Spec
import Idealize.ShloMosaic.Lib.ValueIdx

noncomputable section

namespace Cert.KernelIdeal.Arr

open Cert.KernelIdeal Idealize.ShloMosaic Idealize.ShloMosaic.ValueIdx

/-- The servers' projection: rows of `x` (64 features) times `W`, plus the bias row. -/
def lin10000 (x : S10000x64.Idx → EReal) (W : S64x512.Idx → EReal) (b : S1x512.Idx → EReal) : S10000x512.Idx → EReal :=
  fun i => Cert.Spec.linAt (fun k : Fin 64 => x (ix2 (i 0) k)) (fun k j => W (ix2 k j)) (fun j => b (ix2 0 j)) (i 1)

/-- The devices' projection: rows of `x` (32 features) times `W`, plus the bias row. -/
def lin50000 (x : S50000x32.Idx → EReal) (W : S32x512.Idx → EReal) (b : S1x512.Idx → EReal) : S50000x512.Idx → EReal :=
  fun i => Cert.Spec.linAt (fun k : Fin 32 => x (ix2 (i 0) k)) (fun k j => W (ix2 k j)) (fun j => b (ix2 0 j)) (i 1)

/-- A SAGE update of the devices' rows. -/
def sage50000 (s h : S50000x512.Idx → EReal) (Wl Wr : S512x512.Idx → EReal) (b : S1x512.Idx → EReal)
    (inv : S50000x1.Idx → EReal) : S50000x512.Idx → EReal :=
  fun i => Cert.Spec.sageKerAt (fun k => s (ix2 (i 0) k)) (fun k => h (ix2 (i 0) k)) (inv (ix2 (i 0) 0))
    (fun k j => Wl (ix2 k j)) (fun k j => Wr (ix2 k j)) (fun j => b (ix2 0 j)) (i 1)

/-- A SAGE update of the servers' rows. -/
def sage10000 (s h : S10000x512.Idx → EReal) (Wl Wr : S512x512.Idx → EReal) (b : S1x512.Idx → EReal)
    (inv : S10000x1.Idx → EReal) : S10000x512.Idx → EReal :=
  fun i => Cert.Spec.sageKerAt (fun k => s (ix2 (i 0) k)) (fun k => h (ix2 (i 0) k)) (inv (ix2 (i 0) 0))
    (fun k j => Wl (ix2 k j)) (fun k j => Wr (ix2 k j)) (fun j => b (ix2 0 j)) (i 1)

end Cert.KernelIdeal.Arr

end
-- ==== Proof.KerReg0.lean ====
/-
  Region 0 (a projection of the servers' 10000 rows, 10 grid points of 1000 rows): the array the
  region leaves in its output is `Arr.lin10000` of the arrays its input windows stage, whatever the
  contents `V` the region is entered with.  Each input block is read where the output block's rows
  say (row-blocked windows move with the point, the others are staged whole), the body's arithmetic
  at an index is the specification's entry, and the 10 output blocks tile the array.
-/
import proofs.«106831_j73237782332046_2_alg».proof.Proof.Gen.KernelIdeal.Frame
import proofs.«106831_j73237782332046_2_alg».proof.Proof.KerPay
import proofs.«106831_j73237782332046_2_alg».proof.Proof.KerArr
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point, every other index is 0. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Window 0's block at point `t`: rows `1000 t …` of its array. -/
theorem blk0 (c : Dev nD) (t : Fin cfg0.N) (y : S1000x64.Idx) (i : S10000x64.Idx)
    (h0 : (i 0).val = t.val * 1000 + (y 0).val) (h1 : (i 1).val = (y 1).val) :
    (iblk0 V c 0 t : Vec Ideal S1000x64 .f32) y = (V c main_arg0 : S10000x64.Idx → EReal) i := by
  obtain ⟨e0, e1, e2, e3, e4, e5, e6, e7⟩ := idx_facts t
  unfold iblk0
  rw [View.read_apply]
  show V c main_arg0 _ = V c main_arg0 _
  congr 1
  funext a
  apply Fin.ext
  match a with
  | ⟨0, _⟩ => show win0_0.index t (0 : Fin 2) * 1000 + 1 * (y 0).val = (i 0).val; omega
  | ⟨1, _⟩ => show win0_0.index t (1 : Fin 2) * 64 + 1 * (y 1).val = (i 1).val; omega

/-- Window 1's block at point `t` is its whole array. -/
theorem blk1 (c : Dev nD) (t : Fin cfg0.N) (y : S64x512.Idx) (i : S64x512.Idx)
    (h0 : (i 0).val = (y 0).val) (h1 : (i 1).val = (y 1).val) :
    (iblk0 V c 1 t : Vec Ideal S64x512 .f32) y = (V c main_arg2 : S64x512.Idx → EReal) i := by
  obtain ⟨e0, e1, e2, e3, e4, e5, e6, e7⟩ := idx_facts t
  unfold iblk0
  rw [View.read_apply]
  show V c main_arg2 _ = V c main_arg2 _
  congr 1
  funext a
  apply Fin.ext
  match a with
  | ⟨0, _⟩ => show win0_1.index t (0 : Fin 2) * 64 + 1 * (y 0).val = (i 0).val; omega
  | ⟨1, _⟩ => show win0_1.index t (1 : Fin 2) * 512 + 1 * (y 1).val = (i 1).val; omega

/-- Window 2's block at point `t` is its whole array. -/
theorem blk2 (c : Dev nD) (t : Fin cfg0.N) (y : S1x512.Idx) (i : S1x512.Idx)
    (h0 : (i 0).val = (y 0).val) (h1 : (i 1).val = (y 1).val) :
    (iblk0 V c 2 t : Vec Ideal S1x512 .f32) y = (V c main_v0 : S1x512.Idx → EReal) i := by
  obtain ⟨e0, e1, e2, e3, e4, e5, e6, e7⟩ := idx_facts t
  unfold iblk0
  rw [View.read_apply]
  show V c main_v0 _ = V c main_v0 _
  congr 1
  funext a
  apply Fin.ext
  match a with
  | ⟨0, _⟩ => show win0_2.index t (0 : Fin 2) * 1 + 1 * (y 0).val = (i 0).val; omega
  | ⟨1, _⟩ => show win0_2.index t (1 : Fin 2) * 512 + 1 * (y 1).val = (i 1).val; omega

/-- What point `t` writes back is block `t` of the region's function of its input arrays. -/
theorem flushed_eq (c : Dev nD) (t : Fin cfg0.N) :
    (dat0 V c).flushed 3 t = ((cfg0.win 3).blk t).view.read (Elt Ideal) (Arr.lin10000 (V c main_arg0) (V c main_arg2) (V c main_v0)) := by
  show (cfg0.win 3).cut (grid0.coords t) ((dat0 V c).after 3 t) = _
  rw [after0_3]
  unfold out0_3
  rw [View.canon_unit_zero hz]
  simp only [View.ld_unit_zero (S := S1000x64) hz, View.ld_unit_zero (S := S64x512) hz, View.ld_unit_zero (S := S1x512) hz]
  obtain ⟨e0, e1, e2, e3, e4, e5, e6, e7⟩ := idx_facts t
  funext j
  revert j
  intro (j : S1000x512.Idx)
  show k0_pay1 (F := Ideal) (iblk0 V c 0 t) (iblk0 V c 1 t) (iblk0 V c 2 t) j = Arr.lin10000 (V c main_arg0) (V c main_arg2) (V c main_v0) (((cfg0.win 3).blk t).view.emb j)
  refine (Pay.lin64_body (iblk0 V c 0 t) (iblk0 V c 1 t) (iblk0 V c 2 t) j).trans ?_
  unfold Arr.lin10000
  refine Cert.Spec.linAt_congr (funext fun k => ?_) (funext fun k => funext fun j' => ?_) (funext fun j' => ?_) (Fin.ext ?_)
  · exact blk0 V c t (ix2 (j 0) k) _ (by show (((cfg0.win 3).blk t).view.emb j (0 : Fin 2)).val = t.val * 1000 + (j 0).val; show win0_3.index t (0 : Fin 2) * 1000 + 1 * (j 0).val = _; omega) rfl
  · exact blk1 V c t (ix2 k j') _ rfl rfl
  · exact blk2 V c t (ix2 0 j') _ rfl rfl
  · show (j 1).val = win0_3.index t (1 : Fin 2) * 512 + 1 * (j 1).val; omega

/-- An index of the output array is in point `t`'s block iff each coordinate is in the block's range. -/
theorem mem_blk (t : Fin cfg0.N) (i : S10000x512.Idx) :
    i ∈ ((cfg0.win 3).blk t).view.set ↔ ∀ a : Fin 2, win0_3.index t a * S1000x512.size a ≤ (i a).val
      ∧ (i a).val < win0_3.index t a * S1000x512.size a + S1000x512.size a := by
  show i ∈ ((View.whole main_v1).slice (win0_3.rect t)).set ↔ _
  rw [View.set_slice_whole, Rect.mem_set_unit]
  exact Iff.rfl

/-- Row `r` lies in the block of point `r / 1000`: the blocks cover the array. -/
theorem cover (i : S10000x512.Idx) : ∃ t : Fin cfg0.N, (cfg0.win 3).flush t = true ∧ i ∈ ((cfg0.win 3).blk t).view.set := by
  have hi0 : (i 0).val < 10000 := (i 0).isLt
  have hi1 : (i 1).val < 512 := (i 1).isLt
  have hN : grid0.N = 10 := N_0
  have ht : (i 0).val / 1000 < cfg0.N := by show (i 0).val / 1000 < grid0.N; rw [hN]; omega
  generalize htt : (⟨(i 0).val / 1000, ht⟩ : Fin cfg0.N) = t
  have htv : t.val = (i 0).val / 1000 := by rw [← htt]
  obtain ⟨e0, e1, e2, e3, e4, e5, e6, e7⟩ := idx_facts t
  refine ⟨t, flush0_3 t, ?_⟩
  rw [mem_blk]
  intro a
  match a with
  | ⟨0, _⟩ =>
    show win0_3.index t (0 : Fin 2) * 1000 ≤ (i 0).val ∧ (i 0).val < win0_3.index t (0 : Fin 2) * 1000 + 1000
    omega
  | ⟨1, _⟩ =>
    show win0_3.index t (1 : Fin 2) * 512 ≤ (i 1).val ∧ (i 1).val < win0_3.index t (1 : Fin 2) * 512 + 512
    omega

/-- The output array after the region. -/
theorem final (c : Dev nD) : (dat0 V c).arrAt 3 cfg0.N = Arr.lin10000 (V c main_arg0) (V c main_arg2) (V c main_v0) :=
  (dat0 V c).arrAt_eq_of_cover 3 _ (fun t _ => flushed_eq V c t) cover

end Cert.KernelIdeal.Reg0

end
-- ==== Proof.KerReg1.lean ====
/-
  Region 1 (a projection of the devices' 50000 rows, 50 grid points of 1000 rows): the array the
  region leaves in its output is `Arr.lin50000` of the arrays its input windows stage, whatever the
  contents `V` the region is entered with.  Each input block is read where the output block's rows
  say (row-blocked windows move with the point, the others are staged whole), the body's arithmetic
  at an index is the specification's entry, and the 50 output blocks tile the array.
-/
import proofs.«106831_j73237782332046_2_alg».proof.Proof.Gen.KernelIdeal.Frame
import proofs.«106831_j73237782332046_2_alg».proof.Proof.KerPay
import proofs.«106831_j73237782332046_2_alg».proof.Proof.KerArr
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point, every other index is 0. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Window 0's block at point `t`: rows `1000 t …` of its array. -/
theorem blk0 (c : Dev nD) (t : Fin cfg1.N) (y : S1000x32.Idx) (i : S50000x32.Idx)
    (h0 : (i 0).val = t.val * 1000 + (y 0).val) (h1 : (i 1).val = (y 1).val) :
    (iblk1 V c 0 t : Vec Ideal S1000x32 .f32) y = (V c main_arg1 : S50000x32.Idx → EReal) i := by
  obtain ⟨e0, e1, e2, e3, e4, e5, e6, e7⟩ := idx_facts t
  unfold iblk1
  rw [View.read_apply]
  show V c main_arg1 _ = V c main_arg1 _
  congr 1
  funext a
  apply Fin.ext
  match a with
  | ⟨0, _⟩ => show win1_0.index t (0 : Fin 2) * 1000 + 1 * (y 0).val = (i 0).val; omega
  | ⟨1, _⟩ => show win1_0.index t (1 : Fin 2) * 32 + 1 * (y 1).val = (i 1).val; omega

/-- Window 1's block at point `t` is its whole array. -/
theorem blk1 (c : Dev nD) (t : Fin cfg1.N) (y : S32x512.Idx) (i : S32x512.Idx)
    (h0 : (i 0).val = (y 0).val) (h1 : (i 1).val = (y 1).val) :
    (iblk1 V c 1 t : Vec Ideal S32x512 .f32) y = (V c main_arg4 : S32x512.Idx → EReal) i := by
  obtain ⟨e0, e1, e2, e3, e4, e5, e6, e7⟩ := idx_facts t
  unfold iblk1
  rw [View.read_apply]
  show V c main_arg4 _ = V c main_arg4 _
  congr 1
  funext a
  apply Fin.ext
  match a with
  | ⟨0, _⟩ => show win1_1.index t (0 : Fin 2) * 32 + 1 * (y 0).val = (i 0).val; omega
  | ⟨1, _⟩ => show win1_1.index t (1 : Fin 2) * 512 + 1 * (y 1).val = (i 1).val; omega

/-- Window 2's block at point `t` is its whole array. -/
theorem blk2 (c : Dev nD) (t : Fin cfg1.N) (y : S1x512.Idx) (i : S1x512.Idx)
    (h0 : (i 0).val = (y 0).val) (h1 : (i 1).val = (y 1).val) :
    (iblk1 V c 2 t : Vec Ideal S1x512 .f32) y = (V c main_v2 : S1x512.Idx → EReal) i := by
  obtain ⟨e0, e1, e2, e3, e4, e5, e6, e7⟩ := idx_facts t
  unfold iblk1
  rw [View.read_apply]
  show V c main_v2 _ = V c main_v2 _
  congr 1
  funext a
  apply Fin.ext
  match a with
  | ⟨0, _⟩ => show win1_2.index t (0 : Fin 2) * 1 + 1 * (y 0).val = (i 0).val; omega
  | ⟨1, _⟩ => show win1_2.index t (1 : Fin 2) * 512 + 1 * (y 1).val = (i 1).val; omega

/-- What point `t` writes back is block `t` of the region's function of its input arrays. -/
theorem flushed_eq (c : Dev nD) (t : Fin cfg1.N) :
    (dat1 V c).flushed 3 t = ((cfg1.win 3).blk t).view.read (Elt Ideal) (Arr.lin50000 (V c main_arg1) (V c main_arg4) (V c main_v2)) := by
  show (cfg1.win 3).cut (grid1.coords t) ((dat1 V c).after 3 t) = _
  rw [after1_3]
  unfold out1_3
  rw [View.canon_unit_zero hz]
  simp only [View.ld_unit_zero (S := S1000x32) hz, View.ld_unit_zero (S := S32x512) hz, View.ld_unit_zero (S := S1x512) hz]
  obtain ⟨e0, e1, e2, e3, e4, e5, e6, e7⟩ := idx_facts t
  funext j
  revert j
  intro (j : S1000x512.Idx)
  show k1_pay1 (F := Ideal) (iblk1 V c 0 t) (iblk1 V c 1 t) (iblk1 V c 2 t) j = Arr.lin50000 (V c main_arg1) (V c main_arg4) (V c main_v2) (((cfg1.win 3).blk t).view.emb j)
  refine (Pay.lin32_body (iblk1 V c 0 t) (iblk1 V c 1 t) (iblk1 V c 2 t) j).trans ?_
  unfold Arr.lin50000
  refine Cert.Spec.linAt_congr (funext fun k => ?_) (funext fun k => funext fun j' => ?_) (funext fun j' => ?_) (Fin.ext ?_)
  · exact blk0 V c t (ix2 (j 0) k) _ (by show (((cfg1.win 3).blk t).view.emb j (0 : Fin 2)).val = t.val * 1000 + (j 0).val; show win1_3.index t (0 : Fin 2) * 1000 + 1 * (j 0).val = _; omega) rfl
  · exact blk1 V c t (ix2 k j') _ rfl rfl
  · exact blk2 V c t (ix2 0 j') _ rfl rfl
  · show (j 1).val = win1_3.index t (1 : Fin 2) * 512 + 1 * (j 1).val; omega

/-- An index of the output array is in point `t`'s block iff each coordinate is in the block's range. -/
theorem mem_blk (t : Fin cfg1.N) (i : S50000x512.Idx) :
    i ∈ ((cfg1.win 3).blk t).view.set ↔ ∀ a : Fin 2, win1_3.index t a * S1000x512.size a ≤ (i a).val
      ∧ (i a).val < win1_3.index t a * S1000x512.size a + S1000x512.size a := by
  show i ∈ ((View.whole main_v3).slice (win1_3.rect t)).set ↔ _
  rw [View.set_slice_whole, Rect.mem_set_unit]
  exact Iff.rfl

/-- Row `r` lies in the block of point `r / 1000`: the blocks cover the array. -/
theorem cover (i : S50000x512.Idx) : ∃ t : Fin cfg1.N, (cfg1.win 3).flush t = true ∧ i ∈ ((cfg1.win 3).blk t).view.set := by
  have hi0 : (i 0).val < 50000 := (i 0).isLt
  have hi1 : (i 1).val < 512 := (i 1).isLt
  have hN : grid1.N = 50 := N_1
  have ht : (i 0).val / 1000 < cfg1.N := by show (i 0).val / 1000 < grid1.N; rw [hN]; omega
  generalize htt : (⟨(i 0).val / 1000, ht⟩ : Fin cfg1.N) = t
  have htv : t.val = (i 0).val / 1000 := by rw [← htt]
  obtain ⟨e0, e1, e2, e3, e4, e5, e6, e7⟩ := idx_facts t
  refine ⟨t, flush1_3 t, ?_⟩
  rw [mem_blk]
  intro a
  match a with
  | ⟨0, _⟩ =>
    show win1_3.index t (0 : Fin 2) * 1000 ≤ (i 0).val ∧ (i 0).val < win1_3.index t (0 : Fin 2) * 1000 + 1000
    omega
  | ⟨1, _⟩ =>
    show win1_3.index t (1 : Fin 2) * 512 ≤ (i 1).val ∧ (i 1).val < win1_3.index t (1 : Fin 2) * 512 + 512
    omega

/-- The output array after the region. -/
theorem final (c : Dev nD) : (dat1 V c).arrAt 3 cfg1.N = Arr.lin50000 (V c main_arg1) (V c main_arg4) (V c main_v2) :=
  (dat1 V c).arrAt_eq_of_cover 3 _ (fun t _ => flushed_eq V c t) cover

end Cert.KernelIdeal.Reg1

end
-- ==== Proof.KerPass0.lean ====
/-
  Buffers that a stretch of host operations does not write, and arrays that a kernel region only
  reads or does not touch, hold after it what they held before it: no operation of the stretch has
  the buffer as its result; a region changes only its output array (an input window's array is
  fetched from, never written back).  One equation per buffer that a later step still reads.
-/
import proofs.«106831_j73237782332046_2_alg».proof.Proof.Gen.KernelIdeal.Frame

set_option maxRecDepth 16384

noncomputable section

namespace Cert.KernelIdeal.Pass

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The host operations before region 0 -/

theorem pass0_main_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass0_main_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass0_main_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass0_main_arg12 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass0_main_arg11 (c : Dev nD) : W1 m ρ c (Proc.devRef .tc main_arg11) = W0 m ρ c (Proc.devRef .tc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass0_main_arg10 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass0_main_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass0_main_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass0_main_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass0_main_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass0_main_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass0_main_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Region 0 -/

theorem pass1_main_arg7 (c : Dev nD) : W2 m ρ c (Proc.devRef .tc main_arg7) = W1 m ρ c (Proc.devRef .tc main_arg7) :=
  W2_of_ne m ρ c main_arg7 (by decide)

theorem pass1_main_arg8 (c : Dev nD) : W2 m ρ c (Proc.devRef .tc main_arg8) = W1 m ρ c (Proc.devRef .tc main_arg8) :=
  W2_of_ne m ρ c main_arg8 (by decide)

theorem pass1_main_arg6 (c : Dev nD) : W2 m ρ c (Proc.devRef .tc main_arg6) = W1 m ρ c (Proc.devRef .tc main_arg6) :=
  W2_of_ne m ρ c main_arg6 (by decide)

theorem pass1_main_arg12 (c : Dev nD) : W2 m ρ c (Proc.devRef .tc main_arg12) = W1 m ρ c (Proc.devRef .tc main_arg12) :=
  W2_of_ne m ρ c main_arg12 (by decide)

theorem pass1_main_arg11 (c : Dev nD) : W2 m ρ c (Proc.devRef .tc main_arg11) = W1 m ρ c (Proc.devRef .tc main_arg11) :=
  W2_of_ne m ρ c main_arg11 (by decide)

theorem pass1_main_arg10 (c : Dev nD) : W2 m ρ c (Proc.devRef .tc main_arg10) = W1 m ρ c (Proc.devRef .tc main_arg10) :=
  W2_of_ne m ρ c main_arg10 (by decide)

theorem pass1_main_arg9 (c : Dev nD) : W2 m ρ c (Proc.devRef .tc main_arg9) = W1 m ρ c (Proc.devRef .tc main_arg9) :=
  W2_of_ne m ρ c main_arg9 (by decide)

theorem pass1_main_arg1 (c : Dev nD) : W2 m ρ c (Proc.devRef .tc main_arg1) = W1 m ρ c (Proc.devRef .tc main_arg1) :=
  W2_of_ne m ρ c main_arg1 (by decide)

theorem pass1_main_arg4 (c : Dev nD) : W2 m ρ c (Proc.devRef .tc main_arg4) = W1 m ρ c (Proc.devRef .tc main_arg4) :=
  W2_of_ne m ρ c main_arg4 (by decide)

theorem pass1_main_arg5 (c : Dev nD) : W2 m ρ c (Proc.devRef .tc main_arg5) = W1 m ρ c (Proc.devRef .tc main_arg5) :=
  W2_of_ne m ρ c main_arg5 (by decide)

/-! ## The host operations before region 1 -/

theorem pass2_main_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass2_main_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass2_main_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass2_main_arg12 (c : Dev nD) : W3 m ρ c (Proc.devRef .tc main_arg12) = W2 m ρ c (Proc.devRef .tc main_arg12) :=
  StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass2_main_arg11 (c : Dev nD) : W3 m ρ c (Proc.devRef .tc main_arg11) = W2 m ρ c (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass2_main_arg10 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass2_main_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass2_main_v1 (c : Dev nD) : W3 m ρ c (Proc.devRef .tc main_v1) = W2 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass2_main_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass2_main_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Region 1 -/

theorem pass3_main_arg7 (c : Dev nD) : W4 m ρ c (Proc.devRef .tc main_arg7) = W3 m ρ c (Proc.devRef .tc main_arg7) :=
  W4_of_ne m ρ c main_arg7 (by decide)

theorem pass3_main_arg8 (c : Dev nD) : W4 m ρ c (Proc.devRef .tc main_arg8) = W3 m ρ c (Proc.devRef .tc main_arg8) :=
  W4_of_ne m ρ c main_arg8 (by decide)

theorem pass3_main_arg6 (c : Dev nD) : W4 m ρ c (Proc.devRef .tc main_arg6) = W3 m ρ c (Proc.devRef .tc main_arg6) :=
  W4_of_ne m ρ c main_arg6 (by decide)

theorem pass3_main_arg12 (c : Dev nD) : W4 m ρ c (Proc.devRef .tc main_arg12) = W3 m ρ c (Proc.devRef .tc main_arg12) :=
  W4_of_ne m ρ c main_arg12 (by decide)

theorem pass3_main_arg11 (c : Dev nD) : W4 m ρ c (Proc.devRef .tc main_arg11) = W3 m ρ c (Proc.devRef .tc main_arg11) :=
  W4_of_ne m ρ c main_arg11 (by decide)

theorem pass3_main_arg10 (c : Dev nD) : W4 m ρ c (Proc.devRef .tc main_arg10) = W3 m ρ c (Proc.devRef .tc main_arg10) :=
  W4_of_ne m ρ c main_arg10 (by decide)

theorem pass3_main_arg9 (c : Dev nD) : W4 m ρ c (Proc.devRef .tc main_arg9) = W3 m ρ c (Proc.devRef .tc main_arg9) :=
  W4_of_ne m ρ c main_arg9 (by decide)

theorem pass3_main_v1 (c : Dev nD) : W4 m ρ c (Proc.devRef .tc main_v1) = W3 m ρ c (Proc.devRef .tc main_v1) :=
  W4_of_ne m ρ c main_v1 (by decide)

end Cert.KernelIdeal.Pass

end
-- ==== Proof.KerPass1.lean ====
/-
  Buffers that a stretch of host operations does not write, and arrays that a kernel region only
  reads or does not touch, hold after it what they held before it: no operation of the stretch has
  the buffer as its result; a region changes only its output array (an input window's array is
  fetched from, never written back).  One equation per buffer that a later step still reads.
-/
import proofs.«106831_j73237782332046_2_alg».proof.Proof.Gen.KernelIdeal.Frame

set_option maxRecDepth 16384

noncomputable section

namespace Cert.KernelIdeal.Pass

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The host operations before region 2 -/

theorem pass4_main_arg7 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass4_main_arg8 (c : Dev nD) : W5 m ρ c (Proc.devRef .tc main_arg8) = W4 m ρ c (Proc.devRef .tc main_arg8) :=
  StableHlo.after_of_forall_not_mem (b := Proc.devRef .tc main_arg8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass4_main_arg6 (c : Dev nD) : W5 m ρ c (Proc.devRef .tc main_arg6) = W4 m ρ c (Proc.devRef .tc main_arg6) :=
  StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass4_main_arg12 (c : Dev nD) : W5 m ρ c (Proc.devRef .tc main_arg12) = W4 m ρ c (Proc.devRef .tc main_arg12) :=
  StableHlo.after_of_forall_not_mem (b := Proc.devRef .tc main_arg12) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass4_main_arg11 (c : Dev nD) : W5 m ρ c (Proc.devRef .tc main_arg11) = W4 m ρ c (Proc.devRef .tc main_arg11) :=
  StableHlo.after_of_forall_not_mem (b := Proc.devRef .tc main_arg11) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass4_main_arg10 (c : Dev nD) : W5 m ρ c (Proc.devRef .tc main_arg10) = W4 m ρ c (Proc.devRef .tc main_arg10) :=
  StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass4_main_arg9 (c : Dev nD) : W5 m ρ c (Proc.devRef .tc main_arg9) = W4 m ρ c (Proc.devRef .tc main_arg9) :=
  StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass4_main_v1 (c : Dev nD) : W5 m ρ c (Proc.devRef .tc main_v1) = W4 m ρ c (Proc.devRef .tc main_v1) :=
  StableHlo.after_of_forall_not_mem (b := Proc.devRef .tc main_v1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass4_main_v3 (c : Dev nD) : W5 m ρ c (Proc.devRef .tc main_v3) = W4 m ρ c (Proc.devRef .tc main_v3) :=
  StableHlo.after_of_forall_not_mem (b := Proc.devRef .tc main_v3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Region 2 -/

theorem pass5_main_v18 (c : Dev nD) : W6 m ρ c (Proc.devRef .tc main_v18) = W5 m ρ c (Proc.devRef .tc main_v18) :=
  W6_of_ne m ρ c main_v18 (by decide)

theorem pass5_main_arg7 (c : Dev nD) : W6 m ρ c (Proc.devRef .tc main_arg7) = W5 m ρ c (Proc.devRef .tc main_arg7) :=
  W6_of_ne m ρ c main_arg7 (by decide)

theorem pass5_main_arg8 (c : Dev nD) : W6 m ρ c (Proc.devRef .tc main_arg8) = W5 m ρ c (Proc.devRef .tc main_arg8) :=
  W6_of_ne m ρ c main_arg8 (by decide)

theorem pass5_main_arg6 (c : Dev nD) : W6 m ρ c (Proc.devRef .tc main_arg6) = W5 m ρ c (Proc.devRef .tc main_arg6) :=
  W6_of_ne m ρ c main_arg6 (by decide)

theorem pass5_main_v14 (c : Dev nD) : W6 m ρ c (Proc.devRef .tc main_v14) = W5 m ρ c (Proc.devRef .tc main_v14) :=
  W6_of_ne m ρ c main_v14 (by decide)

theorem pass5_main_arg12 (c : Dev nD) : W6 m ρ c (Proc.devRef .tc main_arg12) = W5 m ρ c (Proc.devRef .tc main_arg12) :=
  W6_of_ne m ρ c main_arg12 (by decide)

theorem pass5_main_arg11 (c : Dev nD) : W6 m ρ c (Proc.devRef .tc main_arg11) = W5 m ρ c (Proc.devRef .tc main_arg11) :=
  W6_of_ne m ρ c main_arg11 (by decide)

theorem pass5_main_arg10 (c : Dev nD) : W6 m ρ c (Proc.devRef .tc main_arg10) = W5 m ρ c (Proc.devRef .tc main_arg10) :=
  W6_of_ne m ρ c main_arg10 (by decide)

theorem pass5_main_arg9 (c : Dev nD) : W6 m ρ c (Proc.devRef .tc main_arg9) = W5 m ρ c (Proc.devRef .tc main_arg9) :=
  W6_of_ne m ρ c main_arg9 (by decide)

theorem pass5_main_v38 (c : Dev nD) : W6 m ρ c (Proc.devRef .tc main_v38) = W5 m ρ c (Proc.devRef .tc main_v38) :=
  W6_of_ne m ρ c main_v38 (by decide)

theorem pass5_main_v1 (c : Dev nD) : W6 m ρ c (Proc.devRef .tc main_v1) = W5 m ρ c (Proc.devRef .tc main_v1) :=
  W6_of_ne m ρ c main_v1 (by decide)

/-! ## The host operations before region 3 -/

theorem pass6_main_v18 (c : Dev nD) : W7 m ρ c (Proc.devRef .tc main_v18) = W6 m ρ c (Proc.devRef .tc main_v18) :=
  StableHlo.after_of_forall_not_mem (b := Proc.devRef .tc main_v18) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass6_main_arg7 (c : Dev nD) : W7 m ρ c (Proc.devRef .tc main_arg7) = W6 m ρ c (Proc.devRef .tc main_arg7) :=
  StableHlo.after_of_forall_not_mem (b := Proc.devRef .tc main_arg7) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass6_main_arg8 (c : Dev nD) : W7 m ρ c (Proc.devRef .tc main_arg8) = W6 m ρ c (Proc.devRef .tc main_arg8) :=
  StableHlo.after_of_forall_not_mem (b := Proc.devRef .tc main_arg8) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass6_main_arg6 (c : Dev nD) : W7 m ρ c (Proc.devRef .tc main_arg6) = W6 m ρ c (Proc.devRef .tc main_arg6) :=
  StableHlo.after_of_forall_not_mem (b := Proc.devRef .tc main_arg6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass6_main_v14 (c : Dev nD) : W7 m ρ c (Proc.devRef .tc main_v14) = W6 m ρ c (Proc.devRef .tc main_v14) :=
  StableHlo.after_of_forall_not_mem (b := Proc.devRef .tc main_v14) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass6_main_arg12 (c : Dev nD) : W7 m ρ c (Proc.devRef .tc main_arg12) = W6 m ρ c (Proc.devRef .tc main_arg12) :=
  StableHlo.after_of_forall_not_mem (b := Proc.devRef .tc main_arg12) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass6_main_arg11 (c : Dev nD) : W7 m ρ c (Proc.devRef .tc main_arg11) = W6 m ρ c (Proc.devRef .tc main_arg11) :=
  StableHlo.after_of_forall_not_mem (b := Proc.devRef .tc main_arg11) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass6_main_arg10 (c : Dev nD) : W7 m ρ c (Proc.devRef .tc main_arg10) = W6 m ρ c (Proc.devRef .tc main_arg10) :=
  StableHlo.after_of_forall_not_mem (b := Proc.devRef .tc main_arg10) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass6_main_arg9 (c : Dev nD) : W7 m ρ c (Proc.devRef .tc main_arg9) = W6 m ρ c (Proc.devRef .tc main_arg9) :=
  StableHlo.after_of_forall_not_mem (b := Proc.devRef .tc main_arg9) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass6_main_v47 (c : Dev nD) : W7 m ρ c (Proc.devRef .tc main_v47) = W6 m ρ c (Proc.devRef .tc main_v47) :=
  StableHlo.after_of_forall_not_mem (b := Proc.devRef .tc main_v47) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass6_main_v38 (c : Dev nD) : W7 m ρ c (Proc.devRef .tc main_v38) = W6 m ρ c (Proc.devRef .tc main_v38) :=
  StableHlo.after_of_forall_not_mem (b := Proc.devRef .tc main_v38) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass6_main_v1 (c : Dev nD) : W7 m ρ c (Proc.devRef .tc main_v1) = W6 m ρ c (Proc.devRef .tc main_v1) :=
  StableHlo.after_of_forall_not_mem (b := Proc.devRef .tc main_v1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Region 3 -/

theorem pass7_main_v18 (c : Dev nD) : W8 m ρ c (Proc.devRef .tc main_v18) = W7 m ρ c (Proc.devRef .tc main_v18) :=
  W8_of_ne m ρ c main_v18 (by decide)

theorem pass7_main_arg7 (c : Dev nD) : W8 m ρ c (Proc.devRef .tc main_arg7) = W7 m ρ c (Proc.devRef .tc main_arg7) :=
  W8_of_ne m ρ c main_arg7 (by decide)

theorem pass7_main_arg8 (c : Dev nD) : W8 m ρ c (Proc.devRef .tc main_arg8) = W7 m ρ c (Proc.devRef .tc main_arg8) :=
  W8_of_ne m ρ c main_arg8 (by decide)

theorem pass7_main_arg6 (c : Dev nD) : W8 m ρ c (Proc.devRef .tc main_arg6) = W7 m ρ c (Proc.devRef .tc main_arg6) :=
  W8_of_ne m ρ c main_arg6 (by decide)

theorem pass7_main_v14 (c : Dev nD) : W8 m ρ c (Proc.devRef .tc main_v14) = W7 m ρ c (Proc.devRef .tc main_v14) :=
  W8_of_ne m ρ c main_v14 (by decide)

theorem pass7_main_arg12 (c : Dev nD) : W8 m ρ c (Proc.devRef .tc main_arg12) = W7 m ρ c (Proc.devRef .tc main_arg12) :=
  W8_of_ne m ρ c main_arg12 (by decide)

theorem pass7_main_arg11 (c : Dev nD) : W8 m ρ c (Proc.devRef .tc main_arg11) = W7 m ρ c (Proc.devRef .tc main_arg11) :=
  W8_of_ne m ρ c main_arg11 (by decide)

theorem pass7_main_arg10 (c : Dev nD) : W8 m ρ c (Proc.devRef .tc main_arg10) = W7 m ρ c (Proc.devRef .tc main_arg10) :=
  W8_of_ne m ρ c main_arg10 (by decide)

theorem pass7_main_arg9 (c : Dev nD) : W8 m ρ c (Proc.devRef .tc main_arg9) = W7 m ρ c (Proc.devRef .tc main_arg9) :=
  W8_of_ne m ρ c main_arg9 (by decide)

theorem pass7_main_v47 (c : Dev nD) : W8 m ρ c (Proc.devRef .tc main_v47) = W7 m ρ c (Proc.devRef .tc main_v47) :=
  W8_of_ne m ρ c main_v47 (by decide)

end Cert.KernelIdeal.Pass

end
-- ==== Proof.KerPass2.lean ====
/-
  Buffers that a stretch of host operations does not write, and arrays that a kernel region only
  reads or does not touch, hold after it what they held before it: no operation of the stretch has
  the buffer as its result; a region changes only its output array (an input window's array is
  fetched from, never written back).  One equation per buffer that a later step still reads.
-/
import proofs.«106831_j73237782332046_2_alg».proof.Proof.Gen.KernelIdeal.Frame

set_option maxRecDepth 16384

noncomputable section

namespace Cert.KernelIdeal.Pass

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The host operations before region 4 -/

theorem pass8_main_v18 (c : Dev nD) : W9 m ρ c (Proc.devRef .tc main_v18) = W8 m ρ c (Proc.devRef .tc main_v18) :=
  StableHlo.after_of_forall_not_mem (b := Proc.devRef .tc main_v18) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass8_main_arg7 (c : Dev nD) : W9 m ρ c (Proc.devRef .tc main_arg7) = W8 m ρ c (Proc.devRef .tc main_arg7) :=
  StableHlo.after_of_forall_not_mem (b := Proc.devRef .tc main_arg7) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass8_main_arg8 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass8_main_arg6 (c : Dev nD) : W9 m ρ c (Proc.devRef .tc main_arg6) = W8 m ρ c (Proc.devRef .tc main_arg6) :=
  StableHlo.after_of_forall_not_mem (b := Proc.devRef .tc main_arg6) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass8_main_v14 (c : Dev nD) : W9 m ρ c (Proc.devRef .tc main_v14) = W8 m ρ c (Proc.devRef .tc main_v14) :=
  StableHlo.after_of_forall_not_mem (b := Proc.devRef .tc main_v14) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass8_main_arg12 (c : Dev nD) : W9 m ρ c (Proc.devRef .tc main_arg12) = W8 m ρ c (Proc.devRef .tc main_arg12) :=
  StableHlo.after_of_forall_not_mem (b := Proc.devRef .tc main_arg12) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass8_main_arg11 (c : Dev nD) : W9 m ρ c (Proc.devRef .tc main_arg11) = W8 m ρ c (Proc.devRef .tc main_arg11) :=
  StableHlo.after_of_forall_not_mem (b := Proc.devRef .tc main_arg11) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass8_main_arg10 (c : Dev nD) : W9 m ρ c (Proc.devRef .tc main_arg10) = W8 m ρ c (Proc.devRef .tc main_arg10) :=
  StableHlo.after_of_forall_not_mem (b := Proc.devRef .tc main_arg10) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass8_main_arg9 (c : Dev nD) : W9 m ρ c (Proc.devRef .tc main_arg9) = W8 m ρ c (Proc.devRef .tc main_arg9) :=
  StableHlo.after_of_forall_not_mem (b := Proc.devRef .tc main_arg9) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass8_main_v56 (c : Dev nD) : W9 m ρ c (Proc.devRef .tc main_v56) = W8 m ρ c (Proc.devRef .tc main_v56) :=
  StableHlo.after_of_forall_not_mem (b := Proc.devRef .tc main_v56) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass8_main_v47 (c : Dev nD) : W9 m ρ c (Proc.devRef .tc main_v47) = W8 m ρ c (Proc.devRef .tc main_v47) :=
  StableHlo.after_of_forall_not_mem (b := Proc.devRef .tc main_v47) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Region 4 -/

theorem pass9_main_v18 (c : Dev nD) : W10 m ρ c (Proc.devRef .tc main_v18) = W9 m ρ c (Proc.devRef .tc main_v18) :=
  W10_of_ne m ρ c main_v18 (by decide)

theorem pass9_main_arg7 (c : Dev nD) : W10 m ρ c (Proc.devRef .tc main_arg7) = W9 m ρ c (Proc.devRef .tc main_arg7) :=
  W10_of_ne m ρ c main_arg7 (by decide)

theorem pass9_main_arg8 (c : Dev nD) : W10 m ρ c (Proc.devRef .tc main_arg8) = W9 m ρ c (Proc.devRef .tc main_arg8) :=
  W10_of_ne m ρ c main_arg8 (by decide)

theorem pass9_main_arg6 (c : Dev nD) : W10 m ρ c (Proc.devRef .tc main_arg6) = W9 m ρ c (Proc.devRef .tc main_arg6) :=
  W10_of_ne m ρ c main_arg6 (by decide)

theorem pass9_main_v14 (c : Dev nD) : W10 m ρ c (Proc.devRef .tc main_v14) = W9 m ρ c (Proc.devRef .tc main_v14) :=
  W10_of_ne m ρ c main_v14 (by decide)

theorem pass9_main_arg12 (c : Dev nD) : W10 m ρ c (Proc.devRef .tc main_arg12) = W9 m ρ c (Proc.devRef .tc main_arg12) :=
  W10_of_ne m ρ c main_arg12 (by decide)

theorem pass9_main_arg11 (c : Dev nD) : W10 m ρ c (Proc.devRef .tc main_arg11) = W9 m ρ c (Proc.devRef .tc main_arg11) :=
  W10_of_ne m ρ c main_arg11 (by decide)

theorem pass9_main_arg10 (c : Dev nD) : W10 m ρ c (Proc.devRef .tc main_arg10) = W9 m ρ c (Proc.devRef .tc main_arg10) :=
  W10_of_ne m ρ c main_arg10 (by decide)

theorem pass9_main_arg9 (c : Dev nD) : W10 m ρ c (Proc.devRef .tc main_arg9) = W9 m ρ c (Proc.devRef .tc main_arg9) :=
  W10_of_ne m ρ c main_arg9 (by decide)

theorem pass9_main_v76 (c : Dev nD) : W10 m ρ c (Proc.devRef .tc main_v76) = W9 m ρ c (Proc.devRef .tc main_v76) :=
  W10_of_ne m ρ c main_v76 (by decide)

theorem pass9_main_v56 (c : Dev nD) : W10 m ρ c (Proc.devRef .tc main_v56) = W9 m ρ c (Proc.devRef .tc main_v56) :=
  W10_of_ne m ρ c main_v56 (by decide)

/-! ## The host operations before region 5 -/

theorem pass10_main_v18 (c : Dev nD) : W11 m ρ c (Proc.devRef .tc main_v18) = W10 m ρ c (Proc.devRef .tc main_v18) :=
  StableHlo.after_of_forall_not_mem (b := Proc.devRef .tc main_v18) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass10_main_arg7 (c : Dev nD) : W11 m ρ c (Proc.devRef .tc main_arg7) = W10 m ρ c (Proc.devRef .tc main_arg7) :=
  StableHlo.after_of_forall_not_mem (b := Proc.devRef .tc main_arg7) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass10_main_arg8 (c : Dev nD) : W11 m ρ c (Proc.devRef .tc main_arg8) = W10 m ρ c (Proc.devRef .tc main_arg8) :=
  StableHlo.after_of_forall_not_mem (b := Proc.devRef .tc main_arg8) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass10_main_arg6 (c : Dev nD) : W11 m ρ c (Proc.devRef .tc main_arg6) = W10 m ρ c (Proc.devRef .tc main_arg6) :=
  StableHlo.after_of_forall_not_mem (b := Proc.devRef .tc main_arg6) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass10_main_v14 (c : Dev nD) : W11 m ρ c (Proc.devRef .tc main_v14) = W10 m ρ c (Proc.devRef .tc main_v14) :=
  StableHlo.after_of_forall_not_mem (b := Proc.devRef .tc main_v14) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass10_main_arg12 (c : Dev nD) : W11 m ρ c (Proc.devRef .tc main_arg12) = W10 m ρ c (Proc.devRef .tc main_arg12) :=
  StableHlo.after_of_forall_not_mem (b := Proc.devRef .tc main_arg12) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass10_main_arg11 (c : Dev nD) : W11 m ρ c (Proc.devRef .tc main_arg11) = W10 m ρ c (Proc.devRef .tc main_arg11) :=
  StableHlo.after_of_forall_not_mem (b := Proc.devRef .tc main_arg11) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass10_main_arg10 (c : Dev nD) : W11 m ρ c (Proc.devRef .tc main_arg10) = W10 m ρ c (Proc.devRef .tc main_arg10) :=
  StableHlo.after_of_forall_not_mem (b := Proc.devRef .tc main_arg10) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass10_main_arg9 (c : Dev nD) : W11 m ρ c (Proc.devRef .tc main_arg9) = W10 m ρ c (Proc.devRef .tc main_arg9) :=
  StableHlo.after_of_forall_not_mem (b := Proc.devRef .tc main_arg9) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass10_main_v85 (c : Dev nD) : W11 m ρ c (Proc.devRef .tc main_v85) = W10 m ρ c (Proc.devRef .tc main_v85) :=
  StableHlo.after_of_forall_not_mem (b := Proc.devRef .tc main_v85) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass10_main_v76 (c : Dev nD) : W11 m ρ c (Proc.devRef .tc main_v76) = W10 m ρ c (Proc.devRef .tc main_v76) :=
  StableHlo.after_of_forall_not_mem (b := Proc.devRef .tc main_v76) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass10_main_v56 (c : Dev nD) : W11 m ρ c (Proc.devRef .tc main_v56) = W10 m ρ c (Proc.devRef .tc main_v56) :=
  StableHlo.after_of_forall_not_mem (b := Proc.devRef .tc main_v56) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Region 5 -/

theorem pass11_main_v18 (c : Dev nD) : W12 m ρ c (Proc.devRef .tc main_v18) = W11 m ρ c (Proc.devRef .tc main_v18) :=
  W12_of_ne m ρ c main_v18 (by decide)

theorem pass11_main_arg7 (c : Dev nD) : W12 m ρ c (Proc.devRef .tc main_arg7) = W11 m ρ c (Proc.devRef .tc main_arg7) :=
  W12_of_ne m ρ c main_arg7 (by decide)

theorem pass11_main_arg8 (c : Dev nD) : W12 m ρ c (Proc.devRef .tc main_arg8) = W11 m ρ c (Proc.devRef .tc main_arg8) :=
  W12_of_ne m ρ c main_arg8 (by decide)

theorem pass11_main_arg6 (c : Dev nD) : W12 m ρ c (Proc.devRef .tc main_arg6) = W11 m ρ c (Proc.devRef .tc main_arg6) :=
  W12_of_ne m ρ c main_arg6 (by decide)

theorem pass11_main_v14 (c : Dev nD) : W12 m ρ c (Proc.devRef .tc main_v14) = W11 m ρ c (Proc.devRef .tc main_v14) :=
  W12_of_ne m ρ c main_v14 (by decide)

theorem pass11_main_arg12 (c : Dev nD) : W12 m ρ c (Proc.devRef .tc main_arg12) = W11 m ρ c (Proc.devRef .tc main_arg12) :=
  W12_of_ne m ρ c main_arg12 (by decide)

theorem pass11_main_arg11 (c : Dev nD) : W12 m ρ c (Proc.devRef .tc main_arg11) = W11 m ρ c (Proc.devRef .tc main_arg11) :=
  W12_of_ne m ρ c main_arg11 (by decide)

theorem pass11_main_arg10 (c : Dev nD) : W12 m ρ c (Proc.devRef .tc main_arg10) = W11 m ρ c (Proc.devRef .tc main_arg10) :=
  W12_of_ne m ρ c main_arg10 (by decide)

theorem pass11_main_arg9 (c : Dev nD) : W12 m ρ c (Proc.devRef .tc main_arg9) = W11 m ρ c (Proc.devRef .tc main_arg9) :=
  W12_of_ne m ρ c main_arg9 (by decide)

theorem pass11_main_v85 (c : Dev nD) : W12 m ρ c (Proc.devRef .tc main_v85) = W11 m ρ c (Proc.devRef .tc main_v85) :=
  W12_of_ne m ρ c main_v85 (by decide)

end Cert.KernelIdeal.Pass

end
-- ==== Proof.KerPass3.lean ====
/-
  Buffers that a stretch of host operations does not write, and arrays that a kernel region only
  reads or does not touch, hold after it what they held before it: no operation of the stretch has
  the buffer as its result; a region changes only its output array (an input window's array is
  fetched from, never written back).  One equation per buffer that a later step still reads.
-/
import proofs.«106831_j73237782332046_2_alg».proof.Proof.Gen.KernelIdeal.Frame

set_option maxRecDepth 16384

noncomputable section

namespace Cert.KernelIdeal.Pass

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The host operations before region 6 -/

theorem pass12_main_v18 (c : Dev nD) : W13 m ρ c (Proc.devRef .tc main_v18) = W12 m ρ c (Proc.devRef .tc main_v18) :=
  StableHlo.after_of_forall_not_mem (b := Proc.devRef .tc main_v18) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass12_main_arg7 (c : Dev nD) : W13 m ρ c (Proc.devRef .tc main_arg7) = W12 m ρ c (Proc.devRef .tc main_arg7) :=
  StableHlo.after_of_forall_not_mem (b := Proc.devRef .tc main_arg7) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass12_main_arg8 (c : Dev nD) : W13 m ρ c (Proc.devRef .tc main_arg8) = W12 m ρ c (Proc.devRef .tc main_arg8) :=
  StableHlo.after_of_forall_not_mem (b := Proc.devRef .tc main_arg8) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass12_main_arg6 (c : Dev nD) : W13 m ρ c (Proc.devRef .tc main_arg6) = W12 m ρ c (Proc.devRef .tc main_arg6) :=
  StableHlo.after_of_forall_not_mem (b := Proc.devRef .tc main_arg6) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass12_main_v14 (c : Dev nD) : W13 m ρ c (Proc.devRef .tc main_v14) = W12 m ρ c (Proc.devRef .tc main_v14) :=
  StableHlo.after_of_forall_not_mem (b := Proc.devRef .tc main_v14) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass12_main_arg12 (c : Dev nD) : W13 m ρ c (Proc.devRef .tc main_arg12) = W12 m ρ c (Proc.devRef .tc main_arg12) :=
  StableHlo.after_of_forall_not_mem (b := Proc.devRef .tc main_arg12) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass12_main_arg11 (c : Dev nD) : W13 m ρ c (Proc.devRef .tc main_arg11) = W12 m ρ c (Proc.devRef .tc main_arg11) :=
  StableHlo.after_of_forall_not_mem (b := Proc.devRef .tc main_arg11) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass12_main_arg10 (c : Dev nD) : W13 m ρ c (Proc.devRef .tc main_arg10) = W12 m ρ c (Proc.devRef .tc main_arg10) :=
  StableHlo.after_of_forall_not_mem (b := Proc.devRef .tc main_arg10) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass12_main_arg9 (c : Dev nD) : W13 m ρ c (Proc.devRef .tc main_arg9) = W12 m ρ c (Proc.devRef .tc main_arg9) :=
  StableHlo.after_of_forall_not_mem (b := Proc.devRef .tc main_arg9) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass12_main_v94 (c : Dev nD) : W13 m ρ c (Proc.devRef .tc main_v94) = W12 m ρ c (Proc.devRef .tc main_v94) :=
  StableHlo.after_of_forall_not_mem (b := Proc.devRef .tc main_v94) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass12_main_v85 (c : Dev nD) : W13 m ρ c (Proc.devRef .tc main_v85) = W12 m ρ c (Proc.devRef .tc main_v85) :=
  StableHlo.after_of_forall_not_mem (b := Proc.devRef .tc main_v85) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Region 6 -/

theorem pass13_main_v18 (c : Dev nD) : W14 m ρ c (Proc.devRef .tc main_v18) = W13 m ρ c (Proc.devRef .tc main_v18) :=
  W14_of_ne m ρ c main_v18 (by decide)

theorem pass13_main_arg7 (c : Dev nD) : W14 m ρ c (Proc.devRef .tc main_arg7) = W13 m ρ c (Proc.devRef .tc main_arg7) :=
  W14_of_ne m ρ c main_arg7 (by decide)

theorem pass13_main_arg8 (c : Dev nD) : W14 m ρ c (Proc.devRef .tc main_arg8) = W13 m ρ c (Proc.devRef .tc main_arg8) :=
  W14_of_ne m ρ c main_arg8 (by decide)

theorem pass13_main_arg6 (c : Dev nD) : W14 m ρ c (Proc.devRef .tc main_arg6) = W13 m ρ c (Proc.devRef .tc main_arg6) :=
  W14_of_ne m ρ c main_arg6 (by decide)

theorem pass13_main_v14 (c : Dev nD) : W14 m ρ c (Proc.devRef .tc main_v14) = W13 m ρ c (Proc.devRef .tc main_v14) :=
  W14_of_ne m ρ c main_v14 (by decide)

theorem pass13_main_arg12 (c : Dev nD) : W14 m ρ c (Proc.devRef .tc main_arg12) = W13 m ρ c (Proc.devRef .tc main_arg12) :=
  W14_of_ne m ρ c main_arg12 (by decide)

theorem pass13_main_arg11 (c : Dev nD) : W14 m ρ c (Proc.devRef .tc main_arg11) = W13 m ρ c (Proc.devRef .tc main_arg11) :=
  W14_of_ne m ρ c main_arg11 (by decide)

theorem pass13_main_arg10 (c : Dev nD) : W14 m ρ c (Proc.devRef .tc main_arg10) = W13 m ρ c (Proc.devRef .tc main_arg10) :=
  W14_of_ne m ρ c main_arg10 (by decide)

theorem pass13_main_arg9 (c : Dev nD) : W14 m ρ c (Proc.devRef .tc main_arg9) = W13 m ρ c (Proc.devRef .tc main_arg9) :=
  W14_of_ne m ρ c main_arg9 (by decide)

theorem pass13_main_v114 (c : Dev nD) : W14 m ρ c (Proc.devRef .tc main_v114) = W13 m ρ c (Proc.devRef .tc main_v114) :=
  W14_of_ne m ρ c main_v114 (by decide)

theorem pass13_main_v94 (c : Dev nD) : W14 m ρ c (Proc.devRef .tc main_v94) = W13 m ρ c (Proc.devRef .tc main_v94) :=
  W14_of_ne m ρ c main_v94 (by decide)

/-! ## The host operations before region 7 -/

theorem pass14_main_v18 (c : Dev nD) : W15 m ρ c (Proc.devRef .tc main_v18) = W14 m ρ c (Proc.devRef .tc main_v18) :=
  StableHlo.after_of_forall_not_mem (b := Proc.devRef .tc main_v18) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass14_main_arg7 (c : Dev nD) : W15 m ρ c (Proc.devRef .tc main_arg7) = W14 m ρ c (Proc.devRef .tc main_arg7) :=
  StableHlo.after_of_forall_not_mem (b := Proc.devRef .tc main_arg7) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass14_main_arg8 (c : Dev nD) : W15 m ρ c (Proc.devRef .tc main_arg8) = W14 m ρ c (Proc.devRef .tc main_arg8) :=
  StableHlo.after_of_forall_not_mem (b := Proc.devRef .tc main_arg8) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass14_main_arg6 (c : Dev nD) : W15 m ρ c (Proc.devRef .tc main_arg6) = W14 m ρ c (Proc.devRef .tc main_arg6) :=
  StableHlo.after_of_forall_not_mem (b := Proc.devRef .tc main_arg6) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass14_main_v123 (c : Dev nD) : W15 m ρ c (Proc.devRef .tc main_v123) = W14 m ρ c (Proc.devRef .tc main_v123) :=
  StableHlo.after_of_forall_not_mem (b := Proc.devRef .tc main_v123) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass14_main_v14 (c : Dev nD) : W15 m ρ c (Proc.devRef .tc main_v14) = W14 m ρ c (Proc.devRef .tc main_v14) :=
  StableHlo.after_of_forall_not_mem (b := Proc.devRef .tc main_v14) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass14_main_arg12 (c : Dev nD) : W15 m ρ c (Proc.devRef .tc main_arg12) = W14 m ρ c (Proc.devRef .tc main_arg12) :=
  StableHlo.after_of_forall_not_mem (b := Proc.devRef .tc main_arg12) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass14_main_arg11 (c : Dev nD) : W15 m ρ c (Proc.devRef .tc main_arg11) = W14 m ρ c (Proc.devRef .tc main_arg11) :=
  StableHlo.after_of_forall_not_mem (b := Proc.devRef .tc main_arg11) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass14_main_arg10 (c : Dev nD) : W15 m ρ c (Proc.devRef .tc main_arg10) = W14 m ρ c (Proc.devRef .tc main_arg10) :=
  StableHlo.after_of_forall_not_mem (b := Proc.devRef .tc main_arg10) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass14_main_arg9 (c : Dev nD) : W15 m ρ c (Proc.devRef .tc main_arg9) = W14 m ρ c (Proc.devRef .tc main_arg9) :=
  StableHlo.after_of_forall_not_mem (b := Proc.devRef .tc main_arg9) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass14_main_v114 (c : Dev nD) : W15 m ρ c (Proc.devRef .tc main_v114) = W14 m ρ c (Proc.devRef .tc main_v114) :=
  StableHlo.after_of_forall_not_mem (b := Proc.devRef .tc main_v114) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass14_main_v94 (c : Dev nD) : W15 m ρ c (Proc.devRef .tc main_v94) = W14 m ρ c (Proc.devRef .tc main_v94) :=
  StableHlo.after_of_forall_not_mem (b := Proc.devRef .tc main_v94) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Region 7 -/

theorem pass15_main_v18 (c : Dev nD) : W16 m ρ c (Proc.devRef .tc main_v18) = W15 m ρ c (Proc.devRef .tc main_v18) :=
  W16_of_ne m ρ c main_v18 (by decide)

theorem pass15_main_arg7 (c : Dev nD) : W16 m ρ c (Proc.devRef .tc main_arg7) = W15 m ρ c (Proc.devRef .tc main_arg7) :=
  W16_of_ne m ρ c main_arg7 (by decide)

theorem pass15_main_arg8 (c : Dev nD) : W16 m ρ c (Proc.devRef .tc main_arg8) = W15 m ρ c (Proc.devRef .tc main_arg8) :=
  W16_of_ne m ρ c main_arg8 (by decide)

theorem pass15_main_arg6 (c : Dev nD) : W16 m ρ c (Proc.devRef .tc main_arg6) = W15 m ρ c (Proc.devRef .tc main_arg6) :=
  W16_of_ne m ρ c main_arg6 (by decide)

theorem pass15_main_v123 (c : Dev nD) : W16 m ρ c (Proc.devRef .tc main_v123) = W15 m ρ c (Proc.devRef .tc main_v123) :=
  W16_of_ne m ρ c main_v123 (by decide)

theorem pass15_main_v14 (c : Dev nD) : W16 m ρ c (Proc.devRef .tc main_v14) = W15 m ρ c (Proc.devRef .tc main_v14) :=
  W16_of_ne m ρ c main_v14 (by decide)

theorem pass15_main_arg12 (c : Dev nD) : W16 m ρ c (Proc.devRef .tc main_arg12) = W15 m ρ c (Proc.devRef .tc main_arg12) :=
  W16_of_ne m ρ c main_arg12 (by decide)

theorem pass15_main_arg11 (c : Dev nD) : W16 m ρ c (Proc.devRef .tc main_arg11) = W15 m ρ c (Proc.devRef .tc main_arg11) :=
  W16_of_ne m ρ c main_arg11 (by decide)

theorem pass15_main_arg10 (c : Dev nD) : W16 m ρ c (Proc.devRef .tc main_arg10) = W15 m ρ c (Proc.devRef .tc main_arg10) :=
  W16_of_ne m ρ c main_arg10 (by decide)

theorem pass15_main_arg9 (c : Dev nD) : W16 m ρ c (Proc.devRef .tc main_arg9) = W15 m ρ c (Proc.devRef .tc main_arg9) :=
  W16_of_ne m ρ c main_arg9 (by decide)

end Cert.KernelIdeal.Pass

end
-- ==== Proof.KerPass4.lean ====
/-
  Buffers that a stretch of host operations does not write, and arrays that a kernel region only
  reads or does not touch, hold after it what they held before it: no operation of the stretch has
  the buffer as its result; a region changes only its output array (an input window's array is
  fetched from, never written back).  One equation per buffer that a later step still reads.
-/
import proofs.«106831_j73237782332046_2_alg».proof.Proof.Gen.KernelIdeal.Frame

set_option maxRecDepth 16384

noncomputable section

namespace Cert.KernelIdeal.Pass

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The host operations before region 8 -/

theorem pass16_main_v132 (c : Dev nD) : W17 m ρ c (Proc.devRef .tc main_v132) = W16 m ρ c (Proc.devRef .tc main_v132) :=
  StableHlo.after_of_forall_not_mem (b := Proc.devRef .tc main_v132) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass16_main_v18 (c : Dev nD) : W17 m ρ c (Proc.devRef .tc main_v18) = W16 m ρ c (Proc.devRef .tc main_v18) :=
  StableHlo.after_of_forall_not_mem (b := Proc.devRef .tc main_v18) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass16_main_arg7 (c : Dev nD) : W17 m ρ c (Proc.devRef .tc main_arg7) = W16 m ρ c (Proc.devRef .tc main_arg7) :=
  StableHlo.after_of_forall_not_mem (b := Proc.devRef .tc main_arg7) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass16_main_arg8 (c : Dev nD) : W17 m ρ c (Proc.devRef .tc main_arg8) = W16 m ρ c (Proc.devRef .tc main_arg8) :=
  StableHlo.after_of_forall_not_mem (b := Proc.devRef .tc main_arg8) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass16_main_arg6 (c : Dev nD) : W17 m ρ c (Proc.devRef .tc main_arg6) = W16 m ρ c (Proc.devRef .tc main_arg6) :=
  StableHlo.after_of_forall_not_mem (b := Proc.devRef .tc main_arg6) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass16_main_v123 (c : Dev nD) : W17 m ρ c (Proc.devRef .tc main_v123) = W16 m ρ c (Proc.devRef .tc main_v123) :=
  StableHlo.after_of_forall_not_mem (b := Proc.devRef .tc main_v123) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Region 8 -/

theorem pass17_main_v152 (c : Dev nD) : W18 m ρ c (Proc.devRef .tc main_v152) = W17 m ρ c (Proc.devRef .tc main_v152) :=
  W18_of_ne m ρ c main_v152 (by decide)

theorem pass17_main_v132 (c : Dev nD) : W18 m ρ c (Proc.devRef .tc main_v132) = W17 m ρ c (Proc.devRef .tc main_v132) :=
  W18_of_ne m ρ c main_v132 (by decide)

theorem pass17_main_v18 (c : Dev nD) : W18 m ρ c (Proc.devRef .tc main_v18) = W17 m ρ c (Proc.devRef .tc main_v18) :=
  W18_of_ne m ρ c main_v18 (by decide)

theorem pass17_main_arg7 (c : Dev nD) : W18 m ρ c (Proc.devRef .tc main_arg7) = W17 m ρ c (Proc.devRef .tc main_arg7) :=
  W18_of_ne m ρ c main_arg7 (by decide)

theorem pass17_main_arg8 (c : Dev nD) : W18 m ρ c (Proc.devRef .tc main_arg8) = W17 m ρ c (Proc.devRef .tc main_arg8) :=
  W18_of_ne m ρ c main_arg8 (by decide)

theorem pass17_main_arg6 (c : Dev nD) : W18 m ρ c (Proc.devRef .tc main_arg6) = W17 m ρ c (Proc.devRef .tc main_arg6) :=
  W18_of_ne m ρ c main_arg6 (by decide)

/-! ## The host operations before region 9 -/

theorem pass18_main_v161 (c : Dev nD) : W19 m ρ c (Proc.devRef .tc main_v161) = W18 m ρ c (Proc.devRef .tc main_v161) :=
  StableHlo.after_of_forall_not_mem (b := Proc.devRef .tc main_v161) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass18_main_v152 (c : Dev nD) : W19 m ρ c (Proc.devRef .tc main_v152) = W18 m ρ c (Proc.devRef .tc main_v152) :=
  StableHlo.after_of_forall_not_mem (b := Proc.devRef .tc main_v152) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pass18_main_v132 (c : Dev nD) : W19 m ρ c (Proc.devRef .tc main_v132) = W18 m ρ c (Proc.devRef .tc main_v132) :=
  StableHlo.after_of_forall_not_mem (b := Proc.devRef .tc main_v132) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Region 9 -/

theorem pass19_main_v161 (c : Dev nD) : W20 m ρ c (Proc.devRef .tc main_v161) = W19 m ρ c (Proc.devRef .tc main_v161) :=
  W20_of_ne m ρ c main_v161 (by decide)

end Cert.KernelIdeal.Pass

end
-- ==== Proof.KerArgs.lean ====
/-
  The argument arrays are as launched at every segment boundary where a later step still reads
  them: no host operation has an argument as its result and no region writes one, so each boundary's
  contents at an argument's buffer walk back, one segment at a time, to the launch memory.
-/
import proofs.«106831_j73237782332046_2_alg».proof.Proof.KerPass0
import proofs.«106831_j73237782332046_2_alg».proof.Proof.KerPass1
import proofs.«106831_j73237782332046_2_alg».proof.Proof.KerPass2
import proofs.«106831_j73237782332046_2_alg».proof.Proof.KerPass3
import proofs.«106831_j73237782332046_2_alg».proof.Proof.KerPass4

noncomputable section

namespace Cert.KernelIdeal.Pass

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem arg0_main_arg7 (c : Dev nD) : W0 m ρ c (Proc.devRef .tc main_arg7) = m ((c : Thread nD τ).loc main_arg7) := rfl
theorem arg0_main_arg8 (c : Dev nD) : W0 m ρ c (Proc.devRef .tc main_arg8) = m ((c : Thread nD τ).loc main_arg8) := rfl
theorem arg0_main_arg6 (c : Dev nD) : W0 m ρ c (Proc.devRef .tc main_arg6) = m ((c : Thread nD τ).loc main_arg6) := rfl
theorem arg0_main_arg12 (c : Dev nD) : W0 m ρ c (Proc.devRef .tc main_arg12) = m ((c : Thread nD τ).loc main_arg12) := rfl
theorem arg0_main_arg11 (c : Dev nD) : W0 m ρ c (Proc.devRef .tc main_arg11) = m ((c : Thread nD τ).loc main_arg11) := rfl
theorem arg0_main_arg10 (c : Dev nD) : W0 m ρ c (Proc.devRef .tc main_arg10) = m ((c : Thread nD τ).loc main_arg10) := rfl
theorem arg0_main_arg9 (c : Dev nD) : W0 m ρ c (Proc.devRef .tc main_arg9) = m ((c : Thread nD τ).loc main_arg9) := rfl
theorem arg0_main_arg1 (c : Dev nD) : W0 m ρ c (Proc.devRef .tc main_arg1) = m ((c : Thread nD τ).loc main_arg1) := rfl
theorem arg0_main_arg4 (c : Dev nD) : W0 m ρ c (Proc.devRef .tc main_arg4) = m ((c : Thread nD τ).loc main_arg4) := rfl
theorem arg0_main_arg5 (c : Dev nD) : W0 m ρ c (Proc.devRef .tc main_arg5) = m ((c : Thread nD τ).loc main_arg5) := rfl
theorem arg0_main_arg0 (c : Dev nD) : W0 m ρ c (Proc.devRef .tc main_arg0) = m ((c : Thread nD τ).loc main_arg0) := rfl
theorem arg0_main_arg2 (c : Dev nD) : W0 m ρ c (Proc.devRef .tc main_arg2) = m ((c : Thread nD τ).loc main_arg2) := rfl
theorem arg0_main_arg3 (c : Dev nD) : W0 m ρ c (Proc.devRef .tc main_arg3) = m ((c : Thread nD τ).loc main_arg3) := rfl
theorem arg1_main_arg7 (c : Dev nD) : W1 m ρ c (Proc.devRef .tc main_arg7) = m ((c : Thread nD τ).loc main_arg7) :=
  (pass0_main_arg7 m ρ c).trans (arg0_main_arg7 m ρ c)
theorem arg1_main_arg8 (c : Dev nD) : W1 m ρ c (Proc.devRef .tc main_arg8) = m ((c : Thread nD τ).loc main_arg8) :=
  (pass0_main_arg8 m ρ c).trans (arg0_main_arg8 m ρ c)
theorem arg1_main_arg6 (c : Dev nD) : W1 m ρ c (Proc.devRef .tc main_arg6) = m ((c : Thread nD τ).loc main_arg6) :=
  (pass0_main_arg6 m ρ c).trans (arg0_main_arg6 m ρ c)
theorem arg1_main_arg12 (c : Dev nD) : W1 m ρ c (Proc.devRef .tc main_arg12) = m ((c : Thread nD τ).loc main_arg12) :=
  (pass0_main_arg12 m ρ c).trans (arg0_main_arg12 m ρ c)
theorem arg1_main_arg11 (c : Dev nD) : W1 m ρ c (Proc.devRef .tc main_arg11) = m ((c : Thread nD τ).loc main_arg11) :=
  (pass0_main_arg11 m ρ c).trans (arg0_main_arg11 m ρ c)
theorem arg1_main_arg10 (c : Dev nD) : W1 m ρ c (Proc.devRef .tc main_arg10) = m ((c : Thread nD τ).loc main_arg10) :=
  (pass0_main_arg10 m ρ c).trans (arg0_main_arg10 m ρ c)
theorem arg1_main_arg9 (c : Dev nD) : W1 m ρ c (Proc.devRef .tc main_arg9) = m ((c : Thread nD τ).loc main_arg9) :=
  (pass0_main_arg9 m ρ c).trans (arg0_main_arg9 m ρ c)
theorem arg1_main_arg1 (c : Dev nD) : W1 m ρ c (Proc.devRef .tc main_arg1) = m ((c : Thread nD τ).loc main_arg1) :=
  (pass0_main_arg1 m ρ c).trans (arg0_main_arg1 m ρ c)
theorem arg1_main_arg4 (c : Dev nD) : W1 m ρ c (Proc.devRef .tc main_arg4) = m ((c : Thread nD τ).loc main_arg4) :=
  (pass0_main_arg4 m ρ c).trans (arg0_main_arg4 m ρ c)
theorem arg1_main_arg5 (c : Dev nD) : W1 m ρ c (Proc.devRef .tc main_arg5) = m ((c : Thread nD τ).loc main_arg5) :=
  (pass0_main_arg5 m ρ c).trans (arg0_main_arg5 m ρ c)
theorem arg1_main_arg0 (c : Dev nD) : W1 m ρ c (Proc.devRef .tc main_arg0) = m ((c : Thread nD τ).loc main_arg0) :=
  (pass0_main_arg0 m ρ c).trans (arg0_main_arg0 m ρ c)
theorem arg1_main_arg2 (c : Dev nD) : W1 m ρ c (Proc.devRef .tc main_arg2) = m ((c : Thread nD τ).loc main_arg2) :=
  (pass0_main_arg2 m ρ c).trans (arg0_main_arg2 m ρ c)
theorem arg2_main_arg7 (c : Dev nD) : W2 m ρ c (Proc.devRef .tc main_arg7) = m ((c : Thread nD τ).loc main_arg7) :=
  (pass1_main_arg7 m ρ c).trans (arg1_main_arg7 m ρ c)
theorem arg2_main_arg8 (c : Dev nD) : W2 m ρ c (Proc.devRef .tc main_arg8) = m ((c : Thread nD τ).loc main_arg8) :=
  (pass1_main_arg8 m ρ c).trans (arg1_main_arg8 m ρ c)
theorem arg2_main_arg6 (c : Dev nD) : W2 m ρ c (Proc.devRef .tc main_arg6) = m ((c : Thread nD τ).loc main_arg6) :=
  (pass1_main_arg6 m ρ c).trans (arg1_main_arg6 m ρ c)
theorem arg2_main_arg12 (c : Dev nD) : W2 m ρ c (Proc.devRef .tc main_arg12) = m ((c : Thread nD τ).loc main_arg12) :=
  (pass1_main_arg12 m ρ c).trans (arg1_main_arg12 m ρ c)
theorem arg2_main_arg11 (c : Dev nD) : W2 m ρ c (Proc.devRef .tc main_arg11) = m ((c : Thread nD τ).loc main_arg11) :=
  (pass1_main_arg11 m ρ c).trans (arg1_main_arg11 m ρ c)
theorem arg2_main_arg10 (c : Dev nD) : W2 m ρ c (Proc.devRef .tc main_arg10) = m ((c : Thread nD τ).loc main_arg10) :=
  (pass1_main_arg10 m ρ c).trans (arg1_main_arg10 m ρ c)
theorem arg2_main_arg9 (c : Dev nD) : W2 m ρ c (Proc.devRef .tc main_arg9) = m ((c : Thread nD τ).loc main_arg9) :=
  (pass1_main_arg9 m ρ c).trans (arg1_main_arg9 m ρ c)
theorem arg2_main_arg1 (c : Dev nD) : W2 m ρ c (Proc.devRef .tc main_arg1) = m ((c : Thread nD τ).loc main_arg1) :=
  (pass1_main_arg1 m ρ c).trans (arg1_main_arg1 m ρ c)
theorem arg2_main_arg4 (c : Dev nD) : W2 m ρ c (Proc.devRef .tc main_arg4) = m ((c : Thread nD τ).loc main_arg4) :=
  (pass1_main_arg4 m ρ c).trans (arg1_main_arg4 m ρ c)
theorem arg2_main_arg5 (c : Dev nD) : W2 m ρ c (Proc.devRef .tc main_arg5) = m ((c : Thread nD τ).loc main_arg5) :=
  (pass1_main_arg5 m ρ c).trans (arg1_main_arg5 m ρ c)
theorem arg3_main_arg7 (c : Dev nD) : W3 m ρ c (Proc.devRef .tc main_arg7) = m ((c : Thread nD τ).loc main_arg7) :=
  (pass2_main_arg7 m ρ c).trans (arg2_main_arg7 m ρ c)
theorem arg3_main_arg8 (c : Dev nD) : W3 m ρ c (Proc.devRef .tc main_arg8) = m ((c : Thread nD τ).loc main_arg8) :=
  (pass2_main_arg8 m ρ c).trans (arg2_main_arg8 m ρ c)
theorem arg3_main_arg6 (c : Dev nD) : W3 m ρ c (Proc.devRef .tc main_arg6) = m ((c : Thread nD τ).loc main_arg6) :=
  (pass2_main_arg6 m ρ c).trans (arg2_main_arg6 m ρ c)
theorem arg3_main_arg12 (c : Dev nD) : W3 m ρ c (Proc.devRef .tc main_arg12) = m ((c : Thread nD τ).loc main_arg12) :=
  (pass2_main_arg12 m ρ c).trans (arg2_main_arg12 m ρ c)
theorem arg3_main_arg11 (c : Dev nD) : W3 m ρ c (Proc.devRef .tc main_arg11) = m ((c : Thread nD τ).loc main_arg11) :=
  (pass2_main_arg11 m ρ c).trans (arg2_main_arg11 m ρ c)
theorem arg3_main_arg10 (c : Dev nD) : W3 m ρ c (Proc.devRef .tc main_arg10) = m ((c : Thread nD τ).loc main_arg10) :=
  (pass2_main_arg10 m ρ c).trans (arg2_main_arg10 m ρ c)
theorem arg3_main_arg9 (c : Dev nD) : W3 m ρ c (Proc.devRef .tc main_arg9) = m ((c : Thread nD τ).loc main_arg9) :=
  (pass2_main_arg9 m ρ c).trans (arg2_main_arg9 m ρ c)
theorem arg3_main_arg1 (c : Dev nD) : W3 m ρ c (Proc.devRef .tc main_arg1) = m ((c : Thread nD τ).loc main_arg1) :=
  (pass2_main_arg1 m ρ c).trans (arg2_main_arg1 m ρ c)
theorem arg3_main_arg4 (c : Dev nD) : W3 m ρ c (Proc.devRef .tc main_arg4) = m ((c : Thread nD τ).loc main_arg4) :=
  (pass2_main_arg4 m ρ c).trans (arg2_main_arg4 m ρ c)
theorem arg4_main_arg7 (c : Dev nD) : W4 m ρ c (Proc.devRef .tc main_arg7) = m ((c : Thread nD τ).loc main_arg7) :=
  (pass3_main_arg7 m ρ c).trans (arg3_main_arg7 m ρ c)
theorem arg4_main_arg8 (c : Dev nD) : W4 m ρ c (Proc.devRef .tc main_arg8) = m ((c : Thread nD τ).loc main_arg8) :=
  (pass3_main_arg8 m ρ c).trans (arg3_main_arg8 m ρ c)
theorem arg4_main_arg6 (c : Dev nD) : W4 m ρ c (Proc.devRef .tc main_arg6) = m ((c : Thread nD τ).loc main_arg6) :=
  (pass3_main_arg6 m ρ c).trans (arg3_main_arg6 m ρ c)
theorem arg4_main_arg12 (c : Dev nD) : W4 m ρ c (Proc.devRef .tc main_arg12) = m ((c : Thread nD τ).loc main_arg12) :=
  (pass3_main_arg12 m ρ c).trans (arg3_main_arg12 m ρ c)
theorem arg4_main_arg11 (c : Dev nD) : W4 m ρ c (Proc.devRef .tc main_arg11) = m ((c : Thread nD τ).loc main_arg11) :=
  (pass3_main_arg11 m ρ c).trans (arg3_main_arg11 m ρ c)
theorem arg4_main_arg10 (c : Dev nD) : W4 m ρ c (Proc.devRef .tc main_arg10) = m ((c : Thread nD τ).loc main_arg10) :=
  (pass3_main_arg10 m ρ c).trans (arg3_main_arg10 m ρ c)
theorem arg4_main_arg9 (c : Dev nD) : W4 m ρ c (Proc.devRef .tc main_arg9) = m ((c : Thread nD τ).loc main_arg9) :=
  (pass3_main_arg9 m ρ c).trans (arg3_main_arg9 m ρ c)
theorem arg5_main_arg7 (c : Dev nD) : W5 m ρ c (Proc.devRef .tc main_arg7) = m ((c : Thread nD τ).loc main_arg7) :=
  (pass4_main_arg7 m ρ c).trans (arg4_main_arg7 m ρ c)
theorem arg5_main_arg8 (c : Dev nD) : W5 m ρ c (Proc.devRef .tc main_arg8) = m ((c : Thread nD τ).loc main_arg8) :=
  (pass4_main_arg8 m ρ c).trans (arg4_main_arg8 m ρ c)
theorem arg5_main_arg6 (c : Dev nD) : W5 m ρ c (Proc.devRef .tc main_arg6) = m ((c : Thread nD τ).loc main_arg6) :=
  (pass4_main_arg6 m ρ c).trans (arg4_main_arg6 m ρ c)
theorem arg5_main_arg12 (c : Dev nD) : W5 m ρ c (Proc.devRef .tc main_arg12) = m ((c : Thread nD τ).loc main_arg12) :=
  (pass4_main_arg12 m ρ c).trans (arg4_main_arg12 m ρ c)
theorem arg5_main_arg11 (c : Dev nD) : W5 m ρ c (Proc.devRef .tc main_arg11) = m ((c : Thread nD τ).loc main_arg11) :=
  (pass4_main_arg11 m ρ c).trans (arg4_main_arg11 m ρ c)
theorem arg5_main_arg10 (c : Dev nD) : W5 m ρ c (Proc.devRef .tc main_arg10) = m ((c : Thread nD τ).loc main_arg10) :=
  (pass4_main_arg10 m ρ c).trans (arg4_main_arg10 m ρ c)
theorem arg5_main_arg9 (c : Dev nD) : W5 m ρ c (Proc.devRef .tc main_arg9) = m ((c : Thread nD τ).loc main_arg9) :=
  (pass4_main_arg9 m ρ c).trans (arg4_main_arg9 m ρ c)
theorem arg6_main_arg7 (c : Dev nD) : W6 m ρ c (Proc.devRef .tc main_arg7) = m ((c : Thread nD τ).loc main_arg7) :=
  (pass5_main_arg7 m ρ c).trans (arg5_main_arg7 m ρ c)
theorem arg6_main_arg8 (c : Dev nD) : W6 m ρ c (Proc.devRef .tc main_arg8) = m ((c : Thread nD τ).loc main_arg8) :=
  (pass5_main_arg8 m ρ c).trans (arg5_main_arg8 m ρ c)
theorem arg6_main_arg6 (c : Dev nD) : W6 m ρ c (Proc.devRef .tc main_arg6) = m ((c : Thread nD τ).loc main_arg6) :=
  (pass5_main_arg6 m ρ c).trans (arg5_main_arg6 m ρ c)
theorem arg6_main_arg12 (c : Dev nD) : W6 m ρ c (Proc.devRef .tc main_arg12) = m ((c : Thread nD τ).loc main_arg12) :=
  (pass5_main_arg12 m ρ c).trans (arg5_main_arg12 m ρ c)
theorem arg6_main_arg11 (c : Dev nD) : W6 m ρ c (Proc.devRef .tc main_arg11) = m ((c : Thread nD τ).loc main_arg11) :=
  (pass5_main_arg11 m ρ c).trans (arg5_main_arg11 m ρ c)
theorem arg6_main_arg10 (c : Dev nD) : W6 m ρ c (Proc.devRef .tc main_arg10) = m ((c : Thread nD τ).loc main_arg10) :=
  (pass5_main_arg10 m ρ c).trans (arg5_main_arg10 m ρ c)
theorem arg6_main_arg9 (c : Dev nD) : W6 m ρ c (Proc.devRef .tc main_arg9) = m ((c : Thread nD τ).loc main_arg9) :=
  (pass5_main_arg9 m ρ c).trans (arg5_main_arg9 m ρ c)
theorem arg7_main_arg7 (c : Dev nD) : W7 m ρ c (Proc.devRef .tc main_arg7) = m ((c : Thread nD τ).loc main_arg7) :=
  (pass6_main_arg7 m ρ c).trans (arg6_main_arg7 m ρ c)
theorem arg7_main_arg8 (c : Dev nD) : W7 m ρ c (Proc.devRef .tc main_arg8) = m ((c : Thread nD τ).loc main_arg8) :=
  (pass6_main_arg8 m ρ c).trans (arg6_main_arg8 m ρ c)
theorem arg7_main_arg6 (c : Dev nD) : W7 m ρ c (Proc.devRef .tc main_arg6) = m ((c : Thread nD τ).loc main_arg6) :=
  (pass6_main_arg6 m ρ c).trans (arg6_main_arg6 m ρ c)
theorem arg7_main_arg12 (c : Dev nD) : W7 m ρ c (Proc.devRef .tc main_arg12) = m ((c : Thread nD τ).loc main_arg12) :=
  (pass6_main_arg12 m ρ c).trans (arg6_main_arg12 m ρ c)
theorem arg7_main_arg11 (c : Dev nD) : W7 m ρ c (Proc.devRef .tc main_arg11) = m ((c : Thread nD τ).loc main_arg11) :=
  (pass6_main_arg11 m ρ c).trans (arg6_main_arg11 m ρ c)
theorem arg7_main_arg10 (c : Dev nD) : W7 m ρ c (Proc.devRef .tc main_arg10) = m ((c : Thread nD τ).loc main_arg10) :=
  (pass6_main_arg10 m ρ c).trans (arg6_main_arg10 m ρ c)
theorem arg7_main_arg9 (c : Dev nD) : W7 m ρ c (Proc.devRef .tc main_arg9) = m ((c : Thread nD τ).loc main_arg9) :=
  (pass6_main_arg9 m ρ c).trans (arg6_main_arg9 m ρ c)
theorem arg8_main_arg7 (c : Dev nD) : W8 m ρ c (Proc.devRef .tc main_arg7) = m ((c : Thread nD τ).loc main_arg7) :=
  (pass7_main_arg7 m ρ c).trans (arg7_main_arg7 m ρ c)
theorem arg8_main_arg8 (c : Dev nD) : W8 m ρ c (Proc.devRef .tc main_arg8) = m ((c : Thread nD τ).loc main_arg8) :=
  (pass7_main_arg8 m ρ c).trans (arg7_main_arg8 m ρ c)
theorem arg8_main_arg6 (c : Dev nD) : W8 m ρ c (Proc.devRef .tc main_arg6) = m ((c : Thread nD τ).loc main_arg6) :=
  (pass7_main_arg6 m ρ c).trans (arg7_main_arg6 m ρ c)
theorem arg8_main_arg12 (c : Dev nD) : W8 m ρ c (Proc.devRef .tc main_arg12) = m ((c : Thread nD τ).loc main_arg12) :=
  (pass7_main_arg12 m ρ c).trans (arg7_main_arg12 m ρ c)
theorem arg8_main_arg11 (c : Dev nD) : W8 m ρ c (Proc.devRef .tc main_arg11) = m ((c : Thread nD τ).loc main_arg11) :=
  (pass7_main_arg11 m ρ c).trans (arg7_main_arg11 m ρ c)
theorem arg8_main_arg10 (c : Dev nD) : W8 m ρ c (Proc.devRef .tc main_arg10) = m ((c : Thread nD τ).loc main_arg10) :=
  (pass7_main_arg10 m ρ c).trans (arg7_main_arg10 m ρ c)
theorem arg8_main_arg9 (c : Dev nD) : W8 m ρ c (Proc.devRef .tc main_arg9) = m ((c : Thread nD τ).loc main_arg9) :=
  (pass7_main_arg9 m ρ c).trans (arg7_main_arg9 m ρ c)
theorem arg9_main_arg7 (c : Dev nD) : W9 m ρ c (Proc.devRef .tc main_arg7) = m ((c : Thread nD τ).loc main_arg7) :=
  (pass8_main_arg7 m ρ c).trans (arg8_main_arg7 m ρ c)
theorem arg9_main_arg8 (c : Dev nD) : W9 m ρ c (Proc.devRef .tc main_arg8) = m ((c : Thread nD τ).loc main_arg8) :=
  (pass8_main_arg8 m ρ c).trans (arg8_main_arg8 m ρ c)
theorem arg9_main_arg6 (c : Dev nD) : W9 m ρ c (Proc.devRef .tc main_arg6) = m ((c : Thread nD τ).loc main_arg6) :=
  (pass8_main_arg6 m ρ c).trans (arg8_main_arg6 m ρ c)
theorem arg9_main_arg12 (c : Dev nD) : W9 m ρ c (Proc.devRef .tc main_arg12) = m ((c : Thread nD τ).loc main_arg12) :=
  (pass8_main_arg12 m ρ c).trans (arg8_main_arg12 m ρ c)
theorem arg9_main_arg11 (c : Dev nD) : W9 m ρ c (Proc.devRef .tc main_arg11) = m ((c : Thread nD τ).loc main_arg11) :=
  (pass8_main_arg11 m ρ c).trans (arg8_main_arg11 m ρ c)
theorem arg9_main_arg10 (c : Dev nD) : W9 m ρ c (Proc.devRef .tc main_arg10) = m ((c : Thread nD τ).loc main_arg10) :=
  (pass8_main_arg10 m ρ c).trans (arg8_main_arg10 m ρ c)
theorem arg9_main_arg9 (c : Dev nD) : W9 m ρ c (Proc.devRef .tc main_arg9) = m ((c : Thread nD τ).loc main_arg9) :=
  (pass8_main_arg9 m ρ c).trans (arg8_main_arg9 m ρ c)
theorem arg10_main_arg7 (c : Dev nD) : W10 m ρ c (Proc.devRef .tc main_arg7) = m ((c : Thread nD τ).loc main_arg7) :=
  (pass9_main_arg7 m ρ c).trans (arg9_main_arg7 m ρ c)
theorem arg10_main_arg8 (c : Dev nD) : W10 m ρ c (Proc.devRef .tc main_arg8) = m ((c : Thread nD τ).loc main_arg8) :=
  (pass9_main_arg8 m ρ c).trans (arg9_main_arg8 m ρ c)
theorem arg10_main_arg6 (c : Dev nD) : W10 m ρ c (Proc.devRef .tc main_arg6) = m ((c : Thread nD τ).loc main_arg6) :=
  (pass9_main_arg6 m ρ c).trans (arg9_main_arg6 m ρ c)
theorem arg10_main_arg12 (c : Dev nD) : W10 m ρ c (Proc.devRef .tc main_arg12) = m ((c : Thread nD τ).loc main_arg12) :=
  (pass9_main_arg12 m ρ c).trans (arg9_main_arg12 m ρ c)
theorem arg10_main_arg11 (c : Dev nD) : W10 m ρ c (Proc.devRef .tc main_arg11) = m ((c : Thread nD τ).loc main_arg11) :=
  (pass9_main_arg11 m ρ c).trans (arg9_main_arg11 m ρ c)
theorem arg10_main_arg10 (c : Dev nD) : W10 m ρ c (Proc.devRef .tc main_arg10) = m ((c : Thread nD τ).loc main_arg10) :=
  (pass9_main_arg10 m ρ c).trans (arg9_main_arg10 m ρ c)
theorem arg10_main_arg9 (c : Dev nD) : W10 m ρ c (Proc.devRef .tc main_arg9) = m ((c : Thread nD τ).loc main_arg9) :=
  (pass9_main_arg9 m ρ c).trans (arg9_main_arg9 m ρ c)
theorem arg11_main_arg7 (c : Dev nD) : W11 m ρ c (Proc.devRef .tc main_arg7) = m ((c : Thread nD τ).loc main_arg7) :=
  (pass10_main_arg7 m ρ c).trans (arg10_main_arg7 m ρ c)
theorem arg11_main_arg8 (c : Dev nD) : W11 m ρ c (Proc.devRef .tc main_arg8) = m ((c : Thread nD τ).loc main_arg8) :=
  (pass10_main_arg8 m ρ c).trans (arg10_main_arg8 m ρ c)
theorem arg11_main_arg6 (c : Dev nD) : W11 m ρ c (Proc.devRef .tc main_arg6) = m ((c : Thread nD τ).loc main_arg6) :=
  (pass10_main_arg6 m ρ c).trans (arg10_main_arg6 m ρ c)
theorem arg11_main_arg12 (c : Dev nD) : W11 m ρ c (Proc.devRef .tc main_arg12) = m ((c : Thread nD τ).loc main_arg12) :=
  (pass10_main_arg12 m ρ c).trans (arg10_main_arg12 m ρ c)
theorem arg11_main_arg11 (c : Dev nD) : W11 m ρ c (Proc.devRef .tc main_arg11) = m ((c : Thread nD τ).loc main_arg11) :=
  (pass10_main_arg11 m ρ c).trans (arg10_main_arg11 m ρ c)
theorem arg11_main_arg10 (c : Dev nD) : W11 m ρ c (Proc.devRef .tc main_arg10) = m ((c : Thread nD τ).loc main_arg10) :=
  (pass10_main_arg10 m ρ c).trans (arg10_main_arg10 m ρ c)
theorem arg11_main_arg9 (c : Dev nD) : W11 m ρ c (Proc.devRef .tc main_arg9) = m ((c : Thread nD τ).loc main_arg9) :=
  (pass10_main_arg9 m ρ c).trans (arg10_main_arg9 m ρ c)
theorem arg12_main_arg7 (c : Dev nD) : W12 m ρ c (Proc.devRef .tc main_arg7) = m ((c : Thread nD τ).loc main_arg7) :=
  (pass11_main_arg7 m ρ c).trans (arg11_main_arg7 m ρ c)
theorem arg12_main_arg8 (c : Dev nD) : W12 m ρ c (Proc.devRef .tc main_arg8) = m ((c : Thread nD τ).loc main_arg8) :=
  (pass11_main_arg8 m ρ c).trans (arg11_main_arg8 m ρ c)
theorem arg12_main_arg6 (c : Dev nD) : W12 m ρ c (Proc.devRef .tc main_arg6) = m ((c : Thread nD τ).loc main_arg6) :=
  (pass11_main_arg6 m ρ c).trans (arg11_main_arg6 m ρ c)
theorem arg12_main_arg12 (c : Dev nD) : W12 m ρ c (Proc.devRef .tc main_arg12) = m ((c : Thread nD τ).loc main_arg12) :=
  (pass11_main_arg12 m ρ c).trans (arg11_main_arg12 m ρ c)
theorem arg12_main_arg11 (c : Dev nD) : W12 m ρ c (Proc.devRef .tc main_arg11) = m ((c : Thread nD τ).loc main_arg11) :=
  (pass11_main_arg11 m ρ c).trans (arg11_main_arg11 m ρ c)
theorem arg12_main_arg10 (c : Dev nD) : W12 m ρ c (Proc.devRef .tc main_arg10) = m ((c : Thread nD τ).loc main_arg10) :=
  (pass11_main_arg10 m ρ c).trans (arg11_main_arg10 m ρ c)
theorem arg12_main_arg9 (c : Dev nD) : W12 m ρ c (Proc.devRef .tc main_arg9) = m ((c : Thread nD τ).loc main_arg9) :=
  (pass11_main_arg9 m ρ c).trans (arg11_main_arg9 m ρ c)
theorem arg13_main_arg7 (c : Dev nD) : W13 m ρ c (Proc.devRef .tc main_arg7) = m ((c : Thread nD τ).loc main_arg7) :=
  (pass12_main_arg7 m ρ c).trans (arg12_main_arg7 m ρ c)
theorem arg13_main_arg8 (c : Dev nD) : W13 m ρ c (Proc.devRef .tc main_arg8) = m ((c : Thread nD τ).loc main_arg8) :=
  (pass12_main_arg8 m ρ c).trans (arg12_main_arg8 m ρ c)
theorem arg13_main_arg6 (c : Dev nD) : W13 m ρ c (Proc.devRef .tc main_arg6) = m ((c : Thread nD τ).loc main_arg6) :=
  (pass12_main_arg6 m ρ c).trans (arg12_main_arg6 m ρ c)
theorem arg13_main_arg12 (c : Dev nD) : W13 m ρ c (Proc.devRef .tc main_arg12) = m ((c : Thread nD τ).loc main_arg12) :=
  (pass12_main_arg12 m ρ c).trans (arg12_main_arg12 m ρ c)
theorem arg13_main_arg11 (c : Dev nD) : W13 m ρ c (Proc.devRef .tc main_arg11) = m ((c : Thread nD τ).loc main_arg11) :=
  (pass12_main_arg11 m ρ c).trans (arg12_main_arg11 m ρ c)
theorem arg13_main_arg10 (c : Dev nD) : W13 m ρ c (Proc.devRef .tc main_arg10) = m ((c : Thread nD τ).loc main_arg10) :=
  (pass12_main_arg10 m ρ c).trans (arg12_main_arg10 m ρ c)
theorem arg13_main_arg9 (c : Dev nD) : W13 m ρ c (Proc.devRef .tc main_arg9) = m ((c : Thread nD τ).loc main_arg9) :=
  (pass12_main_arg9 m ρ c).trans (arg12_main_arg9 m ρ c)
theorem arg14_main_arg7 (c : Dev nD) : W14 m ρ c (Proc.devRef .tc main_arg7) = m ((c : Thread nD τ).loc main_arg7) :=
  (pass13_main_arg7 m ρ c).trans (arg13_main_arg7 m ρ c)
theorem arg14_main_arg8 (c : Dev nD) : W14 m ρ c (Proc.devRef .tc main_arg8) = m ((c : Thread nD τ).loc main_arg8) :=
  (pass13_main_arg8 m ρ c).trans (arg13_main_arg8 m ρ c)
theorem arg14_main_arg6 (c : Dev nD) : W14 m ρ c (Proc.devRef .tc main_arg6) = m ((c : Thread nD τ).loc main_arg6) :=
  (pass13_main_arg6 m ρ c).trans (arg13_main_arg6 m ρ c)
theorem arg14_main_arg12 (c : Dev nD) : W14 m ρ c (Proc.devRef .tc main_arg12) = m ((c : Thread nD τ).loc main_arg12) :=
  (pass13_main_arg12 m ρ c).trans (arg13_main_arg12 m ρ c)
theorem arg14_main_arg11 (c : Dev nD) : W14 m ρ c (Proc.devRef .tc main_arg11) = m ((c : Thread nD τ).loc main_arg11) :=
  (pass13_main_arg11 m ρ c).trans (arg13_main_arg11 m ρ c)
theorem arg14_main_arg10 (c : Dev nD) : W14 m ρ c (Proc.devRef .tc main_arg10) = m ((c : Thread nD τ).loc main_arg10) :=
  (pass13_main_arg10 m ρ c).trans (arg13_main_arg10 m ρ c)
theorem arg14_main_arg9 (c : Dev nD) : W14 m ρ c (Proc.devRef .tc main_arg9) = m ((c : Thread nD τ).loc main_arg9) :=
  (pass13_main_arg9 m ρ c).trans (arg13_main_arg9 m ρ c)
theorem arg15_main_arg7 (c : Dev nD) : W15 m ρ c (Proc.devRef .tc main_arg7) = m ((c : Thread nD τ).loc main_arg7) :=
  (pass14_main_arg7 m ρ c).trans (arg14_main_arg7 m ρ c)
theorem arg15_main_arg8 (c : Dev nD) : W15 m ρ c (Proc.devRef .tc main_arg8) = m ((c : Thread nD τ).loc main_arg8) :=
  (pass14_main_arg8 m ρ c).trans (arg14_main_arg8 m ρ c)
theorem arg15_main_arg6 (c : Dev nD) : W15 m ρ c (Proc.devRef .tc main_arg6) = m ((c : Thread nD τ).loc main_arg6) :=
  (pass14_main_arg6 m ρ c).trans (arg14_main_arg6 m ρ c)
theorem arg15_main_arg12 (c : Dev nD) : W15 m ρ c (Proc.devRef .tc main_arg12) = m ((c : Thread nD τ).loc main_arg12) :=
  (pass14_main_arg12 m ρ c).trans (arg14_main_arg12 m ρ c)
theorem arg15_main_arg11 (c : Dev nD) : W15 m ρ c (Proc.devRef .tc main_arg11) = m ((c : Thread nD τ).loc main_arg11) :=
  (pass14_main_arg11 m ρ c).trans (arg14_main_arg11 m ρ c)
theorem arg15_main_arg10 (c : Dev nD) : W15 m ρ c (Proc.devRef .tc main_arg10) = m ((c : Thread nD τ).loc main_arg10) :=
  (pass14_main_arg10 m ρ c).trans (arg14_main_arg10 m ρ c)
theorem arg15_main_arg9 (c : Dev nD) : W15 m ρ c (Proc.devRef .tc main_arg9) = m ((c : Thread nD τ).loc main_arg9) :=
  (pass14_main_arg9 m ρ c).trans (arg14_main_arg9 m ρ c)
theorem arg16_main_arg7 (c : Dev nD) : W16 m ρ c (Proc.devRef .tc main_arg7) = m ((c : Thread nD τ).loc main_arg7) :=
  (pass15_main_arg7 m ρ c).trans (arg15_main_arg7 m ρ c)
theorem arg16_main_arg8 (c : Dev nD) : W16 m ρ c (Proc.devRef .tc main_arg8) = m ((c : Thread nD τ).loc main_arg8) :=
  (pass15_main_arg8 m ρ c).trans (arg15_main_arg8 m ρ c)
theorem arg16_main_arg6 (c : Dev nD) : W16 m ρ c (Proc.devRef .tc main_arg6) = m ((c : Thread nD τ).loc main_arg6) :=
  (pass15_main_arg6 m ρ c).trans (arg15_main_arg6 m ρ c)
theorem arg16_main_arg12 (c : Dev nD) : W16 m ρ c (Proc.devRef .tc main_arg12) = m ((c : Thread nD τ).loc main_arg12) :=
  (pass15_main_arg12 m ρ c).trans (arg15_main_arg12 m ρ c)
theorem arg16_main_arg11 (c : Dev nD) : W16 m ρ c (Proc.devRef .tc main_arg11) = m ((c : Thread nD τ).loc main_arg11) :=
  (pass15_main_arg11 m ρ c).trans (arg15_main_arg11 m ρ c)
theorem arg16_main_arg10 (c : Dev nD) : W16 m ρ c (Proc.devRef .tc main_arg10) = m ((c : Thread nD τ).loc main_arg10) :=
  (pass15_main_arg10 m ρ c).trans (arg15_main_arg10 m ρ c)
theorem arg16_main_arg9 (c : Dev nD) : W16 m ρ c (Proc.devRef .tc main_arg9) = m ((c : Thread nD τ).loc main_arg9) :=
  (pass15_main_arg9 m ρ c).trans (arg15_main_arg9 m ρ c)
theorem arg17_main_arg7 (c : Dev nD) : W17 m ρ c (Proc.devRef .tc main_arg7) = m ((c : Thread nD τ).loc main_arg7) :=
  (pass16_main_arg7 m ρ c).trans (arg16_main_arg7 m ρ c)
theorem arg17_main_arg8 (c : Dev nD) : W17 m ρ c (Proc.devRef .tc main_arg8) = m ((c : Thread nD τ).loc main_arg8) :=
  (pass16_main_arg8 m ρ c).trans (arg16_main_arg8 m ρ c)
theorem arg17_main_arg6 (c : Dev nD) : W17 m ρ c (Proc.devRef .tc main_arg6) = m ((c : Thread nD τ).loc main_arg6) :=
  (pass16_main_arg6 m ρ c).trans (arg16_main_arg6 m ρ c)
theorem arg18_main_arg7 (c : Dev nD) : W18 m ρ c (Proc.devRef .tc main_arg7) = m ((c : Thread nD τ).loc main_arg7) :=
  (pass17_main_arg7 m ρ c).trans (arg17_main_arg7 m ρ c)
theorem arg18_main_arg8 (c : Dev nD) : W18 m ρ c (Proc.devRef .tc main_arg8) = m ((c : Thread nD τ).loc main_arg8) :=
  (pass17_main_arg8 m ρ c).trans (arg17_main_arg8 m ρ c)
theorem arg18_main_arg6 (c : Dev nD) : W18 m ρ c (Proc.devRef .tc main_arg6) = m ((c : Thread nD τ).loc main_arg6) :=
  (pass17_main_arg6 m ρ c).trans (arg17_main_arg6 m ρ c)

end Cert.KernelIdeal.Pass

end
-- ==== Proof.HostReads.lean ====
/-
  Host-side values read at an index, at the extended reals.

  The program computes `inv = 1 / max (cnt, 1)` over a vector of `N` counts, casts it to a column `[N, 1]`, and
  casts a bias vector of 512 entries to a row `[1, 512]`. A shape cast keeps the row-major position, so the
  column at `(i, 0)` is the vector at `i` and the row at `(0, j)` is the vector at `j`; the divide, the maximum
  and the splat of the word `0x3F800000` (the float `1`) are entrywise. Stated for `N = 50000` and `N = 10000`.
-/
import proofs.«106831_j73237782332046_2_alg».proof.KernelIdeal
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.HostReads

open Cert.KernelIdeal Idealize.ShloMosaic Idealize.ShloMosaic.ValueIdx

/-- The word `0x3F800000` is the float `1`. -/
theorem one_word : Ideal.ofBits .f32 0x3F800000#32 = 1 := by
  simp [Ideal.ofBits, Ideal.ieee, -EReal.coe_mul]; norm_num

/-- The clamped count is at least `1`. -/
theorem one_le_clamp (x : EReal) : (1 : EReal) ≤ max x 1 := le_max_right _ _

/-- A vector of `50000` entries cast to a column reads, at `(i, 0)`, the vector at `i`. -/
theorem shapeCast_col_50000 {α : Type} (x : S50000.Idx → α) (h : S50000.ShapeCasts S50000x1) (i : Fin 50000) :
    shapeCast S50000x1 x h (ix2 i (0 : Fin 1)) = x (ix1 i) :=
  shapeCast_apply x h _ _ (by
    rw [Shape.rowMajor_val_two, Shape.rowMajor_val_one]
    show i.val = i.val * 1 + 0
    omega)

/-- A vector of `10000` entries cast to a column reads, at `(i, 0)`, the vector at `i`. -/
theorem shapeCast_col_10000 {α : Type} (x : S10000.Idx → α) (h : S10000.ShapeCasts S10000x1) (i : Fin 10000) :
    shapeCast S10000x1 x h (ix2 i (0 : Fin 1)) = x (ix1 i) :=
  shapeCast_apply x h _ _ (by
    rw [Shape.rowMajor_val_two, Shape.rowMajor_val_one]
    show i.val = i.val * 1 + 0
    omega)

variable [Cert.KernelIdeal.Facts₀]
open Cert.KernelIdeal.Facts₀

/-- A bias vector cast to a row reads, at `(0, j)`, the vector at `j`. -/
theorem bias_row {α : Type} (b : S512.Idx → α) (j : Fin 512) :
    shapeCast S1x512 b shapeCasts_S512_S1x512 (ix2 (0 : Fin 1) j) = b (ix1 j) :=
  shapeCast_a_1a_apply b shapeCasts_S512_S1x512 0 j

/-- The reciprocal of the clamped count, as a column: at `(i, 0)` it is `1 / max (cnt i) 1`. -/
theorem recip_col_50000 (cnt : FVec Ideal S50000 .f32) (i : Fin 50000) :
    shapeCast S50000x1
        (Host.divf (F := Ideal) (broadcastInDim S50000 ![] bcast_S_S50000 (constant (F := Ideal) S_ .f32 0x3F800000#32))
          (maximumf cnt (broadcastInDim S50000 ![] bcast_S_S50000 (constant (F := Ideal) S_ .f32 0x3F800000#32))))
        shapeCasts_S50000_S50000x1 (ix2 i (0 : Fin 1))
      = Ideal.div 1 (max (cnt (ix1 i)) 1) := by
  refine (shapeCast_col_50000 _ _ i).trans ?_
  show Ideal.div (Ideal.ofBits .f32 0x3F800000#32) (max (cnt (ix1 i)) (Ideal.ofBits .f32 0x3F800000#32)) = _
  rw [one_word]

/-- The reciprocal of the clamped count, as a column: at `(i, 0)` it is `1 / max (cnt i) 1`. -/
theorem recip_col_10000 (cnt : FVec Ideal S10000 .f32) (i : Fin 10000) :
    shapeCast S10000x1
        (Host.divf (F := Ideal) (broadcastInDim S10000 ![] bcast_S_S10000 (constant (F := Ideal) S_ .f32 0x3F800000#32))
          (maximumf cnt (broadcastInDim S10000 ![] bcast_S_S10000 (constant (F := Ideal) S_ .f32 0x3F800000#32))))
        shapeCasts_S10000_S10000x1 (ix2 i (0 : Fin 1))
      = Ideal.div 1 (max (cnt (ix1 i)) 1) := by
  refine (shapeCast_col_10000 _ _ i).trans ?_
  show Ideal.div (Ideal.ofBits .f32 0x3F800000#32) (max (cnt (ix1 i)) (Ideal.ofBits .f32 0x3F800000#32)) = _
  rw [one_word]

end Cert.HostReads
-- ==== Proof.RefLayers.lean ====
/-
  The reference program's layers, one entry at a time, on the extended reals.

  The reference is a two-type graph network on "servers" (10000 rows) and "devices" (50000 rows) of
  hidden width 512: two input projections, then four layers, each a mean aggregation over the edges
  into a node followed by a SAGE update.  This file reads the reference's stages at an index and
  brings each layer to one closed formula, stated through `Cert.Spec.linAt` and `Cert.Spec.sageRefAt`.

  Projections.  The entry `(r, j)` of a projection is the row `r` of the input times column `j` of the
  weights, plus the bias at `j`: `linAt` (`proj_servers` is stage %3, `proj_devices` is stage %7).

  Layers.  For a node `r` and a column `j`, the layer's output entry is

      max (((Σ k, (s k / c) · Wl k j) + b j) + Σ k, h k · Wr k j) 0

  where `s` is row `r` of the stage that sums the neighbours' rows (a scatter-add; it is not read
  further here), `c = max n 1` with `n` the entry `(r, 0)` of the stage that counts the neighbours (a
  scatter-add of ones; not read further either), `h` is row `r` of the node type's own previous
  stage, `Wl`, `Wr` are the layer's two 512 × 512 weight stages and `b` its bias stage (the stages
  after slicing and reshaping the stacked weights; they are not read back into the stacked arrays).
  The quotient is the ideal instance's division `Ideal.div`; the clamp's constant is the word
  `0x3F800000`, the real one; the final clamp is against the word `0x00000000`, the real zero.

  Stage numbers (the `%N` of the reference's operations; `val_main_vN` in the generated reading of it).
  The layer is the first index of the slice that cuts the weights out of the stacked arrays, plus
  one; the node type is the second index (0: devices, 1: servers).

    layer type     sum    count   Wl     Wr     bias   own row   output  theorem
    1     devices  %17    %21     %45    %53    %48    %7        %56     layer1_devices
    1     servers  %35    %39     %58    %66    %61    %3        %69     layer1_servers
    2     devices  %79    %83     %107   %115   %110   %56       %118    layer2_devices
    2     servers  %97    %101    %120   %128   %123   %69       %131    layer2_servers
    3     devices  %141   %145    %169   %177   %172   %118      %180    layer3_devices
    3     servers  %159   %163    %182   %190   %185   %131      %193    layer3_servers
    4     devices  %203   %207    %231   %239   %234   %180      %242    layer4_devices
    4     servers  %221   %225    %244   %252   %247   %193      %255    layer4_servers

  Between those stages each layer has: the clamp `max count 1`, its broadcast along the row, the
  quotient (the mean aggregate), the product of the mean with `Wl`, the bias broadcast along the
  column and added, the product of the own row with `Wr` added, and the clamp at zero.

  Each proof fixes the index, rewrites with the stages' readings at an index from the output
  inwards, identifies the index functions of the products, of the bias's broadcasts and of the
  count's broadcast with the coordinate indices `ix2` / `ix1`, and closes by unfolding the
  specification.
-/
import proofs.«106831_j73237782332046_2_alg».proof.Proof.RefRead
import proofs.«106831_j73237782332046_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.RefLayers

open Cert.ReferenceIdeal Cert.ReferenceIdeal.ReadP Idealize.ShloMosaic Idealize.ShloMosaic.ValueIdx Idealize.SL.Sem
open scoped BigOperators

/-! ## The input projections -/

/-- The servers' projection at an index: row `i 0` of the input times column `i 1` of the weights, plus the bias. -/
theorem proj_servers
    (x0 : (⟨S10000x64, .f32⟩ : BufTy).Contents (Elt Ideal)) (x2 : (⟨S64x512, .f32⟩ : BufTy).Contents (Elt Ideal))
    (x3 : (⟨S512, .f32⟩ : BufTy).Contents (Elt Ideal)) (i : S10000x512.Idx) :
    val_main_v3 (F := Ideal) x0 x2 x3 i =
      Cert.Spec.linAt
        (fun k : Fin 64 => x0 (ix2 (n0 := 10000) (n1 := 64) (i 0) k))
        (fun (k : Fin 64) (j : Fin 512) => x2 (ix2 (n0 := 64) (n1 := 512) k j))
        (fun j : Fin 512 => x3 (ix1 (n := 512) j))
        (i 1) := by
  rw [val_main_v3_apply, val_main_v0_apply, val_main_v2_apply, val_main_v1_apply]
  -- the index functions of the product and the bias are the coordinate indices
  have el : ∀ k : Fin 64, lidx_main_v0 i k = (ix2 (n0 := 10000) (n1 := 64) (i 0) k) := fun k =>
    funext fun a => Fin.ext (by match a with | ⟨0, _⟩ => rfl | ⟨1, _⟩ => rfl)
  have er : ∀ k : Fin 64, ridx_main_v0 i k = (ix2 (n0 := 64) (n1 := 512) k (i 1)) := fun k =>
    funext fun a => Fin.ext (by match a with | ⟨0, _⟩ => rfl | ⟨1, _⟩ => rfl)
  have eb : idx_main_v1 (idx_main_v2 i) = ix1 (n := 512) (i 1) :=
    funext fun a => Fin.ext (by match a with | ⟨0, _⟩ => rfl)
  have s : (∑ k : Fin 64, x0 (lidx_main_v0 i k) * x2 (ridx_main_v0 i k))
      = ∑ k : Fin 64, x0 (ix2 (n0 := 10000) (n1 := 64) (i 0) k) * x2 (ix2 (n0 := 64) (n1 := 512) k (i 1)) :=
    Finset.sum_congr rfl fun k _ => by rw [el k, er k]
  rw [s, eb, Ideal.addf_def]
  rfl

/-- The devices' projection at an index: row `i 0` of the input times column `i 1` of the weights, plus the bias. -/
theorem proj_devices
    (x1 : (⟨S50000x32, .f32⟩ : BufTy).Contents (Elt Ideal)) (x4 : (⟨S32x512, .f32⟩ : BufTy).Contents (Elt Ideal))
    (x5 : (⟨S512, .f32⟩ : BufTy).Contents (Elt Ideal)) (i : S50000x512.Idx) :
    val_main_v7 (F := Ideal) x1 x4 x5 i =
      Cert.Spec.linAt
        (fun k : Fin 32 => x1 (ix2 (n0 := 50000) (n1 := 32) (i 0) k))
        (fun (k : Fin 32) (j : Fin 512) => x4 (ix2 (n0 := 32) (n1 := 512) k j))
        (fun j : Fin 512 => x5 (ix1 (n := 512) j))
        (i 1) := by
  rw [val_main_v7_apply, val_main_v4_apply, val_main_v6_apply, val_main_v5_apply]
  -- the index functions of the product and the bias are the coordinate indices
  have el : ∀ k : Fin 32, lidx_main_v4 i k = (ix2 (n0 := 50000) (n1 := 32) (i 0) k) := fun k =>
    funext fun a => Fin.ext (by match a with | ⟨0, _⟩ => rfl | ⟨1, _⟩ => rfl)
  have er : ∀ k : Fin 32, ridx_main_v4 i k = (ix2 (n0 := 32) (n1 := 512) k (i 1)) := fun k =>
    funext fun a => Fin.ext (by match a with | ⟨0, _⟩ => rfl | ⟨1, _⟩ => rfl)
  have eb : idx_main_v5 (idx_main_v6 i) = ix1 (n := 512) (i 1) :=
    funext fun a => Fin.ext (by match a with | ⟨0, _⟩ => rfl)
  have s : (∑ k : Fin 32, x1 (lidx_main_v4 i k) * x4 (ridx_main_v4 i k))
      = ∑ k : Fin 32, x1 (ix2 (n0 := 50000) (n1 := 32) (i 0) k) * x4 (ix2 (n0 := 32) (n1 := 512) k (i 1)) :=
    Finset.sum_congr rfl fun k _ => by rw [el k, er k]
  rw [s, eb, Ideal.addf_def]
  rfl

/-! ## The four layers -/

/-- Layer 1, devices: the output entry is the SAGE entry of the neighbour sums' row, the own row of the
    previous stage, the clamped neighbour count, and the layer's two weight stages and bias stage. -/
theorem layer1_devices
    (x0 : (⟨S10000x64, .f32⟩ : BufTy).Contents (Elt Ideal)) (x1 : (⟨S50000x32, .f32⟩ : BufTy).Contents (Elt Ideal)) (x2 : (⟨S64x512, .f32⟩ : BufTy).Contents (Elt Ideal)) (x3 : (⟨S512, .f32⟩ : BufTy).Contents (Elt Ideal)) (x4 : (⟨S32x512, .f32⟩ : BufTy).Contents (Elt Ideal)) (x5 : (⟨S512, .f32⟩ : BufTy).Contents (Elt Ideal)) (x6 : (⟨S4x2x512x512, .f32⟩ : BufTy).Contents (Elt Ideal)) (x7 : (⟨S4x2x512, .f32⟩ : BufTy).Contents (Elt Ideal)) (x8 : (⟨S4x2x512x512, .f32⟩ : BufTy).Contents (Elt Ideal)) (x9 : (⟨S300000, .i32⟩ : BufTy).Contents (Elt Ideal)) (x10 : (⟨S300000, .i32⟩ : BufTy).Contents (Elt Ideal))
    (i : S50000x512.Idx) :
    val_main_v56 (F := Ideal) x0 x1 x2 x3 x4 x5 x6 x7 x8 x9 x10 i =
      Cert.Spec.sageRefAt
        (fun k : Fin 512 => val_main_v17 (F := Ideal) x0 x2 x3 x9 x10 (ix2 (n0 := 50000) (n1 := 512) (i 0) k))
        (fun k : Fin 512 => val_main_v7 (F := Ideal) x1 x4 x5 (ix2 (n0 := 50000) (n1 := 512) (i 0) k))
        (max (val_main_v21 (F := Ideal) x10 (ix2 (n0 := 50000) (n1 := 1) (i 0) 0)) 1)
        (fun k j : Fin 512 => val_main_v45 (F := Ideal) x6 (ix2 (n0 := 512) (n1 := 512) k j))
        (fun k j : Fin 512 => val_main_v53 (F := Ideal) x8 (ix2 (n0 := 512) (n1 := 512) k j))
        (fun j : Fin 512 => val_main_v48 (F := Ideal) x7 (ix1 (n := 512) j))
        (i 1) := by
  rw [val_main_v56_apply, val_main_call0_v0_apply, val_main_call0_cst_apply,
      val_main_v55_apply, val_main_v51_apply, val_main_v46_apply, val_main_v54_apply,
      val_main_v50_apply, val_main_v49_apply]
  -- the index functions of the two products, the bias and the count are the coordinate indices
  have el : ∀ k : Fin 512, lidx_main_v46 i k = (ix2 (n0 := 50000) (n1 := 512) (i 0) k) := fun k => funext fun a => Fin.ext (by match a with | ⟨0, _⟩ => rfl | ⟨1, _⟩ => rfl)
  have er : ∀ k : Fin 512, ridx_main_v46 i k = (ix2 (n0 := 512) (n1 := 512) k (i 1)) := fun k => funext fun a => Fin.ext (by match a with | ⟨0, _⟩ => rfl | ⟨1, _⟩ => rfl)
  have el' : ∀ k : Fin 512, lidx_main_v54 i k = (ix2 (n0 := 50000) (n1 := 512) (i 0) k) := fun k => funext fun a => Fin.ext (by match a with | ⟨0, _⟩ => rfl | ⟨1, _⟩ => rfl)
  have er' : ∀ k : Fin 512, ridx_main_v54 i k = (ix2 (n0 := 512) (n1 := 512) k (i 1)) := fun k => funext fun a => Fin.ext (by match a with | ⟨0, _⟩ => rfl | ⟨1, _⟩ => rfl)
  have eb : idx_main_v49 (idx_main_v50 i) = ix1 (n := 512) (i 1) :=
    funext fun a => Fin.ext (by match a with | ⟨0, _⟩ => rfl)
  have ec : ∀ k : Fin 512, idx_main_v24 (ix2 (n0 := 50000) (n1 := 512) (i 0) k) = (ix2 (n0 := 50000) (n1 := 1) (i 0) 0) := fun k => funext fun a => Fin.ext (by match a with | ⟨0, _⟩ => rfl | ⟨1, _⟩ => rfl)
  -- the mean aggregate's entry: the neighbour sum's entry over the clamped count
  have hd : ∀ k : Fin 512, val_main_v25 (F := Ideal) x0 x2 x3 x9 x10 (ix2 (n0 := 50000) (n1 := 512) (i 0) k)
      = Ideal.div (val_main_v17 (F := Ideal) x0 x2 x3 x9 x10 (ix2 (n0 := 50000) (n1 := 512) (i 0) k)) (max (val_main_v21 (F := Ideal) x10 (ix2 (n0 := 50000) (n1 := 1) (i 0) 0)) 1) := fun k => by
    rw [val_main_v25_apply, val_main_v24_apply, ec k, val_main_v23_apply, val_main_v22_apply,
      val_main_cst_3_apply, Ideal.hostDivf_def, Ideal.maximumf_def, Ideal.ofBits_def, Ideal.ofBits_one_f32]
  have s1 : (∑ k : Fin 512, val_main_v25 (F := Ideal) x0 x2 x3 x9 x10 (lidx_main_v46 i k) * val_main_v45 (F := Ideal) x6 (ridx_main_v46 i k))
      = ∑ k : Fin 512, Ideal.div (val_main_v17 (F := Ideal) x0 x2 x3 x9 x10 (ix2 (n0 := 50000) (n1 := 512) (i 0) k)) (max (val_main_v21 (F := Ideal) x10 (ix2 (n0 := 50000) (n1 := 1) (i 0) 0)) 1) * val_main_v45 (F := Ideal) x6 (ix2 (n0 := 512) (n1 := 512) k (i 1)) :=
    Finset.sum_congr rfl fun k _ => by rw [el k, er k, hd k]
  have s2 : (∑ k : Fin 512, val_main_v7 (F := Ideal) x1 x4 x5 (lidx_main_v54 i k) * val_main_v53 (F := Ideal) x8 (ridx_main_v54 i k))
      = ∑ k : Fin 512, val_main_v7 (F := Ideal) x1 x4 x5 (ix2 (n0 := 50000) (n1 := 512) (i 0) k) * val_main_v53 (F := Ideal) x8 (ix2 (n0 := 512) (n1 := 512) k (i 1)) :=
    Finset.sum_congr rfl fun k _ => by rw [el' k, er' k]
  rw [s1, s2, eb, Ideal.maximumf_def, Ideal.addf_def, Ideal.addf_def, Ideal.ofBits_def, Ideal.ofBits_zero_f32]
  rfl

/-- Layer 1, servers: the output entry is the SAGE entry of the neighbour sums' row, the own row of the
    previous stage, the clamped neighbour count, and the layer's two weight stages and bias stage. -/
theorem layer1_servers
    (x0 : (⟨S10000x64, .f32⟩ : BufTy).Contents (Elt Ideal)) (x1 : (⟨S50000x32, .f32⟩ : BufTy).Contents (Elt Ideal)) (x2 : (⟨S64x512, .f32⟩ : BufTy).Contents (Elt Ideal)) (x3 : (⟨S512, .f32⟩ : BufTy).Contents (Elt Ideal)) (x4 : (⟨S32x512, .f32⟩ : BufTy).Contents (Elt Ideal)) (x5 : (⟨S512, .f32⟩ : BufTy).Contents (Elt Ideal)) (x6 : (⟨S4x2x512x512, .f32⟩ : BufTy).Contents (Elt Ideal)) (x7 : (⟨S4x2x512, .f32⟩ : BufTy).Contents (Elt Ideal)) (x8 : (⟨S4x2x512x512, .f32⟩ : BufTy).Contents (Elt Ideal)) (x11 : (⟨S300000, .i32⟩ : BufTy).Contents (Elt Ideal)) (x12 : (⟨S300000, .i32⟩ : BufTy).Contents (Elt Ideal))
    (i : S10000x512.Idx) :
    val_main_v69 (F := Ideal) x0 x1 x2 x3 x4 x5 x6 x7 x8 x11 x12 i =
      Cert.Spec.sageRefAt
        (fun k : Fin 512 => val_main_v35 (F := Ideal) x1 x4 x5 x11 x12 (ix2 (n0 := 10000) (n1 := 512) (i 0) k))
        (fun k : Fin 512 => val_main_v3 (F := Ideal) x0 x2 x3 (ix2 (n0 := 10000) (n1 := 512) (i 0) k))
        (max (val_main_v39 (F := Ideal) x12 (ix2 (n0 := 10000) (n1 := 1) (i 0) 0)) 1)
        (fun k j : Fin 512 => val_main_v58 (F := Ideal) x6 (ix2 (n0 := 512) (n1 := 512) k j))
        (fun k j : Fin 512 => val_main_v66 (F := Ideal) x8 (ix2 (n0 := 512) (n1 := 512) k j))
        (fun j : Fin 512 => val_main_v61 (F := Ideal) x7 (ix1 (n := 512) j))
        (i 1) := by
  rw [val_main_v69_apply, val_main_call1_v0_apply, val_main_call1_cst_apply,
      val_main_v68_apply, val_main_v64_apply, val_main_v59_apply, val_main_v67_apply,
      val_main_v63_apply, val_main_v62_apply]
  -- the index functions of the two products, the bias and the count are the coordinate indices
  have el : ∀ k : Fin 512, lidx_main_v59 i k = (ix2 (n0 := 10000) (n1 := 512) (i 0) k) := fun k => funext fun a => Fin.ext (by match a with | ⟨0, _⟩ => rfl | ⟨1, _⟩ => rfl)
  have er : ∀ k : Fin 512, ridx_main_v59 i k = (ix2 (n0 := 512) (n1 := 512) k (i 1)) := fun k => funext fun a => Fin.ext (by match a with | ⟨0, _⟩ => rfl | ⟨1, _⟩ => rfl)
  have el' : ∀ k : Fin 512, lidx_main_v67 i k = (ix2 (n0 := 10000) (n1 := 512) (i 0) k) := fun k => funext fun a => Fin.ext (by match a with | ⟨0, _⟩ => rfl | ⟨1, _⟩ => rfl)
  have er' : ∀ k : Fin 512, ridx_main_v67 i k = (ix2 (n0 := 512) (n1 := 512) k (i 1)) := fun k => funext fun a => Fin.ext (by match a with | ⟨0, _⟩ => rfl | ⟨1, _⟩ => rfl)
  have eb : idx_main_v62 (idx_main_v63 i) = ix1 (n := 512) (i 1) :=
    funext fun a => Fin.ext (by match a with | ⟨0, _⟩ => rfl)
  have ec : ∀ k : Fin 512, idx_main_v42 (ix2 (n0 := 10000) (n1 := 512) (i 0) k) = (ix2 (n0 := 10000) (n1 := 1) (i 0) 0) := fun k => funext fun a => Fin.ext (by match a with | ⟨0, _⟩ => rfl | ⟨1, _⟩ => rfl)
  -- the mean aggregate's entry: the neighbour sum's entry over the clamped count
  have hd : ∀ k : Fin 512, val_main_v43 (F := Ideal) x1 x4 x5 x11 x12 (ix2 (n0 := 10000) (n1 := 512) (i 0) k)
      = Ideal.div (val_main_v35 (F := Ideal) x1 x4 x5 x11 x12 (ix2 (n0 := 10000) (n1 := 512) (i 0) k)) (max (val_main_v39 (F := Ideal) x12 (ix2 (n0 := 10000) (n1 := 1) (i 0) 0)) 1) := fun k => by
    rw [val_main_v43_apply, val_main_v42_apply, ec k, val_main_v41_apply, val_main_v40_apply,
      val_main_cst_9_apply, Ideal.hostDivf_def, Ideal.maximumf_def, Ideal.ofBits_def, Ideal.ofBits_one_f32]
  have s1 : (∑ k : Fin 512, val_main_v43 (F := Ideal) x1 x4 x5 x11 x12 (lidx_main_v59 i k) * val_main_v58 (F := Ideal) x6 (ridx_main_v59 i k))
      = ∑ k : Fin 512, Ideal.div (val_main_v35 (F := Ideal) x1 x4 x5 x11 x12 (ix2 (n0 := 10000) (n1 := 512) (i 0) k)) (max (val_main_v39 (F := Ideal) x12 (ix2 (n0 := 10000) (n1 := 1) (i 0) 0)) 1) * val_main_v58 (F := Ideal) x6 (ix2 (n0 := 512) (n1 := 512) k (i 1)) :=
    Finset.sum_congr rfl fun k _ => by rw [el k, er k, hd k]
  have s2 : (∑ k : Fin 512, val_main_v3 (F := Ideal) x0 x2 x3 (lidx_main_v67 i k) * val_main_v66 (F := Ideal) x8 (ridx_main_v67 i k))
      = ∑ k : Fin 512, val_main_v3 (F := Ideal) x0 x2 x3 (ix2 (n0 := 10000) (n1 := 512) (i 0) k) * val_main_v66 (F := Ideal) x8 (ix2 (n0 := 512) (n1 := 512) k (i 1)) :=
    Finset.sum_congr rfl fun k _ => by rw [el' k, er' k]
  rw [s1, s2, eb, Ideal.maximumf_def, Ideal.addf_def, Ideal.addf_def, Ideal.ofBits_def, Ideal.ofBits_zero_f32]
  rfl

/-- Layer 2, devices: the output entry is the SAGE entry of the neighbour sums' row, the own row of the
    previous stage, the clamped neighbour count, and the layer's two weight stages and bias stage. -/
theorem layer2_devices
    (x0 : (⟨S10000x64, .f32⟩ : BufTy).Contents (Elt Ideal)) (x1 : (⟨S50000x32, .f32⟩ : BufTy).Contents (Elt Ideal)) (x2 : (⟨S64x512, .f32⟩ : BufTy).Contents (Elt Ideal)) (x3 : (⟨S512, .f32⟩ : BufTy).Contents (Elt Ideal)) (x4 : (⟨S32x512, .f32⟩ : BufTy).Contents (Elt Ideal)) (x5 : (⟨S512, .f32⟩ : BufTy).Contents (Elt Ideal)) (x6 : (⟨S4x2x512x512, .f32⟩ : BufTy).Contents (Elt Ideal)) (x7 : (⟨S4x2x512, .f32⟩ : BufTy).Contents (Elt Ideal)) (x8 : (⟨S4x2x512x512, .f32⟩ : BufTy).Contents (Elt Ideal)) (x9 : (⟨S300000, .i32⟩ : BufTy).Contents (Elt Ideal)) (x10 : (⟨S300000, .i32⟩ : BufTy).Contents (Elt Ideal)) (x11 : (⟨S300000, .i32⟩ : BufTy).Contents (Elt Ideal)) (x12 : (⟨S300000, .i32⟩ : BufTy).Contents (Elt Ideal))
    (i : S50000x512.Idx) :
    val_main_v118 (F := Ideal) x0 x1 x2 x3 x4 x5 x6 x7 x8 x9 x10 x11 x12 i =
      Cert.Spec.sageRefAt
        (fun k : Fin 512 => val_main_v79 (F := Ideal) x0 x1 x2 x3 x4 x5 x6 x7 x8 x9 x10 x11 x12 (ix2 (n0 := 50000) (n1 := 512) (i 0) k))
        (fun k : Fin 512 => val_main_v56 (F := Ideal) x0 x1 x2 x3 x4 x5 x6 x7 x8 x9 x10 (ix2 (n0 := 50000) (n1 := 512) (i 0) k))
        (max (val_main_v83 (F := Ideal) x10 (ix2 (n0 := 50000) (n1 := 1) (i 0) 0)) 1)
        (fun k j : Fin 512 => val_main_v107 (F := Ideal) x6 (ix2 (n0 := 512) (n1 := 512) k j))
        (fun k j : Fin 512 => val_main_v115 (F := Ideal) x8 (ix2 (n0 := 512) (n1 := 512) k j))
        (fun j : Fin 512 => val_main_v110 (F := Ideal) x7 (ix1 (n := 512) j))
        (i 1) := by
  rw [val_main_v118_apply, val_main_call2_v0_apply, val_main_call2_cst_apply,
      val_main_v117_apply, val_main_v113_apply, val_main_v108_apply, val_main_v116_apply,
      val_main_v112_apply, val_main_v111_apply]
  -- the index functions of the two products, the bias and the count are the coordinate indices
  have el : ∀ k : Fin 512, lidx_main_v108 i k = (ix2 (n0 := 50000) (n1 := 512) (i 0) k) := fun k => funext fun a => Fin.ext (by match a with | ⟨0, _⟩ => rfl | ⟨1, _⟩ => rfl)
  have er : ∀ k : Fin 512, ridx_main_v108 i k = (ix2 (n0 := 512) (n1 := 512) k (i 1)) := fun k => funext fun a => Fin.ext (by match a with | ⟨0, _⟩ => rfl | ⟨1, _⟩ => rfl)
  have el' : ∀ k : Fin 512, lidx_main_v116 i k = (ix2 (n0 := 50000) (n1 := 512) (i 0) k) := fun k => funext fun a => Fin.ext (by match a with | ⟨0, _⟩ => rfl | ⟨1, _⟩ => rfl)
  have er' : ∀ k : Fin 512, ridx_main_v116 i k = (ix2 (n0 := 512) (n1 := 512) k (i 1)) := fun k => funext fun a => Fin.ext (by match a with | ⟨0, _⟩ => rfl | ⟨1, _⟩ => rfl)
  have eb : idx_main_v111 (idx_main_v112 i) = ix1 (n := 512) (i 1) :=
    funext fun a => Fin.ext (by match a with | ⟨0, _⟩ => rfl)
  have ec : ∀ k : Fin 512, idx_main_v86 (ix2 (n0 := 50000) (n1 := 512) (i 0) k) = (ix2 (n0 := 50000) (n1 := 1) (i 0) 0) := fun k => funext fun a => Fin.ext (by match a with | ⟨0, _⟩ => rfl | ⟨1, _⟩ => rfl)
  -- the mean aggregate's entry: the neighbour sum's entry over the clamped count
  have hd : ∀ k : Fin 512, val_main_v87 (F := Ideal) x0 x1 x2 x3 x4 x5 x6 x7 x8 x9 x10 x11 x12 (ix2 (n0 := 50000) (n1 := 512) (i 0) k)
      = Ideal.div (val_main_v79 (F := Ideal) x0 x1 x2 x3 x4 x5 x6 x7 x8 x9 x10 x11 x12 (ix2 (n0 := 50000) (n1 := 512) (i 0) k)) (max (val_main_v83 (F := Ideal) x10 (ix2 (n0 := 50000) (n1 := 1) (i 0) 0)) 1) := fun k => by
    rw [val_main_v87_apply, val_main_v86_apply, ec k, val_main_v85_apply, val_main_v84_apply,
      val_main_cst_15_apply, Ideal.hostDivf_def, Ideal.maximumf_def, Ideal.ofBits_def, Ideal.ofBits_one_f32]
  have s1 : (∑ k : Fin 512, val_main_v87 (F := Ideal) x0 x1 x2 x3 x4 x5 x6 x7 x8 x9 x10 x11 x12 (lidx_main_v108 i k) * val_main_v107 (F := Ideal) x6 (ridx_main_v108 i k))
      = ∑ k : Fin 512, Ideal.div (val_main_v79 (F := Ideal) x0 x1 x2 x3 x4 x5 x6 x7 x8 x9 x10 x11 x12 (ix2 (n0 := 50000) (n1 := 512) (i 0) k)) (max (val_main_v83 (F := Ideal) x10 (ix2 (n0 := 50000) (n1 := 1) (i 0) 0)) 1) * val_main_v107 (F := Ideal) x6 (ix2 (n0 := 512) (n1 := 512) k (i 1)) :=
    Finset.sum_congr rfl fun k _ => by rw [el k, er k, hd k]
  have s2 : (∑ k : Fin 512, val_main_v56 (F := Ideal) x0 x1 x2 x3 x4 x5 x6 x7 x8 x9 x10 (lidx_main_v116 i k) * val_main_v115 (F := Ideal) x8 (ridx_main_v116 i k))
      = ∑ k : Fin 512, val_main_v56 (F := Ideal) x0 x1 x2 x3 x4 x5 x6 x7 x8 x9 x10 (ix2 (n0 := 50000) (n1 := 512) (i 0) k) * val_main_v115 (F := Ideal) x8 (ix2 (n0 := 512) (n1 := 512) k (i 1)) :=
    Finset.sum_congr rfl fun k _ => by rw [el' k, er' k]
  rw [s1, s2, eb, Ideal.maximumf_def, Ideal.addf_def, Ideal.addf_def, Ideal.ofBits_def, Ideal.ofBits_zero_f32]
  rfl

/-- Layer 2, servers: the output entry is the SAGE entry of the neighbour sums' row, the own row of the
    previous stage, the clamped neighbour count, and the layer's two weight stages and bias stage. -/
theorem layer2_servers
    (x0 : (⟨S10000x64, .f32⟩ : BufTy).Contents (Elt Ideal)) (x1 : (⟨S50000x32, .f32⟩ : BufTy).Contents (Elt Ideal)) (x2 : (⟨S64x512, .f32⟩ : BufTy).Contents (Elt Ideal)) (x3 : (⟨S512, .f32⟩ : BufTy).Contents (Elt Ideal)) (x4 : (⟨S32x512, .f32⟩ : BufTy).Contents (Elt Ideal)) (x5 : (⟨S512, .f32⟩ : BufTy).Contents (Elt Ideal)) (x6 : (⟨S4x2x512x512, .f32⟩ : BufTy).Contents (Elt Ideal)) (x7 : (⟨S4x2x512, .f32⟩ : BufTy).Contents (Elt Ideal)) (x8 : (⟨S4x2x512x512, .f32⟩ : BufTy).Contents (Elt Ideal)) (x9 : (⟨S300000, .i32⟩ : BufTy).Contents (Elt Ideal)) (x10 : (⟨S300000, .i32⟩ : BufTy).Contents (Elt Ideal)) (x11 : (⟨S300000, .i32⟩ : BufTy).Contents (Elt Ideal)) (x12 : (⟨S300000, .i32⟩ : BufTy).Contents (Elt Ideal))
    (i : S10000x512.Idx) :
    val_main_v131 (F := Ideal) x0 x1 x2 x3 x4 x5 x6 x7 x8 x9 x10 x11 x12 i =
      Cert.Spec.sageRefAt
        (fun k : Fin 512 => val_main_v97 (F := Ideal) x0 x1 x2 x3 x4 x5 x6 x7 x8 x9 x10 x11 x12 (ix2 (n0 := 10000) (n1 := 512) (i 0) k))
        (fun k : Fin 512 => val_main_v69 (F := Ideal) x0 x1 x2 x3 x4 x5 x6 x7 x8 x11 x12 (ix2 (n0 := 10000) (n1 := 512) (i 0) k))
        (max (val_main_v101 (F := Ideal) x12 (ix2 (n0 := 10000) (n1 := 1) (i 0) 0)) 1)
        (fun k j : Fin 512 => val_main_v120 (F := Ideal) x6 (ix2 (n0 := 512) (n1 := 512) k j))
        (fun k j : Fin 512 => val_main_v128 (F := Ideal) x8 (ix2 (n0 := 512) (n1 := 512) k j))
        (fun j : Fin 512 => val_main_v123 (F := Ideal) x7 (ix1 (n := 512) j))
        (i 1) := by
  rw [val_main_v131_apply, val_main_call3_v0_apply, val_main_call3_cst_apply,
      val_main_v130_apply, val_main_v126_apply, val_main_v121_apply, val_main_v129_apply,
      val_main_v125_apply, val_main_v124_apply]
  -- the index functions of the two products, the bias and the count are the coordinate indices
  have el : ∀ k : Fin 512, lidx_main_v121 i k = (ix2 (n0 := 10000) (n1 := 512) (i 0) k) := fun k => funext fun a => Fin.ext (by match a with | ⟨0, _⟩ => rfl | ⟨1, _⟩ => rfl)
  have er : ∀ k : Fin 512, ridx_main_v121 i k = (ix2 (n0 := 512) (n1 := 512) k (i 1)) := fun k => funext fun a => Fin.ext (by match a with | ⟨0, _⟩ => rfl | ⟨1, _⟩ => rfl)
  have el' : ∀ k : Fin 512, lidx_main_v129 i k = (ix2 (n0 := 10000) (n1 := 512) (i 0) k) := fun k => funext fun a => Fin.ext (by match a with | ⟨0, _⟩ => rfl | ⟨1, _⟩ => rfl)
  have er' : ∀ k : Fin 512, ridx_main_v129 i k = (ix2 (n0 := 512) (n1 := 512) k (i 1)) := fun k => funext fun a => Fin.ext (by match a with | ⟨0, _⟩ => rfl | ⟨1, _⟩ => rfl)
  have eb : idx_main_v124 (idx_main_v125 i) = ix1 (n := 512) (i 1) :=
    funext fun a => Fin.ext (by match a with | ⟨0, _⟩ => rfl)
  have ec : ∀ k : Fin 512, idx_main_v104 (ix2 (n0 := 10000) (n1 := 512) (i 0) k) = (ix2 (n0 := 10000) (n1 := 1) (i 0) 0) := fun k => funext fun a => Fin.ext (by match a with | ⟨0, _⟩ => rfl | ⟨1, _⟩ => rfl)
  -- the mean aggregate's entry: the neighbour sum's entry over the clamped count
  have hd : ∀ k : Fin 512, val_main_v105 (F := Ideal) x0 x1 x2 x3 x4 x5 x6 x7 x8 x9 x10 x11 x12 (ix2 (n0 := 10000) (n1 := 512) (i 0) k)
      = Ideal.div (val_main_v97 (F := Ideal) x0 x1 x2 x3 x4 x5 x6 x7 x8 x9 x10 x11 x12 (ix2 (n0 := 10000) (n1 := 512) (i 0) k)) (max (val_main_v101 (F := Ideal) x12 (ix2 (n0 := 10000) (n1 := 1) (i 0) 0)) 1) := fun k => by
    rw [val_main_v105_apply, val_main_v104_apply, ec k, val_main_v103_apply, val_main_v102_apply,
      val_main_cst_21_apply, Ideal.hostDivf_def, Ideal.maximumf_def, Ideal.ofBits_def, Ideal.ofBits_one_f32]
  have s1 : (∑ k : Fin 512, val_main_v105 (F := Ideal) x0 x1 x2 x3 x4 x5 x6 x7 x8 x9 x10 x11 x12 (lidx_main_v121 i k) * val_main_v120 (F := Ideal) x6 (ridx_main_v121 i k))
      = ∑ k : Fin 512, Ideal.div (val_main_v97 (F := Ideal) x0 x1 x2 x3 x4 x5 x6 x7 x8 x9 x10 x11 x12 (ix2 (n0 := 10000) (n1 := 512) (i 0) k)) (max (val_main_v101 (F := Ideal) x12 (ix2 (n0 := 10000) (n1 := 1) (i 0) 0)) 1) * val_main_v120 (F := Ideal) x6 (ix2 (n0 := 512) (n1 := 512) k (i 1)) :=
    Finset.sum_congr rfl fun k _ => by rw [el k, er k, hd k]
  have s2 : (∑ k : Fin 512, val_main_v69 (F := Ideal) x0 x1 x2 x3 x4 x5 x6 x7 x8 x11 x12 (lidx_main_v129 i k) * val_main_v128 (F := Ideal) x8 (ridx_main_v129 i k))
      = ∑ k : Fin 512, val_main_v69 (F := Ideal) x0 x1 x2 x3 x4 x5 x6 x7 x8 x11 x12 (ix2 (n0 := 10000) (n1 := 512) (i 0) k) * val_main_v128 (F := Ideal) x8 (ix2 (n0 := 512) (n1 := 512) k (i 1)) :=
    Finset.sum_congr rfl fun k _ => by rw [el' k, er' k]
  rw [s1, s2, eb, Ideal.maximumf_def, Ideal.addf_def, Ideal.addf_def, Ideal.ofBits_def, Ideal.ofBits_zero_f32]
  rfl

/-- Layer 3, devices: the output entry is the SAGE entry of the neighbour sums' row, the own row of the
    previous stage, the clamped neighbour count, and the layer's two weight stages and bias stage. -/
theorem layer3_devices
    (x0 : (⟨S10000x64, .f32⟩ : BufTy).Contents (Elt Ideal)) (x1 : (⟨S50000x32, .f32⟩ : BufTy).Contents (Elt Ideal)) (x2 : (⟨S64x512, .f32⟩ : BufTy).Contents (Elt Ideal)) (x3 : (⟨S512, .f32⟩ : BufTy).Contents (Elt Ideal)) (x4 : (⟨S32x512, .f32⟩ : BufTy).Contents (Elt Ideal)) (x5 : (⟨S512, .f32⟩ : BufTy).Contents (Elt Ideal)) (x6 : (⟨S4x2x512x512, .f32⟩ : BufTy).Contents (Elt Ideal)) (x7 : (⟨S4x2x512, .f32⟩ : BufTy).Contents (Elt Ideal)) (x8 : (⟨S4x2x512x512, .f32⟩ : BufTy).Contents (Elt Ideal)) (x9 : (⟨S300000, .i32⟩ : BufTy).Contents (Elt Ideal)) (x10 : (⟨S300000, .i32⟩ : BufTy).Contents (Elt Ideal)) (x11 : (⟨S300000, .i32⟩ : BufTy).Contents (Elt Ideal)) (x12 : (⟨S300000, .i32⟩ : BufTy).Contents (Elt Ideal))
    (i : S50000x512.Idx) :
    val_main_v180 (F := Ideal) x0 x1 x2 x3 x4 x5 x6 x7 x8 x9 x10 x11 x12 i =
      Cert.Spec.sageRefAt
        (fun k : Fin 512 => val_main_v141 (F := Ideal) x0 x1 x2 x3 x4 x5 x6 x7 x8 x9 x10 x11 x12 (ix2 (n0 := 50000) (n1 := 512) (i 0) k))
        (fun k : Fin 512 => val_main_v118 (F := Ideal) x0 x1 x2 x3 x4 x5 x6 x7 x8 x9 x10 x11 x12 (ix2 (n0 := 50000) (n1 := 512) (i 0) k))
        (max (val_main_v145 (F := Ideal) x10 (ix2 (n0 := 50000) (n1 := 1) (i 0) 0)) 1)
        (fun k j : Fin 512 => val_main_v169 (F := Ideal) x6 (ix2 (n0 := 512) (n1 := 512) k j))
        (fun k j : Fin 512 => val_main_v177 (F := Ideal) x8 (ix2 (n0 := 512) (n1 := 512) k j))
        (fun j : Fin 512 => val_main_v172 (F := Ideal) x7 (ix1 (n := 512) j))
        (i 1) := by
  rw [val_main_v180_apply, val_main_call4_v0_apply, val_main_call4_cst_apply,
      val_main_v179_apply, val_main_v175_apply, val_main_v170_apply, val_main_v178_apply,
      val_main_v174_apply, val_main_v173_apply]
  -- the index functions of the two products, the bias and the count are the coordinate indices
  have el : ∀ k : Fin 512, lidx_main_v170 i k = (ix2 (n0 := 50000) (n1 := 512) (i 0) k) := fun k => funext fun a => Fin.ext (by match a with | ⟨0, _⟩ => rfl | ⟨1, _⟩ => rfl)
  have er : ∀ k : Fin 512, ridx_main_v170 i k = (ix2 (n0 := 512) (n1 := 512) k (i 1)) := fun k => funext fun a => Fin.ext (by match a with | ⟨0, _⟩ => rfl | ⟨1, _⟩ => rfl)
  have el' : ∀ k : Fin 512, lidx_main_v178 i k = (ix2 (n0 := 50000) (n1 := 512) (i 0) k) := fun k => funext fun a => Fin.ext (by match a with | ⟨0, _⟩ => rfl | ⟨1, _⟩ => rfl)
  have er' : ∀ k : Fin 512, ridx_main_v178 i k = (ix2 (n0 := 512) (n1 := 512) k (i 1)) := fun k => funext fun a => Fin.ext (by match a with | ⟨0, _⟩ => rfl | ⟨1, _⟩ => rfl)
  have eb : idx_main_v173 (idx_main_v174 i) = ix1 (n := 512) (i 1) :=
    funext fun a => Fin.ext (by match a with | ⟨0, _⟩ => rfl)
  have ec : ∀ k : Fin 512, idx_main_v148 (ix2 (n0 := 50000) (n1 := 512) (i 0) k) = (ix2 (n0 := 50000) (n1 := 1) (i 0) 0) := fun k => funext fun a => Fin.ext (by match a with | ⟨0, _⟩ => rfl | ⟨1, _⟩ => rfl)
  -- the mean aggregate's entry: the neighbour sum's entry over the clamped count
  have hd : ∀ k : Fin 512, val_main_v149 (F := Ideal) x0 x1 x2 x3 x4 x5 x6 x7 x8 x9 x10 x11 x12 (ix2 (n0 := 50000) (n1 := 512) (i 0) k)
      = Ideal.div (val_main_v141 (F := Ideal) x0 x1 x2 x3 x4 x5 x6 x7 x8 x9 x10 x11 x12 (ix2 (n0 := 50000) (n1 := 512) (i 0) k)) (max (val_main_v145 (F := Ideal) x10 (ix2 (n0 := 50000) (n1 := 1) (i 0) 0)) 1) := fun k => by
    rw [val_main_v149_apply, val_main_v148_apply, ec k, val_main_v147_apply, val_main_v146_apply,
      val_main_cst_27_apply, Ideal.hostDivf_def, Ideal.maximumf_def, Ideal.ofBits_def, Ideal.ofBits_one_f32]
  have s1 : (∑ k : Fin 512, val_main_v149 (F := Ideal) x0 x1 x2 x3 x4 x5 x6 x7 x8 x9 x10 x11 x12 (lidx_main_v170 i k) * val_main_v169 (F := Ideal) x6 (ridx_main_v170 i k))
      = ∑ k : Fin 512, Ideal.div (val_main_v141 (F := Ideal) x0 x1 x2 x3 x4 x5 x6 x7 x8 x9 x10 x11 x12 (ix2 (n0 := 50000) (n1 := 512) (i 0) k)) (max (val_main_v145 (F := Ideal) x10 (ix2 (n0 := 50000) (n1 := 1) (i 0) 0)) 1) * val_main_v169 (F := Ideal) x6 (ix2 (n0 := 512) (n1 := 512) k (i 1)) :=
    Finset.sum_congr rfl fun k _ => by rw [el k, er k, hd k]
  have s2 : (∑ k : Fin 512, val_main_v118 (F := Ideal) x0 x1 x2 x3 x4 x5 x6 x7 x8 x9 x10 x11 x12 (lidx_main_v178 i k) * val_main_v177 (F := Ideal) x8 (ridx_main_v178 i k))
      = ∑ k : Fin 512, val_main_v118 (F := Ideal) x0 x1 x2 x3 x4 x5 x6 x7 x8 x9 x10 x11 x12 (ix2 (n0 := 50000) (n1 := 512) (i 0) k) * val_main_v177 (F := Ideal) x8 (ix2 (n0 := 512) (n1 := 512) k (i 1)) :=
    Finset.sum_congr rfl fun k _ => by rw [el' k, er' k]
  rw [s1, s2, eb, Ideal.maximumf_def, Ideal.addf_def, Ideal.addf_def, Ideal.ofBits_def, Ideal.ofBits_zero_f32]
  rfl

/-- Layer 3, servers: the output entry is the SAGE entry of the neighbour sums' row, the own row of the
    previous stage, the clamped neighbour count, and the layer's two weight stages and bias stage. -/
theorem layer3_servers
    (x0 : (⟨S10000x64, .f32⟩ : BufTy).Contents (Elt Ideal)) (x1 : (⟨S50000x32, .f32⟩ : BufTy).Contents (Elt Ideal)) (x2 : (⟨S64x512, .f32⟩ : BufTy).Contents (Elt Ideal)) (x3 : (⟨S512, .f32⟩ : BufTy).Contents (Elt Ideal)) (x4 : (⟨S32x512, .f32⟩ : BufTy).Contents (Elt Ideal)) (x5 : (⟨S512, .f32⟩ : BufTy).Contents (Elt Ideal)) (x6 : (⟨S4x2x512x512, .f32⟩ : BufTy).Contents (Elt Ideal)) (x7 : (⟨S4x2x512, .f32⟩ : BufTy).Contents (Elt Ideal)) (x8 : (⟨S4x2x512x512, .f32⟩ : BufTy).Contents (Elt Ideal)) (x9 : (⟨S300000, .i32⟩ : BufTy).Contents (Elt Ideal)) (x10 : (⟨S300000, .i32⟩ : BufTy).Contents (Elt Ideal)) (x11 : (⟨S300000, .i32⟩ : BufTy).Contents (Elt Ideal)) (x12 : (⟨S300000, .i32⟩ : BufTy).Contents (Elt Ideal))
    (i : S10000x512.Idx) :
    val_main_v193 (F := Ideal) x0 x1 x2 x3 x4 x5 x6 x7 x8 x9 x10 x11 x12 i =
      Cert.Spec.sageRefAt
        (fun k : Fin 512 => val_main_v159 (F := Ideal) x0 x1 x2 x3 x4 x5 x6 x7 x8 x9 x10 x11 x12 (ix2 (n0 := 10000) (n1 := 512) (i 0) k))
        (fun k : Fin 512 => val_main_v131 (F := Ideal) x0 x1 x2 x3 x4 x5 x6 x7 x8 x9 x10 x11 x12 (ix2 (n0 := 10000) (n1 := 512) (i 0) k))
        (max (val_main_v163 (F := Ideal) x12 (ix2 (n0 := 10000) (n1 := 1) (i 0) 0)) 1)
        (fun k j : Fin 512 => val_main_v182 (F := Ideal) x6 (ix2 (n0 := 512) (n1 := 512) k j))
        (fun k j : Fin 512 => val_main_v190 (F := Ideal) x8 (ix2 (n0 := 512) (n1 := 512) k j))
        (fun j : Fin 512 => val_main_v185 (F := Ideal) x7 (ix1 (n := 512) j))
        (i 1) := by
  rw [val_main_v193_apply, val_main_call5_v0_apply, val_main_call5_cst_apply,
      val_main_v192_apply, val_main_v188_apply, val_main_v183_apply, val_main_v191_apply,
      val_main_v187_apply, val_main_v186_apply]
  -- the index functions of the two products, the bias and the count are the coordinate indices
  have el : ∀ k : Fin 512, lidx_main_v183 i k = (ix2 (n0 := 10000) (n1 := 512) (i 0) k) := fun k => funext fun a => Fin.ext (by match a with | ⟨0, _⟩ => rfl | ⟨1, _⟩ => rfl)
  have er : ∀ k : Fin 512, ridx_main_v183 i k = (ix2 (n0 := 512) (n1 := 512) k (i 1)) := fun k => funext fun a => Fin.ext (by match a with | ⟨0, _⟩ => rfl | ⟨1, _⟩ => rfl)
  have el' : ∀ k : Fin 512, lidx_main_v191 i k = (ix2 (n0 := 10000) (n1 := 512) (i 0) k) := fun k => funext fun a => Fin.ext (by match a with | ⟨0, _⟩ => rfl | ⟨1, _⟩ => rfl)
  have er' : ∀ k : Fin 512, ridx_main_v191 i k = (ix2 (n0 := 512) (n1 := 512) k (i 1)) := fun k => funext fun a => Fin.ext (by match a with | ⟨0, _⟩ => rfl | ⟨1, _⟩ => rfl)
  have eb : idx_main_v186 (idx_main_v187 i) = ix1 (n := 512) (i 1) :=
    funext fun a => Fin.ext (by match a with | ⟨0, _⟩ => rfl)
  have ec : ∀ k : Fin 512, idx_main_v166 (ix2 (n0 := 10000) (n1 := 512) (i 0) k) = (ix2 (n0 := 10000) (n1 := 1) (i 0) 0) := fun k => funext fun a => Fin.ext (by match a with | ⟨0, _⟩ => rfl | ⟨1, _⟩ => rfl)
  -- the mean aggregate's entry: the neighbour sum's entry over the clamped count
  have hd : ∀ k : Fin 512, val_main_v167 (F := Ideal) x0 x1 x2 x3 x4 x5 x6 x7 x8 x9 x10 x11 x12 (ix2 (n0 := 10000) (n1 := 512) (i 0) k)
      = Ideal.div (val_main_v159 (F := Ideal) x0 x1 x2 x3 x4 x5 x6 x7 x8 x9 x10 x11 x12 (ix2 (n0 := 10000) (n1 := 512) (i 0) k)) (max (val_main_v163 (F := Ideal) x12 (ix2 (n0 := 10000) (n1 := 1) (i 0) 0)) 1) := fun k => by
    rw [val_main_v167_apply, val_main_v166_apply, ec k, val_main_v165_apply, val_main_v164_apply,
      val_main_cst_33_apply, Ideal.hostDivf_def, Ideal.maximumf_def, Ideal.ofBits_def, Ideal.ofBits_one_f32]
  have s1 : (∑ k : Fin 512, val_main_v167 (F := Ideal) x0 x1 x2 x3 x4 x5 x6 x7 x8 x9 x10 x11 x12 (lidx_main_v183 i k) * val_main_v182 (F := Ideal) x6 (ridx_main_v183 i k))
      = ∑ k : Fin 512, Ideal.div (val_main_v159 (F := Ideal) x0 x1 x2 x3 x4 x5 x6 x7 x8 x9 x10 x11 x12 (ix2 (n0 := 10000) (n1 := 512) (i 0) k)) (max (val_main_v163 (F := Ideal) x12 (ix2 (n0 := 10000) (n1 := 1) (i 0) 0)) 1) * val_main_v182 (F := Ideal) x6 (ix2 (n0 := 512) (n1 := 512) k (i 1)) :=
    Finset.sum_congr rfl fun k _ => by rw [el k, er k, hd k]
  have s2 : (∑ k : Fin 512, val_main_v131 (F := Ideal) x0 x1 x2 x3 x4 x5 x6 x7 x8 x9 x10 x11 x12 (lidx_main_v191 i k) * val_main_v190 (F := Ideal) x8 (ridx_main_v191 i k))
      = ∑ k : Fin 512, val_main_v131 (F := Ideal) x0 x1 x2 x3 x4 x5 x6 x7 x8 x9 x10 x11 x12 (ix2 (n0 := 10000) (n1 := 512) (i 0) k) * val_main_v190 (F := Ideal) x8 (ix2 (n0 := 512) (n1 := 512) k (i 1)) :=
    Finset.sum_congr rfl fun k _ => by rw [el' k, er' k]
  rw [s1, s2, eb, Ideal.maximumf_def, Ideal.addf_def, Ideal.addf_def, Ideal.ofBits_def, Ideal.ofBits_zero_f32]
  rfl

/-- Layer 4, devices: the output entry is the SAGE entry of the neighbour sums' row, the own row of the
    previous stage, the clamped neighbour count, and the layer's two weight stages and bias stage. -/
theorem layer4_devices
    (x0 : (⟨S10000x64, .f32⟩ : BufTy).Contents (Elt Ideal)) (x1 : (⟨S50000x32, .f32⟩ : BufTy).Contents (Elt Ideal)) (x2 : (⟨S64x512, .f32⟩ : BufTy).Contents (Elt Ideal)) (x3 : (⟨S512, .f32⟩ : BufTy).Contents (Elt Ideal)) (x4 : (⟨S32x512, .f32⟩ : BufTy).Contents (Elt Ideal)) (x5 : (⟨S512, .f32⟩ : BufTy).Contents (Elt Ideal)) (x6 : (⟨S4x2x512x512, .f32⟩ : BufTy).Contents (Elt Ideal)) (x7 : (⟨S4x2x512, .f32⟩ : BufTy).Contents (Elt Ideal)) (x8 : (⟨S4x2x512x512, .f32⟩ : BufTy).Contents (Elt Ideal)) (x9 : (⟨S300000, .i32⟩ : BufTy).Contents (Elt Ideal)) (x10 : (⟨S300000, .i32⟩ : BufTy).Contents (Elt Ideal)) (x11 : (⟨S300000, .i32⟩ : BufTy).Contents (Elt Ideal)) (x12 : (⟨S300000, .i32⟩ : BufTy).Contents (Elt Ideal))
    (i : S50000x512.Idx) :
    val_main_v242 (F := Ideal) x0 x1 x2 x3 x4 x5 x6 x7 x8 x9 x10 x11 x12 i =
      Cert.Spec.sageRefAt
        (fun k : Fin 512 => val_main_v203 (F := Ideal) x0 x1 x2 x3 x4 x5 x6 x7 x8 x9 x10 x11 x12 (ix2 (n0 := 50000) (n1 := 512) (i 0) k))
        (fun k : Fin 512 => val_main_v180 (F := Ideal) x0 x1 x2 x3 x4 x5 x6 x7 x8 x9 x10 x11 x12 (ix2 (n0 := 50000) (n1 := 512) (i 0) k))
        (max (val_main_v207 (F := Ideal) x10 (ix2 (n0 := 50000) (n1 := 1) (i 0) 0)) 1)
        (fun k j : Fin 512 => val_main_v231 (F := Ideal) x6 (ix2 (n0 := 512) (n1 := 512) k j))
        (fun k j : Fin 512 => val_main_v239 (F := Ideal) x8 (ix2 (n0 := 512) (n1 := 512) k j))
        (fun j : Fin 512 => val_main_v234 (F := Ideal) x7 (ix1 (n := 512) j))
        (i 1) := by
  rw [val_main_v242_apply, val_main_call6_v0_apply, val_main_call6_cst_apply,
      val_main_v241_apply, val_main_v237_apply, val_main_v232_apply, val_main_v240_apply,
      val_main_v236_apply, val_main_v235_apply]
  -- the index functions of the two products, the bias and the count are the coordinate indices
  have el : ∀ k : Fin 512, lidx_main_v232 i k = (ix2 (n0 := 50000) (n1 := 512) (i 0) k) := fun k => funext fun a => Fin.ext (by match a with | ⟨0, _⟩ => rfl | ⟨1, _⟩ => rfl)
  have er : ∀ k : Fin 512, ridx_main_v232 i k = (ix2 (n0 := 512) (n1 := 512) k (i 1)) := fun k => funext fun a => Fin.ext (by match a with | ⟨0, _⟩ => rfl | ⟨1, _⟩ => rfl)
  have el' : ∀ k : Fin 512, lidx_main_v240 i k = (ix2 (n0 := 50000) (n1 := 512) (i 0) k) := fun k => funext fun a => Fin.ext (by match a with | ⟨0, _⟩ => rfl | ⟨1, _⟩ => rfl)
  have er' : ∀ k : Fin 512, ridx_main_v240 i k = (ix2 (n0 := 512) (n1 := 512) k (i 1)) := fun k => funext fun a => Fin.ext (by match a with | ⟨0, _⟩ => rfl | ⟨1, _⟩ => rfl)
  have eb : idx_main_v235 (idx_main_v236 i) = ix1 (n := 512) (i 1) :=
    funext fun a => Fin.ext (by match a with | ⟨0, _⟩ => rfl)
  have ec : ∀ k : Fin 512, idx_main_v210 (ix2 (n0 := 50000) (n1 := 512) (i 0) k) = (ix2 (n0 := 50000) (n1 := 1) (i 0) 0) := fun k => funext fun a => Fin.ext (by match a with | ⟨0, _⟩ => rfl | ⟨1, _⟩ => rfl)
  -- the mean aggregate's entry: the neighbour sum's entry over the clamped count
  have hd : ∀ k : Fin 512, val_main_v211 (F := Ideal) x0 x1 x2 x3 x4 x5 x6 x7 x8 x9 x10 x11 x12 (ix2 (n0 := 50000) (n1 := 512) (i 0) k)
      = Ideal.div (val_main_v203 (F := Ideal) x0 x1 x2 x3 x4 x5 x6 x7 x8 x9 x10 x11 x12 (ix2 (n0 := 50000) (n1 := 512) (i 0) k)) (max (val_main_v207 (F := Ideal) x10 (ix2 (n0 := 50000) (n1 := 1) (i 0) 0)) 1) := fun k => by
    rw [val_main_v211_apply, val_main_v210_apply, ec k, val_main_v209_apply, val_main_v208_apply,
      val_main_cst_39_apply, Ideal.hostDivf_def, Ideal.maximumf_def, Ideal.ofBits_def, Ideal.ofBits_one_f32]
  have s1 : (∑ k : Fin 512, val_main_v211 (F := Ideal) x0 x1 x2 x3 x4 x5 x6 x7 x8 x9 x10 x11 x12 (lidx_main_v232 i k) * val_main_v231 (F := Ideal) x6 (ridx_main_v232 i k))
      = ∑ k : Fin 512, Ideal.div (val_main_v203 (F := Ideal) x0 x1 x2 x3 x4 x5 x6 x7 x8 x9 x10 x11 x12 (ix2 (n0 := 50000) (n1 := 512) (i 0) k)) (max (val_main_v207 (F := Ideal) x10 (ix2 (n0 := 50000) (n1 := 1) (i 0) 0)) 1) * val_main_v231 (F := Ideal) x6 (ix2 (n0 := 512) (n1 := 512) k (i 1)) :=
    Finset.sum_congr rfl fun k _ => by rw [el k, er k, hd k]
  have s2 : (∑ k : Fin 512, val_main_v180 (F := Ideal) x0 x1 x2 x3 x4 x5 x6 x7 x8 x9 x10 x11 x12 (lidx_main_v240 i k) * val_main_v239 (F := Ideal) x8 (ridx_main_v240 i k))
      = ∑ k : Fin 512, val_main_v180 (F := Ideal) x0 x1 x2 x3 x4 x5 x6 x7 x8 x9 x10 x11 x12 (ix2 (n0 := 50000) (n1 := 512) (i 0) k) * val_main_v239 (F := Ideal) x8 (ix2 (n0 := 512) (n1 := 512) k (i 1)) :=
    Finset.sum_congr rfl fun k _ => by rw [el' k, er' k]
  rw [s1, s2, eb, Ideal.maximumf_def, Ideal.addf_def, Ideal.addf_def, Ideal.ofBits_def, Ideal.ofBits_zero_f32]
  rfl

/-- Layer 4, servers: the output entry is the SAGE entry of the neighbour sums' row, the own row of the
    previous stage, the clamped neighbour count, and the layer's two weight stages and bias stage. -/
theorem layer4_servers
    (x0 : (⟨S10000x64, .f32⟩ : BufTy).Contents (Elt Ideal)) (x1 : (⟨S50000x32, .f32⟩ : BufTy).Contents (Elt Ideal)) (x2 : (⟨S64x512, .f32⟩ : BufTy).Contents (Elt Ideal)) (x3 : (⟨S512, .f32⟩ : BufTy).Contents (Elt Ideal)) (x4 : (⟨S32x512, .f32⟩ : BufTy).Contents (Elt Ideal)) (x5 : (⟨S512, .f32⟩ : BufTy).Contents (Elt Ideal)) (x6 : (⟨S4x2x512x512, .f32⟩ : BufTy).Contents (Elt Ideal)) (x7 : (⟨S4x2x512, .f32⟩ : BufTy).Contents (Elt Ideal)) (x8 : (⟨S4x2x512x512, .f32⟩ : BufTy).Contents (Elt Ideal)) (x9 : (⟨S300000, .i32⟩ : BufTy).Contents (Elt Ideal)) (x10 : (⟨S300000, .i32⟩ : BufTy).Contents (Elt Ideal)) (x11 : (⟨S300000, .i32⟩ : BufTy).Contents (Elt Ideal)) (x12 : (⟨S300000, .i32⟩ : BufTy).Contents (Elt Ideal))
    (i : S10000x512.Idx) :
    val_main_v255 (F := Ideal) x0 x1 x2 x3 x4 x5 x6 x7 x8 x9 x10 x11 x12 i =
      Cert.Spec.sageRefAt
        (fun k : Fin 512 => val_main_v221 (F := Ideal) x0 x1 x2 x3 x4 x5 x6 x7 x8 x9 x10 x11 x12 (ix2 (n0 := 10000) (n1 := 512) (i 0) k))
        (fun k : Fin 512 => val_main_v193 (F := Ideal) x0 x1 x2 x3 x4 x5 x6 x7 x8 x9 x10 x11 x12 (ix2 (n0 := 10000) (n1 := 512) (i 0) k))
        (max (val_main_v225 (F := Ideal) x12 (ix2 (n0 := 10000) (n1 := 1) (i 0) 0)) 1)
        (fun k j : Fin 512 => val_main_v244 (F := Ideal) x6 (ix2 (n0 := 512) (n1 := 512) k j))
        (fun k j : Fin 512 => val_main_v252 (F := Ideal) x8 (ix2 (n0 := 512) (n1 := 512) k j))
        (fun j : Fin 512 => val_main_v247 (F := Ideal) x7 (ix1 (n := 512) j))
        (i 1) := by
  rw [val_main_v255_apply, val_main_call7_v0_apply, val_main_call7_cst_apply,
      val_main_v254_apply, val_main_v250_apply, val_main_v245_apply, val_main_v253_apply,
      val_main_v249_apply, val_main_v248_apply]
  -- the index functions of the two products, the bias and the count are the coordinate indices
  have el : ∀ k : Fin 512, lidx_main_v245 i k = (ix2 (n0 := 10000) (n1 := 512) (i 0) k) := fun k => funext fun a => Fin.ext (by match a with | ⟨0, _⟩ => rfl | ⟨1, _⟩ => rfl)
  have er : ∀ k : Fin 512, ridx_main_v245 i k = (ix2 (n0 := 512) (n1 := 512) k (i 1)) := fun k => funext fun a => Fin.ext (by match a with | ⟨0, _⟩ => rfl | ⟨1, _⟩ => rfl)
  have el' : ∀ k : Fin 512, lidx_main_v253 i k = (ix2 (n0 := 10000) (n1 := 512) (i 0) k) := fun k => funext fun a => Fin.ext (by match a with | ⟨0, _⟩ => rfl | ⟨1, _⟩ => rfl)
  have er' : ∀ k : Fin 512, ridx_main_v253 i k = (ix2 (n0 := 512) (n1 := 512) k (i 1)) := fun k => funext fun a => Fin.ext (by match a with | ⟨0, _⟩ => rfl | ⟨1, _⟩ => rfl)
  have eb : idx_main_v248 (idx_main_v249 i) = ix1 (n := 512) (i 1) :=
    funext fun a => Fin.ext (by match a with | ⟨0, _⟩ => rfl)
  have ec : ∀ k : Fin 512, idx_main_v228 (ix2 (n0 := 10000) (n1 := 512) (i 0) k) = (ix2 (n0 := 10000) (n1 := 1) (i 0) 0) := fun k => funext fun a => Fin.ext (by match a with | ⟨0, _⟩ => rfl | ⟨1, _⟩ => rfl)
  -- the mean aggregate's entry: the neighbour sum's entry over the clamped count
  have hd : ∀ k : Fin 512, val_main_v229 (F := Ideal) x0 x1 x2 x3 x4 x5 x6 x7 x8 x9 x10 x11 x12 (ix2 (n0 := 10000) (n1 := 512) (i 0) k)
      = Ideal.div (val_main_v221 (F := Ideal) x0 x1 x2 x3 x4 x5 x6 x7 x8 x9 x10 x11 x12 (ix2 (n0 := 10000) (n1 := 512) (i 0) k)) (max (val_main_v225 (F := Ideal) x12 (ix2 (n0 := 10000) (n1 := 1) (i 0) 0)) 1) := fun k => by
    rw [val_main_v229_apply, val_main_v228_apply, ec k, val_main_v227_apply, val_main_v226_apply,
      val_main_cst_45_apply, Ideal.hostDivf_def, Ideal.maximumf_def, Ideal.ofBits_def, Ideal.ofBits_one_f32]
  have s1 : (∑ k : Fin 512, val_main_v229 (F := Ideal) x0 x1 x2 x3 x4 x5 x6 x7 x8 x9 x10 x11 x12 (lidx_main_v245 i k) * val_main_v244 (F := Ideal) x6 (ridx_main_v245 i k))
      = ∑ k : Fin 512, Ideal.div (val_main_v221 (F := Ideal) x0 x1 x2 x3 x4 x5 x6 x7 x8 x9 x10 x11 x12 (ix2 (n0 := 10000) (n1 := 512) (i 0) k)) (max (val_main_v225 (F := Ideal) x12 (ix2 (n0 := 10000) (n1 := 1) (i 0) 0)) 1) * val_main_v244 (F := Ideal) x6 (ix2 (n0 := 512) (n1 := 512) k (i 1)) :=
    Finset.sum_congr rfl fun k _ => by rw [el k, er k, hd k]
  have s2 : (∑ k : Fin 512, val_main_v193 (F := Ideal) x0 x1 x2 x3 x4 x5 x6 x7 x8 x9 x10 x11 x12 (lidx_main_v253 i k) * val_main_v252 (F := Ideal) x8 (ridx_main_v253 i k))
      = ∑ k : Fin 512, val_main_v193 (F := Ideal) x0 x1 x2 x3 x4 x5 x6 x7 x8 x9 x10 x11 x12 (ix2 (n0 := 10000) (n1 := 512) (i 0) k) * val_main_v252 (F := Ideal) x8 (ix2 (n0 := 512) (n1 := 512) k (i 1)) :=
    Finset.sum_congr rfl fun k _ => by rw [el' k, er' k]
  rw [s1, s2, eb, Ideal.maximumf_def, Ideal.addf_def, Ideal.addf_def, Ideal.ofBits_def, Ideal.ofBits_zero_f32]
  rfl

end Cert.RefLayers

end
-- ==== Proof.ChainBase.lean ====
/-
  The two input projections.  Region 0 leaves in its output array, entry by entry, the servers' rows
  times the weights plus the bias row (the bias array is the argument reshaped to one row by the host
  line before the region); the reference's stage is the host's product plus the bias broadcast: the
  same sum and the same bias entry.  Region 1 is the same for the devices.  Both are carried to the
  boundary where the first layer reads them.
-/
import proofs.«106831_j73237782332046_2_alg».proof.Proof.KerReg0
import proofs.«106831_j73237782332046_2_alg».proof.Proof.KerReg1
import proofs.«106831_j73237782332046_2_alg».proof.Proof.KerArgs
import proofs.«106831_j73237782332046_2_alg».proof.Proof.HostReads
import proofs.«106831_j73237782332046_2_alg».proof.Proof.RefLayers
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.Chain

open Cert.KernelIdeal Cert.KernelIdeal.Gen Cert.KernelIdeal.Pass Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-- Argument 0 of the kernel program's launch memory, typed as the reference's stages take it. -/
abbrev x0 (c : Dev nD) : (⟨Cert.ReferenceIdeal.S10000x64, .f32⟩ : BufTy).Contents (Elt Ideal) := m ((c : Thread nD τ).loc main_arg0)
/-- Argument 1 of the kernel program's launch memory, typed as the reference's stages take it. -/
abbrev x1 (c : Dev nD) : (⟨Cert.ReferenceIdeal.S50000x32, .f32⟩ : BufTy).Contents (Elt Ideal) := m ((c : Thread nD τ).loc main_arg1)
/-- Argument 2 of the kernel program's launch memory, typed as the reference's stages take it. -/
abbrev x2 (c : Dev nD) : (⟨Cert.ReferenceIdeal.S64x512, .f32⟩ : BufTy).Contents (Elt Ideal) := m ((c : Thread nD τ).loc main_arg2)
/-- Argument 3 of the kernel program's launch memory, typed as the reference's stages take it. -/
abbrev x3 (c : Dev nD) : (⟨Cert.ReferenceIdeal.S512, .f32⟩ : BufTy).Contents (Elt Ideal) := m ((c : Thread nD τ).loc main_arg3)
/-- Argument 4 of the kernel program's launch memory, typed as the reference's stages take it. -/
abbrev x4 (c : Dev nD) : (⟨Cert.ReferenceIdeal.S32x512, .f32⟩ : BufTy).Contents (Elt Ideal) := m ((c : Thread nD τ).loc main_arg4)
/-- Argument 5 of the kernel program's launch memory, typed as the reference's stages take it. -/
abbrev x5 (c : Dev nD) : (⟨Cert.ReferenceIdeal.S512, .f32⟩ : BufTy).Contents (Elt Ideal) := m ((c : Thread nD τ).loc main_arg5)
/-- Argument 6 of the kernel program's launch memory, typed as the reference's stages take it. -/
abbrev x6 (c : Dev nD) : (⟨Cert.ReferenceIdeal.S4x2x512x512, .f32⟩ : BufTy).Contents (Elt Ideal) := m ((c : Thread nD τ).loc main_arg6)
/-- Argument 7 of the kernel program's launch memory, typed as the reference's stages take it. -/
abbrev x7 (c : Dev nD) : (⟨Cert.ReferenceIdeal.S4x2x512, .f32⟩ : BufTy).Contents (Elt Ideal) := m ((c : Thread nD τ).loc main_arg7)
/-- Argument 8 of the kernel program's launch memory, typed as the reference's stages take it. -/
abbrev x8 (c : Dev nD) : (⟨Cert.ReferenceIdeal.S4x2x512x512, .f32⟩ : BufTy).Contents (Elt Ideal) := m ((c : Thread nD τ).loc main_arg8)
/-- Argument 9 of the kernel program's launch memory, typed as the reference's stages take it. -/
abbrev x9 (c : Dev nD) : (⟨Cert.ReferenceIdeal.S300000, .i32⟩ : BufTy).Contents (Elt Ideal) := m ((c : Thread nD τ).loc main_arg9)
/-- Argument 10 of the kernel program's launch memory, typed as the reference's stages take it. -/
abbrev x10 (c : Dev nD) : (⟨Cert.ReferenceIdeal.S300000, .i32⟩ : BufTy).Contents (Elt Ideal) := m ((c : Thread nD τ).loc main_arg10)
/-- Argument 11 of the kernel program's launch memory, typed as the reference's stages take it. -/
abbrev x11 (c : Dev nD) : (⟨Cert.ReferenceIdeal.S300000, .i32⟩ : BufTy).Contents (Elt Ideal) := m ((c : Thread nD τ).loc main_arg11)
/-- Argument 12 of the kernel program's launch memory, typed as the reference's stages take it. -/
abbrev x12 (c : Dev nD) : (⟨Cert.ReferenceIdeal.S300000, .i32⟩ : BufTy).Contents (Elt Ideal) := m ((c : Thread nD τ).loc main_arg12)

/-- What a SAGE entry needs of the reciprocal count's host line: the kernel program's in-degree count of the devices. -/
def cntD (a10 : (⟨S300000, .i32⟩ : BufTy).Contents (Elt Ideal)) : FVec Ideal S50000 .f32 :=
  Host.scatterAdd scatter_S50000_S300000x1_S300000_n_0_0_1 (broadcastInDim S50000 ![] bcast_S_S50000 (constant S_ .f32 0x00000000#32))
    (broadcastInDim S300000x1 ![0] bcast_S300000_S300000x1_0 a10) (broadcastInDim S300000 ![] bcast_S_S300000 (constant S_ .f32 0x3F800000#32))

/-- The kernel program's reciprocal clamped count of the devices, `1 / max (count, 1)`. -/
def invD (a10 : (⟨S300000, .i32⟩ : BufTy).Contents (Elt Ideal)) : FVec Ideal S50000 .f32 :=
  Host.divf (broadcastInDim S50000 ![] bcast_S_S50000 (constant S_ .f32 0x3F800000#32))
    (maximumf (cntD a10) (broadcastInDim S50000 ![] bcast_S_S50000 (constant S_ .f32 0x3F800000#32)))

/-- The kernel program's in-degree count of the servers. -/
def cntS (a12 : (⟨S300000, .i32⟩ : BufTy).Contents (Elt Ideal)) : FVec Ideal S10000 .f32 :=
  Host.scatterAdd scatter_S10000_S300000x1_S300000_n_0_0_1 (broadcastInDim S10000 ![] bcast_S_S10000 (constant S_ .f32 0x00000000#32))
    (broadcastInDim S300000x1 ![0] bcast_S300000_S300000x1_0 a12) (broadcastInDim S300000 ![] bcast_S_S300000 (constant S_ .f32 0x3F800000#32))

/-- The kernel program's reciprocal clamped count of the servers. -/
def invS (a12 : (⟨S300000, .i32⟩ : BufTy).Contents (Elt Ideal)) : FVec Ideal S10000 .f32 :=
  Host.divf (broadcastInDim S10000 ![] bcast_S_S10000 (constant S_ .f32 0x3F800000#32))
    (maximumf (cntS a12) (broadcastInDim S10000 ![] bcast_S_S10000 (constant S_ .f32 0x3F800000#32)))

/-- The servers after the projection: region 0's output array is the reference's stage. -/
theorem hs0 (c : Dev nD) : W2 m ρ c (Proc.devRef .tc main_v1) = Cert.ReferenceIdeal.ReadP.val_main_v3 (F := Ideal) (x0 m c) (x2 m c) (x3 m c) := by
  refine (W2_arr m ρ c 3).trans ((Reg0.final (V1 m ρ) c).trans ?_)
  funext i
  refine Eq.trans ?_ (Cert.RefLayers.proj_servers _ _ _ i).symm
  unfold Arr.lin10000
  refine Cert.Spec.linAt_congr (funext fun k => ?_) (funext fun k => funext fun j => ?_) (funext fun j => ?_) rfl
  · exact congrFun (arg1_main_arg0 m ρ c) _
  · exact congrFun (arg1_main_arg2 m ρ c) _
  · have e : (V1 m ρ c main_v0 : S1x512.Idx → EReal) = shapeCast S1x512 (m ((c : Thread nD τ).loc main_arg3) : S512.Idx → EReal) shapeCasts_S512_S1x512 := by
      show StableHlo.after hostOps0 (W0 m ρ c) (Proc.devRef .tc main_v0) = _
      after_results_simp
      rfl
    exact (congrFun e (ix2 0 j)).trans (Cert.HostReads.bias_row _ j)

/-- The devices after the projection: region 1's output array is the reference's stage. -/
theorem hd0 (c : Dev nD) : W4 m ρ c (Proc.devRef .tc main_v3) = Cert.ReferenceIdeal.ReadP.val_main_v7 (F := Ideal) (x1 m c) (x4 m c) (x5 m c) := by
  refine (W4_arr m ρ c 3).trans ((Reg1.final (V3 m ρ) c).trans ?_)
  funext i
  refine Eq.trans ?_ (Cert.RefLayers.proj_devices _ _ _ i).symm
  unfold Arr.lin50000
  refine Cert.Spec.linAt_congr (funext fun k => ?_) (funext fun k => funext fun j => ?_) (funext fun j => ?_) rfl
  · exact congrFun (arg3_main_arg1 m ρ c) _
  · exact congrFun (arg3_main_arg4 m ρ c) _
  · have e : (V3 m ρ c main_v2 : S1x512.Idx → EReal) = shapeCast S1x512 (m ((c : Thread nD τ).loc main_arg5) : S512.Idx → EReal) shapeCasts_S512_S1x512 := by
      show StableHlo.after hostOps1 (W2 m ρ c) (Proc.devRef .tc main_v2) = _
      after_results_simp
      rw [arg2_main_arg5 m ρ c]
      rfl
    exact (congrFun e (ix2 0 j)).trans (Cert.HostReads.bias_row _ j)

/-- The servers' projection at the boundary where the first layer's host operations read it. -/
theorem hs_at4 (c : Dev nD) : W4 m ρ c (Proc.devRef .tc main_v1) = Cert.ReferenceIdeal.ReadP.val_main_v3 (F := Ideal) (x0 m c) (x2 m c) (x3 m c) :=
  (pass3_main_v1 m ρ c).trans ((pass2_main_v1 m ρ c).trans (hs0 m ρ c))

/-- The devices' projection at that boundary. -/
theorem hd_at4 (c : Dev nD) : W4 m ρ c (Proc.devRef .tc main_v3) = Cert.ReferenceIdeal.ReadP.val_main_v7 (F := Ideal) (x1 m c) (x4 m c) (x5 m c) := hd0 m ρ c

end Cert.KernelIdeal.Chain

end
-- ==== Proof.KerReg2.lean ====
/-
  Region 2 (a SAGE update of the devices' 50000 rows, 50 grid points of 1000 rows): the array the
  region leaves in its output is `Arr.sage50000` of the arrays its input windows stage, whatever the
  contents `V` the region is entered with.  Each input block is read where the output block's rows
  say (row-blocked windows move with the point, the others are staged whole), the body's arithmetic
  at an index is the specification's entry, and the 50 output blocks tile the array.
-/
import proofs.«106831_j73237782332046_2_alg».proof.Proof.Gen.KernelIdeal.Frame
import proofs.«106831_j73237782332046_2_alg».proof.Proof.KerPay
import proofs.«106831_j73237782332046_2_alg».proof.Proof.KerArr
import Idealize.ShloMosaic.Lib.Pipeline.Value

set_option maxRecDepth 16384

noncomputable section

namespace Cert.KernelIdeal.Reg2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point, every other index is 0. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0
    ∧ win2_6.index t (0 : Fin 2) = t.val
    ∧ win2_6.index t (1 : Fin 2) = 0 :=
  (by decide +kernel : ∀ t : Fin grid2.N, _)

/-- Window 0's block at point `t`: rows `1000 t …` of its array. -/
theorem blk0 (c : Dev nD) (t : Fin cfg2.N) (y : S1000x512.Idx) (i : S50000x512.Idx)
    (h0 : (i 0).val = t.val * 1000 + (y 0).val) (h1 : (i 1).val = (y 1).val) :
    (iblk2 V c 0 t : Vec Ideal S1000x512 .f32) y = (V c main_v28 : S50000x512.Idx → EReal) i := by
  obtain ⟨e0, e1, e2, e3, e4, e5, e6, e7, e8, e9, e10, e11, e12, e13⟩ := idx_facts t
  unfold iblk2
  rw [View.read_apply]
  show V c main_v28 _ = V c main_v28 _
  congr 1
  funext a
  apply Fin.ext
  match a with
  | ⟨0, _⟩ => show win2_0.index t (0 : Fin 2) * 1000 + 1 * (y 0).val = (i 0).val; omega
  | ⟨1, _⟩ => show win2_0.index t (1 : Fin 2) * 512 + 1 * (y 1).val = (i 1).val; omega

/-- Window 1's block at point `t`: rows `1000 t …` of its array. -/
theorem blk1 (c : Dev nD) (t : Fin cfg2.N) (y : S1000x512.Idx) (i : S50000x512.Idx)
    (h0 : (i 0).val = t.val * 1000 + (y 0).val) (h1 : (i 1).val = (y 1).val) :
    (iblk2 V c 1 t : Vec Ideal S1000x512 .f32) y = (V c main_v3 : S50000x512.Idx → EReal) i := by
  obtain ⟨e0, e1, e2, e3, e4, e5, e6, e7, e8, e9, e10, e11, e12, e13⟩ := idx_facts t
  unfold iblk2
  rw [View.read_apply]
  show V c main_v3 _ = V c main_v3 _
  congr 1
  funext a
  apply Fin.ext
  match a with
  | ⟨0, _⟩ => show win2_1.index t (0 : Fin 2) * 1000 + 1 * (y 0).val = (i 0).val; omega
  | ⟨1, _⟩ => show win2_1.index t (1 : Fin 2) * 512 + 1 * (y 1).val = (i 1).val; omega

/-- Window 2's block at point `t` is its whole array. -/
theorem blk2 (c : Dev nD) (t : Fin cfg2.N) (y : S512x512.Idx) (i : S512x512.Idx)
    (h0 : (i 0).val = (y 0).val) (h1 : (i 1).val = (y 1).val) :
    (iblk2 V c 2 t : Vec Ideal S512x512 .f32) y = (V c main_v40 : S512x512.Idx → EReal) i := by
  obtain ⟨e0, e1, e2, e3, e4, e5, e6, e7, e8, e9, e10, e11, e12, e13⟩ := idx_facts t
  unfold iblk2
  rw [View.read_apply]
  show V c main_v40 _ = V c main_v40 _
  congr 1
  funext a
  apply Fin.ext
  match a with
  | ⟨0, _⟩ => show win2_2.index t (0 : Fin 2) * 512 + 1 * (y 0).val = (i 0).val; omega
  | ⟨1, _⟩ => show win2_2.index t (1 : Fin 2) * 512 + 1 * (y 1).val = (i 1).val; omega

/-- Window 3's block at point `t` is its whole array. -/
theorem blk3 (c : Dev nD) (t : Fin cfg2.N) (y : S512x512.Idx) (i : S512x512.Idx)
    (h0 : (i 0).val = (y 0).val) (h1 : (i 1).val = (y 1).val) :
    (iblk2 V c 3 t : Vec Ideal S512x512 .f32) y = (V c main_v42 : S512x512.Idx → EReal) i := by
  obtain ⟨e0, e1, e2, e3, e4, e5, e6, e7, e8, e9, e10, e11, e12, e13⟩ := idx_facts t
  unfold iblk2
  rw [View.read_apply]
  show V c main_v42 _ = V c main_v42 _
  congr 1
  funext a
  apply Fin.ext
  match a with
  | ⟨0, _⟩ => show win2_3.index t (0 : Fin 2) * 512 + 1 * (y 0).val = (i 0).val; omega
  | ⟨1, _⟩ => show win2_3.index t (1 : Fin 2) * 512 + 1 * (y 1).val = (i 1).val; omega

/-- Window 4's block at point `t` is its whole array. -/
theorem blk4 (c : Dev nD) (t : Fin cfg2.N) (y : S1x512.Idx) (i : S1x512.Idx)
    (h0 : (i 0).val = (y 0).val) (h1 : (i 1).val = (y 1).val) :
    (iblk2 V c 4 t : Vec Ideal S1x512 .f32) y = (V c main_v45 : S1x512.Idx → EReal) i := by
  obtain ⟨e0, e1, e2, e3, e4, e5, e6, e7, e8, e9, e10, e11, e12, e13⟩ := idx_facts t
  unfold iblk2
  rw [View.read_apply]
  show V c main_v45 _ = V c main_v45 _
  congr 1
  funext a
  apply Fin.ext
  match a with
  | ⟨0, _⟩ => show win2_4.index t (0 : Fin 2) * 1 + 1 * (y 0).val = (i 0).val; omega
  | ⟨1, _⟩ => show win2_4.index t (1 : Fin 2) * 512 + 1 * (y 1).val = (i 1).val; omega

/-- Window 5's block at point `t`: rows `1000 t …` of its array. -/
theorem blk5 (c : Dev nD) (t : Fin cfg2.N) (y : S1000x1.Idx) (i : S50000x1.Idx)
    (h0 : (i 0).val = t.val * 1000 + (y 0).val) (h1 : (i 1).val = (y 1).val) :
    (iblk2 V c 5 t : Vec Ideal S1000x1 .f32) y = (V c main_v46 : S50000x1.Idx → EReal) i := by
  obtain ⟨e0, e1, e2, e3, e4, e5, e6, e7, e8, e9, e10, e11, e12, e13⟩ := idx_facts t
  unfold iblk2
  rw [View.read_apply]
  show V c main_v46 _ = V c main_v46 _
  congr 1
  funext a
  apply Fin.ext
  match a with
  | ⟨0, _⟩ => show win2_5.index t (0 : Fin 2) * 1000 + 1 * (y 0).val = (i 0).val; omega
  | ⟨1, _⟩ => show win2_5.index t (1 : Fin 2) * 1 + 1 * (y 1).val = (i 1).val; omega

/-- What point `t` writes back is block `t` of the region's function of its input arrays. -/
theorem flushed_eq (c : Dev nD) (t : Fin cfg2.N) :
    (dat2 V c).flushed 6 t = ((cfg2.win 6).blk t).view.read (Elt Ideal) (Arr.sage50000 (V c main_v28) (V c main_v3) (V c main_v40) (V c main_v42) (V c main_v45) (V c main_v46)) := by
  show (cfg2.win 6).cut (grid2.coords t) ((dat2 V c).after 6 t) = _
  rw [after2_6]
  unfold out2_6
  rw [View.canon_unit_zero hz]
  simp only [View.ld_unit_zero (S := S1000x512) hz, View.ld_unit_zero (S := S512x512) hz, View.ld_unit_zero (S := S1x512) hz, View.ld_unit_zero (S := S1000x1) hz]
  obtain ⟨e0, e1, e2, e3, e4, e5, e6, e7, e8, e9, e10, e11, e12, e13⟩ := idx_facts t
  funext j
  revert j
  intro (j : S1000x512.Idx)
  show k2_pay1 (F := Ideal) (iblk2 V c 0 t) (iblk2 V c 5 t) (iblk2 V c 2 t) (iblk2 V c 1 t) (iblk2 V c 3 t) (iblk2 V c 4 t) j = Arr.sage50000 (V c main_v28) (V c main_v3) (V c main_v40) (V c main_v42) (V c main_v45) (V c main_v46) (((cfg2.win 6).blk t).view.emb j)
  refine (Pay.sage_body (iblk2 V c 0 t) (iblk2 V c 5 t) (iblk2 V c 2 t) (iblk2 V c 1 t) (iblk2 V c 3 t) (iblk2 V c 4 t) j).trans ?_
  unfold Arr.sage50000
  refine Cert.Spec.sageKerAt_congr (funext fun k => ?_) (funext fun k => ?_) ?_ (funext fun k => funext fun j' => ?_)
    (funext fun k => funext fun j' => ?_) (funext fun j' => ?_) (Fin.ext ?_)
  · exact blk0 V c t (ix2 (j 0) k) _ (by show (((cfg2.win 6).blk t).view.emb j (0 : Fin 2)).val = t.val * 1000 + (j 0).val; show win2_6.index t (0 : Fin 2) * 1000 + 1 * (j 0).val = _; omega) rfl
  · exact blk1 V c t (ix2 (j 0) k) _ (by show (((cfg2.win 6).blk t).view.emb j (0 : Fin 2)).val = t.val * 1000 + (j 0).val; show win2_6.index t (0 : Fin 2) * 1000 + 1 * (j 0).val = _; omega) rfl
  · exact blk5 V c t (ix2 (j 0) 0) _ (by show (((cfg2.win 6).blk t).view.emb j (0 : Fin 2)).val = t.val * 1000 + (j 0).val; show win2_6.index t (0 : Fin 2) * 1000 + 1 * (j 0).val = _; omega) rfl
  · exact blk2 V c t (ix2 k j') _ rfl rfl
  · exact blk3 V c t (ix2 k j') _ rfl rfl
  · exact blk4 V c t (ix2 0 j') _ rfl rfl
  · show (j 1).val = win2_6.index t (1 : Fin 2) * 512 + 1 * (j 1).val; omega

/-- An index of the output array is in point `t`'s block iff each coordinate is in the block's range. -/
theorem mem_blk (t : Fin cfg2.N) (i : S50000x512.Idx) :
    i ∈ ((cfg2.win 6).blk t).view.set ↔ ∀ a : Fin 2, win2_6.index t a * S1000x512.size a ≤ (i a).val
      ∧ (i a).val < win2_6.index t a * S1000x512.size a + S1000x512.size a := by
  show i ∈ ((View.whole main_v47).slice (win2_6.rect t)).set ↔ _
  rw [View.set_slice_whole, Rect.mem_set_unit]
  exact Iff.rfl

/-- Row `r` lies in the block of point `r / 1000`: the blocks cover the array. -/
theorem cover (i : S50000x512.Idx) : ∃ t : Fin cfg2.N, (cfg2.win 6).flush t = true ∧ i ∈ ((cfg2.win 6).blk t).view.set := by
  have hi0 : (i 0).val < 50000 := (i 0).isLt
  have hi1 : (i 1).val < 512 := (i 1).isLt
  have hN : grid2.N = 50 := N_2
  have ht : (i 0).val / 1000 < cfg2.N := by show (i 0).val / 1000 < grid2.N; rw [hN]; omega
  generalize htt : (⟨(i 0).val / 1000, ht⟩ : Fin cfg2.N) = t
  have htv : t.val = (i 0).val / 1000 := by rw [← htt]
  obtain ⟨e0, e1, e2, e3, e4, e5, e6, e7, e8, e9, e10, e11, e12, e13⟩ := idx_facts t
  refine ⟨t, flush2_6 t, ?_⟩
  rw [mem_blk]
  intro a
  match a with
  | ⟨0, _⟩ =>
    show win2_6.index t (0 : Fin 2) * 1000 ≤ (i 0).val ∧ (i 0).val < win2_6.index t (0 : Fin 2) * 1000 + 1000
    omega
  | ⟨1, _⟩ =>
    show win2_6.index t (1 : Fin 2) * 512 ≤ (i 1).val ∧ (i 1).val < win2_6.index t (1 : Fin 2) * 512 + 512
    omega

/-- The output array after the region. -/
theorem final (c : Dev nD) : (dat2 V c).arrAt 6 cfg2.N = Arr.sage50000 (V c main_v28) (V c main_v3) (V c main_v40) (V c main_v42) (V c main_v45) (V c main_v46) :=
  (dat2 V c).arrAt_eq_of_cover 6 _ (fun t _ => flushed_eq V c t) cover

end Cert.KernelIdeal.Reg2

end
-- ==== Proof.KerReg3.lean ====
/-
  Region 3 (a SAGE update of the servers' 10000 rows, 10 grid points of 1000 rows): the array the
  region leaves in its output is `Arr.sage10000` of the arrays its input windows stage, whatever the
  contents `V` the region is entered with.  Each input block is read where the output block's rows
  say (row-blocked windows move with the point, the others are staged whole), the body's arithmetic
  at an index is the specification's entry, and the 10 output blocks tile the array.
-/
import proofs.«106831_j73237782332046_2_alg».proof.Proof.Gen.KernelIdeal.Frame
import proofs.«106831_j73237782332046_2_alg».proof.Proof.KerPay
import proofs.«106831_j73237782332046_2_alg».proof.Proof.KerArr
import Idealize.ShloMosaic.Lib.Pipeline.Value

set_option maxRecDepth 16384

noncomputable section

namespace Cert.KernelIdeal.Reg3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point, every other index is 0. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0
    ∧ win3_6.index t (0 : Fin 2) = t.val
    ∧ win3_6.index t (1 : Fin 2) = 0 :=
  (by decide +kernel : ∀ t : Fin grid3.N, _)

/-- Window 0's block at point `t`: rows `1000 t …` of its array. -/
theorem blk0 (c : Dev nD) (t : Fin cfg3.N) (y : S1000x512.Idx) (i : S10000x512.Idx)
    (h0 : (i 0).val = t.val * 1000 + (y 0).val) (h1 : (i 1).val = (y 1).val) :
    (iblk3 V c 0 t : Vec Ideal S1000x512 .f32) y = (V c main_v38 : S10000x512.Idx → EReal) i := by
  obtain ⟨e0, e1, e2, e3, e4, e5, e6, e7, e8, e9, e10, e11, e12, e13⟩ := idx_facts t
  unfold iblk3
  rw [View.read_apply]
  show V c main_v38 _ = V c main_v38 _
  congr 1
  funext a
  apply Fin.ext
  match a with
  | ⟨0, _⟩ => show win3_0.index t (0 : Fin 2) * 1000 + 1 * (y 0).val = (i 0).val; omega
  | ⟨1, _⟩ => show win3_0.index t (1 : Fin 2) * 512 + 1 * (y 1).val = (i 1).val; omega

/-- Window 1's block at point `t`: rows `1000 t …` of its array. -/
theorem blk1 (c : Dev nD) (t : Fin cfg3.N) (y : S1000x512.Idx) (i : S10000x512.Idx)
    (h0 : (i 0).val = t.val * 1000 + (y 0).val) (h1 : (i 1).val = (y 1).val) :
    (iblk3 V c 1 t : Vec Ideal S1000x512 .f32) y = (V c main_v1 : S10000x512.Idx → EReal) i := by
  obtain ⟨e0, e1, e2, e3, e4, e5, e6, e7, e8, e9, e10, e11, e12, e13⟩ := idx_facts t
  unfold iblk3
  rw [View.read_apply]
  show V c main_v1 _ = V c main_v1 _
  congr 1
  funext a
  apply Fin.ext
  match a with
  | ⟨0, _⟩ => show win3_1.index t (0 : Fin 2) * 1000 + 1 * (y 0).val = (i 0).val; omega
  | ⟨1, _⟩ => show win3_1.index t (1 : Fin 2) * 512 + 1 * (y 1).val = (i 1).val; omega

/-- Window 2's block at point `t` is its whole array. -/
theorem blk2 (c : Dev nD) (t : Fin cfg3.N) (y : S512x512.Idx) (i : S512x512.Idx)
    (h0 : (i 0).val = (y 0).val) (h1 : (i 1).val = (y 1).val) :
    (iblk3 V c 2 t : Vec Ideal S512x512 .f32) y = (V c main_v49 : S512x512.Idx → EReal) i := by
  obtain ⟨e0, e1, e2, e3, e4, e5, e6, e7, e8, e9, e10, e11, e12, e13⟩ := idx_facts t
  unfold iblk3
  rw [View.read_apply]
  show V c main_v49 _ = V c main_v49 _
  congr 1
  funext a
  apply Fin.ext
  match a with
  | ⟨0, _⟩ => show win3_2.index t (0 : Fin 2) * 512 + 1 * (y 0).val = (i 0).val; omega
  | ⟨1, _⟩ => show win3_2.index t (1 : Fin 2) * 512 + 1 * (y 1).val = (i 1).val; omega

/-- Window 3's block at point `t` is its whole array. -/
theorem blk3 (c : Dev nD) (t : Fin cfg3.N) (y : S512x512.Idx) (i : S512x512.Idx)
    (h0 : (i 0).val = (y 0).val) (h1 : (i 1).val = (y 1).val) :
    (iblk3 V c 3 t : Vec Ideal S512x512 .f32) y = (V c main_v51 : S512x512.Idx → EReal) i := by
  obtain ⟨e0, e1, e2, e3, e4, e5, e6, e7, e8, e9, e10, e11, e12, e13⟩ := idx_facts t
  unfold iblk3
  rw [View.read_apply]
  show V c main_v51 _ = V c main_v51 _
  congr 1
  funext a
  apply Fin.ext
  match a with
  | ⟨0, _⟩ => show win3_3.index t (0 : Fin 2) * 512 + 1 * (y 0).val = (i 0).val; omega
  | ⟨1, _⟩ => show win3_3.index t (1 : Fin 2) * 512 + 1 * (y 1).val = (i 1).val; omega

/-- Window 4's block at point `t` is its whole array. -/
theorem blk4 (c : Dev nD) (t : Fin cfg3.N) (y : S1x512.Idx) (i : S1x512.Idx)
    (h0 : (i 0).val = (y 0).val) (h1 : (i 1).val = (y 1).val) :
    (iblk3 V c 4 t : Vec Ideal S1x512 .f32) y = (V c main_v54 : S1x512.Idx → EReal) i := by
  obtain ⟨e0, e1, e2, e3, e4, e5, e6, e7, e8, e9, e10, e11, e12, e13⟩ := idx_facts t
  unfold iblk3
  rw [View.read_apply]
  show V c main_v54 _ = V c main_v54 _
  congr 1
  funext a
  apply Fin.ext
  match a with
  | ⟨0, _⟩ => show win3_4.index t (0 : Fin 2) * 1 + 1 * (y 0).val = (i 0).val; omega
  | ⟨1, _⟩ => show win3_4.index t (1 : Fin 2) * 512 + 1 * (y 1).val = (i 1).val; omega

/-- Window 5's block at point `t`: rows `1000 t …` of its array. -/
theorem blk5 (c : Dev nD) (t : Fin cfg3.N) (y : S1000x1.Idx) (i : S10000x1.Idx)
    (h0 : (i 0).val = t.val * 1000 + (y 0).val) (h1 : (i 1).val = (y 1).val) :
    (iblk3 V c 5 t : Vec Ideal S1000x1 .f32) y = (V c main_v55 : S10000x1.Idx → EReal) i := by
  obtain ⟨e0, e1, e2, e3, e4, e5, e6, e7, e8, e9, e10, e11, e12, e13⟩ := idx_facts t
  unfold iblk3
  rw [View.read_apply]
  show V c main_v55 _ = V c main_v55 _
  congr 1
  funext a
  apply Fin.ext
  match a with
  | ⟨0, _⟩ => show win3_5.index t (0 : Fin 2) * 1000 + 1 * (y 0).val = (i 0).val; omega
  | ⟨1, _⟩ => show win3_5.index t (1 : Fin 2) * 1 + 1 * (y 1).val = (i 1).val; omega

/-- What point `t` writes back is block `t` of the region's function of its input arrays. -/
theorem flushed_eq (c : Dev nD) (t : Fin cfg3.N) :
    (dat3 V c).flushed 6 t = ((cfg3.win 6).blk t).view.read (Elt Ideal) (Arr.sage10000 (V c main_v38) (V c main_v1) (V c main_v49) (V c main_v51) (V c main_v54) (V c main_v55)) := by
  show (cfg3.win 6).cut (grid3.coords t) ((dat3 V c).after 6 t) = _
  rw [after3_6]
  unfold out3_6
  rw [View.canon_unit_zero hz]
  simp only [View.ld_unit_zero (S := S1000x512) hz, View.ld_unit_zero (S := S512x512) hz, View.ld_unit_zero (S := S1x512) hz, View.ld_unit_zero (S := S1000x1) hz]
  obtain ⟨e0, e1, e2, e3, e4, e5, e6, e7, e8, e9, e10, e11, e12, e13⟩ := idx_facts t
  funext j
  revert j
  intro (j : S1000x512.Idx)
  show k3_pay1 (F := Ideal) (iblk3 V c 0 t) (iblk3 V c 5 t) (iblk3 V c 2 t) (iblk3 V c 1 t) (iblk3 V c 3 t) (iblk3 V c 4 t) j = Arr.sage10000 (V c main_v38) (V c main_v1) (V c main_v49) (V c main_v51) (V c main_v54) (V c main_v55) (((cfg3.win 6).blk t).view.emb j)
  rw [Pay.pay3_eq]
  refine (Pay.sage_body (iblk3 V c 0 t) (iblk3 V c 5 t) (iblk3 V c 2 t) (iblk3 V c 1 t) (iblk3 V c 3 t) (iblk3 V c 4 t) j).trans ?_
  unfold Arr.sage10000
  refine Cert.Spec.sageKerAt_congr (funext fun k => ?_) (funext fun k => ?_) ?_ (funext fun k => funext fun j' => ?_)
    (funext fun k => funext fun j' => ?_) (funext fun j' => ?_) (Fin.ext ?_)
  · exact blk0 V c t (ix2 (j 0) k) _ (by show (((cfg3.win 6).blk t).view.emb j (0 : Fin 2)).val = t.val * 1000 + (j 0).val; show win3_6.index t (0 : Fin 2) * 1000 + 1 * (j 0).val = _; omega) rfl
  · exact blk1 V c t (ix2 (j 0) k) _ (by show (((cfg3.win 6).blk t).view.emb j (0 : Fin 2)).val = t.val * 1000 + (j 0).val; show win3_6.index t (0 : Fin 2) * 1000 + 1 * (j 0).val = _; omega) rfl
  · exact blk5 V c t (ix2 (j 0) 0) _ (by show (((cfg3.win 6).blk t).view.emb j (0 : Fin 2)).val = t.val * 1000 + (j 0).val; show win3_6.index t (0 : Fin 2) * 1000 + 1 * (j 0).val = _; omega) rfl
  · exact blk2 V c t (ix2 k j') _ rfl rfl
  · exact blk3 V c t (ix2 k j') _ rfl rfl
  · exact blk4 V c t (ix2 0 j') _ rfl rfl
  · show (j 1).val = win3_6.index t (1 : Fin 2) * 512 + 1 * (j 1).val; omega

/-- An index of the output array is in point `t`'s block iff each coordinate is in the block's range. -/
theorem mem_blk (t : Fin cfg3.N) (i : S10000x512.Idx) :
    i ∈ ((cfg3.win 6).blk t).view.set ↔ ∀ a : Fin 2, win3_6.index t a * S1000x512.size a ≤ (i a).val
      ∧ (i a).val < win3_6.index t a * S1000x512.size a + S1000x512.size a := by
  show i ∈ ((View.whole main_v56).slice (win3_6.rect t)).set ↔ _
  rw [View.set_slice_whole, Rect.mem_set_unit]
  exact Iff.rfl

/-- Row `r` lies in the block of point `r / 1000`: the blocks cover the array. -/
theorem cover (i : S10000x512.Idx) : ∃ t : Fin cfg3.N, (cfg3.win 6).flush t = true ∧ i ∈ ((cfg3.win 6).blk t).view.set := by
  have hi0 : (i 0).val < 10000 := (i 0).isLt
  have hi1 : (i 1).val < 512 := (i 1).isLt
  have hN : grid3.N = 10 := N_3
  have ht : (i 0).val / 1000 < cfg3.N := by show (i 0).val / 1000 < grid3.N; rw [hN]; omega
  generalize htt : (⟨(i 0).val / 1000, ht⟩ : Fin cfg3.N) = t
  have htv : t.val = (i 0).val / 1000 := by rw [← htt]
  obtain ⟨e0, e1, e2, e3, e4, e5, e6, e7, e8, e9, e10, e11, e12, e13⟩ := idx_facts t
  refine ⟨t, flush3_6 t, ?_⟩
  rw [mem_blk]
  intro a
  match a with
  | ⟨0, _⟩ =>
    show win3_6.index t (0 : Fin 2) * 1000 ≤ (i 0).val ∧ (i 0).val < win3_6.index t (0 : Fin 2) * 1000 + 1000
    omega
  | ⟨1, _⟩ =>
    show win3_6.index t (1 : Fin 2) * 512 ≤ (i 1).val ∧ (i 1).val < win3_6.index t (1 : Fin 2) * 512 + 512
    omega

/-- The output array after the region. -/
theorem final (c : Dev nD) : (dat3 V c).arrAt 6 cfg3.N = Arr.sage10000 (V c main_v38) (V c main_v1) (V c main_v49) (V c main_v51) (V c main_v54) (V c main_v55) :=
  (dat3 V c).arrAt_eq_of_cover 6 _ (fun t _ => flushed_eq V c t) cover

end Cert.KernelIdeal.Reg3

end
-- ==== Proof.CountScatter.lean ====
/-
  The two in-degree scatters of the certificate agree entry by entry.

  Both programs count in-degrees by a float scatter-add of ones over the same scatter indices
  `idx : [300000, 1]`, read signed. One scatters a vector of 300000 updates into a vector of `N` entries (no
  window axis: the operand's one axis is an inserted window axis); the other scatters a column
  `[300000, 1]` into a column `[N, 1]` (one window axis, of size one). At the extended reals the scatter-add
  is the exact sum of the updates landing on each entry, so it is enough to show that update `e` lands on
  entry `i` in the one exactly when update `(e, 0)` lands on entry `(i, 0)` in the other: in both, exactly
  when the signed index `idx[e, 0]` equals `i`. The sums are then matched along `e ↦ (e, 0)`.

  `resultIdx?_eq_some_iff` reads "lands on `i`" axis by axis (start plus window coordinate equals `i`'s
  coordinate); for each of the four dimension records the start and the window coordinate are computed
  on every operand axis; `lands_K…` / `lands_R…` put them together; `count_scatter_…` is the statement.
  Stated for `N = 50000` and `N = 10000`.
-/
import proofs.«106831_j73237782332046_2_alg».proof.KernelIdeal
import proofs.«106831_j73237782332046_2_alg».proof.ReferenceIdeal
import Idealize.ShloMosaic.PureOps.Ideal
import Idealize.ShloMosaic.Lib.ValueIdx

noncomputable section

open scoped BigOperators

namespace Cert.CountScatter

open Idealize.ShloMosaic Idealize.ShloMosaic.ValueIdx

/-- An update lands on operand index `i` exactly when, on every operand axis, its start plus its
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hb
      have h' := Option.some.inj h
      intro a
      have ha := congrFun h' a
      have hv := congrArg Fin.val ha
      simp only at hv
      have := (hb a).1
      omega
    · exact absurd h (by simp)
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

/-- An index of a column of height 300000 is its row and the column's one coordinate `0`. -/
theorem eq_ix2_zero (j : (⟨2, ![300000, 1]⟩ : Shape).Idx) : j = ix2 (j 0) (0 : Fin 1) := by
  funext a
  match a with
  | ⟨0, _⟩ => rfl
  | ⟨1, _⟩ => exact Fin.eq_zero (j 1)

variable [Cert.KernelIdeal.Facts₀] [Cert.ReferenceIdeal.Facts₀]

/-! ### Operand of 50000 entries -/

/-- Kernel side: the operand's one axis is an inserted window axis, so no window coordinate is added. -/
theorem window_K50000 (j : Cert.KernelIdeal.S300000.Idx) (a : Fin 1) : Cert.KernelIdeal.scatter_S50000_S300000x1_S300000_n_0_0_1.window j a = 0 := by
  unfold ScatterDims.window
  rw [dif_neg]
  show a ∉ (⟨1, ![50000]⟩ : Shape).kept [0]
  revert a
  decide

/-- Kernel side: every start component of update `e` is read at row `e`, column `0` of the scatter indices. -/
theorem siIdx_K50000 (e : Fin 300000) (c : Fin Cert.KernelIdeal.scatter_S50000_S300000x1_S300000_n_0_0_1.scatterDimsToOperandDims.length) :
    Cert.KernelIdeal.scatter_S50000_S300000x1_S300000_n_0_0_1.siIdx (ix1 e) c = ix2 e (0 : Fin 1) := by
  funext b
  unfold ScatterDims.siIdx
  match b with
  | ⟨0, _⟩ =>
    rw [dif_neg]
    · unfold ScatterDims.siCoord
      apply Fin.ext
      simp only [Fin.coe_cast]
      rfl
    · show ¬ ((0 : Nat) = 1)
      decide
  | ⟨1, _⟩ =>
    rw [dif_pos]
    · apply Fin.ext
      have hc : c.val < 1 := c.isLt
      show c.val = 0
      omega
    · show (1 : Nat) = 1
      rfl

/-- Kernel side: the start on the operand's axis is the signed scatter index of row `e`. -/
theorem start_K50000 {w : Nat} (e : Fin 300000) (idx : IVec Cert.KernelIdeal.S300000x1 w) (a : Fin 1) :
    Cert.KernelIdeal.scatter_S50000_S300000x1_S300000_n_0_0_1.start (ix1 e) idx a = (idx (ix2 e (0 : Fin 1))).toInt := by
  unfold ScatterDims.start
  have h0 : a ∈ Cert.KernelIdeal.scatter_S50000_S300000x1_S300000_n_0_0_1.scatterDimsToOperandDims := by
    show a ∈ ([0] : List (Fin 1))
    revert a
    decide
  rw [dif_pos h0, siIdx_K50000]

/-- Kernel side: update `e` lands on entry `i` exactly when its signed scatter index is `i`. -/
theorem lands_K50000 {w : Nat} (e : Fin 300000) (idx : IVec Cert.KernelIdeal.S300000x1 w) (i : Fin 50000) :
    Cert.KernelIdeal.scatter_S50000_S300000x1_S300000_n_0_0_1.resultIdx? (ix1 e) idx = some (ix1 i) ↔ (idx (ix2 e (0 : Fin 1))).toInt = (i.val : Int) := by
  rw [resultIdx?_eq_some_iff]
  constructor
  · intro h
    have h0 := h 0
    rw [start_K50000, window_K50000] at h0
    simpa using h0
  · intro h a
    match a with
    | ⟨0, _⟩ =>
      rw [start_K50000, window_K50000]
      simpa using h

/-- Reference side: the window coordinate is `0` on the scattered axis and the update's own
    (only possible) coordinate `0` on the window axis. -/
theorem window_R50000 (e : Fin 300000) (a : Fin 2) : Cert.ReferenceIdeal.scatter_S50000x1_S300000x1_S300000x1_1_0_0_1.window (ix2 e (0 : Fin 1)) a = 0 := by
  unfold ScatterDims.window
  match a with
  | ⟨0, _⟩ =>
    rw [dif_neg]
    show (0 : Fin 2) ∉ (⟨2, ![50000, 1]⟩ : Shape).kept [0]
    decide
  | ⟨1, _⟩ =>
    rw [dif_pos]
    · rfl
    · show (1 : Fin 2) ∈ (⟨2, ![50000, 1]⟩ : Shape).kept [0]
      decide

/-- Reference side: every start component of update `(e, 0)` is read at row `e`, column `0`. -/
theorem siIdx_R50000 (e : Fin 300000) (c : Fin Cert.ReferenceIdeal.scatter_S50000x1_S300000x1_S300000x1_1_0_0_1.scatterDimsToOperandDims.length) :
    Cert.ReferenceIdeal.scatter_S50000x1_S300000x1_S300000x1_1_0_0_1.siIdx (ix2 e (0 : Fin 1)) c = ix2 e (0 : Fin 1) := by
  funext b
  unfold ScatterDims.siIdx
  match b with
  | ⟨0, _⟩ =>
    rw [dif_neg]
    · unfold ScatterDims.siCoord
      apply Fin.ext
      simp only [Fin.coe_cast]
      rfl
    · show ¬ ((0 : Nat) = 1)
      decide
  | ⟨1, _⟩ =>
    rw [dif_pos]
    · apply Fin.ext
      have hc : c.val < 1 := c.isLt
      show c.val = 0
      omega
    · show (1 : Nat) = 1
      rfl

/-- Reference side: the start is the signed scatter index of row `e` on the scattered axis … -/
theorem start_R50000_0 {w : Nat} (e : Fin 300000) (idx : IVec Cert.ReferenceIdeal.S300000x1 w) :
    Cert.ReferenceIdeal.scatter_S50000x1_S300000x1_S300000x1_1_0_0_1.start (ix2 e (0 : Fin 1)) idx 0 = (idx (ix2 e (0 : Fin 1))).toInt := by
  unfold ScatterDims.start
  have h0 : (0 : Fin 2) ∈ Cert.ReferenceIdeal.scatter_S50000x1_S300000x1_S300000x1_1_0_0_1.scatterDimsToOperandDims := by
    show (0 : Fin 2) ∈ ([0] : List (Fin 2))
    decide
  rw [dif_pos h0, siIdx_R50000]

/-- … and `0` on the window axis, which the scatter indices do not address. -/
theorem start_R50000_1 {w : Nat} (e : Fin 300000) (idx : IVec Cert.ReferenceIdeal.S300000x1 w) :
    Cert.ReferenceIdeal.scatter_S50000x1_S300000x1_S300000x1_1_0_0_1.start (ix2 e (0 : Fin 1)) idx 1 = 0 := by
  unfold ScatterDims.start
  rw [dif_neg]
  show (1 : Fin 2) ∉ ([0] : List (Fin 2))
  decide

/-- Reference side: update `(e, 0)` lands on entry `(i, 0)` exactly when its signed scatter index is `i`. -/
theorem lands_R50000 {w : Nat} (e : Fin 300000) (idx : IVec Cert.ReferenceIdeal.S300000x1 w) (i : Fin 50000) :
    Cert.ReferenceIdeal.scatter_S50000x1_S300000x1_S300000x1_1_0_0_1.resultIdx? (ix2 e (0 : Fin 1)) idx = some (ix2 i (0 : Fin 1)) ↔
      (idx (ix2 e (0 : Fin 1))).toInt = (i.val : Int) := by
  rw [resultIdx?_eq_some_iff]
  constructor
  · intro h
    have h0 := h 0
    rw [start_R50000_0, window_R50000] at h0
    simpa using h0
  · intro h a
    match a with
    | ⟨0, _⟩ =>
      show Cert.ReferenceIdeal.scatter_S50000x1_S300000x1_S300000x1_1_0_0_1.start (ix2 e (0 : Fin 1)) idx 0 + ((Cert.ReferenceIdeal.scatter_S50000x1_S300000x1_S300000x1_1_0_0_1.window (ix2 e (0 : Fin 1)) 0 : Nat) : Int) = _
      rw [start_R50000_0, window_R50000]
      simpa using h
    | ⟨1, _⟩ =>
      show Cert.ReferenceIdeal.scatter_S50000x1_S300000x1_S300000x1_1_0_0_1.start (ix2 e (0 : Fin 1)) idx 1 + ((Cert.ReferenceIdeal.scatter_S50000x1_S300000x1_S300000x1_1_0_0_1.window (ix2 e (0 : Fin 1)) 1 : Nat) : Int) = _
      rw [start_R50000_1, window_R50000]
      rfl

/-- The two in-degree scatters agree entry by entry: a rank-1 operand with no window axis against a
    column operand with a window axis of size one, over the same scatter indices. Each entry is its
    operand entry plus the sum of the updates whose signed index is that entry. -/
theorem count_scatter_50000 {w : Nat} (x : Cert.KernelIdeal.S50000.Idx → EReal) (x' : Cert.ReferenceIdeal.S50000x1.Idx → EReal)
    (u : Cert.KernelIdeal.S300000.Idx → EReal) (u' : Cert.ReferenceIdeal.S300000x1.Idx → EReal)
    (idx : IVec Cert.KernelIdeal.S300000x1 w)
    (hx : ∀ i : Fin 50000, x (ix1 i) = x' (ix2 i (0 : Fin 1)))
    (hu : ∀ e : Fin 300000, u (ix1 e) = u' (ix2 e (0 : Fin 1))) (i : Fin 50000) :
    Ideal.hostScatterAdd Cert.KernelIdeal.scatter_S50000_S300000x1_S300000_n_0_0_1 x idx u (ix1 i)
      = Ideal.hostScatterAdd Cert.ReferenceIdeal.scatter_S50000x1_S300000x1_S300000x1_1_0_0_1 x' idx u' (ix2 i (0 : Fin 1)) := by
  unfold Ideal.hostScatterAdd
  refine congrArg₂ (· + ·) (hx i) ?_
  refine Finset.sum_nbij' (fun j => ix2 (j 0) (0 : Fin 1)) (fun j => ix1 (j 0)) ?_ ?_ ?_ ?_ ?_
  · intro j hj
    obtain ⟨e, rfl⟩ : ∃ e : Fin 300000, j = ix1 e := ⟨j 0, eq_ix1 j⟩
    simp only [Finset.mem_filter, Finset.mem_univ, true_and] at hj ⊢
    exact (lands_R50000 e idx i).2 ((lands_K50000 e idx i).1 hj)
  · intro j hj
    obtain ⟨e, rfl⟩ : ∃ e : Fin 300000, j = ix2 e (0 : Fin 1) :=
⟨j 0, eq_ix2_zero j⟩
    simp only [Finset.mem_filter, Finset.mem_univ, true_and] at hj ⊢
    exact (lands_K50000 e idx i).2 ((lands_R50000 e idx i).1 hj)
  · intro j _
    exact (eq_ix1 j).symm
  · intro j _
    exact (eq_ix2_zero j).symm
  · intro j _
    obtain ⟨e, rfl⟩ : ∃ e : Fin 300000, j = ix1 e := ⟨j 0, eq_ix1 j⟩
    exact hu e

/-! ### Operand of 10000 entries -/

/-- Kernel side: the operand's one axis is an inserted window axis, so no window coordinate is added. -/
theorem window_K10000 (j : Cert.KernelIdeal.S300000.Idx) (a : Fin 1) : Cert.KernelIdeal.scatter_S10000_S300000x1_S300000_n_0_0_1.window j a = 0 := by
  unfold ScatterDims.window
  rw [dif_neg]
  show a ∉ (⟨1, ![10000]⟩ : Shape).kept [0]
  revert a
  decide

/-- Kernel side: every start component of update `e` is read at row `e`, column `0` of the scatter indices. -/
theorem siIdx_K10000 (e : Fin 300000) (c : Fin Cert.KernelIdeal.scatter_S10000_S300000x1_S300000_n_0_0_1.scatterDimsToOperandDims.length) :
    Cert.KernelIdeal.scatter_S10000_S300000x1_S300000_n_0_0_1.siIdx (ix1 e) c = ix2 e (0 : Fin 1) := by
  funext b
  unfold ScatterDims.siIdx
  match b with
  | ⟨0, _⟩ =>
    rw [dif_neg]
    · unfold ScatterDims.siCoord
      apply Fin.ext
      simp only [Fin.coe_cast]
      rfl
    · show ¬ ((0 : Nat) = 1)
      decide
  | ⟨1, _⟩ =>
    rw [dif_pos]
    · apply Fin.ext
      have hc : c.val < 1 := c.isLt
      show c.val = 0
      omega
    · show (1 : Nat) = 1
      rfl

/-- Kernel side: the start on the operand's axis is the signed scatter index of row `e`. -/
theorem start_K10000 {w : Nat} (e : Fin 300000) (idx : IVec Cert.KernelIdeal.S300000x1 w) (a : Fin 1) :
    Cert.KernelIdeal.scatter_S10000_S300000x1_S300000_n_0_0_1.start (ix1 e) idx a = (idx (ix2 e (0 : Fin 1))).toInt := by
  unfold ScatterDims.start
  have h0 : a ∈ Cert.KernelIdeal.scatter_S10000_S300000x1_S300000_n_0_0_1.scatterDimsToOperandDims := by
    show a ∈ ([0] : List (Fin 1))
    revert a
    decide
  rw [dif_pos h0, siIdx_K10000]

/-- Kernel side: update `e` lands on entry `i` exactly when its signed scatter index is `i`. -/
theorem lands_K10000 {w : Nat} (e : Fin 300000) (idx : IVec Cert.KernelIdeal.S300000x1 w) (i : Fin 10000) :
    Cert.KernelIdeal.scatter_S10000_S300000x1_S300000_n_0_0_1.resultIdx? (ix1 e) idx = some (ix1 i) ↔ (idx (ix2 e (0 : Fin 1))).toInt = (i.val : Int) := by
  rw [resultIdx?_eq_some_iff]
  constructor
  · intro h
    have h0 := h 0
    rw [start_K10000, window_K10000] at h0
    simpa using h0
  · intro h a
    match a with
    | ⟨0, _⟩ =>
      rw [start_K10000, window_K10000]
      simpa using h

/-- Reference side: the window coordinate is `0` on the scattered axis and the update's own
    (only possible) coordinate `0` on the window axis. -/
theorem window_R10000 (e : Fin 300000) (a : Fin 2) : Cert.ReferenceIdeal.scatter_S10000x1_S300000x1_S300000x1_1_0_0_1.window (ix2 e (0 : Fin 1)) a = 0 := by
  unfold ScatterDims.window
  match a with
  | ⟨0, _⟩ =>
    rw [dif_neg]
    show (0 : Fin 2) ∉ (⟨2, ![10000, 1]⟩ : Shape).kept [0]
    decide
  | ⟨1, _⟩ =>
    rw [dif_pos]
    · rfl
    · show (1 : Fin 2) ∈ (⟨2, ![10000, 1]⟩ : Shape).kept [0]
      decide

/-- Reference side: every start component of update `(e, 0)` is read at row `e`, column `0`. -/
theorem siIdx_R10000 (e : Fin 300000) (c : Fin Cert.ReferenceIdeal.scatter_S10000x1_S300000x1_S300000x1_1_0_0_1.scatterDimsToOperandDims.length) :
    Cert.ReferenceIdeal.scatter_S10000x1_S300000x1_S300000x1_1_0_0_1.siIdx (ix2 e (0 : Fin 1)) c = ix2 e (0 : Fin 1) := by
  funext b
  unfold ScatterDims.siIdx
  match b with
  | ⟨0, _⟩ =>
    rw [dif_neg]
    · unfold ScatterDims.siCoord
      apply Fin.ext
      simp only [Fin.coe_cast]
      rfl
    · show ¬ ((0 : Nat) = 1)
      decide
  | ⟨1, _⟩ =>
    rw [dif_pos]
    · apply Fin.ext
      have hc : c.val < 1 := c.isLt
      show c.val = 0
      omega
    · show (1 : Nat) = 1
      rfl

/-- Reference side: the start is the signed scatter index of row `e` on the scattered axis … -/
theorem start_R10000_0 {w : Nat} (e : Fin 300000) (idx : IVec Cert.ReferenceIdeal.S300000x1 w) :
    Cert.ReferenceIdeal.scatter_S10000x1_S300000x1_S300000x1_1_0_0_1.start (ix2 e (0 : Fin 1)) idx 0 = (idx (ix2 e (0 : Fin 1))).toInt := by
  unfold ScatterDims.start
  have h0 : (0 : Fin 2) ∈ Cert.ReferenceIdeal.scatter_S10000x1_S300000x1_S300000x1_1_0_0_1.scatterDimsToOperandDims := by
    show (0 : Fin 2) ∈ ([0] : List (Fin 2))
    decide
  rw [dif_pos h0, siIdx_R10000]

/-- … and `0` on the window axis, which the scatter indices do not address. -/
theorem start_R10000_1 {w : Nat} (e : Fin 300000) (idx : IVec Cert.ReferenceIdeal.S300000x1 w) :
    Cert.ReferenceIdeal.scatter_S10000x1_S300000x1_S300000x1_1_0_0_1.start (ix2 e (0 : Fin 1)) idx 1 = 0 := by
  unfold ScatterDims.start
  rw [dif_neg]
  show (1 : Fin 2) ∉ ([0] : List (Fin 2))
  decide

/-- Reference side: update `(e, 0)` lands on entry `(i, 0)` exactly when its signed scatter index is `i`. -/
theorem lands_R10000 {w : Nat} (e : Fin 300000) (idx : IVec Cert.ReferenceIdeal.S300000x1 w) (i : Fin 10000) :
    Cert.ReferenceIdeal.scatter_S10000x1_S300000x1_S300000x1_1_0_0_1.resultIdx? (ix2 e (0 : Fin 1)) idx = some (ix2 i (0 : Fin 1)) ↔
      (idx (ix2 e (0 : Fin 1))).toInt = (i.val : Int) := by
  rw [resultIdx?_eq_some_iff]
  constructor
  · intro h
    have h0 := h 0
    rw [start_R10000_0, window_R10000] at h0
    simpa using h0
  · intro h a
    match a with
    | ⟨0, _⟩ =>
      show Cert.ReferenceIdeal.scatter_S10000x1_S300000x1_S300000x1_1_0_0_1.start (ix2 e (0 : Fin 1)) idx 0 + ((Cert.ReferenceIdeal.scatter_S10000x1_S300000x1_S300000x1_1_0_0_1.window (ix2 e (0 : Fin 1)) 0 : Nat) : Int) = _
      rw [start_R10000_0, window_R10000]
      simpa using h
    | ⟨1, _⟩ =>
      show Cert.ReferenceIdeal.scatter_S10000x1_S300000x1_S300000x1_1_0_0_1.start (ix2 e (0 : Fin 1)) idx 1 + ((Cert.ReferenceIdeal.scatter_S10000x1_S300000x1_S300000x1_1_0_0_1.window (ix2 e (0 : Fin 1)) 1 : Nat) : Int) = _
      rw [start_R10000_1, window_R10000]
      rfl

/-- The two in-degree scatters agree entry by entry: a rank-1 operand with no window axis against a
    column operand with a window axis of size one, over the same scatter indices. Each entry is its
    operand entry plus the sum of the updates whose signed index is that entry. -/
theorem count_scatter_10000 {w : Nat} (x : Cert.KernelIdeal.S10000.Idx → EReal) (x' : Cert.ReferenceIdeal.S10000x1.Idx → EReal)
    (u : Cert.KernelIdeal.S300000.Idx → EReal) (u' : Cert.ReferenceIdeal.S300000x1.Idx → EReal)
    (idx : IVec Cert.KernelIdeal.S300000x1 w)
    (hx : ∀ i : Fin 10000, x (ix1 i) = x' (ix2 i (0 : Fin 1)))
    (hu : ∀ e : Fin 300000, u (ix1 e) = u' (ix2 e (0 : Fin 1))) (i : Fin 10000) :
    Ideal.hostScatterAdd Cert.KernelIdeal.scatter_S10000_S300000x1_S300000_n_0_0_1 x idx u (ix1 i)
      = Ideal.hostScatterAdd Cert.ReferenceIdeal.scatter_S10000x1_S300000x1_S300000x1_1_0_0_1 x' idx u' (ix2 i (0 : Fin 1)) := by
  unfold Ideal.hostScatterAdd
  refine congrArg₂ (· + ·) (hx i) ?_
  refine Finset.sum_nbij' (fun j => ix2 (j 0) (0 : Fin 1)) (fun j => ix1 (j 0)) ?_ ?_ ?_ ?_ ?_
  · intro j hj
    obtain ⟨e, rfl⟩ : ∃ e : Fin 300000, j = ix1 e := ⟨j 0, eq_ix1 j⟩
    simp only [Finset.mem_filter, Finset.mem_univ, true_and] at hj ⊢
    exact (lands_R10000 e idx i).2 ((lands_K10000 e idx i).1 hj)
  · intro j hj
    obtain ⟨e, rfl⟩ : ∃ e : Fin 300000, j = ix2 e (0 : Fin 1) :=
⟨j 0, eq_ix2_zero j⟩
    simp only [Finset.mem_filter, Finset.mem_univ, true_and] at hj ⊢
    exact (lands_K10000 e idx i).2 ((lands_R10000 e idx i).1 hj)
  · intro j _
    exact (eq_ix1 j).symm
  · intro j _
    exact (eq_ix2_zero j).symm
  · intro j _
    obtain ⟨e, rfl⟩ : ∃ e : Fin 300000, j = ix1 e := ⟨j 0, eq_ix1 j⟩
    exact hu e

end Cert.CountScatter
-- ==== Proof.ChainL0.lean ====
/-
  Layer 1 of the network, kernel side against reference side.  The host operations before the
  layer's first region gather the servers' rows along the edges and scatter-add them at the devices
  (and the other way round for the second region), slice this layer's weights and bias out of the
  arguments, and reshape the reciprocal count to a column; each of these buffers holds the
  reference's stage of the same name, because the operations are the same and their operands are
  (previous layer, or an argument).  The region then leaves, entry by entry, the SAGE update in the
  kernel's arrangement, which is the reference's arrangement of the same entry: the count the
  reference clamps and divides by is the kernel's count (one scatter over a column, one over a
  vector: the same sum), it is at least one, and off zero dividing is multiplying by the reciprocal.
-/
import proofs.«106831_j73237782332046_2_alg».proof.Proof.ChainBase
import proofs.«106831_j73237782332046_2_alg».proof.Proof.KerReg2
import proofs.«106831_j73237782332046_2_alg».proof.Proof.KerReg3
import proofs.«106831_j73237782332046_2_alg».proof.Proof.CountScatter
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.Chain

open Cert.KernelIdeal Cert.KernelIdeal.Gen Cert.KernelIdeal.Pass Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-- The servers' rows before this layer, at the boundary where its host operations read them. -/
theorem hs_in0 (c : Dev nD) : W4 m ρ c (Proc.devRef .tc main_v1) = Cert.ReferenceIdeal.ReadP.val_main_v3 (F := Ideal) (x0 m c) (x2 m c) (x3 m c) := hs_at4 m ρ c
/-- The devices' rows before this layer, at that boundary. -/
theorem hd_in0 (c : Dev nD) : W4 m ρ c (Proc.devRef .tc main_v3) = Cert.ReferenceIdeal.ReadP.val_main_v7 (F := Ideal) (x1 m c) (x4 m c) (x5 m c) := hd_at4 m ρ c
/-- The reciprocal count of the devices as the first layer's host operations leave it. -/
theorem invD_at5 (c : Dev nD) : W5 m ρ c (Proc.devRef .tc main_v14) = invD (x10 m c) := by
  show StableHlo.after hostOps2 (W4 m ρ c) (Proc.devRef .tc main_v14) = _
  after_results_simp
  rw [arg4_main_arg10 m ρ c]
  rfl
/-- The reciprocal count of the servers as the first layer's host operations leave it. -/
theorem invS_at5 (c : Dev nD) : W5 m ρ c (Proc.devRef .tc main_v18) = invS (x12 m c) := by
  show StableHlo.after hostOps2 (W4 m ρ c) (Proc.devRef .tc main_v18) = _
  after_results_simp
  rw [arg4_main_arg12 m ρ c]
  rfl
/-- The devices' reciprocal count where this layer's host operations read it. -/
theorem invD_in0 (c : Dev nD) : W5 m ρ c (Proc.devRef .tc main_v14) = invD (x10 m c) := invD_at5 m ρ c
/-- The servers' reciprocal count where the second region's host operations read it. -/
theorem invS_in0 (c : Dev nD) : W6 m ρ c (Proc.devRef .tc main_v18) = invS (x12 m c) :=
  (pass5_main_v18 m ρ c).trans (invS_at5 m ρ c)

/-- The neighbour sums at the devices: the same gather and scatter-add of the servers' rows. -/
theorem sumD0 (c : Dev nD) : (W5 m ρ c (Proc.devRef .tc main_v28)) = Cert.ReferenceIdeal.ReadP.val_main_v17 (F := Ideal) (x0 m c) (x2 m c) (x3 m c) (x9 m c) (x10 m c) := by
  show StableHlo.after hostOps2 (W4 m ρ c) (Proc.devRef .tc main_v28) = _
  after_results_simp
  rw [hs_in0 m ρ c, arg4_main_arg9 m ρ c, arg4_main_arg10 m ρ c]
  rfl

/-- The neighbour sums at the servers: the same gather and scatter-add of the devices' rows. -/
theorem sumS0 (c : Dev nD) : (W5 m ρ c (Proc.devRef .tc main_v38)) = Cert.ReferenceIdeal.ReadP.val_main_v35 (F := Ideal) (x1 m c) (x4 m c) (x5 m c) (x11 m c) (x12 m c) := by
  show StableHlo.after hostOps2 (W4 m ρ c) (Proc.devRef .tc main_v38) = _
  after_results_simp
  rw [hd_in0 m ρ c, arg4_main_arg11 m ρ c, arg4_main_arg12 m ρ c]
  rfl

/-- This layer's neighbour weights for the devices. -/
theorem wlD0 (c : Dev nD) : (W5 m ρ c (Proc.devRef .tc main_v40)) = Cert.ReferenceIdeal.ReadP.val_main_v45 (F := Ideal) (x6 m c) := by
  show StableHlo.after hostOps2 (W4 m ρ c) (Proc.devRef .tc main_v40) = _
  after_results_simp
  rw [arg4_main_arg6 m ρ c]
  rfl

/-- This layer's own-row weights for the devices. -/
theorem wrD0 (c : Dev nD) : (W5 m ρ c (Proc.devRef .tc main_v42)) = Cert.ReferenceIdeal.ReadP.val_main_v53 (F := Ideal) (x8 m c) := by
  show StableHlo.after hostOps2 (W4 m ρ c) (Proc.devRef .tc main_v42) = _
  after_results_simp
  rw [arg4_main_arg8 m ρ c]
  rfl

/-- This layer's bias for the devices, as the row the region stages. -/
theorem bD0 (c : Dev nD) (j : Fin 512) : (W5 m ρ c (Proc.devRef .tc main_v45) : S1x512.Idx → EReal) (ix2 0 j) = Cert.ReferenceIdeal.ReadP.val_main_v48 (F := Ideal) (x7 m c) (ix1 j) := by
  show (StableHlo.after hostOps2 (W4 m ρ c) (Proc.devRef .tc main_v45) : S1x512.Idx → EReal) (ix2 0 j) = _
  after_results_simp
  rw [arg4_main_arg7 m ρ c]
  exact Cert.HostReads.bias_row _ j

/-- The reciprocal clamped count of device `i`, as the column the region stages: one over the reference's clamped count. -/
theorem invcolD0 (c : Dev nD) (i : Fin 50000) : (W5 m ρ c (Proc.devRef .tc main_v46) : S50000x1.Idx → EReal) (ix2 i 0)
    = Ideal.div 1 (max (Cert.ReferenceIdeal.ReadP.val_main_v21 (F := Ideal) (x10 m c) (ix2 i 0)) 1) := by
  show (StableHlo.after hostOps2 (W4 m ρ c) (Proc.devRef .tc main_v46) : S50000x1.Idx → EReal) (ix2 i 0) = _
  after_results_simp
  rw [arg4_main_arg10 m ρ c]
  refine (Cert.HostReads.recip_col_50000 _ i).trans ?_
  refine congrArg (fun t => Ideal.div 1 (max t 1)) ?_
  exact Cert.CountScatter.count_scatter_50000 _ _ _ _ _ (fun _ => rfl) (fun _ => rfl) i

/-- The devices' own rows at the region's entry. -/
theorem hd_ent0 (c : Dev nD) : W5 m ρ c (Proc.devRef .tc main_v3) = Cert.ReferenceIdeal.ReadP.val_main_v7 (F := Ideal) (x1 m c) (x4 m c) (x5 m c) :=
  (pass4_main_v3 m ρ c).trans (hd_in0 m ρ c)

/-- THE DEVICES AFTER LAYER 1: the region's output array is the reference's stage. -/
theorem hd_out0 (c : Dev nD) : W6 m ρ c (Proc.devRef .tc main_v47) = Cert.ReferenceIdeal.ReadP.val_main_v56 (F := Ideal) (x0 m c) (x1 m c) (x2 m c) (x3 m c) (x4 m c) (x5 m c) (x6 m c) (x7 m c) (x8 m c) (x9 m c) (x10 m c) := by
  refine (W6_arr m ρ c 6).trans ((Reg2.final (V5 m ρ) c).trans ?_)
  funext i
  refine Eq.trans ?_ (Cert.RefLayers.layer1_devices _ _ _ _ _ _ _ _ _ _ _ i).symm
  unfold Arr.sage50000
  refine (Cert.Spec.sageKerAt_congr (funext fun k => congrFun (sumD0 m ρ c) _) (funext fun k => congrFun (hd_ent0 m ρ c) _)
    (invcolD0 m ρ c (i 0)) (funext fun k => funext fun j => congrFun (wlD0 m ρ c) _)
    (funext fun k => funext fun j => congrFun (wrD0 m ρ c) _) (funext fun j => bD0 m ρ c j) rfl).trans ?_
  exact Cert.Spec.sageKerAt_recip _ _ _ (Cert.HostReads.one_le_clamp _) _ _ _ _

/-- The neighbour sums at the servers, carried over the first region to the second region's entry. -/
theorem sumS_ent0 (c : Dev nD) : W7 m ρ c (Proc.devRef .tc main_v38) = Cert.ReferenceIdeal.ReadP.val_main_v35 (F := Ideal) (x1 m c) (x4 m c) (x5 m c) (x11 m c) (x12 m c) :=
  (pass6_main_v38 m ρ c).trans ((pass5_main_v38 m ρ c).trans (sumS0 m ρ c))

/-- The servers' own rows at the second region's entry. -/
theorem hs_ent0 (c : Dev nD) : W7 m ρ c (Proc.devRef .tc main_v1) = Cert.ReferenceIdeal.ReadP.val_main_v3 (F := Ideal) (x0 m c) (x2 m c) (x3 m c) :=
  (pass6_main_v1 m ρ c).trans ((pass5_main_v1 m ρ c).trans ((pass4_main_v1 m ρ c).trans (hs_in0 m ρ c)))

/-- This layer's neighbour weights for the servers. -/
theorem wlS0 (c : Dev nD) : (W7 m ρ c (Proc.devRef .tc main_v49)) = Cert.ReferenceIdeal.ReadP.val_main_v58 (F := Ideal) (x6 m c) := by
  show StableHlo.after hostOps3 (W6 m ρ c) (Proc.devRef .tc main_v49) = _
  after_results_simp
  rw [arg6_main_arg6 m ρ c]
  rfl

/-- This layer's own-row weights for the servers. -/
theorem wrS0 (c : Dev nD) : (W7 m ρ c (Proc.devRef .tc main_v51)) = Cert.ReferenceIdeal.ReadP.val_main_v66 (F := Ideal) (x8 m c) := by
  show StableHlo.after hostOps3 (W6 m ρ c) (Proc.devRef .tc main_v51) = _
  after_results_simp
  rw [arg6_main_arg8 m ρ c]
  rfl

/-- This layer's bias for the servers, as the row the region stages. -/
theorem bS0 (c : Dev nD) (j : Fin 512) : (W7 m ρ c (Proc.devRef .tc main_v54) : S1x512.Idx → EReal) (ix2 0 j) = Cert.ReferenceIdeal.ReadP.val_main_v61 (F := Ideal) (x7 m c) (ix1 j) := by
  show (StableHlo.after hostOps3 (W6 m ρ c) (Proc.devRef .tc main_v54) : S1x512.Idx → EReal) (ix2 0 j) = _
  after_results_simp
  rw [arg6_main_arg7 m ρ c]
  exact Cert.HostReads.bias_row _ j

/-- The reciprocal clamped count of server `i`, as the column the region stages. -/
theorem invcolS0 (c : Dev nD) (i : Fin 10000) : (W7 m ρ c (Proc.devRef .tc main_v55) : S10000x1.Idx → EReal) (ix2 i 0)
    = Ideal.div 1 (max (Cert.ReferenceIdeal.ReadP.val_main_v39 (F := Ideal) (x12 m c) (ix2 i 0)) 1) := by
  show (StableHlo.after hostOps3 (W6 m ρ c) (Proc.devRef .tc main_v55) : S10000x1.Idx → EReal) (ix2 i 0) = _
  after_results_simp
  rw [invS_in0 m ρ c]
  unfold invS cntS
  refine (Cert.HostReads.recip_col_10000 _ i).trans ?_
  refine congrArg (fun t => Ideal.div 1 (max t 1)) ?_
  exact Cert.CountScatter.count_scatter_10000 _ _ _ _ _ (fun _ => rfl) (fun _ => rfl) i

/-- THE SERVERS AFTER LAYER 1: the region's output array is the reference's stage. -/
theorem hs_out0 (c : Dev nD) : W8 m ρ c (Proc.devRef .tc main_v56) = Cert.ReferenceIdeal.ReadP.val_main_v69 (F := Ideal) (x0 m c) (x1 m c) (x2 m c) (x3 m c) (x4 m c) (x5 m c) (x6 m c) (x7 m c) (x8 m c) (x11 m c) (x12 m c) := by
  refine (W8_arr m ρ c 6).trans ((Reg3.final (V7 m ρ) c).trans ?_)
  funext i
  refine Eq.trans ?_ (Cert.RefLayers.layer1_servers _ _ _ _ _ _ _ _ _ _ _ i).symm
  unfold Arr.sage10000
  refine (Cert.Spec.sageKerAt_congr (funext fun k => congrFun (sumS_ent0 m ρ c) _) (funext fun k => congrFun (hs_ent0 m ρ c) _)
    (invcolS0 m ρ c (i 0)) (funext fun k => funext fun j => congrFun (wlS0 m ρ c) _)
    (funext fun k => funext fun j => congrFun (wrS0 m ρ c) _) (funext fun j => bS0 m ρ c j) rfl).trans ?_
  exact Cert.Spec.sageKerAt_recip _ _ _ (Cert.HostReads.one_le_clamp _) _ _ _ _

end Cert.KernelIdeal.Chain

end
-- ==== Proof.KerReg4.lean ====
/-
  Region 4 (a SAGE update of the devices' 50000 rows, 50 grid points of 1000 rows): the array the
  region leaves in its output is `Arr.sage50000` of the arrays its input windows stage, whatever the
  contents `V` the region is entered with.  Each input block is read where the output block's rows
  say (row-blocked windows move with the point, the others are staged whole), the body's arithmetic
  at an index is the specification's entry, and the 50 output blocks tile the array.
-/
import proofs.«106831_j73237782332046_2_alg».proof.Proof.Gen.KernelIdeal.Frame
import proofs.«106831_j73237782332046_2_alg».proof.Proof.KerPay
import proofs.«106831_j73237782332046_2_alg».proof.Proof.KerArr
import Idealize.ShloMosaic.Lib.Pipeline.Value

set_option maxRecDepth 16384

noncomputable section

namespace Cert.KernelIdeal.Reg4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point, every other index is 0. -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0
    ∧ win4_6.index t (0 : Fin 2) = t.val
    ∧ win4_6.index t (1 : Fin 2) = 0 :=
  (by decide +kernel : ∀ t : Fin grid4.N, _)

/-- Window 0's block at point `t`: rows `1000 t …` of its array. -/
theorem blk0 (c : Dev nD) (t : Fin cfg4.N) (y : S1000x512.Idx) (i : S50000x512.Idx)
    (h0 : (i 0).val = t.val * 1000 + (y 0).val) (h1 : (i 1).val = (y 1).val) :
    (iblk4 V c 0 t : Vec Ideal S1000x512 .f32) y = (V c main_v66 : S50000x512.Idx → EReal) i := by
  obtain ⟨e0, e1, e2, e3, e4, e5, e6, e7, e8, e9, e10, e11, e12, e13⟩ := idx_facts t
  unfold iblk4
  rw [View.read_apply]
  show V c main_v66 _ = V c main_v66 _
  congr 1
  funext a
  apply Fin.ext
  match a with
  | ⟨0, _⟩ => show win4_0.index t (0 : Fin 2) * 1000 + 1 * (y 0).val = (i 0).val; omega
  | ⟨1, _⟩ => show win4_0.index t (1 : Fin 2) * 512 + 1 * (y 1).val = (i 1).val; omega

/-- Window 1's block at point `t`: rows `1000 t …` of its array. -/
theorem blk1 (c : Dev nD) (t : Fin cfg4.N) (y : S1000x512.Idx) (i : S50000x512.Idx)
    (h0 : (i 0).val = t.val * 1000 + (y 0).val) (h1 : (i 1).val = (y 1).val) :
    (iblk4 V c 1 t : Vec Ideal S1000x512 .f32) y = (V c main_v47 : S50000x512.Idx → EReal) i := by
  obtain ⟨e0, e1, e2, e3, e4, e5, e6, e7, e8, e9, e10, e11, e12, e13⟩ := idx_facts t
  unfold iblk4
  rw [View.read_apply]
  show V c main_v47 _ = V c main_v47 _
  congr 1
  funext a
  apply Fin.ext
  match a with
  | ⟨0, _⟩ => show win4_1.index t (0 : Fin 2) * 1000 + 1 * (y 0).val = (i 0).val; omega
  | ⟨1, _⟩ => show win4_1.index t (1 : Fin 2) * 512 + 1 * (y 1).val = (i 1).val; omega

/-- Window 2's block at point `t` is its whole array. -/
theorem blk2 (c : Dev nD) (t : Fin cfg4.N) (y : S512x512.Idx) (i : S512x512.Idx)
    (h0 : (i 0).val = (y 0).val) (h1 : (i 1).val = (y 1).val) :
    (iblk4 V c 2 t : Vec Ideal S512x512 .f32) y = (V c main_v78 : S512x512.Idx → EReal) i := by
  obtain ⟨e0, e1, e2, e3, e4, e5, e6, e7, e8, e9, e10, e11, e12, e13⟩ := idx_facts t
  unfold iblk4
  rw [View.read_apply]
  show V c main_v78 _ = V c main_v78 _
  congr 1
  funext a
  apply Fin.ext
  match a with
  | ⟨0, _⟩ => show win4_2.index t (0 : Fin 2) * 512 + 1 * (y 0).val = (i 0).val; omega
  | ⟨1, _⟩ => show win4_2.index t (1 : Fin 2) * 512 + 1 * (y 1).val = (i 1).val; omega

/-- Window 3's block at point `t` is its whole array. -/
theorem blk3 (c : Dev nD) (t : Fin cfg4.N) (y : S512x512.Idx) (i : S512x512.Idx)
    (h0 : (i 0).val = (y 0).val) (h1 : (i 1).val = (y 1).val) :
    (iblk4 V c 3 t : Vec Ideal S512x512 .f32) y = (V c main_v80 : S512x512.Idx → EReal) i := by
  obtain ⟨e0, e1, e2, e3, e4, e5, e6, e7, e8, e9, e10, e11, e12, e13⟩ := idx_facts t
  unfold iblk4
  rw [View.read_apply]
  show V c main_v80 _ = V c main_v80 _
  congr 1
  funext a
  apply Fin.ext
  match a with
  | ⟨0, _⟩ => show win4_3.index t (0 : Fin 2) * 512 + 1 * (y 0).val = (i 0).val; omega
  | ⟨1, _⟩ => show win4_3.index t (1 : Fin 2) * 512 + 1 * (y 1).val = (i 1).val; omega

/-- Window 4's block at point `t` is its whole array. -/
theorem blk4 (c : Dev nD) (t : Fin cfg4.N) (y : S1x512.Idx) (i : S1x512.Idx)
    (h0 : (i 0).val = (y 0).val) (h1 : (i 1).val = (y 1).val) :
    (iblk4 V c 4 t : Vec Ideal S1x512 .f32) y = (V c main_v83 : S1x512.Idx → EReal) i := by
  obtain ⟨e0, e1, e2, e3, e4, e5, e6, e7, e8, e9, e10, e11, e12, e13⟩ := idx_facts t
  unfold iblk4
  rw [View.read_apply]
  show V c main_v83 _ = V c main_v83 _
  congr 1
  funext a
  apply Fin.ext
  match a with
  | ⟨0, _⟩ => show win4_4.index t (0 : Fin 2) * 1 + 1 * (y 0).val = (i 0).val; omega
  | ⟨1, _⟩ => show win4_4.index t (1 : Fin 2) * 512 + 1 * (y 1).val = (i 1).val; omega

/-- Window 5's block at point `t`: rows `1000 t …` of its array. -/
theorem blk5 (c : Dev nD) (t : Fin cfg4.N) (y : S1000x1.Idx) (i : S50000x1.Idx)
    (h0 : (i 0).val = t.val * 1000 + (y 0).val) (h1 : (i 1).val = (y 1).val) :
    (iblk4 V c 5 t : Vec Ideal S1000x1 .f32) y = (V c main_v84 : S50000x1.Idx → EReal) i := by
  obtain ⟨e0, e1, e2, e3, e4, e5, e6, e7, e8, e9, e10, e11, e12, e13⟩ := idx_facts t
  unfold iblk4
  rw [View.read_apply]
  show V c main_v84 _ = V c main_v84 _
  congr 1
  funext a
  apply Fin.ext
  match a with
  | ⟨0, _⟩ => show win4_5.index t (0 : Fin 2) * 1000 + 1 * (y 0).val = (i 0).val; omega
  | ⟨1, _⟩ => show win4_5.index t (1 : Fin 2) * 1 + 1 * (y 1).val = (i 1).val; omega

/-- What point `t` writes back is block `t` of the region's function of its input arrays. -/
theorem flushed_eq (c : Dev nD) (t : Fin cfg4.N) :
    (dat4 V c).flushed 6 t = ((cfg4.win 6).blk t).view.read (Elt Ideal) (Arr.sage50000 (V c main_v66) (V c main_v47) (V c main_v78) (V c main_v80) (V c main_v83) (V c main_v84)) := by
  show (cfg4.win 6).cut (grid4.coords t) ((dat4 V c).after 6 t) = _
  rw [after4_6]
  unfold out4_6
  rw [View.canon_unit_zero hz]
  simp only [View.ld_unit_zero (S := S1000x512) hz, View.ld_unit_zero (S := S512x512) hz, View.ld_unit_zero (S := S1x512) hz, View.ld_unit_zero (S := S1000x1) hz]
  obtain ⟨e0, e1, e2, e3, e4, e5, e6, e7, e8, e9, e10, e11, e12, e13⟩ := idx_facts t
  funext j
  revert j
  intro (j : S1000x512.Idx)
  show k4_pay1 (F := Ideal) (iblk4 V c 0 t) (iblk4 V c 5 t) (iblk4 V c 2 t) (iblk4 V c 1 t) (iblk4 V c 3 t) (iblk4 V c 4 t) j = Arr.sage50000 (V c main_v66) (V c main_v47) (V c main_v78) (V c main_v80) (V c main_v83) (V c main_v84) (((cfg4.win 6).blk t).view.emb j)
  rw [Pay.pay4_eq]
  refine (Pay.sage_body (iblk4 V c 0 t) (iblk4 V c 5 t) (iblk4 V c 2 t) (iblk4 V c 1 t) (iblk4 V c 3 t) (iblk4 V c 4 t) j).trans ?_
  unfold Arr.sage50000
  refine Cert.Spec.sageKerAt_congr (funext fun k => ?_) (funext fun k => ?_) ?_ (funext fun k => funext fun j' => ?_)
    (funext fun k => funext fun j' => ?_) (funext fun j' => ?_) (Fin.ext ?_)
  · exact blk0 V c t (ix2 (j 0) k) _ (by show (((cfg4.win 6).blk t).view.emb j (0 : Fin 2)).val = t.val * 1000 + (j 0).val; show win4_6.index t (0 : Fin 2) * 1000 + 1 * (j 0).val = _; omega) rfl
  · exact blk1 V c t (ix2 (j 0) k) _ (by show (((cfg4.win 6).blk t).view.emb j (0 : Fin 2)).val = t.val * 1000 + (j 0).val; show win4_6.index t (0 : Fin 2) * 1000 + 1 * (j 0).val = _; omega) rfl
  · exact blk5 V c t (ix2 (j 0) 0) _ (by show (((cfg4.win 6).blk t).view.emb j (0 : Fin 2)).val = t.val * 1000 + (j 0).val; show win4_6.index t (0 : Fin 2) * 1000 + 1 * (j 0).val = _; omega) rfl
  · exact blk2 V c t (ix2 k j') _ rfl rfl
  · exact blk3 V c t (ix2 k j') _ rfl rfl
  · exact blk4 V c t (ix2 0 j') _ rfl rfl
  · show (j 1).val = win4_6.index t (1 : Fin 2) * 512 + 1 * (j 1).val; omega

/-- An index of the output array is in point `t`'s block iff each coordinate is in the block's range. -/
theorem mem_blk (t : Fin cfg4.N) (i : S50000x512.Idx) :
    i ∈ ((cfg4.win 6).blk t).view.set ↔ ∀ a : Fin 2, win4_6.index t a * S1000x512.size a ≤ (i a).val
      ∧ (i a).val < win4_6.index t a * S1000x512.size a + S1000x512.size a := by
  show i ∈ ((View.whole main_v85).slice (win4_6.rect t)).set ↔ _
  rw [View.set_slice_whole, Rect.mem_set_unit]
  exact Iff.rfl

/-- Row `r` lies in the block of point `r / 1000`: the blocks cover the array. -/
theorem cover (i : S50000x512.Idx) : ∃ t : Fin cfg4.N, (cfg4.win 6).flush t = true ∧ i ∈ ((cfg4.win 6).blk t).view.set := by
  have hi0 : (i 0).val < 50000 := (i 0).isLt
  have hi1 : (i 1).val < 512 := (i 1).isLt
  have hN : grid4.N = 50 := N_4
  have ht : (i 0).val / 1000 < cfg4.N := by show (i 0).val / 1000 < grid4.N; rw [hN]; omega
  generalize htt : (⟨(i 0).val / 1000, ht⟩ : Fin cfg4.N) = t
  have htv : t.val = (i 0).val / 1000 := by rw [← htt]
  obtain ⟨e0, e1, e2, e3, e4, e5, e6, e7, e8, e9, e10, e11, e12, e13⟩ := idx_facts t
  refine ⟨t, flush4_6 t, ?_⟩
  rw [mem_blk]
  intro a
  match a with
  | ⟨0, _⟩ =>
    show win4_6.index t (0 : Fin 2) * 1000 ≤ (i 0).val ∧ (i 0).val < win4_6.index t (0 : Fin 2) * 1000 + 1000
    omega
  | ⟨1, _⟩ =>
    show win4_6.index t (1 : Fin 2) * 512 ≤ (i 1).val ∧ (i 1).val < win4_6.index t (1 : Fin 2) * 512 + 512
    omega

/-- The output array after the region. -/
theorem final (c : Dev nD) : (dat4 V c).arrAt 6 cfg4.N = Arr.sage50000 (V c main_v66) (V c main_v47) (V c main_v78) (V c main_v80) (V c main_v83) (V c main_v84) :=
  (dat4 V c).arrAt_eq_of_cover 6 _ (fun t _ => flushed_eq V c t) cover

end Cert.KernelIdeal.Reg4

end
-- ==== Proof.KerReg5.lean ====
/-
  Region 5 (a SAGE update of the servers' 10000 rows, 10 grid points of 1000 rows): the array the
  region leaves in its output is `Arr.sage10000` of the arrays its input windows stage, whatever the
  contents `V` the region is entered with.  Each input block is read where the output block's rows
  say (row-blocked windows move with the point, the others are staged whole), the body's arithmetic
  at an index is the specification's entry, and the 10 output blocks tile the array.
-/
import proofs.«106831_j73237782332046_2_alg».proof.Proof.Gen.KernelIdeal.Frame
import proofs.«106831_j73237782332046_2_alg».proof.Proof.KerPay
import proofs.«106831_j73237782332046_2_alg».proof.Proof.KerArr
import Idealize.ShloMosaic.Lib.Pipeline.Value

set_option maxRecDepth 16384

noncomputable section

namespace Cert.KernelIdeal.Reg5

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point, every other index is 0. -/
theorem idx_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0
    ∧ win5_6.index t (0 : Fin 2) = t.val
    ∧ win5_6.index t (1 : Fin 2) = 0 :=
  (by decide +kernel : ∀ t : Fin grid5.N, _)

/-- Window 0's block at point `t`: rows `1000 t …` of its array. -/
theorem blk0 (c : Dev nD) (t : Fin cfg5.N) (y : S1000x512.Idx) (i : S10000x512.Idx)
    (h0 : (i 0).val = t.val * 1000 + (y 0).val) (h1 : (i 1).val = (y 1).val) :
    (iblk5 V c 0 t : Vec Ideal S1000x512 .f32) y = (V c main_v76 : S10000x512.Idx → EReal) i := by
  obtain ⟨e0, e1, e2, e3, e4, e5, e6, e7, e8, e9, e10, e11, e12, e13⟩ := idx_facts t
  unfold iblk5
  rw [View.read_apply]
  show V c main_v76 _ = V c main_v76 _
  congr 1
  funext a
  apply Fin.ext
  match a with
  | ⟨0, _⟩ => show win5_0.index t (0 : Fin 2) * 1000 + 1 * (y 0).val = (i 0).val; omega
  | ⟨1, _⟩ => show win5_0.index t (1 : Fin 2) * 512 + 1 * (y 1).val = (i 1).val; omega

/-- Window 1's block at point `t`: rows `1000 t …` of its array. -/
theorem blk1 (c : Dev nD) (t : Fin cfg5.N) (y : S1000x512.Idx) (i : S10000x512.Idx)
    (h0 : (i 0).val = t.val * 1000 + (y 0).val) (h1 : (i 1).val = (y 1).val) :
    (iblk5 V c 1 t : Vec Ideal S1000x512 .f32) y = (V c main_v56 : S10000x512.Idx → EReal) i := by
  obtain ⟨e0, e1, e2, e3, e4, e5, e6, e7, e8, e9, e10, e11, e12, e13⟩ := idx_facts t
  unfold iblk5
  rw [View.read_apply]
  show V c main_v56 _ = V c main_v56 _
  congr 1
  funext a
  apply Fin.ext
  match a with
  | ⟨0, _⟩ => show win5_1.index t (0 : Fin 2) * 1000 + 1 * (y 0).val = (i 0).val; omega
  | ⟨1, _⟩ => show win5_1.index t (1 : Fin 2) * 512 + 1 * (y 1).val = (i 1).val; omega

/-- Window 2's block at point `t` is its whole array. -/
theorem blk2 (c : Dev nD) (t : Fin cfg5.N) (y : S512x512.Idx) (i : S512x512.Idx)
    (h0 : (i 0).val = (y 0).val) (h1 : (i 1).val = (y 1).val) :
    (iblk5 V c 2 t : Vec Ideal S512x512 .f32) y = (V c main_v87 : S512x512.Idx → EReal) i := by
  obtain ⟨e0, e1, e2, e3, e4, e5, e6, e7, e8, e9, e10, e11, e12, e13⟩ := idx_facts t
  unfold iblk5
  rw [View.read_apply]
  show V c main_v87 _ = V c main_v87 _
  congr 1
  funext a
  apply Fin.ext
  match a with
  | ⟨0, _⟩ => show win5_2.index t (0 : Fin 2) * 512 + 1 * (y 0).val = (i 0).val; omega
  | ⟨1, _⟩ => show win5_2.index t (1 : Fin 2) * 512 + 1 * (y 1).val = (i 1).val; omega

/-- Window 3's block at point `t` is its whole array. -/
theorem blk3 (c : Dev nD) (t : Fin cfg5.N) (y : S512x512.Idx) (i : S512x512.Idx)
    (h0 : (i 0).val = (y 0).val) (h1 : (i 1).val = (y 1).val) :
    (iblk5 V c 3 t : Vec Ideal S512x512 .f32) y = (V c main_v89 : S512x512.Idx → EReal) i := by
  obtain ⟨e0, e1, e2, e3, e4, e5, e6, e7, e8, e9, e10, e11, e12, e13⟩ := idx_facts t
  unfold iblk5
  rw [View.read_apply]
  show V c main_v89 _ = V c main_v89 _
  congr 1
  funext a
  apply Fin.ext
  match a with
  | ⟨0, _⟩ => show win5_3.index t (0 : Fin 2) * 512 + 1 * (y 0).val = (i 0).val; omega
  | ⟨1, _⟩ => show win5_3.index t (1 : Fin 2) * 512 + 1 * (y 1).val = (i 1).val; omega

/-- Window 4's block at point `t` is its whole array. -/
theorem blk4 (c : Dev nD) (t : Fin cfg5.N) (y : S1x512.Idx) (i : S1x512.Idx)
    (h0 : (i 0).val = (y 0).val) (h1 : (i 1).val = (y 1).val) :
    (iblk5 V c 4 t : Vec Ideal S1x512 .f32) y = (V c main_v92 : S1x512.Idx → EReal) i := by
  obtain ⟨e0, e1, e2, e3, e4, e5, e6, e7, e8, e9, e10, e11, e12, e13⟩ := idx_facts t
  unfold iblk5
  rw [View.read_apply]
  show V c main_v92 _ = V c main_v92 _
  congr 1
  funext a
  apply Fin.ext
  match a with
  | ⟨0, _⟩ => show win5_4.index t (0 : Fin 2) * 1 + 1 * (y 0).val = (i 0).val; omega
  | ⟨1, _⟩ => show win5_4.index t (1 : Fin 2) * 512 + 1 * (y 1).val = (i 1).val; omega

/-- Window 5's block at point `t`: rows `1000 t …` of its array. -/
theorem blk5 (c : Dev nD) (t : Fin cfg5.N) (y : S1000x1.Idx) (i : S10000x1.Idx)
    (h0 : (i 0).val = t.val * 1000 + (y 0).val) (h1 : (i 1).val = (y 1).val) :
    (iblk5 V c 5 t : Vec Ideal S1000x1 .f32) y = (V c main_v93 : S10000x1.Idx → EReal) i := by
  obtain ⟨e0, e1, e2, e3, e4, e5, e6, e7, e8, e9, e10, e11, e12, e13⟩ := idx_facts t
  unfold iblk5
  rw [View.read_apply]
  show V c main_v93 _ = V c main_v93 _
  congr 1
  funext a
  apply Fin.ext
  match a with
  | ⟨0, _⟩ => show win5_5.index t (0 : Fin 2) * 1000 + 1 * (y 0).val = (i 0).val; omega
  | ⟨1, _⟩ => show win5_5.index t (1 : Fin 2) * 1 + 1 * (y 1).val = (i 1).val; omega

/-- What point `t` writes back is block `t` of the region's function of its input arrays. -/
theorem flushed_eq (c : Dev nD) (t : Fin cfg5.N) :
    (dat5 V c).flushed 6 t = ((cfg5.win 6).blk t).view.read (Elt Ideal) (Arr.sage10000 (V c main_v76) (V c main_v56) (V c main_v87) (V c main_v89) (V c main_v92) (V c main_v93)) := by
  show (cfg5.win 6).cut (grid5.coords t) ((dat5 V c).after 6 t) = _
  rw [after5_6]
  unfold out5_6
  rw [View.canon_unit_zero hz]
  simp only [View.ld_unit_zero (S := S1000x512) hz, View.ld_unit_zero (S := S512x512) hz, View.ld_unit_zero (S := S1x512) hz, View.ld_unit_zero (S := S1000x1) hz]
  obtain ⟨e0, e1, e2, e3, e4, e5, e6, e7, e8, e9, e10, e11, e12, e13⟩ := idx_facts t
  funext j
  revert j
  intro (j : S1000x512.Idx)
  show k5_pay1 (F := Ideal) (iblk5 V c 0 t) (iblk5 V c 5 t) (iblk5 V c 2 t) (iblk5 V c 1 t) (iblk5 V c 3 t) (iblk5 V c 4 t) j = Arr.sage10000 (V c main_v76) (V c main_v56) (V c main_v87) (V c main_v89) (V c main_v92) (V c main_v93) (((cfg5.win 6).blk t).view.emb j)
  rw [Pay.pay5_eq]
  refine (Pay.sage_body (iblk5 V c 0 t) (iblk5 V c 5 t) (iblk5 V c 2 t) (iblk5 V c 1 t) (iblk5 V c 3 t) (iblk5 V c 4 t) j).trans ?_
  unfold Arr.sage10000
  refine Cert.Spec.sageKerAt_congr (funext fun k => ?_) (funext fun k => ?_) ?_ (funext fun k => funext fun j' => ?_)
    (funext fun k => funext fun j' => ?_) (funext fun j' => ?_) (Fin.ext ?_)
  · exact blk0 V c t (ix2 (j 0) k) _ (by show (((cfg5.win 6).blk t).view.emb j (0 : Fin 2)).val = t.val * 1000 + (j 0).val; show win5_6.index t (0 : Fin 2) * 1000 + 1 * (j 0).val = _; omega) rfl
  · exact blk1 V c t (ix2 (j 0) k) _ (by show (((cfg5.win 6).blk t).view.emb j (0 : Fin 2)).val = t.val * 1000 + (j 0).val; show win5_6.index t (0 : Fin 2) * 1000 + 1 * (j 0).val = _; omega) rfl
  · exact blk5 V c t (ix2 (j 0) 0) _ (by show (((cfg5.win 6).blk t).view.emb j (0 : Fin 2)).val = t.val * 1000 + (j 0).val; show win5_6.index t (0 : Fin 2) * 1000 + 1 * (j 0).val = _; omega) rfl
  · exact blk2 V c t (ix2 k j') _ rfl rfl
  · exact blk3 V c t (ix2 k j') _ rfl rfl
  · exact blk4 V c t (ix2 0 j') _ rfl rfl
  · show (j 1).val = win5_6.index t (1 : Fin 2) * 512 + 1 * (j 1).val; omega

/-- An index of the output array is in point `t`'s block iff each coordinate is in the block's range. -/
theorem mem_blk (t : Fin cfg5.N) (i : S10000x512.Idx) :
    i ∈ ((cfg5.win 6).blk t).view.set ↔ ∀ a : Fin 2, win5_6.index t a * S1000x512.size a ≤ (i a).val
      ∧ (i a).val < win5_6.index t a * S1000x512.size a + S1000x512.size a := by
  show i ∈ ((View.whole main_v94).slice (win5_6.rect t)).set ↔ _
  rw [View.set_slice_whole, Rect.mem_set_unit]
  exact Iff.rfl

/-- Row `r` lies in the block of point `r / 1000`: the blocks cover the array. -/
theorem cover (i : S10000x512.Idx) : ∃ t : Fin cfg5.N, (cfg5.win 6).flush t = true ∧ i ∈ ((cfg5.win 6).blk t).view.set := by
  have hi0 : (i 0).val < 10000 := (i 0).isLt
  have hi1 : (i 1).val < 512 := (i 1).isLt
  have hN : grid5.N = 10 := N_5
  have ht : (i 0).val / 1000 < cfg5.N := by show (i 0).val / 1000 < grid5.N; rw [hN]; omega
  generalize htt : (⟨(i 0).val / 1000, ht⟩ : Fin cfg5.N) = t
  have htv : t.val = (i 0).val / 1000 := by rw [← htt]
  obtain ⟨e0, e1, e2, e3, e4, e5, e6, e7, e8, e9, e10, e11, e12, e13⟩ := idx_facts t
  refine ⟨t, flush5_6 t, ?_⟩
  rw [mem_blk]
  intro a
  match a with
  | ⟨0, _⟩ =>
    show win5_6.index t (0 : Fin 2) * 1000 ≤ (i 0).val ∧ (i 0).val < win5_6.index t (0 : Fin 2) * 1000 + 1000
    omega
  | ⟨1, _⟩ =>
    show win5_6.index t (1 : Fin 2) * 512 ≤ (i 1).val ∧ (i 1).val < win5_6.index t (1 : Fin 2) * 512 + 512
    omega

/-- The output array after the region. -/
theorem final (c : Dev nD) : (dat5 V c).arrAt 6 cfg5.N = Arr.sage10000 (V c main_v76) (V c main_v56) (V c main_v87) (V c main_v89) (V c main_v92) (V c main_v93) :=
  (dat5 V c).arrAt_eq_of_cover 6 _ (fun t _ => flushed_eq V c t) cover

end Cert.KernelIdeal.Reg5

end
-- ==== Proof.ChainL1.lean ====
/-
  Layer 2 of the network, kernel side against reference side.  The host operations before the
  layer's first region gather the servers' rows along the edges and scatter-add them at the devices
  (and the other way round for the second region), slice this layer's weights and bias out of the
  arguments, and reshape the reciprocal count to a column; each of these buffers holds the
  reference's stage of the same name, because the operations are the same and their operands are
  (previous layer, or an argument).  The region then leaves, entry by entry, the SAGE update in the
  kernel's arrangement, which is the reference's arrangement of the same entry: the count the
  reference clamps and divides by is the kernel's count (one scatter over a column, one over a
  vector: the same sum), it is at least one, and off zero dividing is multiplying by the reciprocal.
-/
import proofs.«106831_j73237782332046_2_alg».proof.Proof.ChainL0
import proofs.«106831_j73237782332046_2_alg».proof.Proof.KerReg4
import proofs.«106831_j73237782332046_2_alg».proof.Proof.KerReg5
import proofs.«106831_j73237782332046_2_alg».proof.Proof.CountScatter
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.Chain

open Cert.KernelIdeal Cert.KernelIdeal.Gen Cert.KernelIdeal.Pass Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-- The servers' rows before this layer (the previous layer's second region's output). -/
theorem hs_in1 (c : Dev nD) : W8 m ρ c (Proc.devRef .tc main_v56) = Cert.ReferenceIdeal.ReadP.val_main_v69 (F := Ideal) (x0 m c) (x1 m c) (x2 m c) (x3 m c) (x4 m c) (x5 m c) (x6 m c) (x7 m c) (x8 m c) (x11 m c) (x12 m c) := hs_out0 m ρ c
/-- The devices' rows before this layer (the previous layer's first region's output, carried over the second). -/
theorem hd_in1 (c : Dev nD) : W8 m ρ c (Proc.devRef .tc main_v47) = Cert.ReferenceIdeal.ReadP.val_main_v56 (F := Ideal) (x0 m c) (x1 m c) (x2 m c) (x3 m c) (x4 m c) (x5 m c) (x6 m c) (x7 m c) (x8 m c) (x9 m c) (x10 m c) :=
  (pass7_main_v47 m ρ c).trans ((pass6_main_v47 m ρ c).trans (hd_out0 m ρ c))
/-- The devices' reciprocal count where this layer's host operations read it. -/
theorem invD_in1 (c : Dev nD) : W8 m ρ c (Proc.devRef .tc main_v14) = invD (x10 m c) :=
  (pass7_main_v14 m ρ c).trans ((pass6_main_v14 m ρ c).trans ((pass5_main_v14 m ρ c).trans (invD_in0 m ρ c)))
/-- The servers' reciprocal count where the second region's host operations read it. -/
theorem invS_in1 (c : Dev nD) : W10 m ρ c (Proc.devRef .tc main_v18) = invS (x12 m c) :=
  (pass9_main_v18 m ρ c).trans ((pass8_main_v18 m ρ c).trans ((pass7_main_v18 m ρ c).trans ((pass6_main_v18 m ρ c).trans (invS_in0 m ρ c))))

/-- The neighbour sums at the devices: the same gather and scatter-add of the servers' rows. -/
theorem sumD1 (c : Dev nD) : (W9 m ρ c (Proc.devRef .tc main_v66)) = Cert.ReferenceIdeal.ReadP.val_main_v79 (F := Ideal) (x0 m c) (x1 m c) (x2 m c) (x3 m c) (x4 m c) (x5 m c) (x6 m c) (x7 m c) (x8 m c) (x9 m c) (x10 m c) (x11 m c) (x12 m c) := by
  show StableHlo.after hostOps4 (W8 m ρ c) (Proc.devRef .tc main_v66) = _
  after_results_simp
  rw [hs_in1 m ρ c, arg8_main_arg9 m ρ c, arg8_main_arg10 m ρ c]
  rfl

/-- The neighbour sums at the servers: the same gather and scatter-add of the devices' rows. -/
theorem sumS1 (c : Dev nD) : (W9 m ρ c (Proc.devRef .tc main_v76)) = Cert.ReferenceIdeal.ReadP.val_main_v97 (F := Ideal) (x0 m c) (x1 m c) (x2 m c) (x3 m c) (x4 m c) (x5 m c) (x6 m c) (x7 m c) (x8 m c) (x9 m c) (x10 m c) (x11 m c) (x12 m c) := by
  show StableHlo.after hostOps4 (W8 m ρ c) (Proc.devRef .tc main_v76) = _
  after_results_simp
  rw [hd_in1 m ρ c, arg8_main_arg11 m ρ c, arg8_main_arg12 m ρ c]
  rfl

/-- This layer's neighbour weights for the devices. -/
theorem wlD1 (c : Dev nD) : (W9 m ρ c (Proc.devRef .tc main_v78)) = Cert.ReferenceIdeal.ReadP.val_main_v107 (F := Ideal) (x6 m c) := by
  show StableHlo.after hostOps4 (W8 m ρ c) (Proc.devRef .tc main_v78) = _
  after_results_simp
  rw [arg8_main_arg6 m ρ c]
  rfl

/-- This layer's own-row weights for the devices. -/
theorem wrD1 (c : Dev nD) : (W9 m ρ c (Proc.devRef .tc main_v80)) = Cert.ReferenceIdeal.ReadP.val_main_v115 (F := Ideal) (x8 m c) := by
  show StableHlo.after hostOps4 (W8 m ρ c) (Proc.devRef .tc main_v80) = _
  after_results_simp
  rw [arg8_main_arg8 m ρ c]
  rfl

/-- This layer's bias for the devices, as the row the region stages. -/
theorem bD1 (c : Dev nD) (j : Fin 512) : (W9 m ρ c (Proc.devRef .tc main_v83) : S1x512.Idx → EReal) (ix2 0 j) = Cert.ReferenceIdeal.ReadP.val_main_v110 (F := Ideal) (x7 m c) (ix1 j) := by
  show (StableHlo.after hostOps4 (W8 m ρ c) (Proc.devRef .tc main_v83) : S1x512.Idx → EReal) (ix2 0 j) = _
  after_results_simp
  rw [arg8_main_arg7 m ρ c]
  exact Cert.HostReads.bias_row _ j

/-- The reciprocal clamped count of device `i`, as the column the region stages: one over the reference's clamped count. -/
theorem invcolD1 (c : Dev nD) (i : Fin 50000) : (W9 m ρ c (Proc.devRef .tc main_v84) : S50000x1.Idx → EReal) (ix2 i 0)
    = Ideal.div 1 (max (Cert.ReferenceIdeal.ReadP.val_main_v83 (F := Ideal) (x10 m c) (ix2 i 0)) 1) := by
  show (StableHlo.after hostOps4 (W8 m ρ c) (Proc.devRef .tc main_v84) : S50000x1.Idx → EReal) (ix2 i 0) = _
  after_results_simp
  rw [invD_in1 m ρ c]
  unfold invD cntD
  refine (Cert.HostReads.recip_col_50000 _ i).trans ?_
  refine congrArg (fun t => Ideal.div 1 (max t 1)) ?_
  exact Cert.CountScatter.count_scatter_50000 _ _ _ _ _ (fun _ => rfl) (fun _ => rfl) i

/-- The devices' own rows at the region's entry. -/
theorem hd_ent1 (c : Dev nD) : W9 m ρ c (Proc.devRef .tc main_v47) = Cert.ReferenceIdeal.ReadP.val_main_v56 (F := Ideal) (x0 m c) (x1 m c) (x2 m c) (x3 m c) (x4 m c) (x5 m c) (x6 m c) (x7 m c) (x8 m c) (x9 m c) (x10 m c) :=
  (pass8_main_v47 m ρ c).trans (hd_in1 m ρ c)

/-- THE DEVICES AFTER LAYER 2: the region's output array is the reference's stage. -/
theorem hd_out1 (c : Dev nD) : W10 m ρ c (Proc.devRef .tc main_v85) = Cert.ReferenceIdeal.ReadP.val_main_v118 (F := Ideal) (x0 m c) (x1 m c) (x2 m c) (x3 m c) (x4 m c) (x5 m c) (x6 m c) (x7 m c) (x8 m c) (x9 m c) (x10 m c) (x11 m c) (x12 m c) := by
  refine (W10_arr m ρ c 6).trans ((Reg4.final (V9 m ρ) c).trans ?_)
  funext i
  refine Eq.trans ?_ (Cert.RefLayers.layer2_devices _ _ _ _ _ _ _ _ _ _ _ _ _ i).symm
  unfold Arr.sage50000
  refine (Cert.Spec.sageKerAt_congr (funext fun k => congrFun (sumD1 m ρ c) _) (funext fun k => congrFun (hd_ent1 m ρ c) _)
    (invcolD1 m ρ c (i 0)) (funext fun k => funext fun j => congrFun (wlD1 m ρ c) _)
    (funext fun k => funext fun j => congrFun (wrD1 m ρ c) _) (funext fun j => bD1 m ρ c j) rfl).trans ?_
  exact Cert.Spec.sageKerAt_recip _ _ _ (Cert.HostReads.one_le_clamp _) _ _ _ _

/-- The neighbour sums at the servers, carried over the first region to the second region's entry. -/
theorem sumS_ent1 (c : Dev nD) : W11 m ρ c (Proc.devRef .tc main_v76) = Cert.ReferenceIdeal.ReadP.val_main_v97 (F := Ideal) (x0 m c) (x1 m c) (x2 m c) (x3 m c) (x4 m c) (x5 m c) (x6 m c) (x7 m c) (x8 m c) (x9 m c) (x10 m c) (x11 m c) (x12 m c) :=
  (pass10_main_v76 m ρ c).trans ((pass9_main_v76 m ρ c).trans (sumS1 m ρ c))

/-- The servers' own rows at the second region's entry. -/
theorem hs_ent1 (c : Dev nD) : W11 m ρ c (Proc.devRef .tc main_v56) = Cert.ReferenceIdeal.ReadP.val_main_v69 (F := Ideal) (x0 m c) (x1 m c) (x2 m c) (x3 m c) (x4 m c) (x5 m c) (x6 m c) (x7 m c) (x8 m c) (x11 m c) (x12 m c) :=
  (pass10_main_v56 m ρ c).trans ((pass9_main_v56 m ρ c).trans ((pass8_main_v56 m ρ c).trans (hs_in1 m ρ c)))

/-- This layer's neighbour weights for the servers. -/
theorem wlS1 (c : Dev nD) : (W11 m ρ c (Proc.devRef .tc main_v87)) = Cert.ReferenceIdeal.ReadP.val_main_v120 (F := Ideal) (x6 m c) := by
  show StableHlo.after hostOps5 (W10 m ρ c) (Proc.devRef .tc main_v87) = _
  after_results_simp
  rw [arg10_main_arg6 m ρ c]
  rfl

/-- This layer's own-row weights for the servers. -/
theorem wrS1 (c : Dev nD) : (W11 m ρ c (Proc.devRef .tc main_v89)) = Cert.ReferenceIdeal.ReadP.val_main_v128 (F := Ideal) (x8 m c) := by
  show StableHlo.after hostOps5 (W10 m ρ c) (Proc.devRef .tc main_v89) = _
  after_results_simp
  rw [arg10_main_arg8 m ρ c]
  rfl

/-- This layer's bias for the servers, as the row the region stages. -/
theorem bS1 (c : Dev nD) (j : Fin 512) : (W11 m ρ c (Proc.devRef .tc main_v92) : S1x512.Idx → EReal) (ix2 0 j) = Cert.ReferenceIdeal.ReadP.val_main_v123 (F := Ideal) (x7 m c) (ix1 j) := by
  show (StableHlo.after hostOps5 (W10 m ρ c) (Proc.devRef .tc main_v92) : S1x512.Idx → EReal) (ix2 0 j) = _
  after_results_simp
  rw [arg10_main_arg7 m ρ c]
  exact Cert.HostReads.bias_row _ j

/-- The reciprocal clamped count of server `i`, as the column the region stages. -/
theorem invcolS1 (c : Dev nD) (i : Fin 10000) : (W11 m ρ c (Proc.devRef .tc main_v93) : S10000x1.Idx → EReal) (ix2 i 0)
    = Ideal.div 1 (max (Cert.ReferenceIdeal.ReadP.val_main_v101 (F := Ideal) (x12 m c) (ix2 i 0)) 1) := by
  show (StableHlo.after hostOps5 (W10 m ρ c) (Proc.devRef .tc main_v93) : S10000x1.Idx → EReal) (ix2 i 0) = _
  after_results_simp
  rw [invS_in1 m ρ c]
  unfold invS cntS
  refine (Cert.HostReads.recip_col_10000 _ i).trans ?_
  refine congrArg (fun t => Ideal.div 1 (max t 1)) ?_
  exact Cert.CountScatter.count_scatter_10000 _ _ _ _ _ (fun _ => rfl) (fun _ => rfl) i

/-- THE SERVERS AFTER LAYER 2: the region's output array is the reference's stage. -/
theorem hs_out1 (c : Dev nD) : W12 m ρ c (Proc.devRef .tc main_v94) = Cert.ReferenceIdeal.ReadP.val_main_v131 (F := Ideal) (x0 m c) (x1 m c) (x2 m c) (x3 m c) (x4 m c) (x5 m c) (x6 m c) (x7 m c) (x8 m c) (x9 m c) (x10 m c) (x11 m c) (x12 m c) := by
  refine (W12_arr m ρ c 6).trans ((Reg5.final (V11 m ρ) c).trans ?_)
  funext i
  refine Eq.trans ?_ (Cert.RefLayers.layer2_servers _ _ _ _ _ _ _ _ _ _ _ _ _ i).symm
  unfold Arr.sage10000
  refine (Cert.Spec.sageKerAt_congr (funext fun k => congrFun (sumS_ent1 m ρ c) _) (funext fun k => congrFun (hs_ent1 m ρ c) _)
    (invcolS1 m ρ c (i 0)) (funext fun k => funext fun j => congrFun (wlS1 m ρ c) _)
    (funext fun k => funext fun j => congrFun (wrS1 m ρ c) _) (funext fun j => bS1 m ρ c j) rfl).trans ?_
  exact Cert.Spec.sageKerAt_recip _ _ _ (Cert.HostReads.one_le_clamp _) _ _ _ _

end Cert.KernelIdeal.Chain

end
-- ==== Proof.KerReg6.lean ====
/-
  Region 6 (a SAGE update of the devices' 50000 rows, 50 grid points of 1000 rows): the array the
  region leaves in its output is `Arr.sage50000` of the arrays its input windows stage, whatever the
  contents `V` the region is entered with.  Each input block is read where the output block's rows
  say (row-blocked windows move with the point, the others are staged whole), the body's arithmetic
  at an index is the specification's entry, and the 50 output blocks tile the array.
-/
import proofs.«106831_j73237782332046_2_alg».proof.Proof.Gen.KernelIdeal.Frame
import proofs.«106831_j73237782332046_2_alg».proof.Proof.KerPay
import proofs.«106831_j73237782332046_2_alg».proof.Proof.KerArr
import Idealize.ShloMosaic.Lib.Pipeline.Value

set_option maxRecDepth 16384

noncomputable section

namespace Cert.KernelIdeal.Reg6

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point, every other index is 0. -/
theorem idx_facts : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = t.val
    ∧ win6_5.index t (1 : Fin 2) = 0
    ∧ win6_6.index t (0 : Fin 2) = t.val
    ∧ win6_6.index t (1 : Fin 2) = 0 :=
  (by decide +kernel : ∀ t : Fin grid6.N, _)

/-- Window 0's block at point `t`: rows `1000 t …` of its array. -/
theorem blk0 (c : Dev nD) (t : Fin cfg6.N) (y : S1000x512.Idx) (i : S50000x512.Idx)
    (h0 : (i 0).val = t.val * 1000 + (y 0).val) (h1 : (i 1).val = (y 1).val) :
    (iblk6 V c 0 t : Vec Ideal S1000x512 .f32) y = (V c main_v104 : S50000x512.Idx → EReal) i := by
  obtain ⟨e0, e1, e2, e3, e4, e5, e6, e7, e8, e9, e10, e11, e12, e13⟩ := idx_facts t
  unfold iblk6
  rw [View.read_apply]
  show V c main_v104 _ = V c main_v104 _
  congr 1
  funext a
  apply Fin.ext
  match a with
  | ⟨0, _⟩ => show win6_0.index t (0 : Fin 2) * 1000 + 1 * (y 0).val = (i 0).val; omega
  | ⟨1, _⟩ => show win6_0.index t (1 : Fin 2) * 512 + 1 * (y 1).val = (i 1).val; omega

/-- Window 1's block at point `t`: rows `1000 t …` of its array. -/
theorem blk1 (c : Dev nD) (t : Fin cfg6.N) (y : S1000x512.Idx) (i : S50000x512.Idx)
    (h0 : (i 0).val = t.val * 1000 + (y 0).val) (h1 : (i 1).val = (y 1).val) :
    (iblk6 V c 1 t : Vec Ideal S1000x512 .f32) y = (V c main_v85 : S50000x512.Idx → EReal) i := by
  obtain ⟨e0, e1, e2, e3, e4, e5, e6, e7, e8, e9, e10, e11, e12, e13⟩ := idx_facts t
  unfold iblk6
  rw [View.read_apply]
  show V c main_v85 _ = V c main_v85 _
  congr 1
  funext a
  apply Fin.ext
  match a with
  | ⟨0, _⟩ => show win6_1.index t (0 : Fin 2) * 1000 + 1 * (y 0).val = (i 0).val; omega
  | ⟨1, _⟩ => show win6_1.index t (1 : Fin 2) * 512 + 1 * (y 1).val = (i 1).val; omega

/-- Window 2's block at point `t` is its whole array. -/
theorem blk2 (c : Dev nD) (t : Fin cfg6.N) (y : S512x512.Idx) (i : S512x512.Idx)
    (h0 : (i 0).val = (y 0).val) (h1 : (i 1).val = (y 1).val) :
    (iblk6 V c 2 t : Vec Ideal S512x512 .f32) y = (V c main_v116 : S512x512.Idx → EReal) i := by
  obtain ⟨e0, e1, e2, e3, e4, e5, e6, e7, e8, e9, e10, e11, e12, e13⟩ := idx_facts t
  unfold iblk6
  rw [View.read_apply]
  show V c main_v116 _ = V c main_v116 _
  congr 1
  funext a
  apply Fin.ext
  match a with
  | ⟨0, _⟩ => show win6_2.index t (0 : Fin 2) * 512 + 1 * (y 0).val = (i 0).val; omega
  | ⟨1, _⟩ => show win6_2.index t (1 : Fin 2) * 512 + 1 * (y 1).val = (i 1).val; omega

/-- Window 3's block at point `t` is its whole array. -/
theorem blk3 (c : Dev nD) (t : Fin cfg6.N) (y : S512x512.Idx) (i : S512x512.Idx)
    (h0 : (i 0).val = (y 0).val) (h1 : (i 1).val = (y 1).val) :
    (iblk6 V c 3 t : Vec Ideal S512x512 .f32) y = (V c main_v118 : S512x512.Idx → EReal) i := by
  obtain ⟨e0, e1, e2, e3, e4, e5, e6, e7, e8, e9, e10, e11, e12, e13⟩ := idx_facts t
  unfold iblk6
  rw [View.read_apply]
  show V c main_v118 _ = V c main_v118 _
  congr 1
  funext a
  apply Fin.ext
  match a with
  | ⟨0, _⟩ => show win6_3.index t (0 : Fin 2) * 512 + 1 * (y 0).val = (i 0).val; omega
  | ⟨1, _⟩ => show win6_3.index t (1 : Fin 2) * 512 + 1 * (y 1).val = (i 1).val; omega

/-- Window 4's block at point `t` is its whole array. -/
theorem blk4 (c : Dev nD) (t : Fin cfg6.N) (y : S1x512.Idx) (i : S1x512.Idx)
    (h0 : (i 0).val = (y 0).val) (h1 : (i 1).val = (y 1).val) :
    (iblk6 V c 4 t : Vec Ideal S1x512 .f32) y = (V c main_v121 : S1x512.Idx → EReal) i := by
  obtain ⟨e0, e1, e2, e3, e4, e5, e6, e7, e8, e9, e10, e11, e12, e13⟩ := idx_facts t
  unfold iblk6
  rw [View.read_apply]
  show V c main_v121 _ = V c main_v121 _
  congr 1
  funext a
  apply Fin.ext
  match a with
  | ⟨0, _⟩ => show win6_4.index t (0 : Fin 2) * 1 + 1 * (y 0).val = (i 0).val; omega
  | ⟨1, _⟩ => show win6_4.index t (1 : Fin 2) * 512 + 1 * (y 1).val = (i 1).val; omega

/-- Window 5's block at point `t`: rows `1000 t …` of its array. -/
theorem blk5 (c : Dev nD) (t : Fin cfg6.N) (y : S1000x1.Idx) (i : S50000x1.Idx)
    (h0 : (i 0).val = t.val * 1000 + (y 0).val) (h1 : (i 1).val = (y 1).val) :
    (iblk6 V c 5 t : Vec Ideal S1000x1 .f32) y = (V c main_v122 : S50000x1.Idx → EReal) i := by
  obtain ⟨e0, e1, e2, e3, e4, e5, e6, e7, e8, e9, e10, e11, e12, e13⟩ := idx_facts t
  unfold iblk6
  rw [View.read_apply]
  show V c main_v122 _ = V c main_v122 _
  congr 1
  funext a
  apply Fin.ext
  match a with
  | ⟨0, _⟩ => show win6_5.index t (0 : Fin 2) * 1000 + 1 * (y 0).val = (i 0).val; omega
  | ⟨1, _⟩ => show win6_5.index t (1 : Fin 2) * 1 + 1 * (y 1).val = (i 1).val; omega

/-- What point `t` writes back is block `t` of the region's function of its input arrays. -/
theorem flushed_eq (c : Dev nD) (t : Fin cfg6.N) :
    (dat6 V c).flushed 6 t = ((cfg6.win 6).blk t).view.read (Elt Ideal) (Arr.sage50000 (V c main_v104) (V c main_v85) (V c main_v116) (V c main_v118) (V c main_v121) (V c main_v122)) := by
  show (cfg6.win 6).cut (grid6.coords t) ((dat6 V c).after 6 t) = _
  rw [after6_6]
  unfold out6_6
  rw [View.canon_unit_zero hz]
  simp only [View.ld_unit_zero (S := S1000x512) hz, View.ld_unit_zero (S := S512x512) hz, View.ld_unit_zero (S := S1x512) hz, View.ld_unit_zero (S := S1000x1) hz]
  obtain ⟨e0, e1, e2, e3, e4, e5, e6, e7, e8, e9, e10, e11, e12, e13⟩ := idx_facts t
  funext j
  revert j
  intro (j : S1000x512.Idx)
  show k6_pay1 (F := Ideal) (iblk6 V c 0 t) (iblk6 V c 5 t) (iblk6 V c 2 t) (iblk6 V c 1 t) (iblk6 V c 3 t) (iblk6 V c 4 t) j = Arr.sage50000 (V c main_v104) (V c main_v85) (V c main_v116) (V c main_v118) (V c main_v121) (V c main_v122) (((cfg6.win 6).blk t).view.emb j)
  rw [Pay.pay6_eq]
  refine (Pay.sage_body (iblk6 V c 0 t) (iblk6 V c 5 t) (iblk6 V c 2 t) (iblk6 V c 1 t) (iblk6 V c 3 t) (iblk6 V c 4 t) j).trans ?_
  unfold Arr.sage50000
  refine Cert.Spec.sageKerAt_congr (funext fun k => ?_) (funext fun k => ?_) ?_ (funext fun k => funext fun j' => ?_)
    (funext fun k => funext fun j' => ?_) (funext fun j' => ?_) (Fin.ext ?_)
  · exact blk0 V c t (ix2 (j 0) k) _ (by show (((cfg6.win 6).blk t).view.emb j (0 : Fin 2)).val = t.val * 1000 + (j 0).val; show win6_6.index t (0 : Fin 2) * 1000 + 1 * (j 0).val = _; omega) rfl
  · exact blk1 V c t (ix2 (j 0) k) _ (by show (((cfg6.win 6).blk t).view.emb j (0 : Fin 2)).val = t.val * 1000 + (j 0).val; show win6_6.index t (0 : Fin 2) * 1000 + 1 * (j 0).val = _; omega) rfl
  · exact blk5 V c t (ix2 (j 0) 0) _ (by show (((cfg6.win 6).blk t).view.emb j (0 : Fin 2)).val = t.val * 1000 + (j 0).val; show win6_6.index t (0 : Fin 2) * 1000 + 1 * (j 0).val = _; omega) rfl
  · exact blk2 V c t (ix2 k j') _ rfl rfl
  · exact blk3 V c t (ix2 k j') _ rfl rfl
  · exact blk4 V c t (ix2 0 j') _ rfl rfl
  · show (j 1).val = win6_6.index t (1 : Fin 2) * 512 + 1 * (j 1).val; omega

/-- An index of the output array is in point `t`'s block iff each coordinate is in the block's range. -/
theorem mem_blk (t : Fin cfg6.N) (i : S50000x512.Idx) :
    i ∈ ((cfg6.win 6).blk t).view.set ↔ ∀ a : Fin 2, win6_6.index t a * S1000x512.size a ≤ (i a).val
      ∧ (i a).val < win6_6.index t a * S1000x512.size a + S1000x512.size a := by
  show i ∈ ((View.whole main_v123).slice (win6_6.rect t)).set ↔ _
  rw [View.set_slice_whole, Rect.mem_set_unit]
  exact Iff.rfl

/-- Row `r` lies in the block of point `r / 1000`: the blocks cover the array. -/
theorem cover (i : S50000x512.Idx) : ∃ t : Fin cfg6.N, (cfg6.win 6).flush t = true ∧ i ∈ ((cfg6.win 6).blk t).view.set := by
  have hi0 : (i 0).val < 50000 := (i 0).isLt
  have hi1 : (i 1).val < 512 := (i 1).isLt
  have hN : grid6.N = 50 := N_6
  have ht : (i 0).val / 1000 < cfg6.N := by show (i 0).val / 1000 < grid6.N; rw [hN]; omega
  generalize htt : (⟨(i 0).val / 1000, ht⟩ : Fin cfg6.N) = t
  have htv : t.val = (i 0).val / 1000 := by rw [← htt]
  obtain ⟨e0, e1, e2, e3, e4, e5, e6, e7, e8, e9, e10, e11, e12, e13⟩ := idx_facts t
  refine ⟨t, flush6_6 t, ?_⟩
  rw [mem_blk]
  intro a
  match a with
  | ⟨0, _⟩ =>
    show win6_6.index t (0 : Fin 2) * 1000 ≤ (i 0).val ∧ (i 0).val < win6_6.index t (0 : Fin 2) * 1000 + 1000
    omega
  | ⟨1, _⟩ =>
    show win6_6.index t (1 : Fin 2) * 512 ≤ (i 1).val ∧ (i 1).val < win6_6.index t (1 : Fin 2) * 512 + 512
    omega

/-- The output array after the region. -/
theorem final (c : Dev nD) : (dat6 V c).arrAt 6 cfg6.N = Arr.sage50000 (V c main_v104) (V c main_v85) (V c main_v116) (V c main_v118) (V c main_v121) (V c main_v122) :=
  (dat6 V c).arrAt_eq_of_cover 6 _ (fun t _ => flushed_eq V c t) cover

end Cert.KernelIdeal.Reg6

end
-- ==== Proof.KerReg7.lean ====
/-
  Region 7 (a SAGE update of the servers' 10000 rows, 10 grid points of 1000 rows): the array the
  region leaves in its output is `Arr.sage10000` of the arrays its input windows stage, whatever the
  contents `V` the region is entered with.  Each input block is read where the output block's rows
  say (row-blocked windows move with the point, the others are staged whole), the body's arithmetic
  at an index is the specification's entry, and the 10 output blocks tile the array.
-/
import proofs.«106831_j73237782332046_2_alg».proof.Proof.Gen.KernelIdeal.Frame
import proofs.«106831_j73237782332046_2_alg».proof.Proof.KerPay
import proofs.«106831_j73237782332046_2_alg».proof.Proof.KerArr
import Idealize.ShloMosaic.Lib.Pipeline.Value

set_option maxRecDepth 16384

noncomputable section

namespace Cert.KernelIdeal.Reg7

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point, every other index is 0. -/
theorem idx_facts : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = t.val
    ∧ win7_5.index t (1 : Fin 2) = 0
    ∧ win7_6.index t (0 : Fin 2) = t.val
    ∧ win7_6.index t (1 : Fin 2) = 0 :=
  (by decide +kernel : ∀ t : Fin grid7.N, _)

/-- Window 0's block at point `t`: rows `1000 t …` of its array. -/
theorem blk0 (c : Dev nD) (t : Fin cfg7.N) (y : S1000x512.Idx) (i : S10000x512.Idx)
    (h0 : (i 0).val = t.val * 1000 + (y 0).val) (h1 : (i 1).val = (y 1).val) :
    (iblk7 V c 0 t : Vec Ideal S1000x512 .f32) y = (V c main_v114 : S10000x512.Idx → EReal) i := by
  obtain ⟨e0, e1, e2, e3, e4, e5, e6, e7, e8, e9, e10, e11, e12, e13⟩ := idx_facts t
  unfold iblk7
  rw [View.read_apply]
  show V c main_v114 _ = V c main_v114 _
  congr 1
  funext a
  apply Fin.ext
  match a with
  | ⟨0, _⟩ => show win7_0.index t (0 : Fin 2) * 1000 + 1 * (y 0).val = (i 0).val; omega
  | ⟨1, _⟩ => show win7_0.index t (1 : Fin 2) * 512 + 1 * (y 1).val = (i 1).val; omega

/-- Window 1's block at point `t`: rows `1000 t …` of its array. -/
theorem blk1 (c : Dev nD) (t : Fin cfg7.N) (y : S1000x512.Idx) (i : S10000x512.Idx)
    (h0 : (i 0).val = t.val * 1000 + (y 0).val) (h1 : (i 1).val = (y 1).val) :
    (iblk7 V c 1 t : Vec Ideal S1000x512 .f32) y = (V c main_v94 : S10000x512.Idx → EReal) i := by
  obtain ⟨e0, e1, e2, e3, e4, e5, e6, e7, e8, e9, e10, e11, e12, e13⟩ := idx_facts t
  unfold iblk7
  rw [View.read_apply]
  show V c main_v94 _ = V c main_v94 _
  congr 1
  funext a
  apply Fin.ext
  match a with
  | ⟨0, _⟩ => show win7_1.index t (0 : Fin 2) * 1000 + 1 * (y 0).val = (i 0).val; omega
  | ⟨1, _⟩ => show win7_1.index t (1 : Fin 2) * 512 + 1 * (y 1).val = (i 1).val; omega

/-- Window 2's block at point `t` is its whole array. -/
theorem blk2 (c : Dev nD) (t : Fin cfg7.N) (y : S512x512.Idx) (i : S512x512.Idx)
    (h0 : (i 0).val = (y 0).val) (h1 : (i 1).val = (y 1).val) :
    (iblk7 V c 2 t : Vec Ideal S512x512 .f32) y = (V c main_v125 : S512x512.Idx → EReal) i := by
  obtain ⟨e0, e1, e2, e3, e4, e5, e6, e7, e8, e9, e10, e11, e12, e13⟩ := idx_facts t
  unfold iblk7
  rw [View.read_apply]
  show V c main_v125 _ = V c main_v125 _
  congr 1
  funext a
  apply Fin.ext
  match a with
  | ⟨0, _⟩ => show win7_2.index t (0 : Fin 2) * 512 + 1 * (y 0).val = (i 0).val; omega
  | ⟨1, _⟩ => show win7_2.index t (1 : Fin 2) * 512 + 1 * (y 1).val = (i 1).val; omega

/-- Window 3's block at point `t` is its whole array. -/
theorem blk3 (c : Dev nD) (t : Fin cfg7.N) (y : S512x512.Idx) (i : S512x512.Idx)
    (h0 : (i 0).val = (y 0).val) (h1 : (i 1).val = (y 1).val) :
    (iblk7 V c 3 t : Vec Ideal S512x512 .f32) y = (V c main_v127 : S512x512.Idx → EReal) i := by
  obtain ⟨e0, e1, e2, e3, e4, e5, e6, e7, e8, e9, e10, e11, e12, e13⟩ := idx_facts t
  unfold iblk7
  rw [View.read_apply]
  show V c main_v127 _ = V c main_v127 _
  congr 1
  funext a
  apply Fin.ext
  match a with
  | ⟨0, _⟩ => show win7_3.index t (0 : Fin 2) * 512 + 1 * (y 0).val = (i 0).val; omega
  | ⟨1, _⟩ => show win7_3.index t (1 : Fin 2) * 512 + 1 * (y 1).val = (i 1).val; omega

/-- Window 4's block at point `t` is its whole array. -/
theorem blk4 (c : Dev nD) (t : Fin cfg7.N) (y : S1x512.Idx) (i : S1x512.Idx)
    (h0 : (i 0).val = (y 0).val) (h1 : (i 1).val = (y 1).val) :
    (iblk7 V c 4 t : Vec Ideal S1x512 .f32) y = (V c main_v130 : S1x512.Idx → EReal) i := by
  obtain ⟨e0, e1, e2, e3, e4, e5, e6, e7, e8, e9, e10, e11, e12, e13⟩ := idx_facts t
  unfold iblk7
  rw [View.read_apply]
  show V c main_v130 _ = V c main_v130 _
  congr 1
  funext a
  apply Fin.ext
  match a with
  | ⟨0, _⟩ => show win7_4.index t (0 : Fin 2) * 1 + 1 * (y 0).val = (i 0).val; omega
  | ⟨1, _⟩ => show win7_4.index t (1 : Fin 2) * 512 + 1 * (y 1).val = (i 1).val; omega

/-- Window 5's block at point `t`: rows `1000 t …` of its array. -/
theorem blk5 (c : Dev nD) (t : Fin cfg7.N) (y : S1000x1.Idx) (i : S10000x1.Idx)
    (h0 : (i 0).val = t.val * 1000 + (y 0).val) (h1 : (i 1).val = (y 1).val) :
    (iblk7 V c 5 t : Vec Ideal S1000x1 .f32) y = (V c main_v131 : S10000x1.Idx → EReal) i := by
  obtain ⟨e0, e1, e2, e3, e4, e5, e6, e7, e8, e9, e10, e11, e12, e13⟩ := idx_facts t
  unfold iblk7
  rw [View.read_apply]
  show V c main_v131 _ = V c main_v131 _
  congr 1
  funext a
  apply Fin.ext
  match a with
  | ⟨0, _⟩ => show win7_5.index t (0 : Fin 2) * 1000 + 1 * (y 0).val = (i 0).val; omega
  | ⟨1, _⟩ => show win7_5.index t (1 : Fin 2) * 1 + 1 * (y 1).val = (i 1).val; omega

/-- What point `t` writes back is block `t` of the region's function of its input arrays. -/
theorem flushed_eq (c : Dev nD) (t : Fin cfg7.N) :
    (dat7 V c).flushed 6 t = ((cfg7.win 6).blk t).view.read (Elt Ideal) (Arr.sage10000 (V c main_v114) (V c main_v94) (V c main_v125) (V c main_v127) (V c main_v130) (V c main_v131)) := by
  show (cfg7.win 6).cut (grid7.coords t) ((dat7 V c).after 6 t) = _
  rw [after7_6]
  unfold out7_6
  rw [View.canon_unit_zero hz]
  simp only [View.ld_unit_zero (S := S1000x512) hz, View.ld_unit_zero (S := S512x512) hz, View.ld_unit_zero (S := S1x512) hz, View.ld_unit_zero (S := S1000x1) hz]
  obtain ⟨e0, e1, e2, e3, e4, e5, e6, e7, e8, e9, e10, e11, e12, e13⟩ := idx_facts t
  funext j
  revert j
  intro (j : S1000x512.Idx)
  show k7_pay1 (F := Ideal) (iblk7 V c 0 t) (iblk7 V c 5 t) (iblk7 V c 2 t) (iblk7 V c 1 t) (iblk7 V c 3 t) (iblk7 V c 4 t) j = Arr.sage10000 (V c main_v114) (V c main_v94) (V c main_v125) (V c main_v127) (V c main_v130) (V c main_v131) (((cfg7.win 6).blk t).view.emb j)
  rw [Pay.pay7_eq]
  refine (Pay.sage_body (iblk7 V c 0 t) (iblk7 V c 5 t) (iblk7 V c 2 t) (iblk7 V c 1 t) (iblk7 V c 3 t) (iblk7 V c 4 t) j).trans ?_
  unfold Arr.sage10000
  refine Cert.Spec.sageKerAt_congr (funext fun k => ?_) (funext fun k => ?_) ?_ (funext fun k => funext fun j' => ?_)
    (funext fun k => funext fun j' => ?_) (funext fun j' => ?_) (Fin.ext ?_)
  · exact blk0 V c t (ix2 (j 0) k) _ (by show (((cfg7.win 6).blk t).view.emb j (0 : Fin 2)).val = t.val * 1000 + (j 0).val; show win7_6.index t (0 : Fin 2) * 1000 + 1 * (j 0).val = _; omega) rfl
  · exact blk1 V c t (ix2 (j 0) k) _ (by show (((cfg7.win 6).blk t).view.emb j (0 : Fin 2)).val = t.val * 1000 + (j 0).val; show win7_6.index t (0 : Fin 2) * 1000 + 1 * (j 0).val = _; omega) rfl
  · exact blk5 V c t (ix2 (j 0) 0) _ (by show (((cfg7.win 6).blk t).view.emb j (0 : Fin 2)).val = t.val * 1000 + (j 0).val; show win7_6.index t (0 : Fin 2) * 1000 + 1 * (j 0).val = _; omega) rfl
  · exact blk2 V c t (ix2 k j') _ rfl rfl
  · exact blk3 V c t (ix2 k j') _ rfl rfl
  · exact blk4 V c t (ix2 0 j') _ rfl rfl
  · show (j 1).val = win7_6.index t (1 : Fin 2) * 512 + 1 * (j 1).val; omega

/-- An index of the output array is in point `t`'s block iff each coordinate is in the block's range. -/
theorem mem_blk (t : Fin cfg7.N) (i : S10000x512.Idx) :
    i ∈ ((cfg7.win 6).blk t).view.set ↔ ∀ a : Fin 2, win7_6.index t a * S1000x512.size a ≤ (i a).val
      ∧ (i a).val < win7_6.index t a * S1000x512.size a + S1000x512.size a := by
  show i ∈ ((View.whole main_v132).slice (win7_6.rect t)).set ↔ _
  rw [View.set_slice_whole, Rect.mem_set_unit]
  exact Iff.rfl

/-- Row `r` lies in the block of point `r / 1000`: the blocks cover the array. -/
theorem cover (i : S10000x512.Idx) : ∃ t : Fin cfg7.N, (cfg7.win 6).flush t = true ∧ i ∈ ((cfg7.win 6).blk t).view.set := by
  have hi0 : (i 0).val < 10000 := (i 0).isLt
  have hi1 : (i 1).val < 512 := (i 1).isLt
  have hN : grid7.N = 10 := N_7
  have ht : (i 0).val / 1000 < cfg7.N := by show (i 0).val / 1000 < grid7.N; rw [hN]; omega
  generalize htt : (⟨(i 0).val / 1000, ht⟩ : Fin cfg7.N) = t
  have htv : t.val = (i 0).val / 1000 := by rw [← htt]
  obtain ⟨e0, e1, e2, e3, e4, e5, e6, e7, e8, e9, e10, e11, e12, e13⟩ := idx_facts t
  refine ⟨t, flush7_6 t, ?_⟩
  rw [mem_blk]
  intro a
  match a with
  | ⟨0, _⟩ =>
    show win7_6.index t (0 : Fin 2) * 1000 ≤ (i 0).val ∧ (i 0).val < win7_6.index t (0 : Fin 2) * 1000 + 1000
    omega
  | ⟨1, _⟩ =>
    show win7_6.index t (1 : Fin 2) * 512 ≤ (i 1).val ∧ (i 1).val < win7_6.index t (1 : Fin 2) * 512 + 512
    omega

/-- The output array after the region. -/
theorem final (c : Dev nD) : (dat7 V c).arrAt 6 cfg7.N = Arr.sage10000 (V c main_v114) (V c main_v94) (V c main_v125) (V c main_v127) (V c main_v130) (V c main_v131) :=
  (dat7 V c).arrAt_eq_of_cover 6 _ (fun t _ => flushed_eq V c t) cover

end Cert.KernelIdeal.Reg7

end
-- ==== Proof.ChainL2.lean ====
/-
  Layer 3 of the network, kernel side against reference side.  The host operations before the
  layer's first region gather the servers' rows along the edges and scatter-add them at the devices
  (and the other way round for the second region), slice this layer's weights and bias out of the
  arguments, and reshape the reciprocal count to a column; each of these buffers holds the
  reference's stage of the same name, because the operations are the same and their operands are
  (previous layer, or an argument).  The region then leaves, entry by entry, the SAGE update in the
  kernel's arrangement, which is the reference's arrangement of the same entry: the count the
  reference clamps and divides by is the kernel's count (one scatter over a column, one over a
  vector: the same sum), it is at least one, and off zero dividing is multiplying by the reciprocal.
-/
import proofs.«106831_j73237782332046_2_alg».proof.Proof.ChainL1
import proofs.«106831_j73237782332046_2_alg».proof.Proof.KerReg6
import proofs.«106831_j73237782332046_2_alg».proof.Proof.KerReg7
import proofs.«106831_j73237782332046_2_alg».proof.Proof.CountScatter
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.Chain

open Cert.KernelIdeal Cert.KernelIdeal.Gen Cert.KernelIdeal.Pass Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-- The servers' rows before this layer (the previous layer's second region's output). -/
theorem hs_in2 (c : Dev nD) : W12 m ρ c (Proc.devRef .tc main_v94) = Cert.ReferenceIdeal.ReadP.val_main_v131 (F := Ideal) (x0 m c) (x1 m c) (x2 m c) (x3 m c) (x4 m c) (x5 m c) (x6 m c) (x7 m c) (x8 m c) (x9 m c) (x10 m c) (x11 m c) (x12 m c) := hs_out1 m ρ c
/-- The devices' rows before this layer (the previous layer's first region's output, carried over the second). -/
theorem hd_in2 (c : Dev nD) : W12 m ρ c (Proc.devRef .tc main_v85) = Cert.ReferenceIdeal.ReadP.val_main_v118 (F := Ideal) (x0 m c) (x1 m c) (x2 m c) (x3 m c) (x4 m c) (x5 m c) (x6 m c) (x7 m c) (x8 m c) (x9 m c) (x10 m c) (x11 m c) (x12 m c) :=
  (pass11_main_v85 m ρ c).trans ((pass10_main_v85 m ρ c).trans (hd_out1 m ρ c))
/-- The devices' reciprocal count where this layer's host operations read it. -/
theorem invD_in2 (c : Dev nD) : W12 m ρ c (Proc.devRef .tc main_v14) = invD (x10 m c) :=
  (pass11_main_v14 m ρ c).trans ((pass10_main_v14 m ρ c).trans ((pass9_main_v14 m ρ c).trans ((pass8_main_v14 m ρ c).trans (invD_in1 m ρ c))))
/-- The servers' reciprocal count where the second region's host operations read it. -/
theorem invS_in2 (c : Dev nD) : W14 m ρ c (Proc.devRef .tc main_v18) = invS (x12 m c) :=
  (pass13_main_v18 m ρ c).trans ((pass12_main_v18 m ρ c).trans ((pass11_main_v18 m ρ c).trans ((pass10_main_v18 m ρ c).trans (invS_in1 m ρ c))))

/-- The neighbour sums at the devices: the same gather and scatter-add of the servers' rows. -/
theorem sumD2 (c : Dev nD) : (W13 m ρ c (Proc.devRef .tc main_v104)) = Cert.ReferenceIdeal.ReadP.val_main_v141 (F := Ideal) (x0 m c) (x1 m c) (x2 m c) (x3 m c) (x4 m c) (x5 m c) (x6 m c) (x7 m c) (x8 m c) (x9 m c) (x10 m c) (x11 m c) (x12 m c) := by
  show StableHlo.after hostOps6 (W12 m ρ c) (Proc.devRef .tc main_v104) = _
  after_results_simp
  rw [hs_in2 m ρ c, arg12_main_arg9 m ρ c, arg12_main_arg10 m ρ c]
  rfl

/-- The neighbour sums at the servers: the same gather and scatter-add of the devices' rows. -/
theorem sumS2 (c : Dev nD) : (W13 m ρ c (Proc.devRef .tc main_v114)) = Cert.ReferenceIdeal.ReadP.val_main_v159 (F := Ideal) (x0 m c) (x1 m c) (x2 m c) (x3 m c) (x4 m c) (x5 m c) (x6 m c) (x7 m c) (x8 m c) (x9 m c) (x10 m c) (x11 m c) (x12 m c) := by
  show StableHlo.after hostOps6 (W12 m ρ c) (Proc.devRef .tc main_v114) = _
  after_results_simp
  rw [hd_in2 m ρ c, arg12_main_arg11 m ρ c, arg12_main_arg12 m ρ c]
  rfl

/-- This layer's neighbour weights for the devices. -/
theorem wlD2 (c : Dev nD) : (W13 m ρ c (Proc.devRef .tc main_v116)) = Cert.ReferenceIdeal.ReadP.val_main_v169 (F := Ideal) (x6 m c) := by
  show StableHlo.after hostOps6 (W12 m ρ c) (Proc.devRef .tc main_v116) = _
  after_results_simp
  rw [arg12_main_arg6 m ρ c]
  rfl

/-- This layer's own-row weights for the devices. -/
theorem wrD2 (c : Dev nD) : (W13 m ρ c (Proc.devRef .tc main_v118)) = Cert.ReferenceIdeal.ReadP.val_main_v177 (F := Ideal) (x8 m c) := by
  show StableHlo.after hostOps6 (W12 m ρ c) (Proc.devRef .tc main_v118) = _
  after_results_simp
  rw [arg12_main_arg8 m ρ c]
  rfl

/-- This layer's bias for the devices, as the row the region stages. -/
theorem bD2 (c : Dev nD) (j : Fin 512) : (W13 m ρ c (Proc.devRef .tc main_v121) : S1x512.Idx → EReal) (ix2 0 j) = Cert.ReferenceIdeal.ReadP.val_main_v172 (F := Ideal) (x7 m c) (ix1 j) := by
  show (StableHlo.after hostOps6 (W12 m ρ c) (Proc.devRef .tc main_v121) : S1x512.Idx → EReal) (ix2 0 j) = _
  after_results_simp
  rw [arg12_main_arg7 m ρ c]
  exact Cert.HostReads.bias_row _ j

/-- The reciprocal clamped count of device `i`, as the column the region stages: one over the reference's clamped count. -/
theorem invcolD2 (c : Dev nD) (i : Fin 50000) : (W13 m ρ c (Proc.devRef .tc main_v122) : S50000x1.Idx → EReal) (ix2 i 0)
    = Ideal.div 1 (max (Cert.ReferenceIdeal.ReadP.val_main_v145 (F := Ideal) (x10 m c) (ix2 i 0)) 1) := by
  show (StableHlo.after hostOps6 (W12 m ρ c) (Proc.devRef .tc main_v122) : S50000x1.Idx → EReal) (ix2 i 0) = _
  after_results_simp
  rw [invD_in2 m ρ c]
  unfold invD cntD
  refine (Cert.HostReads.recip_col_50000 _ i).trans ?_
  refine congrArg (fun t => Ideal.div 1 (max t 1)) ?_
  exact Cert.CountScatter.count_scatter_50000 _ _ _ _ _ (fun _ => rfl) (fun _ => rfl) i

/-- The devices' own rows at the region's entry. -/
theorem hd_ent2 (c : Dev nD) : W13 m ρ c (Proc.devRef .tc main_v85) = Cert.ReferenceIdeal.ReadP.val_main_v118 (F := Ideal) (x0 m c) (x1 m c) (x2 m c) (x3 m c) (x4 m c) (x5 m c) (x6 m c) (x7 m c) (x8 m c) (x9 m c) (x10 m c) (x11 m c) (x12 m c) :=
  (pass12_main_v85 m ρ c).trans (hd_in2 m ρ c)

/-- THE DEVICES AFTER LAYER 3: the region's output array is the reference's stage. -/
theorem hd_out2 (c : Dev nD) : W14 m ρ c (Proc.devRef .tc main_v123) = Cert.ReferenceIdeal.ReadP.val_main_v180 (F := Ideal) (x0 m c) (x1 m c) (x2 m c) (x3 m c) (x4 m c) (x5 m c) (x6 m c) (x7 m c) (x8 m c) (x9 m c) (x10 m c) (x11 m c) (x12 m c) := by
  refine (W14_arr m ρ c 6).trans ((Reg6.final (V13 m ρ) c).trans ?_)
  funext i
  refine Eq.trans ?_ (Cert.RefLayers.layer3_devices _ _ _ _ _ _ _ _ _ _ _ _ _ i).symm
  unfold Arr.sage50000
  refine (Cert.Spec.sageKerAt_congr (funext fun k => congrFun (sumD2 m ρ c) _) (funext fun k => congrFun (hd_ent2 m ρ c) _)
    (invcolD2 m ρ c (i 0)) (funext fun k => funext fun j => congrFun (wlD2 m ρ c) _)
    (funext fun k => funext fun j => congrFun (wrD2 m ρ c) _) (funext fun j => bD2 m ρ c j) rfl).trans ?_
  exact Cert.Spec.sageKerAt_recip _ _ _ (Cert.HostReads.one_le_clamp _) _ _ _ _

/-- The neighbour sums at the servers, carried over the first region to the second region's entry. -/
theorem sumS_ent2 (c : Dev nD) : W15 m ρ c (Proc.devRef .tc main_v114) = Cert.ReferenceIdeal.ReadP.val_main_v159 (F := Ideal) (x0 m c) (x1 m c) (x2 m c) (x3 m c) (x4 m c) (x5 m c) (x6 m c) (x7 m c) (x8 m c) (x9 m c) (x10 m c) (x11 m c) (x12 m c) :=
  (pass14_main_v114 m ρ c).trans ((pass13_main_v114 m ρ c).trans (sumS2 m ρ c))

/-- The servers' own rows at the second region's entry. -/
theorem hs_ent2 (c : Dev nD) : W15 m ρ c (Proc.devRef .tc main_v94) = Cert.ReferenceIdeal.ReadP.val_main_v131 (F := Ideal) (x0 m c) (x1 m c) (x2 m c) (x3 m c) (x4 m c) (x5 m c) (x6 m c) (x7 m c) (x8 m c) (x9 m c) (x10 m c) (x11 m c) (x12 m c) :=
  (pass14_main_v94 m ρ c).trans ((pass13_main_v94 m ρ c).trans ((pass12_main_v94 m ρ c).trans (hs_in2 m ρ c)))

/-- This layer's neighbour weights for the servers. -/
theorem wlS2 (c : Dev nD) : (W15 m ρ c (Proc.devRef .tc main_v125)) = Cert.ReferenceIdeal.ReadP.val_main_v182 (F := Ideal) (x6 m c) := by
  show StableHlo.after hostOps7 (W14 m ρ c) (Proc.devRef .tc main_v125) = _
  after_results_simp
  rw [arg14_main_arg6 m ρ c]
  rfl

/-- This layer's own-row weights for the servers. -/
theorem wrS2 (c : Dev nD) : (W15 m ρ c (Proc.devRef .tc main_v127)) = Cert.ReferenceIdeal.ReadP.val_main_v190 (F := Ideal) (x8 m c) := by
  show StableHlo.after hostOps7 (W14 m ρ c) (Proc.devRef .tc main_v127) = _
  after_results_simp
  rw [arg14_main_arg8 m ρ c]
  rfl

/-- This layer's bias for the servers, as the row the region stages. -/
theorem bS2 (c : Dev nD) (j : Fin 512) : (W15 m ρ c (Proc.devRef .tc main_v130) : S1x512.Idx → EReal) (ix2 0 j) = Cert.ReferenceIdeal.ReadP.val_main_v185 (F := Ideal) (x7 m c) (ix1 j) := by
  show (StableHlo.after hostOps7 (W14 m ρ c) (Proc.devRef .tc main_v130) : S1x512.Idx → EReal) (ix2 0 j) = _
  after_results_simp
  rw [arg14_main_arg7 m ρ c]
  exact Cert.HostReads.bias_row _ j

/-- The reciprocal clamped count of server `i`, as the column the region stages. -/
theorem invcolS2 (c : Dev nD) (i : Fin 10000) : (W15 m ρ c (Proc.devRef .tc main_v131) : S10000x1.Idx → EReal) (ix2 i 0)
    = Ideal.div 1 (max (Cert.ReferenceIdeal.ReadP.val_main_v163 (F := Ideal) (x12 m c) (ix2 i 0)) 1) := by
  show (StableHlo.after hostOps7 (W14 m ρ c) (Proc.devRef .tc main_v131) : S10000x1.Idx → EReal) (ix2 i 0) = _
  after_results_simp
  rw [invS_in2 m ρ c]
  unfold invS cntS
  refine (Cert.HostReads.recip_col_10000 _ i).trans ?_
  refine congrArg (fun t => Ideal.div 1 (max t 1)) ?_
  exact Cert.CountScatter.count_scatter_10000 _ _ _ _ _ (fun _ => rfl) (fun _ => rfl) i

/-- THE SERVERS AFTER LAYER 3: the region's output array is the reference's stage. -/
theorem hs_out2 (c : Dev nD) : W16 m ρ c (Proc.devRef .tc main_v132) = Cert.ReferenceIdeal.ReadP.val_main_v193 (F := Ideal) (x0 m c) (x1 m c) (x2 m c) (x3 m c) (x4 m c) (x5 m c) (x6 m c) (x7 m c) (x8 m c) (x9 m c) (x10 m c) (x11 m c) (x12 m c) := by
  refine (W16_arr m ρ c 6).trans ((Reg7.final (V15 m ρ) c).trans ?_)
  funext i
  refine Eq.trans ?_ (Cert.RefLayers.layer3_servers _ _ _ _ _ _ _ _ _ _ _ _ _ i).symm
  unfold Arr.sage10000
  refine (Cert.Spec.sageKerAt_congr (funext fun k => congrFun (sumS_ent2 m ρ c) _) (funext fun k => congrFun (hs_ent2 m ρ c) _)
    (invcolS2 m ρ c (i 0)) (funext fun k => funext fun j => congrFun (wlS2 m ρ c) _)
    (funext fun k => funext fun j => congrFun (wrS2 m ρ c) _) (funext fun j => bS2 m ρ c j) rfl).trans ?_
  exact Cert.Spec.sageKerAt_recip _ _ _ (Cert.HostReads.one_le_clamp _) _ _ _ _

end Cert.KernelIdeal.Chain

end
-- ==== Proof.KerReg8.lean ====
/-
  Region 8 (a SAGE update of the devices' 50000 rows, 50 grid points of 1000 rows): the array the
  region leaves in its output is `Arr.sage50000` of the arrays its input windows stage, whatever the
  contents `V` the region is entered with.  Each input block is read where the output block's rows
  say (row-blocked windows move with the point, the others are staged whole), the body's arithmetic
  at an index is the specification's entry, and the 50 output blocks tile the array.
-/
import proofs.«106831_j73237782332046_2_alg».proof.Proof.Gen.KernelIdeal.Frame
import proofs.«106831_j73237782332046_2_alg».proof.Proof.KerPay
import proofs.«106831_j73237782332046_2_alg».proof.Proof.KerArr
import Idealize.ShloMosaic.Lib.Pipeline.Value

set_option maxRecDepth 16384

noncomputable section

namespace Cert.KernelIdeal.Reg8

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point, every other index is 0. -/
theorem idx_facts : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = t.val
    ∧ win8_5.index t (1 : Fin 2) = 0
    ∧ win8_6.index t (0 : Fin 2) = t.val
    ∧ win8_6.index t (1 : Fin 2) = 0 :=
  (by decide +kernel : ∀ t : Fin grid8.N, _)

/-- Window 0's block at point `t`: rows `1000 t …` of its array. -/
theorem blk0 (c : Dev nD) (t : Fin cfg8.N) (y : S1000x512.Idx) (i : S50000x512.Idx)
    (h0 : (i 0).val = t.val * 1000 + (y 0).val) (h1 : (i 1).val = (y 1).val) :
    (iblk8 V c 0 t : Vec Ideal S1000x512 .f32) y = (V c main_v142 : S50000x512.Idx → EReal) i := by
  obtain ⟨e0, e1, e2, e3, e4, e5, e6, e7, e8, e9, e10, e11, e12, e13⟩ := idx_facts t
  unfold iblk8
  rw [View.read_apply]
  show V c main_v142 _ = V c main_v142 _
  congr 1
  funext a
  apply Fin.ext
  match a with
  | ⟨0, _⟩ => show win8_0.index t (0 : Fin 2) * 1000 + 1 * (y 0).val = (i 0).val; omega
  | ⟨1, _⟩ => show win8_0.index t (1 : Fin 2) * 512 + 1 * (y 1).val = (i 1).val; omega

/-- Window 1's block at point `t`: rows `1000 t …` of its array. -/
theorem blk1 (c : Dev nD) (t : Fin cfg8.N) (y : S1000x512.Idx) (i : S50000x512.Idx)
    (h0 : (i 0).val = t.val * 1000 + (y 0).val) (h1 : (i 1).val = (y 1).val) :
    (iblk8 V c 1 t : Vec Ideal S1000x512 .f32) y = (V c main_v123 : S50000x512.Idx → EReal) i := by
  obtain ⟨e0, e1, e2, e3, e4, e5, e6, e7, e8, e9, e10, e11, e12, e13⟩ := idx_facts t
  unfold iblk8
  rw [View.read_apply]
  show V c main_v123 _ = V c main_v123 _
  congr 1
  funext a
  apply Fin.ext
  match a with
  | ⟨0, _⟩ => show win8_1.index t (0 : Fin 2) * 1000 + 1 * (y 0).val = (i 0).val; omega
  | ⟨1, _⟩ => show win8_1.index t (1 : Fin 2) * 512 + 1 * (y 1).val = (i 1).val; omega

/-- Window 2's block at point `t` is its whole array. -/
theorem blk2 (c : Dev nD) (t : Fin cfg8.N) (y : S512x512.Idx) (i : S512x512.Idx)
    (h0 : (i 0).val = (y 0).val) (h1 : (i 1).val = (y 1).val) :
    (iblk8 V c 2 t : Vec Ideal S512x512 .f32) y = (V c main_v154 : S512x512.Idx → EReal) i := by
  obtain ⟨e0, e1, e2, e3, e4, e5, e6, e7, e8, e9, e10, e11, e12, e13⟩ := idx_facts t
  unfold iblk8
  rw [View.read_apply]
  show V c main_v154 _ = V c main_v154 _
  congr 1
  funext a
  apply Fin.ext
  match a with
  | ⟨0, _⟩ => show win8_2.index t (0 : Fin 2) * 512 + 1 * (y 0).val = (i 0).val; omega
  | ⟨1, _⟩ => show win8_2.index t (1 : Fin 2) * 512 + 1 * (y 1).val = (i 1).val; omega

/-- Window 3's block at point `t` is its whole array. -/
theorem blk3 (c : Dev nD) (t : Fin cfg8.N) (y : S512x512.Idx) (i : S512x512.Idx)
    (h0 : (i 0).val = (y 0).val) (h1 : (i 1).val = (y 1).val) :
    (iblk8 V c 3 t : Vec Ideal S512x512 .f32) y = (V c main_v156 : S512x512.Idx → EReal) i := by
  obtain ⟨e0, e1, e2, e3, e4, e5, e6, e7, e8, e9, e10, e11, e12, e13⟩ := idx_facts t
  unfold iblk8
  rw [View.read_apply]
  show V c main_v156 _ = V c main_v156 _
  congr 1
  funext a
  apply Fin.ext
  match a with
  | ⟨0, _⟩ => show win8_3.index t (0 : Fin 2) * 512 + 1 * (y 0).val = (i 0).val; omega
  | ⟨1, _⟩ => show win8_3.index t (1 : Fin 2) * 512 + 1 * (y 1).val = (i 1).val; omega

/-- Window 4's block at point `t` is its whole array. -/
theorem blk4 (c : Dev nD) (t : Fin cfg8.N) (y : S1x512.Idx) (i : S1x512.Idx)
    (h0 : (i 0).val = (y 0).val) (h1 : (i 1).val = (y 1).val) :
    (iblk8 V c 4 t : Vec Ideal S1x512 .f32) y = (V c main_v159 : S1x512.Idx → EReal) i := by
  obtain ⟨e0, e1, e2, e3, e4, e5, e6, e7, e8, e9, e10, e11, e12, e13⟩ := idx_facts t
  unfold iblk8
  rw [View.read_apply]
  show V c main_v159 _ = V c main_v159 _
  congr 1
  funext a
  apply Fin.ext
  match a with
  | ⟨0, _⟩ => show win8_4.index t (0 : Fin 2) * 1 + 1 * (y 0).val = (i 0).val; omega
  | ⟨1, _⟩ => show win8_4.index t (1 : Fin 2) * 512 + 1 * (y 1).val = (i 1).val; omega

/-- Window 5's block at point `t`: rows `1000 t …` of its array. -/
theorem blk5 (c : Dev nD) (t : Fin cfg8.N) (y : S1000x1.Idx) (i : S50000x1.Idx)
    (h0 : (i 0).val = t.val * 1000 + (y 0).val) (h1 : (i 1).val = (y 1).val) :
    (iblk8 V c 5 t : Vec Ideal S1000x1 .f32) y = (V c main_v160 : S50000x1.Idx → EReal) i := by
  obtain ⟨e0, e1, e2, e3, e4, e5, e6, e7, e8, e9, e10, e11, e12, e13⟩ := idx_facts t
  unfold iblk8
  rw [View.read_apply]
  show V c main_v160 _ = V c main_v160 _
  congr 1
  funext a
  apply Fin.ext
  match a with
  | ⟨0, _⟩ => show win8_5.index t (0 : Fin 2) * 1000 + 1 * (y 0).val = (i 0).val; omega
  | ⟨1, _⟩ => show win8_5.index t (1 : Fin 2) * 1 + 1 * (y 1).val = (i 1).val; omega

/-- What point `t` writes back is block `t` of the region's function of its input arrays. -/
theorem flushed_eq (c : Dev nD) (t : Fin cfg8.N) :
    (dat8 V c).flushed 6 t = ((cfg8.win 6).blk t).view.read (Elt Ideal) (Arr.sage50000 (V c main_v142) (V c main_v123) (V c main_v154) (V c main_v156) (V c main_v159) (V c main_v160)) := by
  show (cfg8.win 6).cut (grid8.coords t) ((dat8 V c).after 6 t) = _
  rw [after8_6]
  unfold out8_6
  rw [View.canon_unit_zero hz]
  simp only [View.ld_unit_zero (S := S1000x512) hz, View.ld_unit_zero (S := S512x512) hz, View.ld_unit_zero (S := S1x512) hz, View.ld_unit_zero (S := S1000x1) hz]
  obtain ⟨e0, e1, e2, e3, e4, e5, e6, e7, e8, e9, e10, e11, e12, e13⟩ := idx_facts t
  funext j
  revert j
  intro (j : S1000x512.Idx)
  show k8_pay1 (F := Ideal) (iblk8 V c 0 t) (iblk8 V c 5 t) (iblk8 V c 2 t) (iblk8 V c 1 t) (iblk8 V c 3 t) (iblk8 V c 4 t) j = Arr.sage50000 (V c main_v142) (V c main_v123) (V c main_v154) (V c main_v156) (V c main_v159) (V c main_v160) (((cfg8.win 6).blk t).view.emb j)
  rw [Pay.pay8_eq]
  refine (Pay.sage_body (iblk8 V c 0 t) (iblk8 V c 5 t) (iblk8 V c 2 t) (iblk8 V c 1 t) (iblk8 V c 3 t) (iblk8 V c 4 t) j).trans ?_
  unfold Arr.sage50000
  refine Cert.Spec.sageKerAt_congr (funext fun k => ?_) (funext fun k => ?_) ?_ (funext fun k => funext fun j' => ?_)
    (funext fun k => funext fun j' => ?_) (funext fun j' => ?_) (Fin.ext ?_)
  · exact blk0 V c t (ix2 (j 0) k) _ (by show (((cfg8.win 6).blk t).view.emb j (0 : Fin 2)).val = t.val * 1000 + (j 0).val; show win8_6.index t (0 : Fin 2) * 1000 + 1 * (j 0).val = _; omega) rfl
  · exact blk1 V c t (ix2 (j 0) k) _ (by show (((cfg8.win 6).blk t).view.emb j (0 : Fin 2)).val = t.val * 1000 + (j 0).val; show win8_6.index t (0 : Fin 2) * 1000 + 1 * (j 0).val = _; omega) rfl
  · exact blk5 V c t (ix2 (j 0) 0) _ (by show (((cfg8.win 6).blk t).view.emb j (0 : Fin 2)).val = t.val * 1000 + (j 0).val; show win8_6.index t (0 : Fin 2) * 1000 + 1 * (j 0).val = _; omega) rfl
  · exact blk2 V c t (ix2 k j') _ rfl rfl
  · exact blk3 V c t (ix2 k j') _ rfl rfl
  · exact blk4 V c t (ix2 0 j') _ rfl rfl
  · show (j 1).val = win8_6.index t (1 : Fin 2) * 512 + 1 * (j 1).val; omega

/-- An index of the output array is in point `t`'s block iff each coordinate is in the block's range. -/
theorem mem_blk (t : Fin cfg8.N) (i : S50000x512.Idx) :
    i ∈ ((cfg8.win 6).blk t).view.set ↔ ∀ a : Fin 2, win8_6.index t a * S1000x512.size a ≤ (i a).val
      ∧ (i a).val < win8_6.index t a * S1000x512.size a + S1000x512.size a := by
  show i ∈ ((View.whole main_v161).slice (win8_6.rect t)).set ↔ _
  rw [View.set_slice_whole, Rect.mem_set_unit]
  exact Iff.rfl

/-- Row `r` lies in the block of point `r / 1000`: the blocks cover the array. -/
theorem cover (i : S50000x512.Idx) : ∃ t : Fin cfg8.N, (cfg8.win 6).flush t = true ∧ i ∈ ((cfg8.win 6).blk t).view.set := by
  have hi0 : (i 0).val < 50000 := (i 0).isLt
  have hi1 : (i 1).val < 512 := (i 1).isLt
  have hN : grid8.N = 50 := N_8
  have ht : (i 0).val / 1000 < cfg8.N := by show (i 0).val / 1000 < grid8.N; rw [hN]; omega
  generalize htt : (⟨(i 0).val / 1000, ht⟩ : Fin cfg8.N) = t
  have htv : t.val = (i 0).val / 1000 := by rw [← htt]
  obtain ⟨e0, e1, e2, e3, e4, e5, e6, e7, e8, e9, e10, e11, e12, e13⟩ := idx_facts t
  refine ⟨t, flush8_6 t, ?_⟩
  rw [mem_blk]
  intro a
  match a with
  | ⟨0, _⟩ =>
    show win8_6.index t (0 : Fin 2) * 1000 ≤ (i 0).val ∧ (i 0).val < win8_6.index t (0 : Fin 2) * 1000 + 1000
    omega
  | ⟨1, _⟩ =>
    show win8_6.index t (1 : Fin 2) * 512 ≤ (i 1).val ∧ (i 1).val < win8_6.index t (1 : Fin 2) * 512 + 512
    omega

/-- The output array after the region. -/
theorem final (c : Dev nD) : (dat8 V c).arrAt 6 cfg8.N = Arr.sage50000 (V c main_v142) (V c main_v123) (V c main_v154) (V c main_v156) (V c main_v159) (V c main_v160) :=
  (dat8 V c).arrAt_eq_of_cover 6 _ (fun t _ => flushed_eq V c t) cover

end Cert.KernelIdeal.Reg8

end
-- ==== Proof.KerReg9.lean ====
/-
  Region 9 (a SAGE update of the servers' 10000 rows, 10 grid points of 1000 rows): the array the
  region leaves in its output is `Arr.sage10000` of the arrays its input windows stage, whatever the
  contents `V` the region is entered with.  Each input block is read where the output block's rows
  say (row-blocked windows move with the point, the others are staged whole), the body's arithmetic
  at an index is the specification's entry, and the 10 output blocks tile the array.
-/
import proofs.«106831_j73237782332046_2_alg».proof.Proof.Gen.KernelIdeal.Frame
import proofs.«106831_j73237782332046_2_alg».proof.Proof.KerPay
import proofs.«106831_j73237782332046_2_alg».proof.Proof.KerArr
import Idealize.ShloMosaic.Lib.Pipeline.Value

set_option maxRecDepth 16384

noncomputable section

namespace Cert.KernelIdeal.Reg9

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is the point, every other index is 0. -/
theorem idx_facts : ∀ t : Fin cfg9.N, win9_0.index t (0 : Fin 2) = t.val
    ∧ win9_0.index t (1 : Fin 2) = 0
    ∧ win9_1.index t (0 : Fin 2) = t.val
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = t.val
    ∧ win9_5.index t (1 : Fin 2) = 0
    ∧ win9_6.index t (0 : Fin 2) = t.val
    ∧ win9_6.index t (1 : Fin 2) = 0 :=
  (by decide +kernel : ∀ t : Fin grid9.N, _)

/-- Window 0's block at point `t`: rows `1000 t …` of its array. -/
theorem blk0 (c : Dev nD) (t : Fin cfg9.N) (y : S1000x512.Idx) (i : S10000x512.Idx)
    (h0 : (i 0).val = t.val * 1000 + (y 0).val) (h1 : (i 1).val = (y 1).val) :
    (iblk9 V c 0 t : Vec Ideal S1000x512 .f32) y = (V c main_v152 : S10000x512.Idx → EReal) i := by
  obtain ⟨e0, e1, e2, e3, e4, e5, e6, e7, e8, e9, e10, e11, e12, e13⟩ := idx_facts t
  unfold iblk9
  rw [View.read_apply]
  show V c main_v152 _ = V c main_v152 _
  congr 1
  funext a
  apply Fin.ext
  match a with
  | ⟨0, _⟩ => show win9_0.index t (0 : Fin 2) * 1000 + 1 * (y 0).val = (i 0).val; omega
  | ⟨1, _⟩ => show win9_0.index t (1 : Fin 2) * 512 + 1 * (y 1).val = (i 1).val; omega

/-- Window 1's block at point `t`: rows `1000 t …` of its array. -/
theorem blk1 (c : Dev nD) (t : Fin cfg9.N) (y : S1000x512.Idx) (i : S10000x512.Idx)
    (h0 : (i 0).val = t.val * 1000 + (y 0).val) (h1 : (i 1).val = (y 1).val) :
    (iblk9 V c 1 t : Vec Ideal S1000x512 .f32) y = (V c main_v132 : S10000x512.Idx → EReal) i := by
  obtain ⟨e0, e1, e2, e3, e4, e5, e6, e7, e8, e9, e10, e11, e12, e13⟩ := idx_facts t
  unfold iblk9
  rw [View.read_apply]
  show V c main_v132 _ = V c main_v132 _
  congr 1
  funext a
  apply Fin.ext
  match a with
  | ⟨0, _⟩ => show win9_1.index t (0 : Fin 2) * 1000 + 1 * (y 0).val = (i 0).val; omega
  | ⟨1, _⟩ => show win9_1.index t (1 : Fin 2) * 512 + 1 * (y 1).val = (i 1).val; omega

/-- Window 2's block at point `t` is its whole array. -/
theorem blk2 (c : Dev nD) (t : Fin cfg9.N) (y : S512x512.Idx) (i : S512x512.Idx)
    (h0 : (i 0).val = (y 0).val) (h1 : (i 1).val = (y 1).val) :
    (iblk9 V c 2 t : Vec Ideal S512x512 .f32) y = (V c main_v163 : S512x512.Idx → EReal) i := by
  obtain ⟨e0, e1, e2, e3, e4, e5, e6, e7, e8, e9, e10, e11, e12, e13⟩ := idx_facts t
  unfold iblk9
  rw [View.read_apply]
  show V c main_v163 _ = V c main_v163 _
  congr 1
  funext a
  apply Fin.ext
  match a with
  | ⟨0, _⟩ => show win9_2.index t (0 : Fin 2) * 512 + 1 * (y 0).val = (i 0).val; omega
  | ⟨1, _⟩ => show win9_2.index t (1 : Fin 2) * 512 + 1 * (y 1).val = (i 1).val; omega

/-- Window 3's block at point `t` is its whole array. -/
theorem blk3 (c : Dev nD) (t : Fin cfg9.N) (y : S512x512.Idx) (i : S512x512.Idx)
    (h0 : (i 0).val = (y 0).val) (h1 : (i 1).val = (y 1).val) :
    (iblk9 V c 3 t : Vec Ideal S512x512 .f32) y = (V c main_v165 : S512x512.Idx → EReal) i := by
  obtain ⟨e0, e1, e2, e3, e4, e5, e6, e7, e8, e9, e10, e11, e12, e13⟩ := idx_facts t
  unfold iblk9
  rw [View.read_apply]
  show V c main_v165 _ = V c main_v165 _
  congr 1
  funext a
  apply Fin.ext
  match a with
  | ⟨0, _⟩ => show win9_3.index t (0 : Fin 2) * 512 + 1 * (y 0).val = (i 0).val; omega
  | ⟨1, _⟩ => show win9_3.index t (1 : Fin 2) * 512 + 1 * (y 1).val = (i 1).val; omega

/-- Window 4's block at point `t` is its whole array. -/
theorem blk4 (c : Dev nD) (t : Fin cfg9.N) (y : S1x512.Idx) (i : S1x512.Idx)
    (h0 : (i 0).val = (y 0).val) (h1 : (i 1).val = (y 1).val) :
    (iblk9 V c 4 t : Vec Ideal S1x512 .f32) y = (V c main_v168 : S1x512.Idx → EReal) i := by
  obtain ⟨e0, e1, e2, e3, e4, e5, e6, e7, e8, e9, e10, e11, e12, e13⟩ := idx_facts t
  unfold iblk9
  rw [View.read_apply]
  show V c main_v168 _ = V c main_v168 _
  congr 1
  funext a
  apply Fin.ext
  match a with
  | ⟨0, _⟩ => show win9_4.index t (0 : Fin 2) * 1 + 1 * (y 0).val = (i 0).val; omega
  | ⟨1, _⟩ => show win9_4.index t (1 : Fin 2) * 512 + 1 * (y 1).val = (i 1).val; omega

/-- Window 5's block at point `t`: rows `1000 t …` of its array. -/
theorem blk5 (c : Dev nD) (t : Fin cfg9.N) (y : S1000x1.Idx) (i : S10000x1.Idx)
    (h0 : (i 0).val = t.val * 1000 + (y 0).val) (h1 : (i 1).val = (y 1).val) :
    (iblk9 V c 5 t : Vec Ideal S1000x1 .f32) y = (V c main_v169 : S10000x1.Idx → EReal) i := by
  obtain ⟨e0, e1, e2, e3, e4, e5, e6, e7, e8, e9, e10, e11, e12, e13⟩ := idx_facts t
  unfold iblk9
  rw [View.read_apply]
  show V c main_v169 _ = V c main_v169 _
  congr 1
  funext a
  apply Fin.ext
  match a with
  | ⟨0, _⟩ => show win9_5.index t (0 : Fin 2) * 1000 + 1 * (y 0).val = (i 0).val; omega
  | ⟨1, _⟩ => show win9_5.index t (1 : Fin 2) * 1 + 1 * (y 1).val = (i 1).val; omega

/-- What point `t` writes back is block `t` of the region's function of its input arrays. -/
theorem flushed_eq (c : Dev nD) (t : Fin cfg9.N) :
    (dat9 V c).flushed 6 t = ((cfg9.win 6).blk t).view.read (Elt Ideal) (Arr.sage10000 (V c main_v152) (V c main_v132) (V c main_v163) (V c main_v165) (V c main_v168) (V c main_v169)) := by
  show (cfg9.win 6).cut (grid9.coords t) ((dat9 V c).after 6 t) = _
  rw [after9_6]
  unfold out9_6
  rw [View.canon_unit_zero hz]
  simp only [View.ld_unit_zero (S := S1000x512) hz, View.ld_unit_zero (S := S512x512) hz, View.ld_unit_zero (S := S1x512) hz, View.ld_unit_zero (S := S1000x1) hz]
  obtain ⟨e0, e1, e2, e3, e4, e5, e6, e7, e8, e9, e10, e11, e12, e13⟩ := idx_facts t
  funext j
  revert j
  intro (j : S1000x512.Idx)
  show k9_pay1 (F := Ideal) (iblk9 V c 0 t) (iblk9 V c 5 t) (iblk9 V c 2 t) (iblk9 V c 1 t) (iblk9 V c 3 t) (iblk9 V c 4 t) j = Arr.sage10000 (V c main_v152) (V c main_v132) (V c main_v163) (V c main_v165) (V c main_v168) (V c main_v169) (((cfg9.win 6).blk t).view.emb j)
  rw [Pay.pay9_eq]
  refine (Pay.sage_body (iblk9 V c 0 t) (iblk9 V c 5 t) (iblk9 V c 2 t) (iblk9 V c 1 t) (iblk9 V c 3 t) (iblk9 V c 4 t) j).trans ?_
  unfold Arr.sage10000
  refine Cert.Spec.sageKerAt_congr (funext fun k => ?_) (funext fun k => ?_) ?_ (funext fun k => funext fun j' => ?_)
    (funext fun k => funext fun j' => ?_) (funext fun j' => ?_) (Fin.ext ?_)
  · exact blk0 V c t (ix2 (j 0) k) _ (by show (((cfg9.win 6).blk t).view.emb j (0 : Fin 2)).val = t.val * 1000 + (j 0).val; show win9_6.index t (0 : Fin 2) * 1000 + 1 * (j 0).val = _; omega) rfl
  · exact blk1 V c t (ix2 (j 0) k) _ (by show (((cfg9.win 6).blk t).view.emb j (0 : Fin 2)).val = t.val * 1000 + (j 0).val; show win9_6.index t (0 : Fin 2) * 1000 + 1 * (j 0).val = _; omega) rfl
  · exact blk5 V c t (ix2 (j 0) 0) _ (by show (((cfg9.win 6).blk t).view.emb j (0 : Fin 2)).val = t.val * 1000 + (j 0).val; show win9_6.index t (0 : Fin 2) * 1000 + 1 * (j 0).val = _; omega) rfl
  · exact blk2 V c t (ix2 k j') _ rfl rfl
  · exact blk3 V c t (ix2 k j') _ rfl rfl
  · exact blk4 V c t (ix2 0 j') _ rfl rfl
  · show (j 1).val = win9_6.index t (1 : Fin 2) * 512 + 1 * (j 1).val; omega

/-- An index of the output array is in point `t`'s block iff each coordinate is in the block's range. -/
theorem mem_blk (t : Fin cfg9.N) (i : S10000x512.Idx) :
    i ∈ ((cfg9.win 6).blk t).view.set ↔ ∀ a : Fin 2, win9_6.index t a * S1000x512.size a ≤ (i a).val
      ∧ (i a).val < win9_6.index t a * S1000x512.size a + S1000x512.size a := by
  show i ∈ ((View.whole main_v170).slice (win9_6.rect t)).set ↔ _
  rw [View.set_slice_whole, Rect.mem_set_unit]
  exact Iff.rfl

/-- Row `r` lies in the block of point `r / 1000`: the blocks cover the array. -/
theorem cover (i : S10000x512.Idx) : ∃ t : Fin cfg9.N, (cfg9.win 6).flush t = true ∧ i ∈ ((cfg9.win 6).blk t).view.set := by
  have hi0 : (i 0).val < 10000 := (i 0).isLt
  have hi1 : (i 1).val < 512 := (i 1).isLt
  have hN : grid9.N = 10 := N_9
  have ht : (i 0).val / 1000 < cfg9.N := by show (i 0).val / 1000 < grid9.N; rw [hN]; omega
  generalize htt : (⟨(i 0).val / 1000, ht⟩ : Fin cfg9.N) = t
  have htv : t.val = (i 0).val / 1000 := by rw [← htt]
  obtain ⟨e0, e1, e2, e3, e4, e5, e6, e7, e8, e9, e10, e11, e12, e13⟩ := idx_facts t
  refine ⟨t, flush9_6 t, ?_⟩
  rw [mem_blk]
  intro a
  match a with
  | ⟨0, _⟩ =>
    show win9_6.index t (0 : Fin 2) * 1000 ≤ (i 0).val ∧ (i 0).val < win9_6.index t (0 : Fin 2) * 1000 + 1000
    omega
  | ⟨1, _⟩ =>
    show win9_6.index t (1 : Fin 2) * 512 ≤ (i 1).val ∧ (i 1).val < win9_6.index t (1 : Fin 2) * 512 + 512
    omega

/-- The output array after the region. -/
theorem final (c : Dev nD) : (dat9 V c).arrAt 6 cfg9.N = Arr.sage10000 (V c main_v152) (V c main_v132) (V c main_v163) (V c main_v165) (V c main_v168) (V c main_v169) :=
  (dat9 V c).arrAt_eq_of_cover 6 _ (fun t _ => flushed_eq V c t) cover

end Cert.KernelIdeal.Reg9

end
-- ==== Proof.ChainL3.lean ====
/-
  Layer 4 of the network, kernel side against reference side.  The host operations before the
  layer's first region gather the servers' rows along the edges and scatter-add them at the devices
  (and the other way round for the second region), slice this layer's weights and bias out of the
  arguments, and reshape the reciprocal count to a column; each of these buffers holds the
  reference's stage of the same name, because the operations are the same and their operands are
  (previous layer, or an argument).  The region then leaves, entry by entry, the SAGE update in the
  kernel's arrangement, which is the reference's arrangement of the same entry: the count the
  reference clamps and divides by is the kernel's count (one scatter over a column, one over a
  vector: the same sum), it is at least one, and off zero dividing is multiplying by the reciprocal.
-/
import proofs.«106831_j73237782332046_2_alg».proof.Proof.ChainL2
import proofs.«106831_j73237782332046_2_alg».proof.Proof.KerReg8
import proofs.«106831_j73237782332046_2_alg».proof.Proof.KerReg9
import proofs.«106831_j73237782332046_2_alg».proof.Proof.CountScatter
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.Chain

open Cert.KernelIdeal Cert.KernelIdeal.Gen Cert.KernelIdeal.Pass Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-- The servers' rows before this layer (the previous layer's second region's output). -/
theorem hs_in3 (c : Dev nD) : W16 m ρ c (Proc.devRef .tc main_v132) = Cert.ReferenceIdeal.ReadP.val_main_v193 (F := Ideal) (x0 m c) (x1 m c) (x2 m c) (x3 m c) (x4 m c) (x5 m c) (x6 m c) (x7 m c) (x8 m c) (x9 m c) (x10 m c) (x11 m c) (x12 m c) := hs_out2 m ρ c
/-- The devices' rows before this layer (the previous layer's first region's output, carried over the second). -/
theorem hd_in3 (c : Dev nD) : W16 m ρ c (Proc.devRef .tc main_v123) = Cert.ReferenceIdeal.ReadP.val_main_v180 (F := Ideal) (x0 m c) (x1 m c) (x2 m c) (x3 m c) (x4 m c) (x5 m c) (x6 m c) (x7 m c) (x8 m c) (x9 m c) (x10 m c) (x11 m c) (x12 m c) :=
  (pass15_main_v123 m ρ c).trans ((pass14_main_v123 m ρ c).trans (hd_out2 m ρ c))
/-- The devices' reciprocal count where this layer's host operations read it. -/
theorem invD_in3 (c : Dev nD) : W16 m ρ c (Proc.devRef .tc main_v14) = invD (x10 m c) :=
  (pass15_main_v14 m ρ c).trans ((pass14_main_v14 m ρ c).trans ((pass13_main_v14 m ρ c).trans ((pass12_main_v14 m ρ c).trans (invD_in2 m ρ c))))
/-- The servers' reciprocal count where the second region's host operations read it. -/
theorem invS_in3 (c : Dev nD) : W18 m ρ c (Proc.devRef .tc main_v18) = invS (x12 m c) :=
  (pass17_main_v18 m ρ c).trans ((pass16_main_v18 m ρ c).trans ((pass15_main_v18 m ρ c).trans ((pass14_main_v18 m ρ c).trans (invS_in2 m ρ c))))

/-- The neighbour sums at the devices: the same gather and scatter-add of the servers' rows. -/
theorem sumD3 (c : Dev nD) : (W17 m ρ c (Proc.devRef .tc main_v142)) = Cert.ReferenceIdeal.ReadP.val_main_v203 (F := Ideal) (x0 m c) (x1 m c) (x2 m c) (x3 m c) (x4 m c) (x5 m c) (x6 m c) (x7 m c) (x8 m c) (x9 m c) (x10 m c) (x11 m c) (x12 m c) := by
  show StableHlo.after hostOps8 (W16 m ρ c) (Proc.devRef .tc main_v142) = _
  after_results_simp
  rw [hs_in3 m ρ c, arg16_main_arg9 m ρ c, arg16_main_arg10 m ρ c]
  rfl

/-- The neighbour sums at the servers: the same gather and scatter-add of the devices' rows. -/
theorem sumS3 (c : Dev nD) : (W17 m ρ c (Proc.devRef .tc main_v152)) = Cert.ReferenceIdeal.ReadP.val_main_v221 (F := Ideal) (x0 m c) (x1 m c) (x2 m c) (x3 m c) (x4 m c) (x5 m c) (x6 m c) (x7 m c) (x8 m c) (x9 m c) (x10 m c) (x11 m c) (x12 m c) := by
  show StableHlo.after hostOps8 (W16 m ρ c) (Proc.devRef .tc main_v152) = _
  after_results_simp
  rw [hd_in3 m ρ c, arg16_main_arg11 m ρ c, arg16_main_arg12 m ρ c]
  rfl

/-- This layer's neighbour weights for the devices. -/
theorem wlD3 (c : Dev nD) : (W17 m ρ c (Proc.devRef .tc main_v154)) = Cert.ReferenceIdeal.ReadP.val_main_v231 (F := Ideal) (x6 m c) := by
  show StableHlo.after hostOps8 (W16 m ρ c) (Proc.devRef .tc main_v154) = _
  after_results_simp
  rw [arg16_main_arg6 m ρ c]
  rfl

/-- This layer's own-row weights for the devices. -/
theorem wrD3 (c : Dev nD) : (W17 m ρ c (Proc.devRef .tc main_v156)) = Cert.ReferenceIdeal.ReadP.val_main_v239 (F := Ideal) (x8 m c) := by
  show StableHlo.after hostOps8 (W16 m ρ c) (Proc.devRef .tc main_v156) = _
  after_results_simp
  rw [arg16_main_arg8 m ρ c]
  rfl

/-- This layer's bias for the devices, as the row the region stages. -/
theorem bD3 (c : Dev nD) (j : Fin 512) : (W17 m ρ c (Proc.devRef .tc main_v159) : S1x512.Idx → EReal) (ix2 0 j) = Cert.ReferenceIdeal.ReadP.val_main_v234 (F := Ideal) (x7 m c) (ix1 j) := by
  show (StableHlo.after hostOps8 (W16 m ρ c) (Proc.devRef .tc main_v159) : S1x512.Idx → EReal) (ix2 0 j) = _
  after_results_simp
  rw [arg16_main_arg7 m ρ c]
  exact Cert.HostReads.bias_row _ j

/-- The reciprocal clamped count of device `i`, as the column the region stages: one over the reference's clamped count. -/
theorem invcolD3 (c : Dev nD) (i : Fin 50000) : (W17 m ρ c (Proc.devRef .tc main_v160) : S50000x1.Idx → EReal) (ix2 i 0)
    = Ideal.div 1 (max (Cert.ReferenceIdeal.ReadP.val_main_v207 (F := Ideal) (x10 m c) (ix2 i 0)) 1) := by
  show (StableHlo.after hostOps8 (W16 m ρ c) (Proc.devRef .tc main_v160) : S50000x1.Idx → EReal) (ix2 i 0) = _
  after_results_simp
  rw [invD_in3 m ρ c]
  unfold invD cntD
  refine (Cert.HostReads.recip_col_50000 _ i).trans ?_
  refine congrArg (fun t => Ideal.div 1 (max t 1)) ?_
  exact Cert.CountScatter.count_scatter_50000 _ _ _ _ _ (fun _ => rfl) (fun _ => rfl) i

/-- The devices' own rows at the region's entry. -/
theorem hd_ent3 (c : Dev nD) : W17 m ρ c (Proc.devRef .tc main_v123) = Cert.ReferenceIdeal.ReadP.val_main_v180 (F := Ideal) (x0 m c) (x1 m c) (x2 m c) (x3 m c) (x4 m c) (x5 m c) (x6 m c) (x7 m c) (x8 m c) (x9 m c) (x10 m c) (x11 m c) (x12 m c) :=
  (pass16_main_v123 m ρ c).trans (hd_in3 m ρ c)

/-- THE DEVICES AFTER LAYER 4: the region's output array is the reference's stage. -/
theorem hd_out3 (c : Dev nD) : W18 m ρ c (Proc.devRef .tc main_v161) = Cert.ReferenceIdeal.ReadP.val_main_v242 (F := Ideal) (x0 m c) (x1 m c) (x2 m c) (x3 m c) (x4 m c) (x5 m c) (x6 m c) (x7 m c) (x8 m c) (x9 m c) (x10 m c) (x11 m c) (x12 m c) := by
  refine (W18_arr m ρ c 6).trans ((Reg8.final (V17 m ρ) c).trans ?_)
  funext i
  refine Eq.trans ?_ (Cert.RefLayers.layer4_devices _ _ _ _ _ _ _ _ _ _ _ _ _ i).symm
  unfold Arr.sage50000
  refine (Cert.Spec.sageKerAt_congr (funext fun k => congrFun (sumD3 m ρ c) _) (funext fun k => congrFun (hd_ent3 m ρ c) _)
    (invcolD3 m ρ c (i 0)) (funext fun k => funext fun j => congrFun (wlD3 m ρ c) _)
    (funext fun k => funext fun j => congrFun (wrD3 m ρ c) _) (funext fun j => bD3 m ρ c j) rfl).trans ?_
  exact Cert.Spec.sageKerAt_recip _ _ _ (Cert.HostReads.one_le_clamp _) _ _ _ _

/-- The neighbour sums at the servers, carried over the first region to the second region's entry. -/
theorem sumS_ent3 (c : Dev nD) : W19 m ρ c (Proc.devRef .tc main_v152) = Cert.ReferenceIdeal.ReadP.val_main_v221 (F := Ideal) (x0 m c) (x1 m c) (x2 m c) (x3 m c) (x4 m c) (x5 m c) (x6 m c) (x7 m c) (x8 m c) (x9 m c) (x10 m c) (x11 m c) (x12 m c) :=
  (pass18_main_v152 m ρ c).trans ((pass17_main_v152 m ρ c).trans (sumS3 m ρ c))

/-- The servers' own rows at the second region's entry. -/
theorem hs_ent3 (c : Dev nD) : W19 m ρ c (Proc.devRef .tc main_v132) = Cert.ReferenceIdeal.ReadP.val_main_v193 (F := Ideal) (x0 m c) (x1 m c) (x2 m c) (x3 m c) (x4 m c) (x5 m c) (x6 m c) (x7 m c) (x8 m c) (x9 m c) (x10 m c) (x11 m c) (x12 m c) :=
  (pass18_main_v132 m ρ c).trans ((pass17_main_v132 m ρ c).trans ((pass16_main_v132 m ρ c).trans (hs_in3 m ρ c)))

/-- This layer's neighbour weights for the servers. -/
theorem wlS3 (c : Dev nD) : (W19 m ρ c (Proc.devRef .tc main_v163)) = Cert.ReferenceIdeal.ReadP.val_main_v244 (F := Ideal) (x6 m c) := by
  show StableHlo.after hostOps9 (W18 m ρ c) (Proc.devRef .tc main_v163) = _
  after_results_simp
  rw [arg18_main_arg6 m ρ c]
  rfl

/-- This layer's own-row weights for the servers. -/
theorem wrS3 (c : Dev nD) : (W19 m ρ c (Proc.devRef .tc main_v165)) = Cert.ReferenceIdeal.ReadP.val_main_v252 (F := Ideal) (x8 m c) := by
  show StableHlo.after hostOps9 (W18 m ρ c) (Proc.devRef .tc main_v165) = _
  after_results_simp
  rw [arg18_main_arg8 m ρ c]
  rfl

/-- This layer's bias for the servers, as the row the region stages. -/
theorem bS3 (c : Dev nD) (j : Fin 512) : (W19 m ρ c (Proc.devRef .tc main_v168) : S1x512.Idx → EReal) (ix2 0 j) = Cert.ReferenceIdeal.ReadP.val_main_v247 (F := Ideal) (x7 m c) (ix1 j) := by
  show (StableHlo.after hostOps9 (W18 m ρ c) (Proc.devRef .tc main_v168) : S1x512.Idx → EReal) (ix2 0 j) = _
  after_results_simp
  rw [arg18_main_arg7 m ρ c]
  exact Cert.HostReads.bias_row _ j

/-- The reciprocal clamped count of server `i`, as the column the region stages. -/
theorem invcolS3 (c : Dev nD) (i : Fin 10000) : (W19 m ρ c (Proc.devRef .tc main_v169) : S10000x1.Idx → EReal) (ix2 i 0)
    = Ideal.div 1 (max (Cert.ReferenceIdeal.ReadP.val_main_v225 (F := Ideal) (x12 m c) (ix2 i 0)) 1) := by
  show (StableHlo.after hostOps9 (W18 m ρ c) (Proc.devRef .tc main_v169) : S10000x1.Idx → EReal) (ix2 i 0) = _
  after_results_simp
  rw [invS_in3 m ρ c]
  unfold invS cntS
  refine (Cert.HostReads.recip_col_10000 _ i).trans ?_
  refine congrArg (fun t => Ideal.div 1 (max t 1)) ?_
  exact Cert.CountScatter.count_scatter_10000 _ _ _ _ _ (fun _ => rfl) (fun _ => rfl) i

/-- THE SERVERS AFTER LAYER 4: the region's output array is the reference's stage. -/
theorem hs_out3 (c : Dev nD) : W20 m ρ c (Proc.devRef .tc main_v170) = Cert.ReferenceIdeal.ReadP.val_main_v255 (F := Ideal) (x0 m c) (x1 m c) (x2 m c) (x3 m c) (x4 m c) (x5 m c) (x6 m c) (x7 m c) (x8 m c) (x9 m c) (x10 m c) (x11 m c) (x12 m c) := by
  refine (W20_arr m ρ c 6).trans ((Reg9.final (V19 m ρ) c).trans ?_)
  funext i
  refine Eq.trans ?_ (Cert.RefLayers.layer4_servers _ _ _ _ _ _ _ _ _ _ _ _ _ i).symm
  unfold Arr.sage10000
  refine (Cert.Spec.sageKerAt_congr (funext fun k => congrFun (sumS_ent3 m ρ c) _) (funext fun k => congrFun (hs_ent3 m ρ c) _)
    (invcolS3 m ρ c (i 0)) (funext fun k => funext fun j => congrFun (wlS3 m ρ c) _)
    (funext fun k => funext fun j => congrFun (wrS3 m ρ c) _) (funext fun j => bS3 m ρ c j) rfl).trans ?_
  exact Cert.Spec.sageKerAt_recip _ _ _ (Cert.HostReads.one_le_clamp _) _ _ _ _

end Cert.KernelIdeal.Chain

end
-- ==== Proof.lean ====
/-
  The certificate of a two-type graph network (servers and devices): two input projections, then
  four layers in which every node averages its neighbours' rows over the edges of the other type
  and applies a SAGE update `relu (mean · Wl + own · Wr + b)`.

  The kernel program runs the projections and the eight updates as ten Pallas regions, row blocks
  of 1000, and leaves the edge gathers and scatter-adds to the host; it forms the mean inside the
  update as `sum · (1 / max (count, 1))` with the reciprocal computed once, and adds the bias last.
  The reference divides the scattered sums by `max (count, 1)` and adds the bias between the two
  products.  On the extended reals these are one function of the arguments: the matrix unit's
  product into a zero accumulator and the host's `dot_general` are the same sum; addition is
  commutative and associative everywhere; the clamped count is at least one, and off zero the
  quotient is the product with the inverse; and the two programs' counts (a scatter-add of ones
  into a vector, or into a one-column matrix) are the same sum.  No finiteness of the inputs is used.

  The frames of the two kernel programs are the generated ones.  The reference's frame is its run
  with the results dropped.  `preserves` is trivial: the idealization rewrote nothing.  For
  `algebraic`, the kernel program's run posts its two results at the contents the fold over its
  twenty segments leaves (RunValues), those contents are the reference's last two stages applied to
  the same arguments (Chain, layer by layer), and the reference's run posts exactly those stages.
-/
import proofs.«106831_j73237782332046_2_alg».proof.Defs
import proofs.«106831_j73237782332046_2_alg».proof.Proof.Gen.Kernel
import proofs.«106831_j73237782332046_2_alg».proof.Proof.Gen.Kernel.Skeleton
import proofs.«106831_j73237782332046_2_alg».proof.Proof.Gen.Kernel.Launch
import proofs.«106831_j73237782332046_2_alg».proof.Proof.Gen.Kernel.Points
import proofs.«106831_j73237782332046_2_alg».proof.Proof.Gen.Kernel.Frame
import proofs.«106831_j73237782332046_2_alg».proof.Proof.Gen.KernelIdeal
import proofs.«106831_j73237782332046_2_alg».proof.Proof.Gen.KernelIdeal.Skeleton
import proofs.«106831_j73237782332046_2_alg».proof.Proof.Gen.KernelIdeal.Launch
import proofs.«106831_j73237782332046_2_alg».proof.Proof.Gen.KernelIdeal.Points
import proofs.«106831_j73237782332046_2_alg».proof.Proof.Gen.KernelIdeal.Frame
import proofs.«106831_j73237782332046_2_alg».proof.Proof.Gen.ReferenceIdeal
import proofs.«106831_j73237782332046_2_alg».proof.Proof.Gen.Pre_finite_inputs
import proofs.«106831_j73237782332046_2_alg».proof.Proof.RefRun
import proofs.«106831_j73237782332046_2_alg».proof.Proof.RefRead
import proofs.«106831_j73237782332046_2_alg».proof.Proof.KerRun
import proofs.«106831_j73237782332046_2_alg».proof.Proof.ChainL3
import Idealize.ShloMosaic.Adequacy
import Idealize.ShloMosaic.Init

set_option maxRecDepth 16384

noncomputable section

namespace Cert.Proof

open Idealize.ShloMosaic Idealize.ShloMosaic.TcCoe Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- The devices' last update, carried over the last region to the end of the run. -/
theorem devices_at_end (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W20 m ρ c (Proc.devRef .tc Cert.KernelIdeal.main_v161)
      = Cert.KernelIdeal.Gen.W18 m ρ c (Proc.devRef .tc Cert.KernelIdeal.main_v161) :=
  (Cert.KernelIdeal.Pass.pass19_main_v161 m ρ c).trans (Cert.KernelIdeal.Pass.pass18_main_v161 m ρ c)

/-- Both programs, from memories agreeing on the arguments, end with the same two result arrays. -/
theorem algebraic : Cert.algebraic_KernelIdeal_ReferenceIdeal := by
  intro m ρ m' ρ' _ hagree
  refine ⟨fun c => Cert.KernelIdeal.Gen.W20 m ρ c (Proc.devRef .tc Cert.KernelIdeal.main_v170),
    fun c => Cert.KernelIdeal.Gen.W20 m ρ c (Proc.devRef .tc Cert.KernelIdeal.main_v161),
    Cert.KernelIdeal.RunValues.run_values m ρ, ?_⟩
  refine (θ_run Cert.ReferenceIdeal.defs _ _).mono (fun _ h c => ?_) (Cert.ReferenceIdeal.ValueP.run (F := Ideal) m' ρ')
  refine ⟨(h c).1.trans ?_, (h c).2.1.trans ?_, (h c).2.2⟩
  · rw [Cert.ReferenceIdeal.ReadP.val_main_v255_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.KernelIdeal.Chain.hs_out3 m ρ c).symm
  · rw [Cert.ReferenceIdeal.ReadP.val_main_v242_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact ((devices_at_end m ρ c).trans (Cert.KernelIdeal.Chain.hd_out3 m ρ c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
